-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_320" .f32 0x3B4CCCCD#32 ((1 / 320 : ℝ) : EReal)
  ∧ IdealRules.named_const.Statement Cert.KernelIdeal.κ "inv_384" .f32 0x3B2AAAAB#32 ((1 / 384 : ℝ) : EReal)
  ∧ IdealRules.named_const.Statement Cert.KernelIdeal.κ "inv_384" .f32 0x3B2AAAAB#32 ((1 / 384 : ℝ) : EReal)
  ∧ IdealRules.named_const.Statement Cert.KernelIdeal.κ "inv_320" .f32 0x3B4CCCCD#32 ((1 / 320 : ℝ) : EReal)
  ∧ IdealRules.named_const.Statement Cert.KernelIdeal.κ "inv_384" .f32 0x3B2AAAAB#32 ((1 / 384 : ℝ) : EReal)
  ∧ IdealRules.named_const.Statement Cert.KernelIdeal.κ "inv_384" .f32 0x3B2AAAAB#32 ((1 / 384 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x50 : Shape := ⟨4, ![64, 256, 64, 50]⟩
abbrev S10x16x256 : Shape := ⟨3, ![10, 16, 256]⟩
abbrev S10x16 : Shape := ⟨2, ![10, 16]⟩
abbrev S10x256x16 : Shape := ⟨3, ![10, 256, 16]⟩
abbrev S10x256 : Shape := ⟨2, ![10, 256]⟩
abbrev S_ : Shape := ⟨0, ![]⟩

class Facts : Prop where
  bcast_S_S64x256x64x50 : S_.BroadcastsInDim S64x256x64x50 (![] : Fin 0 → Fin S64x256x64x50.rank)
  reducesTo_S64x256x64x50_S_d0_1_2_3 : S64x256x64x50.ReducesTo [0, 1, 2, 3] S_
  h_S_ : 0 < S_.numel
  bcast_S_S10x16x256 : S_.BroadcastsInDim S10x16x256 (![] : Fin 0 → Fin S10x16x256.rank)
  reducesTo_S10x16x256_S_d0_1_2 : S10x16x256.ReducesTo [0, 1, 2] S_
  bcast_S_S10x16 : S_.BroadcastsInDim S10x16 (![] : Fin 0 → Fin S10x16.rank)
  reducesTo_S10x16_S_d0_1 : S10x16.ReducesTo [0, 1] S_
  bcast_S_S10x256x16 : S_.BroadcastsInDim S10x256x16 (![] : Fin 0 → Fin S10x256x16.rank)
  reducesTo_S10x256x16_S_d0_1_2 : S10x256x16.ReducesTo [0, 1, 2] S_
  bcast_S_S10x256 : S_.BroadcastsInDim S10x256 (![] : Fin 0 → Fin S10x256.rank)
  reducesTo_S10x256_S_d0_1 : S10x256.ReducesTo [0, 1] S_

variable [Facts]

def fn_part1 {F : FTy → Type} [FloatOps F] (main_arg4 : FVec F S10x256 .f32) (main_v13 : IVec S_ 1) (main_v16 : IVec S10x256x16 1) : IVec S_ 1 :=
  let main_c_5 : IVec S_ 1 := constantI S_ 1 1#1
  let main_v17 : IVec S_ 1 := (fun x v => Host.reduce IntOp.andi x v reducesTo_S10x256x16_S_d0_1_2 h_S_) main_v16 main_c_5
  let main_v18 : IVec S_ 1 := andi main_v13 main_v17
  let main_v19 : FVec F S10x256 .f32 := Host.absf main_arg4
  let main_cst_6 : FVec F S_ .f32 := constant S_ .f32 0x7F800000#32
  let main_v20 : FVec F S10x256 .f32 := broadcastInDim S10x256 ![] bcast_S_S10x256 main_cst_6
  let main_v21 : IVec S10x256 1 := cmpf .olt main_v19 main_v20
  let main_c_7 : IVec S_ 1 := constantI S_ 1 1#1
  let main_v22 : IVec S_ 1 := (fun x v => Host.reduce IntOp.andi x v reducesTo_S10x256_S_d0_1 h_S_) main_v21 main_c_7
  let main_v23 : IVec S_ 1 := andi main_v18 main_v22
  main_v23

def fn {F : FTy → Type} [FloatOps F] (main_arg0 : FVec F S64x256x64x50 .f32) (main_arg1 : FVec F S10x16x256 .f32) (main_arg2 : FVec F S10x16 .f32) (main_arg3 : FVec F S10x256x16 .f32) (main_arg4 : FVec F S10x256 .f32) : IVec S_ 1 :=
  let main_v0 : FVec F S64x256x64x50 .f32 := Host.absf main_arg0
  let main_cst : FVec F S_ .f32 := constant S_ .f32 0x7F800000#32
  let main_v1 : FVec F S64x256x64x50 .f32 := broadcastInDim S64x256x64x50 ![] bcast_S_S64x256x64x50 main_cst
  let main_v2 : IVec S64x256x64x50 1 := cmpf .olt main_v0 main_v1
  let main_c : IVec S_ 1 := constantI S_ 1 1#1
  let main_v3 : IVec S_ 1 := (fun x v => Host.reduce IntOp.andi x v reducesTo_S64x256x64x50_S_d0_1_2_3 h_S_) main_v2 main_c
  let main_v4 : FVec F S10x16x256 .f32 := Host.absf main_arg1
  let main_cst_0 : FVec F S_ .f32 := constant S_ .f32 0x7F800000#32
  let main_v5 : FVec F S10x16x256 .f32 := broadcastInDim S10x16x256 ![] bcast_S_S10x16x256 main_cst_0
  let main_v6 : IVec S10x16x256 1 := cmpf .olt main_v4 main_v5
  let main_c_1 : IVec S_ 1 := constantI S_ 1 1#1
  let main_v7 : IVec S_ 1 := (fun x v => Host.reduce IntOp.andi x v reducesTo_S10x16x256_S_d0_1_2 h_S_) main_v6 main_c_1
  let main_v8 : IVec S_ 1 := andi main_v3 main_v7
  let main_v9 : FVec F S10x16 .f32 := Host.absf main_arg2
  let main_cst_2 : FVec F S_ .f32 := constant S_ .f32 0x7F800000#32
  let main_v10 : FVec F S10x16 .f32 := broadcastInDim S10x16 ![] bcast_S_S10x16 main_cst_2
  let main_v11 : IVec S10x16 1 := cmpf .olt main_v9 main_v10
  let main_c_3 : IVec S_ 1 := constantI S_ 1 1#1
  let main_v12 : IVec S_ 1 := (fun x v => Host.reduce IntOp.andi x v reducesTo_S10x16_S_d0_1 h_S_) main_v11 main_c_3
  let main_v13 : IVec S_ 1 := andi main_v8 main_v12
  let main_v14 : FVec F S10x256x16 .f32 := Host.absf main_arg3
  let main_cst_4 : FVec F S_ .f32 := constant S_ .f32 0x7F800000#32
  let main_v15 : FVec F S10x256x16 .f32 := broadcastInDim S10x256x16 ![] bcast_S_S10x256x16 main_cst_4
  let main_v16 : IVec S10x256x16 1 := cmpf .olt main_v14 main_v15
  fn_part1 (F := F) main_arg4 main_v13 main_v16
-- ==== Kernel.lean ====
abbrev S64x256x64x50 : Shape := ⟨4, ![64, 256, 64, 50]⟩
abbrev S10x16x256 : Shape := ⟨3, ![10, 16, 256]⟩
abbrev S10x16 : Shape := ⟨2, ![10, 16]⟩
abbrev S10x256x16 : Shape := ⟨3, ![10, 256, 16]⟩
abbrev S10x256 : Shape := ⟨2, ![10, 256]⟩
abbrev S1x256x64x50 : Shape := ⟨4, ![1, 256, 64, 50]⟩
abbrev S1x256x50 : Shape := ⟨3, ![1, 256, 50]⟩
abbrev S1x256x1 : Shape := ⟨3, ![1, 256, 1]⟩
abbrev S1x256 : Shape := ⟨2, ![1, 256]⟩
abbrev S1x16x256 : Shape := ⟨3, ![1, 16, 256]⟩
abbrev S16x256 : Shape := ⟨2, ![16, 256]⟩
abbrev S1x16 : Shape := ⟨2, ![1, 16]⟩
abbrev S16 : Shape := ⟨1, ![16]⟩
abbrev S1x256x16 : Shape := ⟨3, ![1, 256, 16]⟩
abbrev S256x16 : Shape := ⟨2, ![256, 16]⟩
abbrev S256 : Shape := ⟨1, ![256]⟩
abbrev S1x256x1x1 : Shape := ⟨4, ![1, 256, 1, 1]⟩
abbrev S1x256x64x1 : Shape := ⟨4, ![1, 256, 64, 1]⟩

abbrev nBuf : Space → Nat
  | .hbm => 6
  | .vmem => 8
  | .smem => 0
  | _ => 0

abbrev bufTy : (tb : Table) → Fin (tcTables nBuf tb) → BufTy
  | .hbm, ⟨0, _⟩ => ⟨S64x256x64x50, .f32⟩
  | .hbm, ⟨1, _⟩ => ⟨S10x16x256, .f32⟩
  | .hbm, ⟨2, _⟩ => ⟨S10x16, .f32⟩
  | .hbm, ⟨3, _⟩ => ⟨S10x256x16, .f32⟩
  | .hbm, ⟨4, _⟩ => ⟨S10x256, .f32⟩
  | .hbm, ⟨5, _⟩ => ⟨S64x256x64x50, .f32⟩
  | .local _ .vmem, ⟨0, _⟩ => ⟨S1x256x64x50, .f32⟩
  | .local _ .vmem, ⟨1, _⟩ => ⟨S1x256x64x50, .f32⟩
  | .local _ .vmem, ⟨2, _⟩ => ⟨S10x16x256, .f32⟩
  | .local _ .vmem, ⟨3, _⟩ => ⟨S10x16, .f32⟩
  | .local _ .vmem, ⟨4, _⟩ => ⟨S10x256x16, .f32⟩
  | .local _ .vmem, ⟨5, _⟩ => ⟨S10x256, .f32⟩
  | .local _ .vmem, ⟨6, _⟩ => ⟨S1x256x64x50, .f32⟩
  | .local _ .vmem, ⟨7, _⟩ => ⟨S1x256x64x50, .f32⟩
  | _, _ => ⟨S64x256x64x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x64x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x64x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x256x64x50_S1x256x64x50_0_0_0_0 : ∀ a, (![0, 0, 0, 0] : Fin 4 → Nat) a + S1x256x64x50.size a ≤ S1x256x64x50.size a
  h_S1x256x64x50 : 0 < S1x256x64x50.numel
  reduces_S1x256x64x50_S1x256x50 : S1x256x64x50.Reduces [2] S1x256x50
  slices_S1x256x50_o0_0_0_S1x256x1 : S1x256x50.Slices ![0, 0, 0] S1x256x1
  shapeCasts_S1x256x1_S1x256 : S1x256x1.ShapeCasts S1x256
  slices_S1x256x50_o0_0_1_S1x256x1 : S1x256x50.Slices ![0, 0, 1] S1x256x1
  slices_S1x256x50_o0_0_2_S1x256x1 : S1x256x50.Slices ![0, 0, 2] S1x256x1
  slices_S1x256x50_o0_0_3_S1x256x1 : S1x256x50.Slices ![0, 0, 3] S1x256x1
  slices_S1x256x50_o0_0_20_S1x256x1 : S1x256x50.Slices ![0, 0, 20] S1x256x1
  inb_S10x16x256_S1x16x256_0_0_0 : ∀ a, (![0, 0, 0] : Fin 3 → Nat) a + S1x16x256.size a ≤ S10x16x256.size a
  h_S1x16x256 : 0 < S1x16x256.numel
  shapeCasts_S1x16x256_S16x256 : S1x16x256.ShapeCasts S16x256
  inb_S10x16_S1x16_0_0 : ∀ a, (![0, 0] : Fin 2 → Nat) a + S1x16.size a ≤ S10x16.size a
  h_S1x16 : 0 < S1x16.numel
  shapeCasts_S1x16_S16 : S1x16.ShapeCasts S16
  inb_S10x256x16_S1x256x16_0_0_0 : ∀ a, (![0, 0, 0] : Fin 3 → Nat) a + S1x256x16.size a ≤ S10x256x16.size a
  h_S1x256x16 : 0 < S1x256x16.numel
  shapeCasts_S1x256x16_S256x16 : S1x256x16.ShapeCasts S256x16
  inb_S10x256_S1x256_0_0 : ∀ a, (![0, 0] : Fin 2 → Nat) a + S1x256.size a ≤ S10x256.size a
  h_S1x256 : 0 < S1x256.numel
  shapeCasts_S1x256_S256 : S1x256.ShapeCasts S256
  transposes_S16x256_p1_0_S256x16 : S16x256.Transposes [1, 0] S256x16
  shapeCasts_S16_S1x16 : S16.ShapeCasts S1x16
  transposes_S256x16_p1_0_S16x256 : S256x16.Transposes [1, 0] S16x256
  shapeCasts_S256_S1x256 : S256.ShapeCasts S1x256
  shapeCasts_S1x256_S1x256x1x1 : S1x256.ShapeCasts S1x256x1x1
  inb_S1x256x64x50_S1x256x64x1_0_0_0_0 : ∀ a, (![0, 0, 0, 0] : Fin 4 → Nat) a + S1x256x64x1.size a ≤ S1x256x64x50.size a
  h_S1x256x64x1 : 0 < S1x256x64x1.numel
  broadcasts_S1x256x1x1_S1x256x64x1 : S1x256x1x1.Broadcasts S1x256x64x1
  inb_S1x256x64x50_S1x256x64x1_0_0_0_1 : ∀ a, (![0, 0, 0, 1] : Fin 4 → Nat) a + S1x256x64x1.size a ≤ S1x256x64x50.size a
  inb_S1x256x64x50_S1x256x64x1_0_0_0_2 : ∀ a, (![0, 0, 0, 2] : Fin 4 → Nat) a + S1x256x64x1.size a ≤ S1x256x64x50.size a
  inb_S1x256x64x50_S1x256x64x1_0_0_0_3 : ∀ a, (![0, 0, 0, 3] : Fin 4 → Nat) a + S1x256x64x1.size a ≤ S1x256x64x50.size a
  inb_S1x256x64x50_S1x256x64x1_0_0_0_20 : ∀ a, (![0, 0, 0, 20] : Fin 4 → Nat) a + S1x256x64x1.size a ≤ S1x256x64x50.size a
  inb_S1x256x64x50_S1x256x64x1_0_0_0_4 : ∀ a, (![0, 0, 0, 4] : Fin 4 → Nat) a + S1x256x64x1.size a ≤ S1x256x64x50.size a
  slices_S1x256x50_o0_0_8_S1x256x1 : S1x256x50.Slices ![0, 0, 8] S1x256x1
  slices_S1x256x50_o0_0_9_S1x256x1 : S1x256x50.Slices ![0, 0, 9] S1x256x1
  slices_S1x256x50_o0_0_10_S1x256x1 : S1x256x50.Slices ![0, 0, 10] S1x256x1
  slices_S1x256x50_o0_0_11_S1x256x1 : S1x256x50.Slices ![0, 0, 11] S1x256x1
  slices_S1x256x50_o0_0_23_S1x256x1 : S1x256x50.Slices ![0, 0, 23] S1x256x1
  slices_S1x256x50_o0_0_24_S1x256x1 : S1x256x50.Slices ![0, 0, 24] S1x256x1
  inb_S10x16x256_S1x16x256_1_0_0 : ∀ a, (![1, 0, 0] : Fin 3 → Nat) a + S1x16x256.size a ≤ S10x16x256.size a
  inb_S10x16_S1x16_1_0 : ∀ a, (![1, 0] : Fin 2 → Nat) a + S1x16.size a ≤ S10x16.size a
  inb_S10x256x16_S1x256x16_1_0_0 : ∀ a, (![1, 0, 0] : Fin 3 → Nat) a + S1x256x16.size a ≤ S10x256x16.size a
  inb_S10x256_S1x256_1_0 : ∀ a, (![1, 0] : Fin 2 → Nat) a + S1x256.size a ≤ S10x256.size a
  inb_S1x256x64x50_S1x256x64x1_0_0_0_8 : ∀ a, (![0, 0, 0, 8] : Fin 4 → Nat) a + S1x256x64x1.size a ≤ S1x256x64x50.size a
  inb_S1x256x64x50_S1x256x64x1_0_0_0_5 : ∀ a, (![0, 0, 0, 5] : Fin 4 → Nat) a + S1x256x64x1.size a ≤ S1x256x64x50.size a
  inb_S1x256x64x50_S1x256x64x1_0_0_0_9 : ∀ a, (![0, 0, 0, 9] : Fin 4 → Nat) a + S1x256x64x1.size a ≤ S1x256x64x50.size a
  inb_S1x256x64x50_S1x256x64x1_0_0_0_6 : ∀ a, (![0, 0, 0, 6] : Fin 4 → Nat) a + S1x256x64x1.size a ≤ S1x256x64x50.size a
  inb_S1x256x64x50_S1x256x64x1_0_0_0_10 : ∀ a, (![0, 0, 0, 10] : Fin 4 → Nat) a + S1x256x64x1.size a ≤ S1x256x64x50.size a
  inb_S1x256x64x50_S1x256x64x1_0_0_0_7 : ∀ a, (![0, 0, 0, 7] : Fin 4 → Nat) a + S1x256x64x1.size a ≤ S1x256x64x50.size a
  inb_S1x256x64x50_S1x256x64x1_0_0_0_11 : ∀ a, (![0, 0, 0, 11] : Fin 4 → Nat) a + S1x256x64x1.size a ≤ S1x256x64x50.size a
  inb_S1x256x64x50_S1x256x64x1_0_0_0_23 : ∀ a, (![0, 0, 0, 23] : Fin 4 → Nat) a + S1x256x64x1.size a ≤ S1x256x64x50.size a
  inb_S1x256x64x50_S1x256x64x1_0_0_0_24 : ∀ a, (![0, 0, 0, 24] : Fin 4 → Nat) a + S1x256x64x1.size a ≤ S1x256x64x50.size a
  slices_S1x256x50_o0_0_16_S1x256x1 : S1x256x50.Slices ![0, 0, 16] S1x256x1
  slices_S1x256x50_o0_0_17_S1x256x1 : S1x256x50.Slices ![0, 0, 17] S1x256x1
  slices_S1x256x50_o0_0_18_S1x256x1 : S1x256x50.Slices ![0, 0, 18] S1x256x1
  slices_S1x256x50_o0_0_19_S1x256x1 : S1x256x50.Slices ![0, 0, 19] S1x256x1
  inb_S10x16x256_S1x16x256_2_0_0 : ∀ a, (![2, 0, 0] : Fin 3 → Nat) a + S1x16x256.size a ≤ S10x16x256.size a
  inb_S10x16_S1x16_2_0 : ∀ a, (![2, 0] : Fin 2 → Nat) a + S1x16.size a ≤ S10x16.size a
  inb_S10x256x16_S1x256x16_2_0_0 : ∀ a, (![2, 0, 0] : Fin 3 → Nat) a + S1x256x16.size a ≤ S10x256x16.size a
  inb_S10x256_S1x256_2_0 : ∀ a, (![2, 0] : Fin 2 → Nat) a + S1x256.size a ≤ S10x256.size a
  inb_S1x256x64x50_S1x256x64x1_0_0_0_16 : ∀ a, (![0, 0, 0, 16] : Fin 4 → Nat) a + S1x256x64x1.size a ≤ S1x256x64x50.size a
  inb_S1x256x64x50_S1x256x64x1_0_0_0_17 : ∀ a, (![0, 0, 0, 17] : Fin 4 → Nat) a + S1x256x64x1.size a ≤ S1x256x64x50.size a
  inb_S1x256x64x50_S1x256x64x1_0_0_0_12 : ∀ a, (![0, 0, 0, 12] : Fin 4 → Nat) a + S1x256x64x1.size a ≤ S1x256x64x50.size a
  inb_S1x256x64x50_S1x256x64x1_0_0_0_18 : ∀ a, (![0, 0, 0, 18] : Fin 4 → Nat) a + S1x256x64x1.size a ≤ S1x256x64x50.size a
  inb_S1x256x64x50_S1x256x64x1_0_0_0_13 : ∀ a, (![0, 0, 0, 13] : Fin 4 → Nat) a + S1x256x64x1.size a ≤ S1x256x64x50.size a
  inb_S1x256x64x50_S1x256x64x1_0_0_0_19 : ∀ a, (![0, 0, 0, 19] : Fin 4 → Nat) a + S1x256x64x1.size a ≤ S1x256x64x50.size a
  inb_S1x256x64x50_S1x256x64x1_0_0_0_14 : ∀ a, (![0, 0, 0, 14] : Fin 4 → Nat) a + S1x256x64x1.size a ≤ S1x256x64x50.size a
  slices_S1x256x50_o0_0_4_S1x256x1 : S1x256x50.Slices ![0, 0, 4] S1x256x1
  slices_S1x256x50_o0_0_5_S1x256x1 : S1x256x50.Slices ![0, 0, 5] S1x256x1
  slices_S1x256x50_o0_0_6_S1x256x1 : S1x256x50.Slices ![0, 0, 6] S1x256x1
  slices_S1x256x50_o0_0_7_S1x256x1 : S1x256x50.Slices ![0, 0, 7] S1x256x1
  slices_S1x256x50_o0_0_21_S1x256x1 : S1x256x50.Slices ![0, 0, 21] S1x256x1
  slices_S1x256x50_o0_0_22_S1x256x1 : S1x256x50.Slices ![0, 0, 22] S1x256x1
  inb_S10x16x256_S1x16x256_3_0_0 : ∀ a, (![3, 0, 0] : Fin 3 → Nat) a + S1x16x256.size a ≤ S10x16x256.size a
  inb_S10x16_S1x16_3_0 : ∀ a, (![3, 0] : Fin 2 → Nat) a + S1x16.size a ≤ S10x16.size a
  inb_S10x256x16_S1x256x16_3_0_0 : ∀ a, (![3, 0, 0] : Fin 3 → Nat) a + S1x256x16.size a ≤ S10x256x16.size a
  inb_S10x256_S1x256_3_0 : ∀ a, (![3, 0] : Fin 2 → Nat) a + S1x256.size a ≤ S10x256.size a
  inb_S1x256x64x50_S1x256x64x1_0_0_0_15 : ∀ a, (![0, 0, 0, 15] : Fin 4 → Nat) a + S1x256x64x1.size a ≤ S1x256x64x50.size a
  inb_S1x256x64x50_S1x256x64x1_0_0_0_21 : ∀ a, (![0, 0, 0, 21] : Fin 4 → Nat) a + S1x256x64x1.size a ≤ S1x256x64x50.size a
  inb_S1x256x64x50_S1x256x64x1_0_0_0_22 : ∀ a, (![0, 0, 0, 22] : Fin 4 → Nat) a + S1x256x64x1.size a ≤ S1x256x64x50.size a
  slices_S1x256x50_o0_0_12_S1x256x1 : S1x256x50.Slices ![0, 0, 12] S1x256x1
  slices_S1x256x50_o0_0_13_S1x256x1 : S1x256x50.Slices ![0, 0, 13] S1x256x1
  slices_S1x256x50_o0_0_14_S1x256x1 : S1x256x50.Slices ![0, 0, 14] S1x256x1
  slices_S1x256x50_o0_0_15_S1x256x1 : S1x256x50.Slices ![0, 0, 15] S1x256x1
  inb_S10x16x256_S1x16x256_4_0_0 : ∀ a, (![4, 0, 0] : Fin 3 → Nat) a + S1x16x256.size a ≤ S10x16x256.size a
  inb_S10x16_S1x16_4_0 : ∀ a, (![4, 0] : Fin 2 → Nat) a + S1x16.size a ≤ S10x16.size a
  inb_S10x256x16_S1x256x16_4_0_0 : ∀ a, (![4, 0, 0] : Fin 3 → Nat) a + S1x256x16.size a ≤ S10x256x16.size a
  inb_S10x256_S1x256_4_0 : ∀ a, (![4, 0] : Fin 2 → Nat) a + S1x256.size a ≤ S10x256.size a
  slices_S1x256x50_o0_0_25_S1x256x1 : S1x256x50.Slices ![0, 0, 25] S1x256x1
  slices_S1x256x50_o0_0_26_S1x256x1 : S1x256x50.Slices ![0, 0, 26] S1x256x1
  slices_S1x256x50_o0_0_27_S1x256x1 : S1x256x50.Slices ![0, 0, 27] S1x256x1
  slices_S1x256x50_o0_0_28_S1x256x1 : S1x256x50.Slices ![0, 0, 28] S1x256x1
  slices_S1x256x50_o0_0_45_S1x256x1 : S1x256x50.Slices ![0, 0, 45] S1x256x1
  inb_S10x16x256_S1x16x256_5_0_0 : ∀ a, (![5, 0, 0] : Fin 3 → Nat) a + S1x16x256.size a ≤ S10x16x256.size a
  inb_S10x16_S1x16_5_0 : ∀ a, (![5, 0] : Fin 2 → Nat) a + S1x16.size a ≤ S10x16.size a
  inb_S10x256x16_S1x256x16_5_0_0 : ∀ a, (![5, 0, 0] : Fin 3 → Nat) a + S1x256x16.size a ≤ S10x256x16.size a
  inb_S10x256_S1x256_5_0 : ∀ a, (![5, 0] : Fin 2 → Nat) a + S1x256.size a ≤ S10x256.size a
  inb_S1x256x64x50_S1x256x64x1_0_0_0_25 : ∀ a, (![0, 0, 0, 25] : Fin 4 → Nat) a + S1x256x64x1.size a ≤ S1x256x64x50.size a
  inb_S1x256x64x50_S1x256x64x1_0_0_0_26 : ∀ a, (![0, 0, 0, 26] : Fin 4 → Nat) a + S1x256x64x1.size a ≤ S1x256x64x50.size a
  inb_S1x256x64x50_S1x256x64x1_0_0_0_27 : ∀ a, (![0, 0, 0, 27] : Fin 4 → Nat) a + S1x256x64x1.size a ≤ S1x256x64x50.size a
  inb_S1x256x64x50_S1x256x64x1_0_0_0_28 : ∀ a, (![0, 0, 0, 28] : Fin 4 → Nat) a + S1x256x64x1.size a ≤ S1x256x64x50.size a
  inb_S1x256x64x50_S1x256x64x1_0_0_0_45 : ∀ a, (![0, 0, 0, 45] : Fin 4 → Nat) a + S1x256x64x1.size a ≤ S1x256x64x50.size a
  inb_S1x256x64x50_S1x256x64x1_0_0_0_29 : ∀ a, (![0, 0, 0, 29] : Fin 4 → Nat) a + S1x256x64x1.size a ≤ S1x256x64x50.size a
  slices_S1x256x50_o0_0_33_S1x256x1 : S1x256x50.Slices ![0, 0, 33] S1x256x1
  slices_S1x256x50_o0_0_34_S1x256x1 : S1x256x50.Slices ![0, 0, 34] S1x256x1
  slices_S1x256x50_o0_0_35_S1x256x1 : S1x256x50.Slices ![0, 0, 35] S1x256x1
  slices_S1x256x50_o0_0_36_S1x256x1 : S1x256x50.Slices ![0, 0, 36] S1x256x1
  slices_S1x256x50_o0_0_48_S1x256x1 : S1x256x50.Slices ![0, 0, 48] S1x256x1
  slices_S1x256x50_o0_0_49_S1x256x1 : S1x256x50.Slices ![0, 0, 49] S1x256x1
  inb_S10x16x256_S1x16x256_6_0_0 : ∀ a, (![6, 0, 0] : Fin 3 → Nat) a + S1x16x256.size a ≤ S10x16x256.size a
  inb_S10x16_S1x16_6_0 : ∀ a, (![6, 0] : Fin 2 → Nat) a + S1x16.size a ≤ S10x16.size a
  inb_S10x256x16_S1x256x16_6_0_0 : ∀ a, (![6, 0, 0] : Fin 3 → Nat) a + S1x256x16.size a ≤ S10x256x16.size a
  inb_S10x256_S1x256_6_0 : ∀ a, (![6, 0] : Fin 2 → Nat) a + S1x256.size a ≤ S10x256.size a
  inb_S1x256x64x50_S1x256x64x1_0_0_0_33 : ∀ a, (![0, 0, 0, 33] : Fin 4 → Nat) a + S1x256x64x1.size a ≤ S1x256x64x50.size a
  inb_S1x256x64x50_S1x256x64x1_0_0_0_30 : ∀ a, (![0, 0, 0, 30] : Fin 4 → Nat) a + S1x256x64x1.size a ≤ S1x256x64x50.size a
  inb_S1x256x64x50_S1x256x64x1_0_0_0_34 : ∀ a, (![0, 0, 0, 34] : Fin 4 → Nat) a + S1x256x64x1.size a ≤ S1x256x64x50.size a
  inb_S1x256x64x50_S1x256x64x1_0_0_0_31 : ∀ a, (![0, 0, 0, 31] : Fin 4 → Nat) a + S1x256x64x1.size a ≤ S1x256x64x50.size a
  inb_S1x256x64x50_S1x256x64x1_0_0_0_35 : ∀ a, (![0, 0, 0, 35] : Fin 4 → Nat) a + S1x256x64x1.size a ≤ S1x256x64x50.size a
  inb_S1x256x64x50_S1x256x64x1_0_0_0_32 : ∀ a, (![0, 0, 0, 32] : Fin 4 → Nat) a + S1x256x64x1.size a ≤ S1x256x64x50.size a
  inb_S1x256x64x50_S1x256x64x1_0_0_0_36 : ∀ a, (![0, 0, 0, 36] : Fin 4 → Nat) a + S1x256x64x1.size a ≤ S1x256x64x50.size a
  inb_S1x256x64x50_S1x256x64x1_0_0_0_48 : ∀ a, (![0, 0, 0, 48] : Fin 4 → Nat) a + S1x256x64x1.size a ≤ S1x256x64x50.size a
  inb_S1x256x64x50_S1x256x64x1_0_0_0_49 : ∀ a, (![0, 0, 0, 49] : Fin 4 → Nat) a + S1x256x64x1.size a ≤ S1x256x64x50.size a
  slices_S1x256x50_o0_0_41_S1x256x1 : S1x256x50.Slices ![0, 0, 41] S1x256x1
  slices_S1x256x50_o0_0_42_S1x256x1 : S1x256x50.Slices ![0, 0, 42] S1x256x1
  slices_S1x256x50_o0_0_43_S1x256x1 : S1x256x50.Slices ![0, 0, 43] S1x256x1
  slices_S1x256x50_o0_0_44_S1x256x1 : S1x256x50.Slices ![0, 0, 44] S1x256x1
  inb_S10x16x256_S1x16x256_7_0_0 : ∀ a, (![7, 0, 0] : Fin 3 → Nat) a + S1x16x256.size a ≤ S10x16x256.size a
  inb_S10x16_S1x16_7_0 : ∀ a, (![7, 0] : Fin 2 → Nat) a + S1x16.size a ≤ S10x16.size a
  inb_S10x256x16_S1x256x16_7_0_0 : ∀ a, (![7, 0, 0] : Fin 3 → Nat) a + S1x256x16.size a ≤ S10x256x16.size a
  inb_S10x256_S1x256_7_0 : ∀ a, (![7, 0] : Fin 2 → Nat) a + S1x256.size a ≤ S10x256.size a
  inb_S1x256x64x50_S1x256x64x1_0_0_0_41 : ∀ a, (![0, 0, 0, 41] : Fin 4 → Nat) a + S1x256x64x1.size a ≤ S1x256x64x50.size a
  inb_S1x256x64x50_S1x256x64x1_0_0_0_42 : ∀ a, (![0, 0, 0, 42] : Fin 4 → Nat) a + S1x256x64x1.size a ≤ S1x256x64x50.size a
  inb_S1x256x64x50_S1x256x64x1_0_0_0_37 : ∀ a, (![0, 0, 0, 37] : Fin 4 → Nat) a + S1x256x64x1.size a ≤ S1x256x64x50.size a
  inb_S1x256x64x50_S1x256x64x1_0_0_0_43 : ∀ a, (![0, 0, 0, 43] : Fin 4 → Nat) a + S1x256x64x1.size a ≤ S1x256x64x50.size a
  inb_S1x256x64x50_S1x256x64x1_0_0_0_38 : ∀ a, (![0, 0, 0, 38] : Fin 4 → Nat) a + S1x256x64x1.size a ≤ S1x256x64x50.size a
  inb_S1x256x64x50_S1x256x64x1_0_0_0_44 : ∀ a, (![0, 0, 0, 44] : Fin 4 → Nat) a + S1x256x64x1.size a ≤ S1x256x64x50.size a
  inb_S1x256x64x50_S1x256x64x1_0_0_0_39 : ∀ a, (![0, 0, 0, 39] : Fin 4 → Nat) a + S1x256x64x1.size a ≤ S1x256x64x50.size a
  slices_S1x256x50_o0_0_29_S1x256x1 : S1x256x50.Slices ![0, 0, 29] S1x256x1
  slices_S1x256x50_o0_0_30_S1x256x1 : S1x256x50.Slices ![0, 0, 30] S1x256x1
  slices_S1x256x50_o0_0_31_S1x256x1 : S1x256x50.Slices ![0, 0, 31] S1x256x1
  slices_S1x256x50_o0_0_32_S1x256x1 : S1x256x50.Slices ![0, 0, 32] S1x256x1
  slices_S1x256x50_o0_0_46_S1x256x1 : S1x256x50.Slices ![0, 0, 46] S1x256x1
  slices_S1x256x50_o0_0_47_S1x256x1 : S1x256x50.Slices ![0, 0, 47] S1x256x1
  inb_S10x16x256_S1x16x256_8_0_0 : ∀ a, (![8, 0, 0] : Fin 3 → Nat) a + S1x16x256.size a ≤ S10x16x256.size a
  inb_S10x16_S1x16_8_0 : ∀ a, (![8, 0] : Fin 2 → Nat) a + S1x16.size a ≤ S10x16.size a
  inb_S10x256x16_S1x256x16_8_0_0 : ∀ a, (![8, 0, 0] : Fin 3 → Nat) a + S1x256x16.size a ≤ S10x256x16.size a
  inb_S10x256_S1x256_8_0 : ∀ a, (![8, 0] : Fin 2 → Nat) a + S1x256.size a ≤ S10x256.size a
  inb_S1x256x64x50_S1x256x64x1_0_0_0_40 : ∀ a, (![0, 0, 0, 40] : Fin 4 → Nat) a + S1x256x64x1.size a ≤ S1x256x64x50.size a
  inb_S1x256x64x50_S1x256x64x1_0_0_0_46 : ∀ a, (![0, 0, 0, 46] : Fin 4 → Nat) a + S1x256x64x1.size a ≤ S1x256x64x50.size a
  inb_S1x256x64x50_S1x256x64x1_0_0_0_47 : ∀ a, (![0, 0, 0, 47] : Fin 4 → Nat) a + S1x256x64x1.size a ≤ S1x256x64x50.size a
  slices_S1x256x50_o0_0_37_S1x256x1 : S1x256x50.Slices ![0, 0, 37] S1x256x1
  slices_S1x256x50_o0_0_38_S1x256x1 : S1x256x50.Slices ![0, 0, 38] S1x256x1
  slices_S1x256x50_o0_0_39_S1x256x1 : S1x256x50.Slices ![0, 0, 39] S1x256x1
  slices_S1x256x50_o0_0_40_S1x256x1 : S1x256x50.Slices ![0, 0, 40] S1x256x1
  inb_S10x16x256_S1x16x256_9_0_0 : ∀ a, (![9, 0, 0] : Fin 3 → Nat) a + S1x16x256.size a ≤ S10x16x256.size a
  inb_S10x16_S1x16_9_0 : ∀ a, (![9, 0] : Fin 2 → Nat) a + S1x16.size a ≤ S10x16.size a
  inb_S10x256x16_S1x256x16_9_0_0 : ∀ a, (![9, 0, 0] : Fin 3 → Nat) a + S1x256x16.size a ≤ S10x256x16.size a
  inb_S10x256_S1x256_9_0 : ∀ a, (![9, 0] : Fin 2 → Nat) a + S1x256.size a ≤ S10x256.size a
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x50.size a ≤ S64x256x64x50.size a
  hwx0_0 : ∀ i : grid0.Coords, EltTy.bits .f32 = 32 ∨ (Rect.block (s := S64x256x64x50) S1x256x64x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16x256.size a ≤ S10x16x256.size a
  hwx0_1 : ∀ i : grid0.Coords, EltTy.bits .f32 = 32 ∨ (Rect.block (s := S10x16x256) S10x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x16.size a ≤ S10x16.size a
  hwx0_2 : ∀ i : grid0.Coords, EltTy.bits .f32 = 32 ∨ (Rect.block (s := S10x16) S10x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x256x16.size a ≤ S10x256x16.size a
  hwx0_3 : ∀ i : grid0.Coords, EltTy.bits .f32 = 32 ∨ (Rect.block (s := S10x256x16) S10x256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256.size a ≤ S10x256.size a
  hwx0_4 : ∀ i : grid0.Coords, EltTy.bits .f32 = 32 ∨ (Rect.block (s := S10x256) S10x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64x50.size a ≤ S64x256x64x50.size a
  hwx0_5 : ∀ i : grid0.Coords, EltTy.bits .f32 = 32 ∨ (Rect.block (s := S64x256x64x50) S1x256x64x50.size (cc0_transform_5 i) (hinb0_5 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpec (Memref.whole main_arg0) S1x256x64x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x64x50.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x64x50 : Shape := ⟨4, ![64, 256, 64, 50]⟩
abbrev S10x16x256 : Shape := ⟨3, ![10, 16, 256]⟩
abbrev S10x16 : Shape := ⟨2, ![10, 16]⟩
abbrev S10x256x16 : Shape := ⟨3, ![10, 256, 16]⟩
abbrev S10x256 : Shape := ⟨2, ![10, 256]⟩
abbrev S5 : Shape := ⟨1, ![5]⟩
abbrev S6 : Shape := ⟨1, ![6]⟩
abbrev S4 : Shape := ⟨1, ![4]⟩
abbrev S_ : Shape := ⟨0, ![]⟩
abbrev S5x1 : Shape := ⟨2, ![5, 1]⟩
abbrev S64x256x64x5 : Shape := ⟨4, ![64, 256, 64, 5]⟩
abbrev S64x256 : Shape := ⟨2, ![64, 256]⟩
abbrev S1x16x256 : Shape := ⟨3, ![1, 16, 256]⟩
abbrev S16x256 : Shape := ⟨2, ![16, 256]⟩
abbrev S256x16 : Shape := ⟨2, ![256, 16]⟩
abbrev S64x16 : Shape := ⟨2, ![64, 16]⟩
abbrev S1x16 : Shape := ⟨2, ![1, 16]⟩
abbrev S16 : Shape := ⟨1, ![16]⟩
abbrev S1x256x16 : Shape := ⟨3, ![1, 256, 16]⟩
abbrev S1x256 : Shape := ⟨2, ![1, 256]⟩
abbrev S256 : Shape := ⟨1, ![256]⟩
abbrev S64x256x1x1 : Shape := ⟨4, ![64, 256, 1, 1]⟩
abbrev S6x1 : Shape := ⟨2, ![6, 1]⟩
abbrev S64x256x64x6 : Shape := ⟨4, ![64, 256, 64, 6]⟩
abbrev S4x1 : Shape := ⟨2, ![4, 1]⟩
abbrev S64x256x64x4 : Shape := ⟨4, ![64, 256, 64, 4]⟩

abbrev nBuf : Space → Nat
  | .hbm => 696
  | .vmem => 0
  | .smem => 0
  | _ => 0

abbrev hbmTy0_0 (i : Nat) : BufTy := match i % 128 with
  | 0 => ⟨S64x256x64x50, .f32⟩
  | 1 => ⟨S10x16x256, .f32⟩
  | 2 => ⟨S10x16, .f32⟩
  | 3 => ⟨S10x256x16, .f32⟩
  | 4 => ⟨S10x256, .f32⟩
  | 5 => ⟨S5, .i32⟩
  | 6 => ⟨S5, .i1⟩
  | 7 => ⟨S6, .i32⟩
  | 8 => ⟨S6, .i1⟩
  | 9 => ⟨S4, .i32⟩
  | 10 => ⟨S4, .i1⟩
  | 11 => ⟨S6, .i32⟩
  | 12 => ⟨S6, .i1⟩
  | 13 => ⟨S4, .i32⟩
  | 14 => ⟨S4, .i1⟩
  | 15 => ⟨S5, .i32⟩
  | 16 => ⟨S5, .i1⟩
  | 17 => ⟨S6, .i32⟩
  | 18 => ⟨S6, .i1⟩
  | 19 => ⟨S4, .i32⟩
  | 20 => ⟨S4, .i1⟩
  | 21 => ⟨S6, .i32⟩
  | 22 => ⟨S6, .i1⟩
  | 23 => ⟨S4, .i32⟩
  | 24 => ⟨S4, .i1⟩
  | 25 => ⟨S_, .i32⟩
  | 26 => ⟨S5, .i32⟩
  | 27 => ⟨S5, .i32⟩
  | 28 => ⟨S5, .i32⟩
  | 29 => ⟨S5x1, .i32⟩
  | 30 => ⟨S64x256x64x5, .f32⟩
  | 31 => ⟨S_, .f32⟩
  | 32 => ⟨S64x256, .f32⟩
  | 33 => ⟨S_, .f32⟩
  | 34 => ⟨S64x256, .f32⟩
  | 35 => ⟨S64x256, .f32⟩
  | 36 => ⟨S_, .f32⟩
  | 37 => ⟨S64x256, .f32⟩
  | 38 => ⟨S1x16x256, .f32⟩
  | 39 => ⟨S16x256, .f32⟩
  | 40 => ⟨S256x16, .f32⟩
  | 41 => ⟨S64x16, .f32⟩
  | 42 => ⟨S1x16, .f32⟩
  | 43 => ⟨S16, .f32⟩
  | 44 => ⟨S1x16, .f32⟩
  | 45 => ⟨S64x16, .f32⟩
  | 46 => ⟨S64x16, .f32⟩
  | 47 => ⟨S_, .f32⟩
  | 48 => ⟨S64x16, .f32⟩
  | 49 => ⟨S64x16, .f32⟩
  | 50 => ⟨S1x256x16, .f32⟩
  | 51 => ⟨S256x16, .f32⟩
  | 52 => ⟨S16x256, .f32⟩
  | 53 => ⟨S64x256, .f32⟩
  | 54 => ⟨S1x256, .f32⟩
  | 55 => ⟨S256, .f32⟩
  | 56 => ⟨S1x256, .f32⟩
  | 57 => ⟨S64x256, .f32⟩
  | 58 => ⟨S64x256, .f32⟩
  | 59 => ⟨S1x16x256, .f32⟩
  | 60 => ⟨S16x256, .f32⟩
  | 61 => ⟨S256x16, .f32⟩
  | 62 => ⟨S64x16, .f32⟩
  | 63 => ⟨S1x16, .f32⟩
  | 64 => ⟨S16, .f32⟩
  | 65 => ⟨S1x16, .f32⟩
  | 66 => ⟨S64x16, .f32⟩
  | 67 => ⟨S64x16, .f32⟩
  | 68 => ⟨S_, .f32⟩
  | 69 => ⟨S64x16, .f32⟩
  | 70 => ⟨S64x16, .f32⟩
  | 71 => ⟨S1x256x16, .f32⟩
  | 72 => ⟨S256x16, .f32⟩
  | 73 => ⟨S16x256, .f32⟩
  | 74 => ⟨S64x256, .f32⟩
  | 75 => ⟨S1x256, .f32⟩
  | 76 => ⟨S256, .f32⟩
  | 77 => ⟨S1x256, .f32⟩
  | 78 => ⟨S64x256, .f32⟩
  | 79 => ⟨S64x256, .f32⟩
  | 80 => ⟨S64x256, .f32⟩
  | 81 => ⟨S64x256, .f32⟩
  | 82 => ⟨S64x256, .f32⟩
  | 83 => ⟨S_, .f32⟩
  | 84 => ⟨S64x256, .f32⟩
  | 85 => ⟨S64x256, .f32⟩
  | 86 => ⟨S_, .f32⟩
  | 87 => ⟨S64x256, .f32⟩
  | 88 => ⟨S64x256, .f32⟩
  | 89 => ⟨S64x256x1x1, .f32⟩
  | 90 => ⟨S64x256x64x5, .f32⟩
  | 91 => ⟨S64x256x64x5, .f32⟩
  | 92 => ⟨S_, .i32⟩
  | 93 => ⟨S6, .i32⟩
  | 94 => ⟨S6, .i32⟩
  | 95 => ⟨S6, .i32⟩
  | 96 => ⟨S6x1, .i32⟩
  | 97 => ⟨S64x256x64x6, .f32⟩
  | 98 => ⟨S_, .f32⟩
  | 99 => ⟨S64x256, .f32⟩
  | 100 => ⟨S_, .f32⟩
  | 101 => ⟨S64x256, .f32⟩
  | 102 => ⟨S64x256, .f32⟩
  | 103 => ⟨S_, .f32⟩
  | 104 => ⟨S64x256, .f32⟩
  | 105 => ⟨S1x16x256, .f32⟩
  | 106 => ⟨S16x256, .f32⟩
  | 107 => ⟨S256x16, .f32⟩
  | 108 => ⟨S64x16, .f32⟩
  | 109 => ⟨S1x16, .f32⟩
  | 110 => ⟨S16, .f32⟩
  | 111 => ⟨S1x16, .f32⟩
  | 112 => ⟨S64x16, .f32⟩
  | 113 => ⟨S64x16, .f32⟩
  | 114 => ⟨S_, .f32⟩
  | 115 => ⟨S64x16, .f32⟩
  | 116 => ⟨S64x16, .f32⟩
  | 117 => ⟨S1x256x16, .f32⟩
  | 118 => ⟨S256x16, .f32⟩
  | 119 => ⟨S16x256, .f32⟩
  | 120 => ⟨S64x256, .f32⟩
  | 121 => ⟨S1x256, .f32⟩
  | 122 => ⟨S256, .f32⟩
  | 123 => ⟨S1x256, .f32⟩
  | 124 => ⟨S64x256, .f32⟩
  | 125 => ⟨S64x256, .f32⟩
  | 126 => ⟨S1x16x256, .f32⟩
  | 127 => ⟨S16x256, .f32⟩
  | _ => ⟨S64x256x64x50, .f32⟩

abbrev hbmTy0_1 (i : Nat) : BufTy := match i % 128 with
  | 0 => ⟨S256x16, .f32⟩
  | 1 => ⟨S64x16, .f32⟩
  | 2 => ⟨S1x16, .f32⟩
  | 3 => ⟨S16, .f32⟩
  | 4 => ⟨S1x16, .f32⟩
  | 5 => ⟨S64x16, .f32⟩
  | 6 => ⟨S64x16, .f32⟩
  | 7 => ⟨S_, .f32⟩
  | 8 => ⟨S64x16, .f32⟩
  | 9 => ⟨S64x16, .f32⟩
  | 10 => ⟨S1x256x16, .f32⟩
  | 11 => ⟨S256x16, .f32⟩
  | 12 => ⟨S16x256, .f32⟩
  | 13 => ⟨S64x256, .f32⟩
  | 14 => ⟨S1x256, .f32⟩
  | 15 => ⟨S256, .f32⟩
  | 16 => ⟨S1x256, .f32⟩
  | 17 => ⟨S64x256, .f32⟩
  | 18 => ⟨S64x256, .f32⟩
  | 19 => ⟨S64x256, .f32⟩
  | 20 => ⟨S64x256, .f32⟩
  | 21 => ⟨S64x256, .f32⟩
  | 22 => ⟨S_, .f32⟩
  | 23 => ⟨S64x256, .f32⟩
  | 24 => ⟨S64x256, .f32⟩
  | 25 => ⟨S_, .f32⟩
  | 26 => ⟨S64x256, .f32⟩
  | 27 => ⟨S64x256, .f32⟩
  | 28 => ⟨S64x256x1x1, .f32⟩
  | 29 => ⟨S64x256x64x6, .f32⟩
  | 30 => ⟨S64x256x64x6, .f32⟩
  | 31 => ⟨S_, .i32⟩
  | 32 => ⟨S4, .i32⟩
  | 33 => ⟨S4, .i32⟩
  | 34 => ⟨S4, .i32⟩
  | 35 => ⟨S4x1, .i32⟩
  | 36 => ⟨S64x256x64x4, .f32⟩
  | 37 => ⟨S_, .f32⟩
  | 38 => ⟨S64x256, .f32⟩
  | 39 => ⟨S_, .f32⟩
  | 40 => ⟨S64x256, .f32⟩
  | 41 => ⟨S64x256, .f32⟩
  | 42 => ⟨S_, .f32⟩
  | 43 => ⟨S64x256, .f32⟩
  | 44 => ⟨S1x16x256, .f32⟩
  | 45 => ⟨S16x256, .f32⟩
  | 46 => ⟨S256x16, .f32⟩
  | 47 => ⟨S64x16, .f32⟩
  | 48 => ⟨S1x16, .f32⟩
  | 49 => ⟨S16, .f32⟩
  | 50 => ⟨S1x16, .f32⟩
  | 51 => ⟨S64x16, .f32⟩
  | 52 => ⟨S64x16, .f32⟩
  | 53 => ⟨S_, .f32⟩
  | 54 => ⟨S64x16, .f32⟩
  | 55 => ⟨S64x16, .f32⟩
  | 56 => ⟨S1x256x16, .f32⟩
  | 57 => ⟨S256x16, .f32⟩
  | 58 => ⟨S16x256, .f32⟩
  | 59 => ⟨S64x256, .f32⟩
  | 60 => ⟨S1x256, .f32⟩
  | 61 => ⟨S256, .f32⟩
  | 62 => ⟨S1x256, .f32⟩
  | 63 => ⟨S64x256, .f32⟩
  | 64 => ⟨S64x256, .f32⟩
  | 65 => ⟨S1x16x256, .f32⟩
  | 66 => ⟨S16x256, .f32⟩
  | 67 => ⟨S256x16, .f32⟩
  | 68 => ⟨S64x16, .f32⟩
  | 69 => ⟨S1x16, .f32⟩
  | 70 => ⟨S16, .f32⟩
  | 71 => ⟨S1x16, .f32⟩
  | 72 => ⟨S64x16, .f32⟩
  | 73 => ⟨S64x16, .f32⟩
  | 74 => ⟨S_, .f32⟩
  | 75 => ⟨S64x16, .f32⟩
  | 76 => ⟨S64x16, .f32⟩
  | 77 => ⟨S1x256x16, .f32⟩
  | 78 => ⟨S256x16, .f32⟩
  | 79 => ⟨S16x256, .f32⟩
  | 80 => ⟨S64x256, .f32⟩
  | 81 => ⟨S1x256, .f32⟩
  | 82 => ⟨S256, .f32⟩
  | 83 => ⟨S1x256, .f32⟩
  | 84 => ⟨S64x256, .f32⟩
  | 85 => ⟨S64x256, .f32⟩
  | 86 => ⟨S64x256, .f32⟩
  | 87 => ⟨S64x256, .f32⟩
  | 88 => ⟨S64x256, .f32⟩
  | 89 => ⟨S_, .f32⟩
  | 90 => ⟨S64x256, .f32⟩
  | 91 => ⟨S64x256, .f32⟩
  | 92 => ⟨S_, .f32⟩
  | 93 => ⟨S64x256, .f32⟩
  | 94 => ⟨S64x256, .f32⟩
  | 95 => ⟨S64x256x1x1, .f32⟩
  | 96 => ⟨S64x256x64x4, .f32⟩
  | 97 => ⟨S64x256x64x4, .f32⟩
  | 98 => ⟨S_, .i32⟩
  | 99 => ⟨S6, .i32⟩
  | 100 => ⟨S6, .i32⟩
  | 101 => ⟨S6, .i32⟩
  | 102 => ⟨S6x1, .i32⟩
  | 103 => ⟨S64x256x64x6, .f32⟩
  | 104 => ⟨S_, .f32⟩
  | 105 => ⟨S64x256, .f32⟩
  | 106 => ⟨S_, .f32⟩
  | 107 => ⟨S64x256, .f32⟩
  | 108 => ⟨S64x256, .f32⟩
  | 109 => ⟨S_, .f32⟩
  | 110 => ⟨S64x256, .f32⟩
  | 111 => ⟨S1x16x256, .f32⟩
  | 112 => ⟨S16x256, .f32⟩
  | 113 => ⟨S256x16, .f32⟩
  | 114 => ⟨S64x16, .f32⟩
  | 115 => ⟨S1x16, .f32⟩
  | 116 => ⟨S16, .f32⟩
  | 117 => ⟨S1x16, .f32⟩
  | 118 => ⟨S64x16, .f32⟩
  | 119 => ⟨S64x16, .f32⟩
  | 120 => ⟨S_, .f32⟩
  | 121 => ⟨S64x16, .f32⟩
  | 122 => ⟨S64x16, .f32⟩
  | 123 => ⟨S1x256x16, .f32⟩
  | 124 => ⟨S256x16, .f32⟩
  | 125 => ⟨S16x256, .f32⟩
  | 126 => ⟨S64x256, .f32⟩
  | 127 => ⟨S1x256, .f32⟩
  | _ => ⟨S64x256x64x50, .f32⟩

abbrev hbmTy0_2 (i : Nat) : BufTy := match i % 128 with
  | 0 => ⟨S256, .f32⟩
  | 1 => ⟨S1x256, .f32⟩
  | 2 => ⟨S64x256, .f32⟩
  | 3 => ⟨S64x256, .f32⟩
  | 4 => ⟨S1x16x256, .f32⟩
  | 5 => ⟨S16x256, .f32⟩
  | 6 => ⟨S256x16, .f32⟩
  | 7 => ⟨S64x16, .f32⟩
  | 8 => ⟨S1x16, .f32⟩
  | 9 => ⟨S16, .f32⟩
  | 10 => ⟨S1x16, .f32⟩
  | 11 => ⟨S64x16, .f32⟩
  | 12 => ⟨S64x16, .f32⟩
  | 13 => ⟨S_, .f32⟩
  | 14 => ⟨S64x16, .f32⟩
  | 15 => ⟨S64x16, .f32⟩
  | 16 => ⟨S1x256x16, .f32⟩
  | 17 => ⟨S256x16, .f32⟩
  | 18 => ⟨S16x256, .f32⟩
  | 19 => ⟨S64x256, .f32⟩
  | 20 => ⟨S1x256, .f32⟩
  | 21 => ⟨S256, .f32⟩
  | 22 => ⟨S1x256, .f32⟩
  | 23 => ⟨S64x256, .f32⟩
  | 24 => ⟨S64x256, .f32⟩
  | 25 => ⟨S64x256, .f32⟩
  | 26 => ⟨S64x256, .f32⟩
  | 27 => ⟨S64x256, .f32⟩
  | 28 => ⟨S_, .f32⟩
  | 29 => ⟨S64x256, .f32⟩
  | 30 => ⟨S64x256, .f32⟩
  | 31 => ⟨S_, .f32⟩
  | 32 => ⟨S64x256, .f32⟩
  | 33 => ⟨S64x256, .f32⟩
  | 34 => ⟨S64x256x1x1, .f32⟩
  | 35 => ⟨S64x256x64x6, .f32⟩
  | 36 => ⟨S64x256x64x6, .f32⟩
  | 37 => ⟨S_, .i32⟩
  | 38 => ⟨S4, .i32⟩
  | 39 => ⟨S4, .i32⟩
  | 40 => ⟨S4, .i32⟩
  | 41 => ⟨S4x1, .i32⟩
  | 42 => ⟨S64x256x64x4, .f32⟩
  | 43 => ⟨S_, .f32⟩
  | 44 => ⟨S64x256, .f32⟩
  | 45 => ⟨S_, .f32⟩
  | 46 => ⟨S64x256, .f32⟩
  | 47 => ⟨S64x256, .f32⟩
  | 48 => ⟨S_, .f32⟩
  | 49 => ⟨S64x256, .f32⟩
  | 50 => ⟨S1x16x256, .f32⟩
  | 51 => ⟨S16x256, .f32⟩
  | 52 => ⟨S256x16, .f32⟩
  | 53 => ⟨S64x16, .f32⟩
  | 54 => ⟨S1x16, .f32⟩
  | 55 => ⟨S16, .f32⟩
  | 56 => ⟨S1x16, .f32⟩
  | 57 => ⟨S64x16, .f32⟩
  | 58 => ⟨S64x16, .f32⟩
  | 59 => ⟨S_, .f32⟩
  | 60 => ⟨S64x16, .f32⟩
  | 61 => ⟨S64x16, .f32⟩
  | 62 => ⟨S1x256x16, .f32⟩
  | 63 => ⟨S256x16, .f32⟩
  | 64 => ⟨S16x256, .f32⟩
  | 65 => ⟨S64x256, .f32⟩
  | 66 => ⟨S1x256, .f32⟩
  | 67 => ⟨S256, .f32⟩
  | 68 => ⟨S1x256, .f32⟩
  | 69 => ⟨S64x256, .f32⟩
  | 70 => ⟨S64x256, .f32⟩
  | 71 => ⟨S1x16x256, .f32⟩
  | 72 => ⟨S16x256, .f32⟩
  | 73 => ⟨S256x16, .f32⟩
  | 74 => ⟨S64x16, .f32⟩
  | 75 => ⟨S1x16, .f32⟩
  | 76 => ⟨S16, .f32⟩
  | 77 => ⟨S1x16, .f32⟩
  | 78 => ⟨S64x16, .f32⟩
  | 79 => ⟨S64x16, .f32⟩
  | 80 => ⟨S_, .f32⟩
  | 81 => ⟨S64x16, .f32⟩
  | 82 => ⟨S64x16, .f32⟩
  | 83 => ⟨S1x256x16, .f32⟩
  | 84 => ⟨S256x16, .f32⟩
  | 85 => ⟨S16x256, .f32⟩
  | 86 => ⟨S64x256, .f32⟩
  | 87 => ⟨S1x256, .f32⟩
  | 88 => ⟨S256, .f32⟩
  | 89 => ⟨S1x256, .f32⟩
  | 90 => ⟨S64x256, .f32⟩
  | 91 => ⟨S64x256, .f32⟩
  | 92 => ⟨S64x256, .f32⟩
  | 93 => ⟨S64x256, .f32⟩
  | 94 => ⟨S64x256, .f32⟩
  | 95 => ⟨S_, .f32⟩
  | 96 => ⟨S64x256, .f32⟩
  | 97 => ⟨S64x256, .f32⟩
  | 98 => ⟨S_, .f32⟩
  | 99 => ⟨S64x256, .f32⟩
  | 100 => ⟨S64x256, .f32⟩
  | 101 => ⟨S64x256x1x1, .f32⟩
  | 102 => ⟨S64x256x64x4, .f32⟩
  | 103 => ⟨S64x256x64x4, .f32⟩
  | 104 => ⟨S_, .i32⟩
  | 105 => ⟨S5, .i32⟩
  | 106 => ⟨S5, .i32⟩
  | 107 => ⟨S5, .i32⟩
  | 108 => ⟨S5x1, .i32⟩
  | 109 => ⟨S64x256x64x5, .f32⟩
  | 110 => ⟨S_, .f32⟩
  | 111 => ⟨S64x256, .f32⟩
  | 112 => ⟨S_, .f32⟩
  | 113 => ⟨S64x256, .f32⟩
  | 114 => ⟨S64x256, .f32⟩
  | 115 => ⟨S_, .f32⟩
  | 116 => ⟨S64x256, .f32⟩
  | 117 => ⟨S1x16x256, .f32⟩
  | 118 => ⟨S16x256, .f32⟩
  | 119 => ⟨S256x16, .f32⟩
  | 120 => ⟨S64x16, .f32⟩
  | 121 => ⟨S1x16, .f32⟩
  | 122 => ⟨S16, .f32⟩
  | 123 => ⟨S1x16, .f32⟩
  | 124 => ⟨S64x16, .f32⟩
  | 125 => ⟨S64x16, .f32⟩
  | 126 => ⟨S_, .f32⟩
  | 127 => ⟨S64x16, .f32⟩
  | _ => ⟨S64x256x64x50, .f32⟩

abbrev hbmTy0_3 (i : Nat) : BufTy := match i % 128 with
  | 0 => ⟨S64x16, .f32⟩
  | 1 => ⟨S1x256x16, .f32⟩
  | 2 => ⟨S256x16, .f32⟩
  | 3 => ⟨S16x256, .f32⟩
  | 4 => ⟨S64x256, .f32⟩
  | 5 => ⟨S1x256, .f32⟩
  | 6 => ⟨S256, .f32⟩
  | 7 => ⟨S1x256, .f32⟩
  | 8 => ⟨S64x256, .f32⟩
  | 9 => ⟨S64x256, .f32⟩
  | 10 => ⟨S1x16x256, .f32⟩
  | 11 => ⟨S16x256, .f32⟩
  | 12 => ⟨S256x16, .f32⟩
  | 13 => ⟨S64x16, .f32⟩
  | 14 => ⟨S1x16, .f32⟩
  | 15 => ⟨S16, .f32⟩
  | 16 => ⟨S1x16, .f32⟩
  | 17 => ⟨S64x16, .f32⟩
  | 18 => ⟨S64x16, .f32⟩
  | 19 => ⟨S_, .f32⟩
  | 20 => ⟨S64x16, .f32⟩
  | 21 => ⟨S64x16, .f32⟩
  | 22 => ⟨S1x256x16, .f32⟩
  | 23 => ⟨S256x16, .f32⟩
  | 24 => ⟨S16x256, .f32⟩
  | 25 => ⟨S64x256, .f32⟩
  | 26 => ⟨S1x256, .f32⟩
  | 27 => ⟨S256, .f32⟩
  | 28 => ⟨S1x256, .f32⟩
  | 29 => ⟨S64x256, .f32⟩
  | 30 => ⟨S64x256, .f32⟩
  | 31 => ⟨S64x256, .f32⟩
  | 32 => ⟨S64x256, .f32⟩
  | 33 => ⟨S64x256, .f32⟩
  | 34 => ⟨S_, .f32⟩
  | 35 => ⟨S64x256, .f32⟩
  | 36 => ⟨S64x256, .f32⟩
  | 37 => ⟨S_, .f32⟩
  | 38 => ⟨S64x256, .f32⟩
  | 39 => ⟨S64x256, .f32⟩
  | 40 => ⟨S64x256x1x1, .f32⟩
  | 41 => ⟨S64x256x64x5, .f32⟩
  | 42 => ⟨S64x256x64x5, .f32⟩
  | 43 => ⟨S_, .i32⟩
  | 44 => ⟨S6, .i32⟩
  | 45 => ⟨S6, .i32⟩
  | 46 => ⟨S6, .i32⟩
  | 47 => ⟨S6x1, .i32⟩
  | 48 => ⟨S64x256x64x6, .f32⟩
  | 49 => ⟨S_, .f32⟩
  | 50 => ⟨S64x256, .f32⟩
  | 51 => ⟨S_, .f32⟩
  | 52 => ⟨S64x256, .f32⟩
  | 53 => ⟨S64x256, .f32⟩
  | 54 => ⟨S_, .f32⟩
  | 55 => ⟨S64x256, .f32⟩
  | 56 => ⟨S1x16x256, .f32⟩
  | 57 => ⟨S16x256, .f32⟩
  | 58 => ⟨S256x16, .f32⟩
  | 59 => ⟨S64x16, .f32⟩
  | 60 => ⟨S1x16, .f32⟩
  | 61 => ⟨S16, .f32⟩
  | 62 => ⟨S1x16, .f32⟩
  | 63 => ⟨S64x16, .f32⟩
  | 64 => ⟨S64x16, .f32⟩
  | 65 => ⟨S_, .f32⟩
  | 66 => ⟨S64x16, .f32⟩
  | 67 => ⟨S64x16, .f32⟩
  | 68 => ⟨S1x256x16, .f32⟩
  | 69 => ⟨S256x16, .f32⟩
  | 70 => ⟨S16x256, .f32⟩
  | 71 => ⟨S64x256, .f32⟩
  | 72 => ⟨S1x256, .f32⟩
  | 73 => ⟨S256, .f32⟩
  | 74 => ⟨S1x256, .f32⟩
  | 75 => ⟨S64x256, .f32⟩
  | 76 => ⟨S64x256, .f32⟩
  | 77 => ⟨S1x16x256, .f32⟩
  | 78 => ⟨S16x256, .f32⟩
  | 79 => ⟨S256x16, .f32⟩
  | 80 => ⟨S64x16, .f32⟩
  | 81 => ⟨S1x16, .f32⟩
  | 82 => ⟨S16, .f32⟩
  | 83 => ⟨S1x16, .f32⟩
  | 84 => ⟨S64x16, .f32⟩
  | 85 => ⟨S64x16, .f32⟩
  | 86 => ⟨S_, .f32⟩
  | 87 => ⟨S64x16, .f32⟩
  | 88 => ⟨S64x16, .f32⟩
  | 89 => ⟨S1x256x16, .f32⟩
  | 90 => ⟨S256x16, .f32⟩
  | 91 => ⟨S16x256, .f32⟩
  | 92 => ⟨S64x256, .f32⟩
  | 93 => ⟨S1x256, .f32⟩
  | 94 => ⟨S256, .f32⟩
  | 95 => ⟨S1x256, .f32⟩
  | 96 => ⟨S64x256, .f32⟩
  | 97 => ⟨S64x256, .f32⟩
  | 98 => ⟨S64x256, .f32⟩
  | 99 => ⟨S64x256, .f32⟩
  | 100 => ⟨S64x256, .f32⟩
  | 101 => ⟨S_, .f32⟩
  | 102 => ⟨S64x256, .f32⟩
  | 103 => ⟨S64x256, .f32⟩
  | 104 => ⟨S_, .f32⟩
  | 105 => ⟨S64x256, .f32⟩
  | 106 => ⟨S64x256, .f32⟩
  | 107 => ⟨S64x256x1x1, .f32⟩
  | 108 => ⟨S64x256x64x6, .f32⟩
  | 109 => ⟨S64x256x64x6, .f32⟩
  | 110 => ⟨S_, .i32⟩
  | 111 => ⟨S4, .i32⟩
  | 112 => ⟨S4, .i32⟩
  | 113 => ⟨S4, .i32⟩
  | 114 => ⟨S4x1, .i32⟩
  | 115 => ⟨S64x256x64x4, .f32⟩
  | 116 => ⟨S_, .f32⟩
  | 117 => ⟨S64x256, .f32⟩
  | 118 => ⟨S_, .f32⟩
  | 119 => ⟨S64x256, .f32⟩
  | 120 => ⟨S64x256, .f32⟩
  | 121 => ⟨S_, .f32⟩
  | 122 => ⟨S64x256, .f32⟩
  | 123 => ⟨S1x16x256, .f32⟩
  | 124 => ⟨S16x256, .f32⟩
  | 125 => ⟨S256x16, .f32⟩
  | 126 => ⟨S64x16, .f32⟩
  | 127 => ⟨S1x16, .f32⟩
  | _ => ⟨S64x256x64x50, .f32⟩

abbrev hbmTy0_4 (i : Nat) : BufTy := match i % 128 with
  | 0 => ⟨S16, .f32⟩
  | 1 => ⟨S1x16, .f32⟩
  | 2 => ⟨S64x16, .f32⟩
  | 3 => ⟨S64x16, .f32⟩
  | 4 => ⟨S_, .f32⟩
  | 5 => ⟨S64x16, .f32⟩
  | 6 => ⟨S64x16, .f32⟩
  | 7 => ⟨S1x256x16, .f32⟩
  | 8 => ⟨S256x16, .f32⟩
  | 9 => ⟨S16x256, .f32⟩
  | 10 => ⟨S64x256, .f32⟩
  | 11 => ⟨S1x256, .f32⟩
  | 12 => ⟨S256, .f32⟩
  | 13 => ⟨S1x256, .f32⟩
  | 14 => ⟨S64x256, .f32⟩
  | 15 => ⟨S64x256, .f32⟩
  | 16 => ⟨S1x16x256, .f32⟩
  | 17 => ⟨S16x256, .f32⟩
  | 18 => ⟨S256x16, .f32⟩
  | 19 => ⟨S64x16, .f32⟩
  | 20 => ⟨S1x16, .f32⟩
  | 21 => ⟨S16, .f32⟩
  | 22 => ⟨S1x16, .f32⟩
  | 23 => ⟨S64x16, .f32⟩
  | 24 => ⟨S64x16, .f32⟩
  | 25 => ⟨S_, .f32⟩
  | 26 => ⟨S64x16, .f32⟩
  | 27 => ⟨S64x16, .f32⟩
  | 28 => ⟨S1x256x16, .f32⟩
  | 29 => ⟨S256x16, .f32⟩
  | 30 => ⟨S16x256, .f32⟩
  | 31 => ⟨S64x256, .f32⟩
  | 32 => ⟨S1x256, .f32⟩
  | 33 => ⟨S256, .f32⟩
  | 34 => ⟨S1x256, .f32⟩
  | 35 => ⟨S64x256, .f32⟩
  | 36 => ⟨S64x256, .f32⟩
  | 37 => ⟨S64x256, .f32⟩
  | 38 => ⟨S64x256, .f32⟩
  | 39 => ⟨S64x256, .f32⟩
  | 40 => ⟨S_, .f32⟩
  | 41 => ⟨S64x256, .f32⟩
  | 42 => ⟨S64x256, .f32⟩
  | 43 => ⟨S_, .f32⟩
  | 44 => ⟨S64x256, .f32⟩
  | 45 => ⟨S64x256, .f32⟩
  | 46 => ⟨S64x256x1x1, .f32⟩
  | 47 => ⟨S64x256x64x4, .f32⟩
  | 48 => ⟨S64x256x64x4, .f32⟩
  | 49 => ⟨S_, .i32⟩
  | 50 => ⟨S6, .i32⟩
  | 51 => ⟨S6, .i32⟩
  | 52 => ⟨S6, .i32⟩
  | 53 => ⟨S6x1, .i32⟩
  | 54 => ⟨S64x256x64x6, .f32⟩
  | 55 => ⟨S_, .f32⟩
  | 56 => ⟨S64x256, .f32⟩
  | 57 => ⟨S_, .f32⟩
  | 58 => ⟨S64x256, .f32⟩
  | 59 => ⟨S64x256, .f32⟩
  | 60 => ⟨S_, .f32⟩
  | 61 => ⟨S64x256, .f32⟩
  | 62 => ⟨S1x16x256, .f32⟩
  | 63 => ⟨S16x256, .f32⟩
  | 64 => ⟨S256x16, .f32⟩
  | 65 => ⟨S64x16, .f32⟩
  | 66 => ⟨S1x16, .f32⟩
  | 67 => ⟨S16, .f32⟩
  | 68 => ⟨S1x16, .f32⟩
  | 69 => ⟨S64x16, .f32⟩
  | 70 => ⟨S64x16, .f32⟩
  | 71 => ⟨S_, .f32⟩
  | 72 => ⟨S64x16, .f32⟩
  | 73 => ⟨S64x16, .f32⟩
  | 74 => ⟨S1x256x16, .f32⟩
  | 75 => ⟨S256x16, .f32⟩
  | 76 => ⟨S16x256, .f32⟩
  | 77 => ⟨S64x256, .f32⟩
  | 78 => ⟨S1x256, .f32⟩
  | 79 => ⟨S256, .f32⟩
  | 80 => ⟨S1x256, .f32⟩
  | 81 => ⟨S64x256, .f32⟩
  | 82 => ⟨S64x256, .f32⟩
  | 83 => ⟨S1x16x256, .f32⟩
  | 84 => ⟨S16x256, .f32⟩
  | 85 => ⟨S256x16, .f32⟩
  | 86 => ⟨S64x16, .f32⟩
  | 87 => ⟨S1x16, .f32⟩
  | 88 => ⟨S16, .f32⟩
  | 89 => ⟨S1x16, .f32⟩
  | 90 => ⟨S64x16, .f32⟩
  | 91 => ⟨S64x16, .f32⟩
  | 92 => ⟨S_, .f32⟩
  | 93 => ⟨S64x16, .f32⟩
  | 94 => ⟨S64x16, .f32⟩
  | 95 => ⟨S1x256x16, .f32⟩
  | 96 => ⟨S256x16, .f32⟩
  | 97 => ⟨S16x256, .f32⟩
  | 98 => ⟨S64x256, .f32⟩
  | 99 => ⟨S1x256, .f32⟩
  | 100 => ⟨S256, .f32⟩
  | 101 => ⟨S1x256, .f32⟩
  | 102 => ⟨S64x256, .f32⟩
  | 103 => ⟨S64x256, .f32⟩
  | 104 => ⟨S64x256, .f32⟩
  | 105 => ⟨S64x256, .f32⟩
  | 106 => ⟨S64x256, .f32⟩
  | 107 => ⟨S_, .f32⟩
  | 108 => ⟨S64x256, .f32⟩
  | 109 => ⟨S64x256, .f32⟩
  | 110 => ⟨S_, .f32⟩
  | 111 => ⟨S64x256, .f32⟩
  | 112 => ⟨S64x256, .f32⟩
  | 113 => ⟨S64x256x1x1, .f32⟩
  | 114 => ⟨S64x256x64x6, .f32⟩
  | 115 => ⟨S64x256x64x6, .f32⟩
  | 116 => ⟨S_, .i32⟩
  | 117 => ⟨S4, .i32⟩
  | 118 => ⟨S4, .i32⟩
  | 119 => ⟨S4, .i32⟩
  | 120 => ⟨S4x1, .i32⟩
  | 121 => ⟨S64x256x64x4, .f32⟩
  | 122 => ⟨S_, .f32⟩
  | 123 => ⟨S64x256, .f32⟩
  | 124 => ⟨S_, .f32⟩
  | 125 => ⟨S64x256, .f32⟩
  | 126 => ⟨S64x256, .f32⟩
  | 127 => ⟨S_, .f32⟩
  | _ => ⟨S64x256x64x50, .f32⟩

abbrev hbmTy0_5 (i : Nat) : BufTy := match i % 128 with
  | 0 => ⟨S64x256, .f32⟩
  | 1 => ⟨S1x16x256, .f32⟩
  | 2 => ⟨S16x256, .f32⟩
  | 3 => ⟨S256x16, .f32⟩
  | 4 => ⟨S64x16, .f32⟩
  | 5 => ⟨S1x16, .f32⟩
  | 6 => ⟨S16, .f32⟩
  | 7 => ⟨S1x16, .f32⟩
  | 8 => ⟨S64x16, .f32⟩
  | 9 => ⟨S64x16, .f32⟩
  | 10 => ⟨S_, .f32⟩
  | 11 => ⟨S64x16, .f32⟩
  | 12 => ⟨S64x16, .f32⟩
  | 13 => ⟨S1x256x16, .f32⟩
  | 14 => ⟨S256x16, .f32⟩
  | 15 => ⟨S16x256, .f32⟩
  | 16 => ⟨S64x256, .f32⟩
  | 17 => ⟨S1x256, .f32⟩
  | 18 => ⟨S256, .f32⟩
  | 19 => ⟨S1x256, .f32⟩
  | 20 => ⟨S64x256, .f32⟩
  | 21 => ⟨S64x256, .f32⟩
  | 22 => ⟨S1x16x256, .f32⟩
  | 23 => ⟨S16x256, .f32⟩
  | 24 => ⟨S256x16, .f32⟩
  | 25 => ⟨S64x16, .f32⟩
  | 26 => ⟨S1x16, .f32⟩
  | 27 => ⟨S16, .f32⟩
  | 28 => ⟨S1x16, .f32⟩
  | 29 => ⟨S64x16, .f32⟩
  | 30 => ⟨S64x16, .f32⟩
  | 31 => ⟨S_, .f32⟩
  | 32 => ⟨S64x16, .f32⟩
  | 33 => ⟨S64x16, .f32⟩
  | 34 => ⟨S1x256x16, .f32⟩
  | 35 => ⟨S256x16, .f32⟩
  | 36 => ⟨S16x256, .f32⟩
  | 37 => ⟨S64x256, .f32⟩
  | 38 => ⟨S1x256, .f32⟩
  | 39 => ⟨S256, .f32⟩
  | 40 => ⟨S1x256, .f32⟩
  | 41 => ⟨S64x256, .f32⟩
  | 42 => ⟨S64x256, .f32⟩
  | 43 => ⟨S64x256, .f32⟩
  | 44 => ⟨S64x256, .f32⟩
  | 45 => ⟨S64x256, .f32⟩
  | 46 => ⟨S_, .f32⟩
  | 47 => ⟨S64x256, .f32⟩
  | 48 => ⟨S64x256, .f32⟩
  | 49 => ⟨S_, .f32⟩
  | 50 => ⟨S64x256, .f32⟩
  | 51 => ⟨S64x256, .f32⟩
  | 52 => ⟨S64x256x1x1, .f32⟩
  | 53 => ⟨S64x256x64x4, .f32⟩
  | 54 => ⟨S64x256x64x4, .f32⟩
  | 55 => ⟨S64x256x64x50, .f32⟩
  | _ => ⟨S64x256x64x50, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x256x64x50, .f32⟩

abbrev bufTy : (tb : Table) → Fin (tcTables nBuf tb) → BufTy
  | .hbm, ⟨i, _⟩ => hbmTy i
  | _, _ => ⟨S64x256x64x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_c_11 : Ref sig .tc := ⟨.hbm, 17, rfl⟩
abbrev main_c_12 : Ref sig .tc := ⟨.hbm, 18, rfl⟩
abbrev main_c_13 : Ref sig .tc := ⟨.hbm, 19, rfl⟩
abbrev main_c_14 : Ref sig .tc := ⟨.hbm, 20, rfl⟩
abbrev main_c_15 : Ref sig .tc := ⟨.hbm, 21, rfl⟩
abbrev main_c_16 : Ref sig .tc := ⟨.hbm, 22, rfl⟩
abbrev main_c_17 : Ref sig .tc := ⟨.hbm, 23, rfl⟩
abbrev main_c_18 : Ref sig .tc := ⟨.hbm, 24, rfl⟩
abbrev main_c_19 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_cst_20 : Ref sig .tc := ⟨.hbm, 33, rfl⟩
abbrev main_v6 : Ref sig .tc := ⟨.hbm, 34, rfl⟩
abbrev main_v7 : Ref sig .tc := ⟨.hbm, 35, rfl⟩
abbrev main_cst_21 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_call0_cst : Ref sig .tc := ⟨.hbm, 47, rfl⟩
abbrev main_call0_v0 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call1_cst : Ref sig .tc := ⟨.hbm, 68, rfl⟩
abbrev main_call1_v0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_22 : Ref sig .tc := ⟨.hbm, 83, rfl⟩
abbrev main_v50 : Ref sig .tc := ⟨.hbm, 84, rfl⟩
abbrev main_v51 : Ref sig .tc := ⟨.hbm, 85, rfl⟩
abbrev main_cst_23 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_24 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_25 : Ref sig .tc := ⟨.hbm, 98, rfl⟩
abbrev main_v62 : Ref sig .tc := ⟨.hbm, 99, rfl⟩
abbrev main_cst_26 : Ref sig .tc := ⟨.hbm, 100, rfl⟩
abbrev main_v63 : Ref sig .tc := ⟨.hbm, 101, rfl⟩
abbrev main_v64 : Ref sig .tc := ⟨.hbm, 102, rfl⟩
abbrev main_cst_27 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call2_cst : Ref sig .tc := ⟨.hbm, 114, rfl⟩
abbrev main_call2_v0 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call3_cst : Ref sig .tc := ⟨.hbm, 135, rfl⟩
abbrev main_call3_v0 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_28 : Ref sig .tc := ⟨.hbm, 150, rfl⟩
abbrev main_v107 : Ref sig .tc := ⟨.hbm, 151, rfl⟩
abbrev main_v108 : Ref sig .tc := ⟨.hbm, 152, rfl⟩
abbrev main_cst_29 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_30 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_31 : Ref sig .tc := ⟨.hbm, 165, rfl⟩
abbrev main_v119 : Ref sig .tc := ⟨.hbm, 166, rfl⟩
abbrev main_cst_32 : Ref sig .tc := ⟨.hbm, 167, rfl⟩
abbrev main_v120 : Ref sig .tc := ⟨.hbm, 168, rfl⟩
abbrev main_v121 : Ref sig .tc := ⟨.hbm, 169, rfl⟩
abbrev main_cst_33 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_call4_cst : Ref sig .tc := ⟨.hbm, 181, rfl⟩
abbrev main_call4_v0 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_call5_cst : Ref sig .tc := ⟨.hbm, 202, rfl⟩
abbrev main_call5_v0 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_34 : Ref sig .tc := ⟨.hbm, 217, rfl⟩
abbrev main_v164 : Ref sig .tc := ⟨.hbm, 218, rfl⟩
abbrev main_v165 : Ref sig .tc := ⟨.hbm, 219, rfl⟩
abbrev main_cst_35 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_36 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_37 : Ref sig .tc := ⟨.hbm, 232, rfl⟩
abbrev main_v176 : Ref sig .tc := ⟨.hbm, 233, rfl⟩
abbrev main_cst_38 : Ref sig .tc := ⟨.hbm, 234, rfl⟩
abbrev main_v177 : Ref sig .tc := ⟨.hbm, 235, rfl⟩
abbrev main_v178 : Ref sig .tc := ⟨.hbm, 236, rfl⟩
abbrev main_cst_39 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_call6_cst : Ref sig .tc := ⟨.hbm, 248, rfl⟩
abbrev main_call6_v0 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_call7_cst : Ref sig .tc := ⟨.hbm, 269, rfl⟩
abbrev main_call7_v0 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_cst_40 : Ref sig .tc := ⟨.hbm, 284, rfl⟩
abbrev main_v221 : Ref sig .tc := ⟨.hbm, 285, rfl⟩
abbrev main_v222 : Ref sig .tc := ⟨.hbm, 286, rfl⟩
abbrev main_cst_41 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_c_42 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_cst_43 : Ref sig .tc := ⟨.hbm, 299, rfl⟩
abbrev main_v233 : Ref sig .tc := ⟨.hbm, 300, rfl⟩
abbrev main_cst_44 : Ref sig .tc := ⟨.hbm, 301, rfl⟩
abbrev main_v234 : Ref sig .tc := ⟨.hbm, 302, rfl⟩
abbrev main_v235 : Ref sig .tc := ⟨.hbm, 303, rfl⟩
abbrev main_cst_45 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_call8_cst : Ref sig .tc := ⟨.hbm, 315, rfl⟩
abbrev main_call8_v0 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_call9_cst : Ref sig .tc := ⟨.hbm, 336, rfl⟩
abbrev main_call9_v0 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_cst_46 : Ref sig .tc := ⟨.hbm, 351, rfl⟩
abbrev main_v278 : Ref sig .tc := ⟨.hbm, 352, rfl⟩
abbrev main_v279 : Ref sig .tc := ⟨.hbm, 353, rfl⟩
abbrev main_cst_47 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_c_48 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_cst_49 : Ref sig .tc := ⟨.hbm, 366, rfl⟩
abbrev main_v290 : Ref sig .tc := ⟨.hbm, 367, rfl⟩
abbrev main_cst_50 : Ref sig .tc := ⟨.hbm, 368, rfl⟩
abbrev main_v291 : Ref sig .tc := ⟨.hbm, 369, rfl⟩
abbrev main_v292 : Ref sig .tc := ⟨.hbm, 370, rfl⟩
abbrev main_cst_51 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_call10_cst : Ref sig .tc := ⟨.hbm, 382, rfl⟩
abbrev main_call10_v0 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_call11_cst : Ref sig .tc := ⟨.hbm, 403, rfl⟩
abbrev main_call11_v0 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_cst_52 : Ref sig .tc := ⟨.hbm, 418, rfl⟩
abbrev main_v335 : Ref sig .tc := ⟨.hbm, 419, rfl⟩
abbrev main_v336 : Ref sig .tc := ⟨.hbm, 420, rfl⟩
abbrev main_cst_53 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_c_54 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_cst_55 : Ref sig .tc := ⟨.hbm, 433, rfl⟩
abbrev main_v347 : Ref sig .tc := ⟨.hbm, 434, rfl⟩
abbrev main_cst_56 : Ref sig .tc := ⟨.hbm, 435, rfl⟩
abbrev main_v348 : Ref sig .tc := ⟨.hbm, 436, rfl⟩
abbrev main_v349 : Ref sig .tc := ⟨.hbm, 437, rfl⟩
abbrev main_cst_57 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_call12_cst : Ref sig .tc := ⟨.hbm, 449, rfl⟩
abbrev main_call12_v0 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_v366 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_v375 : Ref sig .tc := ⟨.hbm, 466, rfl⟩
abbrev main_v376 : Ref sig .tc := ⟨.hbm, 467, rfl⟩
abbrev main_v377 : Ref sig .tc := ⟨.hbm, 468, rfl⟩
abbrev main_v378 : Ref sig .tc := ⟨.hbm, 469, rfl⟩
abbrev main_call13_cst : Ref sig .tc := ⟨.hbm, 470, rfl⟩
abbrev main_call13_v0 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_v383 : Ref sig .tc := ⟨.hbm, 476, rfl⟩
abbrev main_v384 : Ref sig .tc := ⟨.hbm, 477, rfl⟩
abbrev main_v385 : Ref sig .tc := ⟨.hbm, 478, rfl⟩
abbrev main_v386 : Ref sig .tc := ⟨.hbm, 479, rfl⟩
abbrev main_v387 : Ref sig .tc := ⟨.hbm, 480, rfl⟩
abbrev main_v388 : Ref sig .tc := ⟨.hbm, 481, rfl⟩
abbrev main_v389 : Ref sig .tc := ⟨.hbm, 482, rfl⟩
abbrev main_v390 : Ref sig .tc := ⟨.hbm, 483, rfl⟩
abbrev main_v391 : Ref sig .tc := ⟨.hbm, 484, rfl⟩
abbrev main_cst_58 : Ref sig .tc := ⟨.hbm, 485, rfl⟩
abbrev main_v392 : Ref sig .tc := ⟨.hbm, 486, rfl⟩
abbrev main_v393 : Ref sig .tc := ⟨.hbm, 487, rfl⟩
abbrev main_cst_59 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_c_60 : Ref sig .tc := ⟨.hbm, 494, rfl⟩
abbrev main_v399 : Ref sig .tc := ⟨.hbm, 495, rfl⟩
abbrev main_v400 : Ref sig .tc := ⟨.hbm, 496, rfl⟩
abbrev main_v401 : Ref sig .tc := ⟨.hbm, 497, rfl⟩
abbrev main_v402 : Ref sig .tc := ⟨.hbm, 498, rfl⟩
abbrev main_v403 : Ref sig .tc := ⟨.hbm, 499, rfl⟩
abbrev main_cst_61 : Ref sig .tc := ⟨.hbm, 500, rfl⟩
abbrev main_v404 : Ref sig .tc := ⟨.hbm, 501, rfl⟩
abbrev main_cst_62 : Ref sig .tc := ⟨.hbm, 502, rfl⟩
abbrev main_v405 : Ref sig .tc := ⟨.hbm, 503, rfl⟩
abbrev main_v406 : Ref sig .tc := ⟨.hbm, 504, rfl⟩
abbrev main_cst_63 : Ref sig .tc := ⟨.hbm, 505, rfl⟩
abbrev main_v407 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_v411 : Ref sig .tc := ⟨.hbm, 510, rfl⟩
abbrev main_v412 : Ref sig .tc := ⟨.hbm, 511, rfl⟩
abbrev main_v413 : Ref sig .tc := ⟨.hbm, 512, rfl⟩
abbrev main_v414 : Ref sig .tc := ⟨.hbm, 513, rfl⟩
abbrev main_v415 : Ref sig .tc := ⟨.hbm, 514, rfl⟩
abbrev main_v416 : Ref sig .tc := ⟨.hbm, 515, rfl⟩
abbrev main_call14_cst : Ref sig .tc := ⟨.hbm, 516, rfl⟩
abbrev main_call14_v0 : Ref sig .tc := ⟨.hbm, 517, rfl⟩
abbrev main_v417 : Ref sig .tc := ⟨.hbm, 518, rfl⟩
abbrev main_v418 : Ref sig .tc := ⟨.hbm, 519, rfl⟩
abbrev main_v419 : Ref sig .tc := ⟨.hbm, 520, rfl⟩
abbrev main_v420 : Ref sig .tc := ⟨.hbm, 521, rfl⟩
abbrev main_v421 : Ref sig .tc := ⟨.hbm, 522, rfl⟩
abbrev main_v422 : Ref sig .tc := ⟨.hbm, 523, rfl⟩
abbrev main_v423 : Ref sig .tc := ⟨.hbm, 524, rfl⟩
abbrev main_v424 : Ref sig .tc := ⟨.hbm, 525, rfl⟩
abbrev main_v425 : Ref sig .tc := ⟨.hbm, 526, rfl⟩
abbrev main_v426 : Ref sig .tc := ⟨.hbm, 527, rfl⟩
abbrev main_v427 : Ref sig .tc := ⟨.hbm, 528, rfl⟩
abbrev main_v428 : Ref sig .tc := ⟨.hbm, 529, rfl⟩
abbrev main_v429 : Ref sig .tc := ⟨.hbm, 530, rfl⟩
abbrev main_v430 : Ref sig .tc := ⟨.hbm, 531, rfl⟩
abbrev main_v431 : Ref sig .tc := ⟨.hbm, 532, rfl⟩
abbrev main_v432 : Ref sig .tc := ⟨.hbm, 533, rfl⟩
abbrev main_v433 : Ref sig .tc := ⟨.hbm, 534, rfl⟩
abbrev main_v434 : Ref sig .tc := ⟨.hbm, 535, rfl⟩
abbrev main_v435 : Ref sig .tc := ⟨.hbm, 536, rfl⟩
abbrev main_call15_cst : Ref sig .tc := ⟨.hbm, 537, rfl⟩
abbrev main_call15_v0 : Ref sig .tc := ⟨.hbm, 538, rfl⟩
abbrev main_v436 : Ref sig .tc := ⟨.hbm, 539, rfl⟩
abbrev main_v437 : Ref sig .tc := ⟨.hbm, 540, rfl⟩
abbrev main_v438 : Ref sig .tc := ⟨.hbm, 541, rfl⟩
abbrev main_v439 : Ref sig .tc := ⟨.hbm, 542, rfl⟩
abbrev main_v440 : Ref sig .tc := ⟨.hbm, 543, rfl⟩
abbrev main_v441 : Ref sig .tc := ⟨.hbm, 544, rfl⟩
abbrev main_v442 : Ref sig .tc := ⟨.hbm, 545, rfl⟩
abbrev main_v443 : Ref sig .tc := ⟨.hbm, 546, rfl⟩
abbrev main_v444 : Ref sig .tc := ⟨.hbm, 547, rfl⟩
abbrev main_v445 : Ref sig .tc := ⟨.hbm, 548, rfl⟩
abbrev main_v446 : Ref sig .tc := ⟨.hbm, 549, rfl⟩
abbrev main_v447 : Ref sig .tc := ⟨.hbm, 550, rfl⟩
abbrev main_v448 : Ref sig .tc := ⟨.hbm, 551, rfl⟩
abbrev main_cst_64 : Ref sig .tc := ⟨.hbm, 552, rfl⟩
abbrev main_v449 : Ref sig .tc := ⟨.hbm, 553, rfl⟩
abbrev main_v450 : Ref sig .tc := ⟨.hbm, 554, rfl⟩
abbrev main_cst_65 : Ref sig .tc := ⟨.hbm, 555, rfl⟩
abbrev main_v451 : Ref sig .tc := ⟨.hbm, 556, rfl⟩
abbrev main_v452 : Ref sig .tc := ⟨.hbm, 557, rfl⟩
abbrev main_v453 : Ref sig .tc := ⟨.hbm, 558, rfl⟩
abbrev main_v454 : Ref sig .tc := ⟨.hbm, 559, rfl⟩
abbrev main_v455 : Ref sig .tc := ⟨.hbm, 560, rfl⟩
abbrev main_c_66 : Ref sig .tc := ⟨.hbm, 561, rfl⟩
abbrev main_v456 : Ref sig .tc := ⟨.hbm, 562, rfl⟩
abbrev main_v457 : Ref sig .tc := ⟨.hbm, 563, rfl⟩
abbrev main_v458 : Ref sig .tc := ⟨.hbm, 564, rfl⟩
abbrev main_v459 : Ref sig .tc := ⟨.hbm, 565, rfl⟩
abbrev main_v460 : Ref sig .tc := ⟨.hbm, 566, rfl⟩
abbrev main_cst_67 : Ref sig .tc := ⟨.hbm, 567, rfl⟩
abbrev main_v461 : Ref sig .tc := ⟨.hbm, 568, rfl⟩
abbrev main_cst_68 : Ref sig .tc := ⟨.hbm, 569, rfl⟩
abbrev main_v462 : Ref sig .tc := ⟨.hbm, 570, rfl⟩
abbrev main_v463 : Ref sig .tc := ⟨.hbm, 571, rfl⟩
abbrev main_cst_69 : Ref sig .tc := ⟨.hbm, 572, rfl⟩
abbrev main_v464 : Ref sig .tc := ⟨.hbm, 573, rfl⟩
abbrev main_v465 : Ref sig .tc := ⟨.hbm, 574, rfl⟩
abbrev main_v466 : Ref sig .tc := ⟨.hbm, 575, rfl⟩
abbrev main_v467 : Ref sig .tc := ⟨.hbm, 576, rfl⟩
abbrev main_v468 : Ref sig .tc := ⟨.hbm, 577, rfl⟩
abbrev main_v469 : Ref sig .tc := ⟨.hbm, 578, rfl⟩
abbrev main_v470 : Ref sig .tc := ⟨.hbm, 579, rfl⟩
abbrev main_v471 : Ref sig .tc := ⟨.hbm, 580, rfl⟩
abbrev main_v472 : Ref sig .tc := ⟨.hbm, 581, rfl⟩
abbrev main_v473 : Ref sig .tc := ⟨.hbm, 582, rfl⟩
abbrev main_call16_cst : Ref sig .tc := ⟨.hbm, 583, rfl⟩
abbrev main_call16_v0 : Ref sig .tc := ⟨.hbm, 584, rfl⟩
abbrev main_v474 : Ref sig .tc := ⟨.hbm, 585, rfl⟩
abbrev main_v475 : Ref sig .tc := ⟨.hbm, 586, rfl⟩
abbrev main_v476 : Ref sig .tc := ⟨.hbm, 587, rfl⟩
abbrev main_v477 : Ref sig .tc := ⟨.hbm, 588, rfl⟩
abbrev main_v478 : Ref sig .tc := ⟨.hbm, 589, rfl⟩
abbrev main_v479 : Ref sig .tc := ⟨.hbm, 590, rfl⟩
abbrev main_v480 : Ref sig .tc := ⟨.hbm, 591, rfl⟩
abbrev main_v481 : Ref sig .tc := ⟨.hbm, 592, rfl⟩
abbrev main_v482 : Ref sig .tc := ⟨.hbm, 593, rfl⟩
abbrev main_v483 : Ref sig .tc := ⟨.hbm, 594, rfl⟩
abbrev main_v484 : Ref sig .tc := ⟨.hbm, 595, rfl⟩
abbrev main_v485 : Ref sig .tc := ⟨.hbm, 596, rfl⟩
abbrev main_v486 : Ref sig .tc := ⟨.hbm, 597, rfl⟩
abbrev main_v487 : Ref sig .tc := ⟨.hbm, 598, rfl⟩
abbrev main_v488 : Ref sig .tc := ⟨.hbm, 599, rfl⟩
abbrev main_v489 : Ref sig .tc := ⟨.hbm, 600, rfl⟩
abbrev main_v490 : Ref sig .tc := ⟨.hbm, 601, rfl⟩
abbrev main_v491 : Ref sig .tc := ⟨.hbm, 602, rfl⟩
abbrev main_v492 : Ref sig .tc := ⟨.hbm, 603, rfl⟩
abbrev main_call17_cst : Ref sig .tc := ⟨.hbm, 604, rfl⟩
abbrev main_call17_v0 : Ref sig .tc := ⟨.hbm, 605, rfl⟩
abbrev main_v493 : Ref sig .tc := ⟨.hbm, 606, rfl⟩
abbrev main_v494 : Ref sig .tc := ⟨.hbm, 607, rfl⟩
abbrev main_v495 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_v499 : Ref sig .tc := ⟨.hbm, 612, rfl⟩
abbrev main_v500 : Ref sig .tc := ⟨.hbm, 613, rfl⟩
abbrev main_v501 : Ref sig .tc := ⟨.hbm, 614, rfl⟩
abbrev main_v502 : Ref sig .tc := ⟨.hbm, 615, rfl⟩
abbrev main_v503 : Ref sig .tc := ⟨.hbm, 616, rfl⟩
abbrev main_v504 : Ref sig .tc := ⟨.hbm, 617, rfl⟩
abbrev main_v505 : Ref sig .tc := ⟨.hbm, 618, rfl⟩
abbrev main_cst_70 : Ref sig .tc := ⟨.hbm, 619, rfl⟩
abbrev main_v506 : Ref sig .tc := ⟨.hbm, 620, rfl⟩
abbrev main_v507 : Ref sig .tc := ⟨.hbm, 621, rfl⟩
abbrev main_cst_71 : Ref sig .tc := ⟨.hbm, 622, rfl⟩
abbrev main_v508 : Ref sig .tc := ⟨.hbm, 623, rfl⟩
abbrev main_v509 : Ref sig .tc := ⟨.hbm, 624, rfl⟩
abbrev main_v510 : Ref sig .tc := ⟨.hbm, 625, rfl⟩
abbrev main_v511 : Ref sig .tc := ⟨.hbm, 626, rfl⟩
abbrev main_v512 : Ref sig .tc := ⟨.hbm, 627, rfl⟩
abbrev main_c_72 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_v516 : Ref sig .tc := ⟨.hbm, 632, rfl⟩
abbrev main_v517 : Ref sig .tc := ⟨.hbm, 633, rfl⟩
abbrev main_cst_73 : Ref sig .tc := ⟨.hbm, 634, rfl⟩
abbrev main_v518 : Ref sig .tc := ⟨.hbm, 635, rfl⟩
abbrev main_cst_74 : Ref sig .tc := ⟨.hbm, 636, rfl⟩
abbrev main_v519 : Ref sig .tc := ⟨.hbm, 637, rfl⟩
abbrev main_v520 : Ref sig .tc := ⟨.hbm, 638, rfl⟩
abbrev main_cst_75 : Ref sig .tc := ⟨.hbm, 639, rfl⟩
abbrev main_v521 : Ref sig .tc := ⟨.hbm, 640, rfl⟩
abbrev main_v522 : Ref sig .tc := ⟨.hbm, 641, rfl⟩
abbrev main_v523 : Ref sig .tc := ⟨.hbm, 642, rfl⟩
abbrev main_v524 : Ref sig .tc := ⟨.hbm, 643, rfl⟩
abbrev main_v525 : Ref sig .tc := ⟨.hbm, 644, rfl⟩
abbrev main_v526 : Ref sig .tc := ⟨.hbm, 645, rfl⟩
abbrev main_v527 : Ref sig .tc := ⟨.hbm, 646, rfl⟩
abbrev main_v528 : Ref sig .tc := ⟨.hbm, 647, rfl⟩
abbrev main_v529 : Ref sig .tc := ⟨.hbm, 648, rfl⟩
abbrev main_v530 : Ref sig .tc := ⟨.hbm, 649, rfl⟩
abbrev main_call18_cst : Ref sig .tc := ⟨.hbm, 650, rfl⟩
abbrev main_call18_v0 : Ref sig .tc := ⟨.hbm, 651, rfl⟩
abbrev main_v531 : Ref sig .tc := ⟨.hbm, 652, rfl⟩
abbrev main_v532 : Ref sig .tc := ⟨.hbm, 653, rfl⟩
abbrev main_v533 : Ref sig .tc := ⟨.hbm, 654, rfl⟩
abbrev main_v534 : Ref sig .tc := ⟨.hbm, 655, rfl⟩
abbrev main_v535 : Ref sig .tc := ⟨.hbm, 656, rfl⟩
abbrev main_v536 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_v545 : Ref sig .tc := ⟨.hbm, 666, rfl⟩
abbrev main_v546 : Ref sig .tc := ⟨.hbm, 667, rfl⟩
abbrev main_v547 : Ref sig .tc := ⟨.hbm, 668, rfl⟩
abbrev main_v548 : Ref sig .tc := ⟨.hbm, 669, rfl⟩
abbrev main_v549 : Ref sig .tc := ⟨.hbm, 670, rfl⟩
abbrev main_call19_cst : Ref sig .tc := ⟨.hbm, 671, rfl⟩
abbrev main_call19_v0 : Ref sig .tc := ⟨.hbm, 672, rfl⟩
abbrev main_v550 : Ref sig .tc := ⟨.hbm, 673, rfl⟩
abbrev main_v551 : Ref sig .tc := ⟨.hbm, 674, rfl⟩
abbrev main_v552 : Ref sig .tc := ⟨.hbm, 675, rfl⟩
abbrev main_v553 : Ref sig .tc := ⟨.hbm, 676, rfl⟩
abbrev main_v554 : Ref sig .tc := ⟨.hbm, 677, rfl⟩
abbrev main_v555 : Ref sig .tc := ⟨.hbm, 678, rfl⟩
abbrev main_v556 : Ref sig .tc := ⟨.hbm, 679, rfl⟩
abbrev main_v557 : Ref sig .tc := ⟨.hbm, 680, rfl⟩
abbrev main_v558 : Ref sig .tc := ⟨.hbm, 681, rfl⟩
abbrev main_v559 : Ref sig .tc := ⟨.hbm, 682, rfl⟩
abbrev main_v560 : Ref sig .tc := ⟨.hbm, 683, rfl⟩
abbrev main_v561 : Ref sig .tc := ⟨.hbm, 684, rfl⟩
abbrev main_v562 : Ref sig .tc := ⟨.hbm, 685, rfl⟩
abbrev main_cst_76 : Ref sig .tc := ⟨.hbm, 686, rfl⟩
abbrev main_v563 : Ref sig .tc := ⟨.hbm, 687, rfl⟩
abbrev main_v564 : Ref sig .tc := ⟨.hbm, 688, rfl⟩
abbrev main_cst_77 : Ref sig .tc := ⟨.hbm, 689, rfl⟩
abbrev main_v565 : Ref sig .tc := ⟨.hbm, 690, rfl⟩
abbrev main_v566 : Ref sig .tc := ⟨.hbm, 691, rfl⟩
abbrev main_v567 : Ref sig .tc := ⟨.hbm, 692, rfl⟩
abbrev main_v568 : Ref sig .tc := ⟨.hbm, 693, rfl⟩
abbrev main_v569 : Ref sig .tc := ⟨.hbm, 694, rfl⟩
abbrev main_v570 : Ref sig .tc := ⟨.hbm, 695, rfl⟩

abbrev nD : Nat := 1
abbrev τ : Topo := Topo.v7x

variable {F : FTy → Type} [FloatOps F]

class Facts₀ : Prop where
  bcast_S_S5 : S_.BroadcastsInDim S5 (![] : Fin 0 → Fin S5.rank)
  bcast_S5_S5x1_0 : S5.BroadcastsInDim S5x1 (![0] : Fin 1 → Fin S5x1.rank)
  reducesTo_S64x256x64x5_S64x256_d2_3 : S64x256x64x5.ReducesTo [2, 3] S64x256
  h_S_ : 0 < S_.numel
  bcast_S_S64x256 : S_.BroadcastsInDim S64x256 (![] : Fin 0 → Fin S64x256.rank)
  slices_S10x16x256_S1x16x256_0_0_0 : S10x16x256.Slices ![0, 0, 0] S1x16x256
  shapeCasts_S1x16x256_S16x256 : S1x16x256.ShapeCasts S16x256
  transposes_S16x256_S256x16_1_0 : S16x256.Transposes [1, 0] S256x16
  slices_S10x16_S1x16_0_0 : S10x16.Slices ![0, 0] S1x16
  shapeCasts_S1x16_S16 : S1x16.ShapeCasts S16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  slices_S10x256x16_S1x256x16_0_0_0 : S10x256x16.Slices ![0, 0, 0] S1x256x16
  shapeCasts_S1x256x16_S256x16 : S1x256x16.ShapeCasts S256x16
  transposes_S256x16_S16x256_1_0 : S256x16.Transposes [1, 0] S16x256
  slices_S10x256_S1x256_0_0 : S10x256.Slices ![0, 0] S1x256
  shapeCasts_S1x256_S256 : S1x256.ShapeCasts S256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x64x5_0_1_2_3 : S64x256x1x1.BroadcastsInDim S64x256x64x5 (![0, 1, 2, 3] : Fin 4 → Fin S64x256x64x5.rank)
  bcast_S_S6 : S_.BroadcastsInDim S6 (![] : Fin 0 → Fin S6.rank)
  bcast_S6_S6x1_0 : S6.BroadcastsInDim S6x1 (![0] : Fin 1 → Fin S6x1.rank)
  reducesTo_S64x256x64x6_S64x256_d2_3 : S64x256x64x6.ReducesTo [2, 3] S64x256
  slices_S10x16x256_S1x16x256_1_0_0 : S10x16x256.Slices ![1, 0, 0] S1x16x256
  slices_S10x16_S1x16_1_0 : S10x16.Slices ![1, 0] S1x16
  slices_S10x256x16_S1x256x16_1_0_0 : S10x256x16.Slices ![1, 0, 0] S1x256x16
  slices_S10x256_S1x256_1_0 : S10x256.Slices ![1, 0] S1x256
  bcast_S64x256x1x1_S64x256x64x6_0_1_2_3 : S64x256x1x1.BroadcastsInDim S64x256x64x6 (![0, 1, 2, 3] : Fin 4 → Fin S64x256x64x6.rank)
  bcast_S_S4 : S_.BroadcastsInDim S4 (![] : Fin 0 → Fin S4.rank)
  bcast_S4_S4x1_0 : S4.BroadcastsInDim S4x1 (![0] : Fin 1 → Fin S4x1.rank)
  reducesTo_S64x256x64x4_S64x256_d2_3 : S64x256x64x4.ReducesTo [2, 3] S64x256
  slices_S10x16x256_S1x16x256_2_0_0 : S10x16x256.Slices ![2, 0, 0] S1x16x256
  slices_S10x16_S1x16_2_0 : S10x16.Slices ![2, 0] S1x16
  slices_S10x256x16_S1x256x16_2_0_0 : S10x256x16.Slices ![2, 0, 0] S1x256x16
  slices_S10x256_S1x256_2_0 : S10x256.Slices ![2, 0] S1x256
  bcast_S64x256x1x1_S64x256x64x4_0_1_2_3 : S64x256x1x1.BroadcastsInDim S64x256x64x4 (![0, 1, 2, 3] : Fin 4 → Fin S64x256x64x4.rank)
  slices_S10x16x256_S1x16x256_3_0_0 : S10x16x256.Slices ![3, 0, 0] S1x16x256
  slices_S10x16_S1x16_3_0 : S10x16.Slices ![3, 0] S1x16
  slices_S10x256x16_S1x256x16_3_0_0 : S10x256x16.Slices ![3, 0, 0] S1x256x16
  slices_S10x256_S1x256_3_0 : S10x256.Slices ![3, 0] S1x256
  slices_S10x16x256_S1x16x256_4_0_0 : S10x16x256.Slices ![4, 0, 0] S1x16x256
  slices_S10x16_S1x16_4_0 : S10x16.Slices ![4, 0] S1x16
  slices_S10x256x16_S1x256x16_4_0_0 : S10x256x16.Slices ![4, 0, 0] S1x256x16
  slices_S10x256_S1x256_4_0 : S10x256.Slices ![4, 0] S1x256
  slices_S10x16x256_S1x16x256_5_0_0 : S10x16x256.Slices ![5, 0, 0] S1x16x256
  slices_S10x16_S1x16_5_0 : S10x16.Slices ![5, 0] S1x16
  slices_S10x256x16_S1x256x16_5_0_0 : S10x256x16.Slices ![5, 0, 0] S1x256x16
  slices_S10x256_S1x256_5_0 : S10x256.Slices ![5, 0] S1x256
  slices_S10x16x256_S1x16x256_6_0_0 : S10x16x256.Slices ![6, 0, 0] S1x16x256
  slices_S10x16_S1x16_6_0 : S10x16.Slices ![6, 0] S1x16
  slices_S10x256x16_S1x256x16_6_0_0 : S10x256x16.Slices ![6, 0, 0] S1x256x16
  slices_S10x256_S1x256_6_0 : S10x256.Slices ![6, 0] S1x256
  slices_S10x16x256_S1x16x256_7_0_0 : S10x16x256.Slices ![7, 0, 0] S1x16x256
  slices_S10x16_S1x16_7_0 : S10x16.Slices ![7, 0] S1x16
  slices_S10x256x16_S1x256x16_7_0_0 : S10x256x16.Slices ![7, 0, 0] S1x256x16
  slices_S10x256_S1x256_7_0 : S10x256.Slices ![7, 0] S1x256
  slices_S10x16x256_S1x16x256_8_0_0 : S10x16x256.Slices ![8, 0, 0] S1x16x256
  slices_S10x16_S1x16_8_0 : S10x16.Slices ![8, 0] S1x16
  slices_S10x256x16_S1x256x16_8_0_0 : S10x256x16.Slices ![8, 0, 0] S1x256x16
  slices_S10x256_S1x256_8_0 : S10x256.Slices ![8, 0] S1x256
  slices_S10x16x256_S1x16x256_9_0_0 : S10x16x256.Slices ![9, 0, 0] S1x16x256
  slices_S10x16_S1x16_9_0 : S10x16.Slices ![9, 0] S1x16
  slices_S10x256x16_S1x256x16_9_0_0 : S10x256x16.Slices ![9, 0, 0] S1x256x16
  slices_S10x256_S1x256_9_0 : S10x256.Slices ![9, 0] S1x256
  concatenates_S64x256x64x5_S64x256x64x6_S64x256x64x4_S64x256x64x6_S64x256x64x4_S64x256x64x5_S64x256x64x6_S64x256x64x4_S64x256x64x6_S64x256x64x4_S64x256x64x50_d3 : Shape.Concatenates [S64x256x64x5, S64x256x64x6, S64x256x64x4, S64x256x64x6, S64x256x64x4, S64x256x64x5, S64x256x64x6, S64x256x64x4, S64x256x64x6, S64x256x64x4] S64x256x64x50 3
  gather_S64x256x64x50_S5x1_S64x256x64x5_012_3_n_n_3_1_64256641_wf : GatherDims.WF S64x256x64x50 S5x1 S64x256x64x5 [0, 1, 2] [3] [] [3] [] 1 ![64, 256, 64, 1]
  dot_S64x256_S256x16_S64x16_1_0_0_1_n_n_wf : DotDims.WF S64x256 S256x16 S64x16 [1] [0] [0] [1] [] []
  dot_S64x16_S16x256_S64x256_1_0_0_1_n_n_wf : DotDims.WF S64x16 S16x256 S64x256 [1] [0] [0] [1] [] []
  gather_S64x256x64x50_S6x1_S64x256x64x6_012_3_n_n_3_1_64256641_wf : GatherDims.WF S64x256x64x50 S6x1 S64x256x64x6 [0, 1, 2] [3] [] [3] [] 1 ![64, 256, 64, 1]
  gather_S64x256x64x50_S4x1_S64x256x64x4_012_3_n_n_3_1_64256641_wf : GatherDims.WF S64x256x64x50 S4x1 S64x256x64x4 [0, 1, 2] [3] [] [3] [] 1 ![64, 256, 64, 1]

variable [Facts₀]

def gather_S64x256x64x50_S5x1_S64x256x64x5_012_3_n_n_3_1_64256641 : GatherDims S64x256x64x50 S5x1 S64x256x64x5 where
  offsetDims := [0, 1, 2]
  collapsedSliceDims := [3]
  operandBatchingDims := []
  startIndicesBatchingDims := []
  startIndexMap := [3]
  indexVectorDim := 1
  sliceSizes := ![64, 256, 64, 1]
  wf := gather_S64x256x64x50_S5x1_S64x256x64x5_012_3_n_n_3_1_64256641_wf
def dot_S64x256_S256x16_S64x16_1_0_0_1_n_n : DotDims S64x256 S256x16 S64x16 where
  lhsContracting := [1]
  rhsContracting := [0]
  lhsNonContracting := [0]
  rhsNonContracting := [1]
  lhsBatch := []
  rhsBatch := []
  wf := dot_S64x256_S256x16_S64x16_1_0_0_1_n_n_wf
def dot_S64x16_S16x256_S64x256_1_0_0_1_n_n : DotDims S64x16 S16x256 S64x256 where
  lhsContracting := [1]
  rhsContracting := [0]
  lhsNonContracting := [0]
  rhsNonContracting := [1]
  lhsBatch := []
  rhsBatch := []
  wf := dot_S64x16_S16x256_S64x256_1_0_0_1_n_n_wf
def gather_S64x256x64x50_S6x1_S64x256x64x6_012_3_n_n_3_1_64256641 : GatherDims S64x256x64x50 S6x1 S64x256x64x6 where
  offsetDims := [0, 1, 2]
  collapsedSliceDims := [3]
  operandBatchingDims := []
  startIndicesBatchingDims := []
  startIndexMap := [3]
  indexVectorDim := 1
  sliceSizes := ![64, 256, 64, 1]
  wf := gather_S64x256x64x50_S6x1_S64x256x64x6_012_3_n_n_3_1_64256641_wf
def gather_S64x256x64x50_S4x1_S64x256x64x4_012_3_n_n_3_1_64256641 : GatherDims S64x256x64x50 S4x1 S64x256x64x4 where
  offsetDims := [0, 1, 2]
  collapsedSliceDims := [3]
  operandBatchingDims := []
  startIndicesBatchingDims := []
  startIndexMap := [3]
  indexVectorDim := 1
  sliceSizes := ![64, 256, 64, 1]
  wf := gather_S64x256x64x50_S4x1_S64x256x64x4_012_3_n_n_3_1_64256641_wf

class Facts : Prop extends Facts₀ where

variable [Facts]
-- ==== Proof.Spec.lean ====
/-
  The function both programs compute, stated once over literal shapes and free of either program's text.

  The input `x` is an array over (sample n, channel c, frame t, joint v) of extents N × 256 × 64 × 50: every
  definition below treats the samples independently, so the number `N` of samples is a parameter (the whole
  array has 64 samples; one grid point of the kernel sees one). The fifty
  joints are divided into ten body parts (`joints p`: five groups for the first person, the same five shifted by 25
  for the second); the output lays the parts side by side in that order, so output column `j` shows joint
  `joint j` of part `part j`.

  For a part `p`, a sample and a channel: the pooled mean is the sum of `x` over all frames and the part's joints
  times `1 / (64 · k)` (`k` the number of joints: `cnt p = 64 · k`), the pooled maximum is the maximum over the same
  entries. Each pooled vector (one entry per channel) goes through the part's two-layer map
  `v ↦ W2 · max (W1 · v + b1, 0) + b2` (hidden width 16); the gate is the logistic function of the sum of the two
  results. The output entry is the input entry times its part's gate at that sample and channel.

  Everything is an extended real: sums and maxima of finitely many extended reals regroup freely (addition and
  `max` are commutative and associative there), which is all that joins the two programs' orders of evaluation.
-/
import Idealize.ShloMosaic.PureOps.Ideal
import Idealize.ShloMosaic.Lib.ValueIdx

noncomputable section

namespace Cert.Spec

open Idealize.ShloMosaic Idealize.ShloMosaic.ValueIdx

/-- The input and output arrays of `N` samples: sample × channel × frame × joint. -/
abbrev TX (N : Nat) := FVec Ideal (⟨4, ![N, 256, 64, 50]⟩ : Shape) .f32
/-- First-layer weights: part × hidden × channel. -/
abbrev TW1 := FVec Ideal (⟨3, ![10, 16, 256]⟩ : Shape) .f32
/-- First-layer biases: part × hidden. -/
abbrev TB1 := FVec Ideal (⟨2, ![10, 16]⟩ : Shape) .f32
/-- Second-layer weights: part × channel × hidden. -/
abbrev TW2 := FVec Ideal (⟨3, ![10, 256, 16]⟩ : Shape) .f32
/-- Second-layer biases: part × channel. -/
abbrev TB2 := FVec Ideal (⟨2, ![10, 256]⟩ : Shape) .f32

/-- The joints of body part `p`, in the order they are laid out in the output. -/
def joints (p : Fin 10) : List (Fin 50) :=
  ![[0, 1, 2, 3, 20], [8, 9, 10, 11, 23, 24], [16, 17, 18, 19], [4, 5, 6, 7, 21, 22], [12, 13, 14, 15],
    [25, 26, 27, 28, 45], [33, 34, 35, 36, 48, 49], [41, 42, 43, 44], [29, 30, 31, 32, 46, 47], [37, 38, 39, 40]] p

/-- The joint shown in output column `j`: the parts' joint lists laid end to end. -/
def joint (j : Fin 50) : Fin 50 :=
  ![0, 1, 2, 3, 20, 8, 9, 10, 11, 23, 24, 16, 17, 18, 19, 4, 5, 6, 7, 21, 22, 12, 13, 14, 15,
    25, 26, 27, 28, 45, 33, 34, 35, 36, 48, 49, 41, 42, 43, 44, 29, 30, 31, 32, 46, 47, 37, 38, 39, 40] j

/-- The body part output column `j` belongs to (the parts have 5, 6, 4, 6, 4, 5, 6, 4, 6, 4 columns). -/
def part (j : Fin 50) : Fin 10 :=
  ![0, 0, 0, 0, 0, 1, 1, 1, 1, 1, 1, 2, 2, 2, 2, 3, 3, 3, 3, 3, 3, 4, 4, 4, 4,
    5, 5, 5, 5, 5, 6, 6, 6, 6, 6, 6, 7, 7, 7, 7, 8, 8, 8, 8, 8, 8, 9, 9, 9, 9] j

/-- The number of entries pooled for part `p`: 64 frames times its number of joints. -/
def cnt (p : Fin 10) : ℝ := ![320, 384, 256, 384, 256, 320, 384, 256, 384, 256] p

/-- The sum of `x` over the 64 frames, at one sample, channel and joint. -/
def colSum {N : Nat} (x : TX N) (n : Fin N) (c : Fin 256) (v : Fin 50) : EReal := ∑ t : Fin 64, x (ix4 n c t v)

/-- The maximum of `x` over the 64 frames, at one sample, channel and joint. -/
def colMax {N : Nat} (x : TX N) (n : Fin N) (c : Fin 256) (v : Fin 50) : EReal := Finset.univ.sup fun t : Fin 64 => x (ix4 n c t v)

/-- The sum of `x` over all frames and the joints of part `p`. -/
def poolSum {N : Nat} (x : TX N) (p : Fin 10) (n : Fin N) (c : Fin 256) : EReal := ((joints p).map (colSum x n c)).sum

/-- The maximum of `x` over all frames and the joints of part `p`. -/
def poolMax {N : Nat} (x : TX N) (p : Fin 10) (n : Fin N) (c : Fin 256) : EReal :=
  (joints p).foldr (fun v acc => max (colMax x n c v) acc) ⊥

/-- The mean of `x` over all frames and the joints of part `p`: the sum times `1 / (64 · k)`. -/
def poolAvg {N : Nat} (x : TX N) (p : Fin 10) (n : Fin N) (c : Fin 256) : EReal := poolSum x p n c * ((1 / cnt p : ℝ) : EReal)

/-- The hidden layer of part `p`'s map on a pooled vector: `max (W1 · v + b1, 0)` at hidden unit `h`. -/
def hidden (W1 : TW1) (b1 : TB1) (p : Fin 10) (v : Fin 256 → EReal) (h : Fin 16) : EReal :=
  max ((∑ c : Fin 256, v c * W1 (ix3 p h c)) + b1 (ix2 p h)) 0

/-- Part `p`'s two-layer map on a pooled vector, at channel `c`: `W2 · hidden + b2`. -/
def mlp (W1 : TW1) (b1 : TB1) (W2 : TW2) (b2 : TB2) (p : Fin 10) (v : Fin 256 → EReal) (c : Fin 256) : EReal :=
  (∑ h : Fin 16, hidden W1 b1 p v h * W2 (ix3 p c h)) + b2 (ix2 p c)

/-- The gate of part `p` at a sample and a channel: the logistic function of the two pooled vectors' images. -/
def gate {N : Nat} (x : TX N) (W1 : TW1) (b1 : TB1) (W2 : TW2) (b2 : TB2) (p : Fin 10) (n : Fin N) (c : Fin 256) : EReal :=
  Ideal.logistic (mlp W1 b1 W2 b2 p (poolAvg x p n) c + mlp W1 b1 W2 b2 p (poolMax x p n) c)

/-- The result: output column `j` is joint `joint j` of the input, scaled by the gate of part `part j`. -/
def G {N : Nat} (x : TX N) (W1 : TW1) (b1 : TB1) (W2 : TW2) (b2 : TB2) : TX N := fun i =>
  x (ix4 (i 0) (i 1) (i 2) (joint (i 3))) * gate x W1 b1 W2 b2 (part (i 3)) (i 0) (i 1)

end Cert.Spec

end
-- ==== Proof.KerClaims.lean ====
/-
  The three conjuncts that concern the kernel alone.

  The two frame conjuncts — under the precondition every weakly fair execution of the kernel terminates without a
  fault and leaves its argument arrays unchanged, at the word level and at the exact-real level — are the
  generated frame certificates, which hold for every launch memory.

  The idealization replaced six occurrences of two constants by named values: the single-precision words nearest
  to 1/320 and 1/384 (the reciprocals of the 320 and 384 entries pooled for a body part of five and of six joints)
  are read as exactly 1/320 and 1/384. Each occurrence contributes one conjunct: the name's value in the
  certificate's table is that rational.
-/
import proofs.«140205_j1228360647386_2_alg».proof.Defs
import proofs.«140205_j1228360647386_2_alg».proof.Proof.Gen.Kernel
import proofs.«140205_j1228360647386_2_alg».proof.Proof.Gen.Kernel.Frame
import proofs.«140205_j1228360647386_2_alg».proof.Proof.Gen.KernelIdeal
import proofs.«140205_j1228360647386_2_alg».proof.Proof.Gen.KernelIdeal.Frame
import proofs.«140205_j1228360647386_2_alg».proof.Proof.Gen.Pre_finite_inputs

noncomputable section

namespace Cert.Proof.KerClaims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The name `inv_320` stands for 1/320 in the certificate's table. -/
theorem inv_320 : IdealRules.named_const.Statement Cert.KernelIdeal.κ "inv_320" .f32 0x3B4CCCCD#32 ((1 / 320 : ℝ) : EReal) :=
  IdealRules.named_const.statement Cert.KernelIdeal.κ "inv_320" .f32 0x3B4CCCCD#32 ((1 / 320 : ℝ) : EReal) rfl

/-- The name `inv_384` stands for 1/384 in the certificate's table. -/
theorem inv_384 : IdealRules.named_const.Statement Cert.KernelIdeal.κ "inv_384" .f32 0x3B2AAAAB#32 ((1 / 384 : ℝ) : EReal) :=
  IdealRules.named_const.statement Cert.KernelIdeal.κ "inv_384" .f32 0x3B2AAAAB#32 ((1 / 384 : ℝ) : EReal) rfl

/-- One conjunct per named occurrence, in the order of the parts that use them (5, 6, 6, 5, 6, 6 joints). -/
theorem preserves : Cert.preserves_Kernel_KernelIdeal :=
  ⟨inv_320, inv_384, inv_384, inv_320, inv_384, inv_384⟩

end Cert.Proof.KerClaims

end
-- ==== Proof.KerBlocks.lean ====
/-
  Where the kernel's blocks sit in the arrays.

  The kernel runs on 64 grid points, one per sample. At point `t` the input window of `x` and the output window
  both hold block `(t, 0, 0, 0)` of blocks of extent 1 × 256 × 64 × 50: sample `t`, all channels, frames and
  joints. The four weight windows always hold block 0 of a block as large as the array: the whole array. So an
  entry `(0, c, f, v)` of the `x` block at point `t` is entry `(t, c, f, v)` of `x`, an entry of a weight block is
  the same entry of the weight array, and every entry `(n, c, f, v)` of the output array lies in the block of
  exactly the point `n`.
-/
import proofs.«140205_j1228360647386_2_alg».proof.Proof.Gen.KernelIdeal.Value
import Idealize.ShloMosaic.Lib.Pipeline.Value
import Idealize.ShloMosaic.Lib.ValueIdx

set_option maxRecDepth 16384

noncomputable section

namespace Cert.KernelIdeal.KerBlocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F] [Named F]
variable (m : (ℓ : Loc nD τ sig) → Buf (Elt F) ℓ)

/-- The printed index maps, decided over the 64 grid points: the `x` window and the output window sit at block
    `(t, 0, 0, 0)`, the weight windows at block 0. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_5.index t (0 : Fin 4) = t.val ∧ win0_5.index t (1 : Fin 4) = 0 ∧ win0_5.index t (2 : Fin 4) = 0 ∧ win0_5.index t (3 : Fin 4) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) :=
  (by decide +kernel : ∀ t : Fin grid0.N, _)

/-- A grid point is a sample number. -/
theorem pt_lt (t : Fin cfg0.N) : t.val < 64 := by
  have hN : cfg0.N = 64 := N_0
  have := t.isLt
  omega

/-- Entry `y` of the `x` block at point `t` is entry `k` of `x` when `k` is `y` moved to sample `t`. -/
theorem iblk0_apply (c : Dev nD) (t : Fin cfg0.N) (y : S1x256x64x50.Idx) (k : S64x256x64x50.Idx)
    (h0 : (k 0).val = t.val) (h1 : (k 1).val = (y 1).val) (h2 : (k 2).val = (y 2).val) (h3 : (k 3).val = (y 3).val) :
    (iblk m c 0 t : Vec F S1x256x64x50 .f32) y = (m ((c : Thread nD τ).loc main_arg0) : S64x256x64x50.Idx → Elt F .f32) k := by
  obtain ⟨⟨e0, e1, e2, e3⟩, -⟩ := idx_facts t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (y 0).val = (k 0).val; rw [e0, h0]; omega
  | ⟨1, _⟩ => show win0_0.index t (1 : Fin 4) * 256 + 1 * (y 1).val = (k 1).val; rw [e1, h1]; omega
  | ⟨2, _⟩ => show win0_0.index t (2 : Fin 4) * 64 + 1 * (y 2).val = (k 2).val; rw [e2, h2]; omega
  | ⟨3, _⟩ => show win0_0.index t (3 : Fin 4) * 50 + 1 * (y 3).val = (k 3).val; rw [e3, h3]; omega

/-- The first-layer weights' block at any point is the whole array. -/
theorem iblk1_eq (c : Dev nD) (t : Fin cfg0.N) :
    (iblk m c 1 t : Vec F S10x16x256 .f32) = (m ((c : Thread nD τ).loc main_arg1) : S10x16x256.Idx → Elt F .f32) := by
  obtain ⟨-, -, ⟨e0, e1, e2⟩, -⟩ := idx_facts t
  funext y
  unfold iblk
  rw [View.read_apply]
  show V m c main_arg1 _ = m (c.tc.loc main_arg1) _
  unfold V
  congr 1
  funext a
  apply Fin.ext
  match a with
  | ⟨0, _⟩ => show win0_1.index t (0 : Fin 3) * 10 + 1 * (y 0).val = (y 0).val; rw [e0]; omega
  | ⟨1, _⟩ => show win0_1.index t (1 : Fin 3) * 16 + 1 * (y 1).val = (y 1).val; rw [e1]; omega
  | ⟨2, _⟩ => show win0_1.index t (2 : Fin 3) * 256 + 1 * (y 2).val = (y 2).val; rw [e2]; omega

/-- The first-layer biases' block at any point is the whole array. -/
theorem iblk2_eq (c : Dev nD) (t : Fin cfg0.N) :
    (iblk m c 2 t : Vec F S10x16 .f32) = (m ((c : Thread nD τ).loc main_arg2) : S10x16.Idx → Elt F .f32) := by
  obtain ⟨-, -, -, ⟨e0, e1⟩, -⟩ := idx_facts t
  funext y
  unfold iblk
  rw [View.read_apply]
  show V m c main_arg2 _ = m (c.tc.loc main_arg2) _
  unfold V
  congr 1
  funext a
  apply Fin.ext
  match a with
  | ⟨0, _⟩ => show win0_2.index t (0 : Fin 2) * 10 + 1 * (y 0).val = (y 0).val; rw [e0]; omega
  | ⟨1, _⟩ => show win0_2.index t (1 : Fin 2) * 16 + 1 * (y 1).val = (y 1).val; rw [e1]; omega

/-- The second-layer weights' block at any point is the whole array. -/
theorem iblk3_eq (c : Dev nD) (t : Fin cfg0.N) :
    (iblk m c 3 t : Vec F S10x256x16 .f32) = (m ((c : Thread nD τ).loc main_arg3) : S10x256x16.Idx → Elt F .f32) := by
  obtain ⟨-, -, -, -, ⟨e0, e1, e2⟩, -⟩ := idx_facts t
  funext y
  unfold iblk
  rw [View.read_apply]
  show V m c main_arg3 _ = m (c.tc.loc main_arg3) _
  unfold V
  congr 1
  funext a
  apply Fin.ext
  match a with
  | ⟨0, _⟩ => show win0_3.index t (0 : Fin 3) * 10 + 1 * (y 0).val = (y 0).val; rw [e0]; omega
  | ⟨1, _⟩ => show win0_3.index t (1 : Fin 3) * 256 + 1 * (y 1).val = (y 1).val; rw [e1]; omega
  | ⟨2, _⟩ => show win0_3.index t (2 : Fin 3) * 16 + 1 * (y 2).val = (y 2).val; rw [e2]; omega

/-- The second-layer biases' block at any point is the whole array. -/
theorem iblk4_eq (c : Dev nD) (t : Fin cfg0.N) :
    (iblk m c 4 t : Vec F S10x256 .f32) = (m ((c : Thread nD τ).loc main_arg4) : S10x256.Idx → Elt F .f32) := by
  obtain ⟨-, -, -, -, -, ⟨e0, e1⟩⟩ := idx_facts t
  funext y
  unfold iblk
  rw [View.read_apply]
  show V m c main_arg4 _ = m (c.tc.loc main_arg4) _
  unfold V
  congr 1
  funext a
  apply Fin.ext
  match a with
  | ⟨0, _⟩ => show win0_4.index t (0 : Fin 2) * 10 + 1 * (y 0).val = (y 0).val; rw [e0]; omega
  | ⟨1, _⟩ => show win0_4.index t (1 : Fin 2) * 256 + 1 * (y 1).val = (y 1).val; rw [e1]; omega

/-- Entry `j` of the output block at point `t` sits at sample `t` of the output array, its other coordinates unchanged. -/
theorem emb5 (t : Fin cfg0.N) (j : S1x256x64x50.Idx) :
    ((cfg0.win 5).blk t).view.emb j = (ix4 (⟨t.val, pt_lt t⟩ : Fin 64) (j 1) (j 2) (j 3) : S64x256x64x50.Idx) := by
  obtain ⟨-, ⟨e0, e1, e2, e3⟩, -⟩ := idx_facts t
  have hj0 : (j 0).val < 1 := (j 0).isLt
  funext a
  apply Fin.ext
  match a with
  | ⟨0, _⟩ => show win0_5.index t (0 : Fin 4) * 1 + 1 * (j 0).val = t.val; rw [e0]; omega
  | ⟨1, _⟩ => show win0_5.index t (1 : Fin 4) * 256 + 1 * (j 1).val = (j 1).val; rw [e1]; omega
  | ⟨2, _⟩ => show win0_5.index t (2 : Fin 4) * 64 + 1 * (j 2).val = (j 2).val; rw [e2]; omega
  | ⟨3, _⟩ => show win0_5.index t (3 : Fin 4) * 50 + 1 * (j 3).val = (j 3).val; rw [e3]; omega

/-- An index of the output array is in point `t`'s block iff each coordinate is in the block's range on its axis. -/
theorem mem_blk5 (t : Fin cfg0.N) (i : S64x256x64x50.Idx) :
    i ∈ ((cfg0.win 5).blk t).view.set ↔ ∀ a : Fin 4, win0_5.index t a * S1x256x64x50.size a ≤ (i a).val ∧ (i a).val < win0_5.index t a * S1x256x64x50.size a + S1x256x64x50.size a := by
  show i ∈ ((View.whole main_v0).slice (win0_5.rect t)).set ↔ _
  rw [View.set_slice_whole, Rect.mem_set_unit]
  exact Iff.rfl

/-- Every entry of the output array lies in the block of the point that is its sample number. -/
theorem cover5 (i : S64x256x64x50.Idx) :
    ∃ t : Fin cfg0.N, (cfg0.win 5).flush t = true ∧ i ∈ ((cfg0.win 5).blk t).view.set := by
  have hN : cfg0.N = 64 := N_0
  have hi0 : (i 0).val < 64 := (i 0).isLt
  have hi1 : (i 1).val < 256 := (i 1).isLt
  have hi2 : (i 2).val < 64 := (i 2).isLt
  have hi3 : (i 3).val < 50 := (i 3).isLt
  let t : Fin cfg0.N := ⟨(i 0).val, by omega⟩
  obtain ⟨-, ⟨e0, e1, e2, e3⟩, -⟩ := idx_facts t
  have ht : t.val = (i 0).val := rfl
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [e0, ht]; omega
  | ⟨1, _⟩ => show win0_5.index t (1 : Fin 4) * 256 ≤ (i 1).val ∧ (i 1).val < win0_5.index t (1 : Fin 4) * 256 + 256; rw [e1]; omega
  | ⟨2, _⟩ => show win0_5.index t (2 : Fin 4) * 64 ≤ (i 2).val ∧ (i 2).val < win0_5.index t (2 : Fin 4) * 64 + 64; rw [e2]; omega
  | ⟨3, _⟩ => show win0_5.index t (3 : Fin 4) * 50 ≤ (i 3).val ∧ (i 3).val < win0_5.index t (3 : Fin 4) * 50 + 50; rw [e3]; omega

end Cert.KernelIdeal.KerBlocks

end
-- ==== Proof.KerBody.Piece.lean ====
/-
  One store of the kernel body, read at an index of its piece.

  A store writes, into one column of the output block, one column of the input block times the part's gate laid
  along the channel axis and repeated over the 64 frames. At piece index (0, c, t, 0) that is the input at
  (0, c, t, src) times the gate at channel c. The destination rectangle of column dst sends the piece index
  (0, c, t, 0) to the block index (0, c, t, dst), where the specification shows joint `joint dst` of part
  `part dst`.
-/
import proofs.«140205_j1228360647386_2_alg».proof.Proof.Gen.KernelIdeal.Frame
import proofs.«140205_j1228360647386_2_alg».proof.Proof.Spec
import Idealize.ShloMosaic.Lib.IdealHost
import Idealize.ShloMosaic.Lib.Pipeline.Value

noncomputable section

namespace Cert.KernelIdeal.KerBody

open Idealize.ShloMosaic Idealize.ShloMosaic.ValueIdx
open Cert.KernelIdeal Cert.KernelIdeal.Gen

/-- Every index of a [1, 256, 64, 1] piece is (0, c, t, 0). -/
theorem piece_idx (x : (⟨4, ![1, 256, 64, 1]⟩ : Shape).Idx) :
    ∃ (c : Fin 256) (t : Fin 64), x = ix4 (0 : Fin 1) c t (0 : Fin 1) := by
  refine ⟨x 1, x 2, ?_⟩
  have h0 : x 0 = (0 : Fin 1) := Fin.ext (Nat.lt_one_iff.mp (x 0).isLt)
  have h3 : x 3 = (0 : Fin 1) := Fin.ext (Nat.lt_one_iff.mp (x 3).isLt)
  exact (eq_ix4 x).trans (by rw [h0, h3]; rfl)

/-- A [1, 256, 1, 1] gate repeated over the 64 frames reads at (0, c, t, 0) the gate at channel c. -/
theorem gate_frames_apply {α : Type} (G : (⟨4, ![1, 256, 1, 1]⟩ : Shape).Idx → α)
    (hb : (⟨4, ![1, 256, 1, 1]⟩ : Shape).Broadcasts ⟨4, ![1, 256, 64, 1]⟩) (c : Fin 256) (t : Fin 64) :
    broadcastTo ⟨4, ![1, 256, 64, 1]⟩ G hb (ix4 (0 : Fin 1) c t (0 : Fin 1)) = G (ix4 (0 : Fin 1) c (0 : Fin 1) (0 : Fin 1)) := by
  refine broadcastTo_apply _ hb _ (ix4 (0 : Fin 1) c (0 : Fin 1) (0 : Fin 1)) (fun ax => ?_)
  match ax with
  | ⟨0, _⟩ => exact (if_pos rfl).symm
  | ⟨1, _⟩ => exact (if_neg (by show ¬ (256 : ℕ) = 1; decide)).symm
  | ⟨2, _⟩ => exact (if_pos rfl).symm
  | ⟨3, _⟩ => exact (if_pos rfl).symm

/-- The destination rectangle of column `dst` sends piece index (0, c, t, 0) to block index (0, c, t, dst). -/
theorem col_emb (dst : ℕ)
    (inb : ∀ ax, (![0, 0, 0, dst] : Fin 4 → ℕ) ax + (![1, 256, 64, 1] : Fin 4 → ℕ) ax ≤ (⟨4, ![1, 256, 64, 50]⟩ : Shape).size ax)
    (c : Fin 256) (t : Fin 64) (k : Fin 50) (hk : k.val = dst) :
    (Rect.unit (s := ⟨4, ![1, 256, 64, 50]⟩) ![0, 0, 0, dst] ![1, 256, 64, 1] inb).emb (ix4 (0 : Fin 1) c t (0 : Fin 1))
      = ix4 (0 : Fin 1) c t k := by
  funext ax; refine Fin.ext ?_
  match ax with
  | ⟨0, _⟩ => show 0 + 1 * 0 = 0; omega
  | ⟨1, _⟩ => show 0 + 1 * c.val = c.val; omega
  | ⟨2, _⟩ => show 0 + 1 * t.val = t.val; omega
  | ⟨3, _⟩ => show dst + 1 * 0 = k.val; omega

/-- One store's payload at (0, c, t, 0): the input at (0, c, t, src) times the gate at channel c. -/
theorem store_apply (x0 : Vec Ideal S1x256x64x50 .f32) (G : FVec Ideal S1x256x1x1 .f32) (src : ℕ)
    (inb : ∀ ax, (![0, 0, 0, src] : Fin 4 → ℕ) ax + (![1, 256, 64, 1] : Fin 4 → ℕ) ax ≤ (⟨4, ![1, 256, 64, 50]⟩ : Shape).size ax)
    (hb : S1x256x1x1.Broadcasts S1x256x64x1) (c : Fin 256) (t : Fin 64) (k : Fin 50) (hk : k.val = src) :
    mulf (F := Ideal) (φ := .f32) (View.ld x0 (Rect.unit (s := ⟨4, ![1, 256, 64, 50]⟩) ![0, 0, 0, src] ![1, 256, 64, 1] inb))
        (broadcastTo S1x256x64x1 G hb) (ix4 (0 : Fin 1) c t (0 : Fin 1))
      = x0 (ix4 (0 : Fin 1) c t k) * G (ix4 (0 : Fin 1) c (0 : Fin 1) (0 : Fin 1)) :=
  congrArg₂ (· * ·) (congrArg x0 (col_emb src inb c t k hk)) (gate_frames_apply G hb c t)

/-- The specification at block index (0, c, t, d): joint `joint d` of the input times the gate of part `part d`. -/
theorem spec_col (x0 : Vec Ideal S1x256x64x50 .f32) (x1 : Vec Ideal S10x16x256 .f32) (x2 : Vec Ideal S10x16 .f32)
    (x3 : Vec Ideal S10x256x16 .f32) (x4 : Vec Ideal S10x256 .f32) (c : Fin 256) (t : Fin 64) (d : Fin 50) :
    Cert.Spec.G (N := 1) x0 x1 x2 x3 x4 (ix4 (0 : Fin 1) c t d)
      = x0 (ix4 (0 : Fin 1) c t (Cert.Spec.joint d)) * Cert.Spec.gate (N := 1) x0 x1 x2 x3 x4 (Cert.Spec.part d) 0 c := rfl

/-- The same with the joint and the part named: at block index (0, c, t, d), where `joint d = s` and `part d = p`. -/
theorem spec_col_of (x0 : Vec Ideal S1x256x64x50 .f32) (x1 : Vec Ideal S10x16x256 .f32) (x2 : Vec Ideal S10x16 .f32)
    (x3 : Vec Ideal S10x256x16 .f32) (x4 : Vec Ideal S10x256 .f32) (c : Fin 256) (t : Fin 64) (d s : Fin 50) (p : Fin 10)
    (hj : Cert.Spec.joint d = s) (hp : Cert.Spec.part d = p) :
    Cert.Spec.G (N := 1) x0 x1 x2 x3 x4 (ix4 (0 : Fin 1) c t d)
      = x0 (ix4 (0 : Fin 1) c t s) * Cert.Spec.gate (N := 1) x0 x1 x2 x3 x4 p 0 c := by
  subst hj; subst hp; rfl

end Cert.KernelIdeal.KerBody

end
-- ==== Proof.KerBody.StoresLo.lean ====
/-
  The stores of parts 0 … 4 (output columns 0 … 24).
  Each of the body's stores, at every index of its piece, is the specification at the block index the piece's
  rectangle names: the stored column is the input's column `joint d` times the part's gate, and the part's gate
  term is the specification's gate by hypothesis.
-/
import proofs.«140205_j1228360647386_2_alg».proof.Proof.Gen.KernelIdeal.Frame
import proofs.«140205_j1228360647386_2_alg».proof.Proof.Spec
import proofs.«140205_j1228360647386_2_alg».proof.Proof.KerBody.Piece

noncomputable section

namespace Cert.KernelIdeal.KerBody

open Idealize.ShloMosaic Idealize.ShloMosaic.ValueIdx
open Cert.KernelIdeal Cert.KernelIdeal.Gen

set_option maxRecDepth 16384

/-- Store 0 of 50: output column 0 takes input column 0 (part 0). -/
theorem store_0 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (ix4 (0 : Fin 1) c (0 : Fin 1) (0 : Fin 1))
      = Cert.Spec.gate (N := 1) x0 x1 x2 x3 x4 0 0 c)
    (x : r0_5.shape.Idx) :
    (k0_pay11 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1)) (View.ld x0 r0_5)) x
      = Cert.Spec.G (N := 1) x0 x1 x2 x3 x4 (r0_5.emb x) := by
  obtain ⟨c, t, rfl⟩ := piece_idx x
  have h1 := store_apply x0 (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) 0 inb_S1x256x64x50_S1x256x64x1_0_0_0_0 broadcasts_S1x256x1x1_S1x256x64x1 c t
    (⟨0, by decide⟩ : Fin 50) rfl
  have h2 := spec_col_of x0 x1 x2 x3 x4 c t (⟨0, by decide⟩ : Fin 50) (⟨0, by decide⟩ : Fin 50) (0 : Fin 10) rfl rfl
  have h3 := col_emb 0 inb_S1x256x64x50_S1x256x64x1_0_0_0_0 c t (⟨0, by decide⟩ : Fin 50) rfl
  exact h1.trans ((congrArg (fun g => x0 (ix4 (0 : Fin 1) c t (⟨0, by decide⟩ : Fin 50)) * g) (hg c)).trans
    (h2.symm.trans (congrArg (Cert.Spec.G (N := 1) x0 x1 x2 x3 x4) h3.symm)))

/-- Store 1 of 50: output column 1 takes input column 1 (part 0). -/
theorem store_1 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (ix4 (0 : Fin 1) c (0 : Fin 1) (0 : Fin 1))
      = Cert.Spec.gate (N := 1) x0 x1 x2 x3 x4 0 0 c)
    (x : r0_6.shape.Idx) :
    (k0_pay12 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1)) (View.ld x0 r0_6)) x
      = Cert.Spec.G (N := 1) x0 x1 x2 x3 x4 (r0_6.emb x) := by
  obtain ⟨c, t, rfl⟩ := piece_idx x
  have h1 := store_apply x0 (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) 1 inb_S1x256x64x50_S1x256x64x1_0_0_0_1 broadcasts_S1x256x1x1_S1x256x64x1 c t
    (⟨1, by decide⟩ : Fin 50) rfl
  have h2 := spec_col_of x0 x1 x2 x3 x4 c t (⟨1, by decide⟩ : Fin 50) (⟨1, by decide⟩ : Fin 50) (0 : Fin 10) rfl rfl
  have h3 := col_emb 1 inb_S1x256x64x50_S1x256x64x1_0_0_0_1 c t (⟨1, by decide⟩ : Fin 50) rfl
  exact h1.trans ((congrArg (fun g => x0 (ix4 (0 : Fin 1) c t (⟨1, by decide⟩ : Fin 50)) * g) (hg c)).trans
    (h2.symm.trans (congrArg (Cert.Spec.G (N := 1) x0 x1 x2 x3 x4) h3.symm)))

/-- Store 2 of 50: output column 2 takes input column 2 (part 0). -/
theorem store_2 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (ix4 (0 : Fin 1) c (0 : Fin 1) (0 : Fin 1))
      = Cert.Spec.gate (N := 1) x0 x1 x2 x3 x4 0 0 c)
    (x : r0_7.shape.Idx) :
    (k0_pay14 (View.ld x0 r0_7) (k0_pay13 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1)))) x
      = Cert.Spec.G (N := 1) x0 x1 x2 x3 x4 (r0_7.emb x) := by
  obtain ⟨c, t, rfl⟩ := piece_idx x
  have h1 := store_apply x0 (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) 2 inb_S1x256x64x50_S1x256x64x1_0_0_0_2 broadcasts_S1x256x1x1_S1x256x64x1 c t
    (⟨2, by decide⟩ : Fin 50) rfl
  have h2 := spec_col_of x0 x1 x2 x3 x4 c t (⟨2, by decide⟩ : Fin 50) (⟨2, by decide⟩ : Fin 50) (0 : Fin 10) rfl rfl
  have h3 := col_emb 2 inb_S1x256x64x50_S1x256x64x1_0_0_0_2 c t (⟨2, by decide⟩ : Fin 50) rfl
  exact h1.trans ((congrArg (fun g => x0 (ix4 (0 : Fin 1) c t (⟨2, by decide⟩ : Fin 50)) * g) (hg c)).trans
    (h2.symm.trans (congrArg (Cert.Spec.G (N := 1) x0 x1 x2 x3 x4) h3.symm)))

/-- Store 3 of 50: output column 3 takes input column 3 (part 0). -/
theorem store_3 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (ix4 (0 : Fin 1) c (0 : Fin 1) (0 : Fin 1))
      = Cert.Spec.gate (N := 1) x0 x1 x2 x3 x4 0 0 c)
    (x : r0_8.shape.Idx) :
    (k0_pay15 (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (View.ld x0 r0_8)) x
      = Cert.Spec.G (N := 1) x0 x1 x2 x3 x4 (r0_8.emb x) := by
  obtain ⟨c, t, rfl⟩ := piece_idx x
  have h1 := store_apply x0 (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) 3 inb_S1x256x64x50_S1x256x64x1_0_0_0_3 broadcasts_S1x256x1x1_S1x256x64x1 c t
    (⟨3, by decide⟩ : Fin 50) rfl
  have h2 := spec_col_of x0 x1 x2 x3 x4 c t (⟨3, by decide⟩ : Fin 50) (⟨3, by decide⟩ : Fin 50) (0 : Fin 10) rfl rfl
  have h3 := col_emb 3 inb_S1x256x64x50_S1x256x64x1_0_0_0_3 c t (⟨3, by decide⟩ : Fin 50) rfl
  exact h1.trans ((congrArg (fun g => x0 (ix4 (0 : Fin 1) c t (⟨3, by decide⟩ : Fin 50)) * g) (hg c)).trans
    (h2.symm.trans (congrArg (Cert.Spec.G (N := 1) x0 x1 x2 x3 x4) h3.symm)))

/-- Store 4 of 50: output column 4 takes input column 20 (part 0). -/
theorem store_4 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (ix4 (0 : Fin 1) c (0 : Fin 1) (0 : Fin 1))
      = Cert.Spec.gate (N := 1) x0 x1 x2 x3 x4 0 0 c)
    (x : r0_10.shape.Idx) :
    (k0_pay16 (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (View.ld x0 r0_9)) x
      = Cert.Spec.G (N := 1) x0 x1 x2 x3 x4 (r0_10.emb x) := by
  obtain ⟨c, t, rfl⟩ := piece_idx x
  have h1 := store_apply x0 (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) 20 inb_S1x256x64x50_S1x256x64x1_0_0_0_20 broadcasts_S1x256x1x1_S1x256x64x1 c t
    (⟨20, by decide⟩ : Fin 50) rfl
  have h2 := spec_col_of x0 x1 x2 x3 x4 c t (⟨4, by decide⟩ : Fin 50) (⟨20, by decide⟩ : Fin 50) (0 : Fin 10) rfl rfl
  have h3 := col_emb 4 inb_S1x256x64x50_S1x256x64x1_0_0_0_4 c t (⟨4, by decide⟩ : Fin 50) rfl
  exact h1.trans ((congrArg (fun g => x0 (ix4 (0 : Fin 1) c t (⟨20, by decide⟩ : Fin 50)) * g) (hg c)).trans
    (h2.symm.trans (congrArg (Cert.Spec.G (N := 1) x0 x1 x2 x3 x4) h3.symm)))

/-- Store 5 of 50: output column 5 takes input column 8 (part 1). -/
theorem store_5 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (ix4 (0 : Fin 1) c (0 : Fin 1) (0 : Fin 1))
      = Cert.Spec.gate (N := 1) x0 x1 x2 x3 x4 1 0 c)
    (x : r0_16.shape.Idx) :
    (k0_pay21 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (View.ld x0 r0_15)) x
      = Cert.Spec.G (N := 1) x0 x1 x2 x3 x4 (r0_16.emb x) := by
  obtain ⟨c, t, rfl⟩ := piece_idx x
  have h1 := store_apply x0 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) 8 inb_S1x256x64x50_S1x256x64x1_0_0_0_8 broadcasts_S1x256x1x1_S1x256x64x1 c t
    (⟨8, by decide⟩ : Fin 50) rfl
  have h2 := spec_col_of x0 x1 x2 x3 x4 c t (⟨5, by decide⟩ : Fin 50) (⟨8, by decide⟩ : Fin 50) (1 : Fin 10) rfl rfl
  have h3 := col_emb 5 inb_S1x256x64x50_S1x256x64x1_0_0_0_5 c t (⟨5, by decide⟩ : Fin 50) rfl
  exact h1.trans ((congrArg (fun g => x0 (ix4 (0 : Fin 1) c t (⟨8, by decide⟩ : Fin 50)) * g) (hg c)).trans
    (h2.symm.trans (congrArg (Cert.Spec.G (N := 1) x0 x1 x2 x3 x4) h3.symm)))

/-- Store 6 of 50: output column 6 takes input column 9 (part 1). -/
theorem store_6 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (ix4 (0 : Fin 1) c (0 : Fin 1) (0 : Fin 1))
      = Cert.Spec.gate (N := 1) x0 x1 x2 x3 x4 1 0 c)
    (x : r0_18.shape.Idx) :
    (k0_pay22 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (View.ld x0 r0_17)) x
      = Cert.Spec.G (N := 1) x0 x1 x2 x3 x4 (r0_18.emb x) := by
  obtain ⟨c, t, rfl⟩ := piece_idx x
  have h1 := store_apply x0 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) 9 inb_S1x256x64x50_S1x256x64x1_0_0_0_9 broadcasts_S1x256x1x1_S1x256x64x1 c t
    (⟨9, by decide⟩ : Fin 50) rfl
  have h2 := spec_col_of x0 x1 x2 x3 x4 c t (⟨6, by decide⟩ : Fin 50) (⟨9, by decide⟩ : Fin 50) (1 : Fin 10) rfl rfl
  have h3 := col_emb 6 inb_S1x256x64x50_S1x256x64x1_0_0_0_6 c t (⟨6, by decide⟩ : Fin 50) rfl
  exact h1.trans ((congrArg (fun g => x0 (ix4 (0 : Fin 1) c t (⟨9, by decide⟩ : Fin 50)) * g) (hg c)).trans
    (h2.symm.trans (congrArg (Cert.Spec.G (N := 1) x0 x1 x2 x3 x4) h3.symm)))

/-- Store 7 of 50: output column 7 takes input column 10 (part 1). -/
theorem store_7 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (ix4 (0 : Fin 1) c (0 : Fin 1) (0 : Fin 1))
      = Cert.Spec.gate (N := 1) x0 x1 x2 x3 x4 1 0 c)
    (x : r0_20.shape.Idx) :
    (k0_pay23 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (View.ld x0 r0_19)) x
      = Cert.Spec.G (N := 1) x0 x1 x2 x3 x4 (r0_20.emb x) := by
  obtain ⟨c, t, rfl⟩ := piece_idx x
  have h1 := store_apply x0 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) 10 inb_S1x256x64x50_S1x256x64x1_0_0_0_10 broadcasts_S1x256x1x1_S1x256x64x1 c t
    (⟨10, by decide⟩ : Fin 50) rfl
  have h2 := spec_col_of x0 x1 x2 x3 x4 c t (⟨7, by decide⟩ : Fin 50) (⟨10, by decide⟩ : Fin 50) (1 : Fin 10) rfl rfl
  have h3 := col_emb 7 inb_S1x256x64x50_S1x256x64x1_0_0_0_7 c t (⟨7, by decide⟩ : Fin 50) rfl
  exact h1.trans ((congrArg (fun g => x0 (ix4 (0 : Fin 1) c t (⟨10, by decide⟩ : Fin 50)) * g) (hg c)).trans
    (h2.symm.trans (congrArg (Cert.Spec.G (N := 1) x0 x1 x2 x3 x4) h3.symm)))

/-- Store 8 of 50: output column 8 takes input column 11 (part 1). -/
theorem store_8 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (ix4 (0 : Fin 1) c (0 : Fin 1) (0 : Fin 1))
      = Cert.Spec.gate (N := 1) x0 x1 x2 x3 x4 1 0 c)
    (x : r0_15.shape.Idx) :
    (k0_pay24 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (View.ld x0 r0_21)) x
      = Cert.Spec.G (N := 1) x0 x1 x2 x3 x4 (r0_15.emb x) := by
  obtain ⟨c, t, rfl⟩ := piece_idx x
  have h1 := store_apply x0 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) 11 inb_S1x256x64x50_S1x256x64x1_0_0_0_11 broadcasts_S1x256x1x1_S1x256x64x1 c t
    (⟨11, by decide⟩ : Fin 50) rfl
  have h2 := spec_col_of x0 x1 x2 x3 x4 c t (⟨8, by decide⟩ : Fin 50) (⟨11, by decide⟩ : Fin 50) (1 : Fin 10) rfl rfl
  have h3 := col_emb 8 inb_S1x256x64x50_S1x256x64x1_0_0_0_8 c t (⟨8, by decide⟩ : Fin 50) rfl
  exact h1.trans ((congrArg (fun g => x0 (ix4 (0 : Fin 1) c t (⟨11, by decide⟩ : Fin 50)) * g) (hg c)).trans
    (h2.symm.trans (congrArg (Cert.Spec.G (N := 1) x0 x1 x2 x3 x4) h3.symm)))

/-- Store 9 of 50: output column 9 takes input column 23 (part 1). -/
theorem store_9 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (ix4 (0 : Fin 1) c (0 : Fin 1) (0 : Fin 1))
      = Cert.Spec.gate (N := 1) x0 x1 x2 x3 x4 1 0 c)
    (x : r0_17.shape.Idx) :
    (k0_pay25 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (View.ld x0 r0_22)) x
      = Cert.Spec.G (N := 1) x0 x1 x2 x3 x4 (r0_17.emb x) := by
  obtain ⟨c, t, rfl⟩ := piece_idx x
  have h1 := store_apply x0 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) 23 inb_S1x256x64x50_S1x256x64x1_0_0_0_23 broadcasts_S1x256x1x1_S1x256x64x1 c t
    (⟨23, by decide⟩ : Fin 50) rfl
  have h2 := spec_col_of x0 x1 x2 x3 x4 c t (⟨9, by decide⟩ : Fin 50) (⟨23, by decide⟩ : Fin 50) (1 : Fin 10) rfl rfl
  have h3 := col_emb 9 inb_S1x256x64x50_S1x256x64x1_0_0_0_9 c t (⟨9, by decide⟩ : Fin 50) rfl
  exact h1.trans ((congrArg (fun g => x0 (ix4 (0 : Fin 1) c t (⟨23, by decide⟩ : Fin 50)) * g) (hg c)).trans
    (h2.symm.trans (congrArg (Cert.Spec.G (N := 1) x0 x1 x2 x3 x4) h3.symm)))

/-- Store 10 of 50: output column 10 takes input column 24 (part 1). -/
theorem store_10 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (ix4 (0 : Fin 1) c (0 : Fin 1) (0 : Fin 1))
      = Cert.Spec.gate (N := 1) x0 x1 x2 x3 x4 1 0 c)
    (x : r0_19.shape.Idx) :
    (k0_pay26 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (View.ld x0 r0_23)) x
      = Cert.Spec.G (N := 1) x0 x1 x2 x3 x4 (r0_19.emb x) := by
  obtain ⟨c, t, rfl⟩ := piece_idx x
  have h1 := store_apply x0 (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) 24 inb_S1x256x64x50_S1x256x64x1_0_0_0_24 broadcasts_S1x256x1x1_S1x256x64x1 c t
    (⟨24, by decide⟩ : Fin 50) rfl
  have h2 := spec_col_of x0 x1 x2 x3 x4 c t (⟨10, by decide⟩ : Fin 50) (⟨24, by decide⟩ : Fin 50) (1 : Fin 10) rfl rfl
  have h3 := col_emb 10 inb_S1x256x64x50_S1x256x64x1_0_0_0_10 c t (⟨10, by decide⟩ : Fin 50) rfl
  exact h1.trans ((congrArg (fun g => x0 (ix4 (0 : Fin 1) c t (⟨24, by decide⟩ : Fin 50)) * g) (hg c)).trans
    (h2.symm.trans (congrArg (Cert.Spec.G (N := 1) x0 x1 x2 x3 x4) h3.symm)))

/-- Store 11 of 50: output column 11 takes input column 16 (part 2). -/
theorem store_11 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) (ix4 (0 : Fin 1) c (0 : Fin 1) (0 : Fin 1))
      = Cert.Spec.gate (N := 1) x0 x1 x2 x3 x4 2 0 c)
    (x : r0_21.shape.Idx) :
    (k0_pay35 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32) (View.ld x0 r0_28)) x
      = Cert.Spec.G (N := 1) x0 x1 x2 x3 x4 (r0_21.emb x) := by
  obtain ⟨c, t, rfl⟩ := piece_idx x
  have h1 := store_apply x0 (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) 16 inb_S1x256x64x50_S1x256x64x1_0_0_0_16 broadcasts_S1x256x1x1_S1x256x64x1 c t
    (⟨16, by decide⟩ : Fin 50) rfl
  have h2 := spec_col_of x0 x1 x2 x3 x4 c t (⟨11, by decide⟩ : Fin 50) (⟨16, by decide⟩ : Fin 50) (2 : Fin 10) rfl rfl
  have h3 := col_emb 11 inb_S1x256x64x50_S1x256x64x1_0_0_0_11 c t (⟨11, by decide⟩ : Fin 50) rfl
  exact h1.trans ((congrArg (fun g => x0 (ix4 (0 : Fin 1) c t (⟨16, by decide⟩ : Fin 50)) * g) (hg c)).trans
    (h2.symm.trans (congrArg (Cert.Spec.G (N := 1) x0 x1 x2 x3 x4) h3.symm)))

/-- Store 12 of 50: output column 12 takes input column 17 (part 2). -/
theorem store_12 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) (ix4 (0 : Fin 1) c (0 : Fin 1) (0 : Fin 1))
      = Cert.Spec.gate (N := 1) x0 x1 x2 x3 x4 2 0 c)
    (x : r0_30.shape.Idx) :
    (k0_pay36 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32) (View.ld x0 r0_29)) x
      = Cert.Spec.G (N := 1) x0 x1 x2 x3 x4 (r0_30.emb x) := by
  obtain ⟨c, t, rfl⟩ := piece_idx x
  have h1 := store_apply x0 (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) 17 inb_S1x256x64x50_S1x256x64x1_0_0_0_17 broadcasts_S1x256x1x1_S1x256x64x1 c t
    (⟨17, by decide⟩ : Fin 50) rfl
  have h2 := spec_col_of x0 x1 x2 x3 x4 c t (⟨12, by decide⟩ : Fin 50) (⟨17, by decide⟩ : Fin 50) (2 : Fin 10) rfl rfl
  have h3 := col_emb 12 inb_S1x256x64x50_S1x256x64x1_0_0_0_12 c t (⟨12, by decide⟩ : Fin 50) rfl
  exact h1.trans ((congrArg (fun g => x0 (ix4 (0 : Fin 1) c t (⟨17, by decide⟩ : Fin 50)) * g) (hg c)).trans
    (h2.symm.trans (congrArg (Cert.Spec.G (N := 1) x0 x1 x2 x3 x4) h3.symm)))

/-- Store 13 of 50: output column 13 takes input column 18 (part 2). -/
theorem store_13 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) (ix4 (0 : Fin 1) c (0 : Fin 1) (0 : Fin 1))
      = Cert.Spec.gate (N := 1) x0 x1 x2 x3 x4 2 0 c)
    (x : r0_32.shape.Idx) :
    (k0_pay37 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32) (View.ld x0 r0_31)) x
      = Cert.Spec.G (N := 1) x0 x1 x2 x3 x4 (r0_32.emb x) := by
  obtain ⟨c, t, rfl⟩ := piece_idx x
  have h1 := store_apply x0 (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) 18 inb_S1x256x64x50_S1x256x64x1_0_0_0_18 broadcasts_S1x256x1x1_S1x256x64x1 c t
    (⟨18, by decide⟩ : Fin 50) rfl
  have h2 := spec_col_of x0 x1 x2 x3 x4 c t (⟨13, by decide⟩ : Fin 50) (⟨18, by decide⟩ : Fin 50) (2 : Fin 10) rfl rfl
  have h3 := col_emb 13 inb_S1x256x64x50_S1x256x64x1_0_0_0_13 c t (⟨13, by decide⟩ : Fin 50) rfl
  exact h1.trans ((congrArg (fun g => x0 (ix4 (0 : Fin 1) c t (⟨18, by decide⟩ : Fin 50)) * g) (hg c)).trans
    (h2.symm.trans (congrArg (Cert.Spec.G (N := 1) x0 x1 x2 x3 x4) h3.symm)))

/-- Store 14 of 50: output column 14 takes input column 19 (part 2). -/
theorem store_14 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) (ix4 (0 : Fin 1) c (0 : Fin 1) (0 : Fin 1))
      = Cert.Spec.gate (N := 1) x0 x1 x2 x3 x4 2 0 c)
    (x : r0_34.shape.Idx) :
    (k0_pay38 (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) (View.ld x0 r0_33)) x
      = Cert.Spec.G (N := 1) x0 x1 x2 x3 x4 (r0_34.emb x) := by
  obtain ⟨c, t, rfl⟩ := piece_idx x
  have h1 := store_apply x0 (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) 19 inb_S1x256x64x50_S1x256x64x1_0_0_0_19 broadcasts_S1x256x1x1_S1x256x64x1 c t
    (⟨19, by decide⟩ : Fin 50) rfl
  have h2 := spec_col_of x0 x1 x2 x3 x4 c t (⟨14, by decide⟩ : Fin 50) (⟨19, by decide⟩ : Fin 50) (2 : Fin 10) rfl rfl
  have h3 := col_emb 14 inb_S1x256x64x50_S1x256x64x1_0_0_0_14 c t (⟨14, by decide⟩ : Fin 50) rfl
  exact h1.trans ((congrArg (fun g => x0 (ix4 (0 : Fin 1) c t (⟨19, by decide⟩ : Fin 50)) * g) (hg c)).trans
    (h2.symm.trans (congrArg (Cert.Spec.G (N := 1) x0 x1 x2 x3 x4) h3.symm)))

/-- Store 15 of 50: output column 15 takes input column 4 (part 3). -/
theorem store_15 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay41 (k0_pay39 (k0_pay2 (View.ld x0 r0_0))) (k0_pay40 (k0_pay1 (View.ld x0 r0_0))) (View.ld x1 r0_35) (View.ld x2 r0_36) (View.ld x3 r0_37) (View.ld x4 r0_38)) (ix4 (0 : Fin 1) c (0 : Fin 1) (0 : Fin 1))
      = Cert.Spec.gate (N := 1) x0 x1 x2 x3 x4 3 0 c)
    (x : r0_39.shape.Idx) :
    (k0_pay42 (k0_pay39 (k0_pay2 (View.ld x0 r0_0))) (k0_pay40 (k0_pay1 (View.ld x0 r0_0))) (View.ld x1 r0_35) (View.ld x2 r0_36) (View.ld x3 r0_37) (View.ld x4 r0_38) (View.ld x0 r0_10)) x
      = Cert.Spec.G (N := 1) x0 x1 x2 x3 x4 (r0_39.emb x) := by
  obtain ⟨c, t, rfl⟩ := piece_idx x
  have h1 := store_apply x0 (k0_pay41 (k0_pay39 (k0_pay2 (View.ld x0 r0_0))) (k0_pay40 (k0_pay1 (View.ld x0 r0_0))) (View.ld x1 r0_35) (View.ld x2 r0_36) (View.ld x3 r0_37) (View.ld x4 r0_38)) 4 inb_S1x256x64x50_S1x256x64x1_0_0_0_4 broadcasts_S1x256x1x1_S1x256x64x1 c t
    (⟨4, by decide⟩ : Fin 50) rfl
  have h2 := spec_col_of x0 x1 x2 x3 x4 c t (⟨15, by decide⟩ : Fin 50) (⟨4, by decide⟩ : Fin 50) (3 : Fin 10) rfl rfl
  have h3 := col_emb 15 inb_S1x256x64x50_S1x256x64x1_0_0_0_15 c t (⟨15, by decide⟩ : Fin 50) rfl
  exact h1.trans ((congrArg (fun g => x0 (ix4 (0 : Fin 1) c t (⟨4, by decide⟩ : Fin 50)) * g) (hg c)).trans
    (h2.symm.trans (congrArg (Cert.Spec.G (N := 1) x0 x1 x2 x3 x4) h3.symm)))

/-- Store 16 of 50: output column 16 takes input column 5 (part 3). -/
theorem store_16 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay41 (k0_pay39 (k0_pay2 (View.ld x0 r0_0))) (k0_pay40 (k0_pay1 (View.ld x0 r0_0))) (View.ld x1 r0_35) (View.ld x2 r0_36) (View.ld x3 r0_37) (View.ld x4 r0_38)) (ix4 (0 : Fin 1) c (0 : Fin 1) (0 : Fin 1))
      = Cert.Spec.gate (N := 1) x0 x1 x2 x3 x4 3 0 c)
    (x : r0_28.shape.Idx) :
    (k0_pay43 (k0_pay41 (k0_pay39 (k0_pay2 (View.ld x0 r0_0))) (k0_pay40 (k0_pay1 (View.ld x0 r0_0))) (View.ld x1 r0_35) (View.ld x2 r0_36) (View.ld x3 r0_37) (View.ld x4 r0_38)) (View.ld x0 r0_16)) x
      = Cert.Spec.G (N := 1) x0 x1 x2 x3 x4 (r0_28.emb x) := by
  obtain ⟨c, t, rfl⟩ := piece_idx x
  have h1 := store_apply x0 (k0_pay41 (k0_pay39 (k0_pay2 (View.ld x0 r0_0))) (k0_pay40 (k0_pay1 (View.ld x0 r0_0))) (View.ld x1 r0_35) (View.ld x2 r0_36) (View.ld x3 r0_37) (View.ld x4 r0_38)) 5 inb_S1x256x64x50_S1x256x64x1_0_0_0_5 broadcasts_S1x256x1x1_S1x256x64x1 c t
    (⟨5, by decide⟩ : Fin 50) rfl
  have h2 := spec_col_of x0 x1 x2 x3 x4 c t (⟨16, by decide⟩ : Fin 50) (⟨5, by decide⟩ : Fin 50) (3 : Fin 10) rfl rfl
  have h3 := col_emb 16 inb_S1x256x64x50_S1x256x64x1_0_0_0_16 c t (⟨16, by decide⟩ : Fin 50) rfl
  exact h1.trans ((congrArg (fun g => x0 (ix4 (0 : Fin 1) c t (⟨5, by decide⟩ : Fin 50)) * g) (hg c)).trans
    (h2.symm.trans (congrArg (Cert.Spec.G (N := 1) x0 x1 x2 x3 x4) h3.symm)))

/-- Store 17 of 50: output column 17 takes input column 6 (part 3). -/
theorem store_17 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay41 (k0_pay39 (k0_pay2 (View.ld x0 r0_0))) (k0_pay40 (k0_pay1 (View.ld x0 r0_0))) (View.ld x1 r0_35) (View.ld x2 r0_36) (View.ld x3 r0_37) (View.ld x4 r0_38)) (ix4 (0 : Fin 1) c (0 : Fin 1) (0 : Fin 1))
      = Cert.Spec.gate (N := 1) x0 x1 x2 x3 x4 3 0 c)
    (x : r0_29.shape.Idx) :
    (k0_pay44 (k0_pay41 (k0_pay39 (k0_pay2 (View.ld x0 r0_0))) (k0_pay40 (k0_pay1 (View.ld x0 r0_0))) (View.ld x1 r0_35) (View.ld x2 r0_36) (View.ld x3 r0_37) (View.ld x4 r0_38)) (View.ld x0 r0_18)) x
      = Cert.Spec.G (N := 1) x0 x1 x2 x3 x4 (r0_29.emb x) := by
  obtain ⟨c, t, rfl⟩ := piece_idx x
  have h1 := store_apply x0 (k0_pay41 (k0_pay39 (k0_pay2 (View.ld x0 r0_0))) (k0_pay40 (k0_pay1 (View.ld x0 r0_0))) (View.ld x1 r0_35) (View.ld x2 r0_36) (View.ld x3 r0_37) (View.ld x4 r0_38)) 6 inb_S1x256x64x50_S1x256x64x1_0_0_0_6 broadcasts_S1x256x1x1_S1x256x64x1 c t
    (⟨6, by decide⟩ : Fin 50) rfl
  have h2 := spec_col_of x0 x1 x2 x3 x4 c t (⟨17, by decide⟩ : Fin 50) (⟨6, by decide⟩ : Fin 50) (3 : Fin 10) rfl rfl
  have h3 := col_emb 17 inb_S1x256x64x50_S1x256x64x1_0_0_0_17 c t (⟨17, by decide⟩ : Fin 50) rfl
  exact h1.trans ((congrArg (fun g => x0 (ix4 (0 : Fin 1) c t (⟨6, by decide⟩ : Fin 50)) * g) (hg c)).trans
    (h2.symm.trans (congrArg (Cert.Spec.G (N := 1) x0 x1 x2 x3 x4) h3.symm)))

/-- Store 18 of 50: output column 18 takes input column 7 (part 3). -/
theorem store_18 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay41 (k0_pay39 (k0_pay2 (View.ld x0 r0_0))) (k0_pay40 (k0_pay1 (View.ld x0 r0_0))) (View.ld x1 r0_35) (View.ld x2 r0_36) (View.ld x3 r0_37) (View.ld x4 r0_38)) (ix4 (0 : Fin 1) c (0 : Fin 1) (0 : Fin 1))
      = Cert.Spec.gate (N := 1) x0 x1 x2 x3 x4 3 0 c)
    (x : r0_31.shape.Idx) :
    (k0_pay45 (k0_pay41 (k0_pay39 (k0_pay2 (View.ld x0 r0_0))) (k0_pay40 (k0_pay1 (View.ld x0 r0_0))) (View.ld x1 r0_35) (View.ld x2 r0_36) (View.ld x3 r0_37) (View.ld x4 r0_38)) (View.ld x0 r0_20)) x
      = Cert.Spec.G (N := 1) x0 x1 x2 x3 x4 (r0_31.emb x) := by
  obtain ⟨c, t, rfl⟩ := piece_idx x
  have h1 := store_apply x0 (k0_pay41 (k0_pay39 (k0_pay2 (View.ld x0 r0_0))) (k0_pay40 (k0_pay1 (View.ld x0 r0_0))) (View.ld x1 r0_35) (View.ld x2 r0_36) (View.ld x3 r0_37) (View.ld x4 r0_38)) 7 inb_S1x256x64x50_S1x256x64x1_0_0_0_7 broadcasts_S1x256x1x1_S1x256x64x1 c t
    (⟨7, by decide⟩ : Fin 50) rfl
  have h2 := spec_col_of x0 x1 x2 x3 x4 c t (⟨18, by decide⟩ : Fin 50) (⟨7, by decide⟩ : Fin 50) (3 : Fin 10) rfl rfl
  have h3 := col_emb 18 inb_S1x256x64x50_S1x256x64x1_0_0_0_18 c t (⟨18, by decide⟩ : Fin 50) rfl
  exact h1.trans ((congrArg (fun g => x0 (ix4 (0 : Fin 1) c t (⟨7, by decide⟩ : Fin 50)) * g) (hg c)).trans
    (h2.symm.trans (congrArg (Cert.Spec.G (N := 1) x0 x1 x2 x3 x4) h3.symm)))

/-- Store 19 of 50: output column 19 takes input column 21 (part 3). -/
theorem store_19 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay41 (k0_pay39 (k0_pay2 (View.ld x0 r0_0))) (k0_pay40 (k0_pay1 (View.ld x0 r0_0))) (View.ld x1 r0_35) (View.ld x2 r0_36) (View.ld x3 r0_37) (View.ld x4 r0_38)) (ix4 (0 : Fin 1) c (0 : Fin 1) (0 : Fin 1))
      = Cert.Spec.gate (N := 1) x0 x1 x2 x3 x4 3 0 c)
    (x : r0_33.shape.Idx) :
    (k0_pay46 (k0_pay41 (k0_pay39 (k0_pay2 (View.ld x0 r0_0))) (k0_pay40 (k0_pay1 (View.ld x0 r0_0))) (View.ld x1 r0_35) (View.ld x2 r0_36) (View.ld x3 r0_37) (View.ld x4 r0_38)) (View.ld x0 r0_40)) x
      = Cert.Spec.G (N := 1) x0 x1 x2 x3 x4 (r0_33.emb x) := by
  obtain ⟨c, t, rfl⟩ := piece_idx x
  have h1 := store_apply x0 (k0_pay41 (k0_pay39 (k0_pay2 (View.ld x0 r0_0))) (k0_pay40 (k0_pay1 (View.ld x0 r0_0))) (View.ld x1 r0_35) (View.ld x2 r0_36) (View.ld x3 r0_37) (View.ld x4 r0_38)) 21 inb_S1x256x64x50_S1x256x64x1_0_0_0_21 broadcasts_S1x256x1x1_S1x256x64x1 c t
    (⟨21, by decide⟩ : Fin 50) rfl
  have h2 := spec_col_of x0 x1 x2 x3 x4 c t (⟨19, by decide⟩ : Fin 50) (⟨21, by decide⟩ : Fin 50) (3 : Fin 10) rfl rfl
  have h3 := col_emb 19 inb_S1x256x64x50_S1x256x64x1_0_0_0_19 c t (⟨19, by decide⟩ : Fin 50) rfl
  exact h1.trans ((congrArg (fun g => x0 (ix4 (0 : Fin 1) c t (⟨21, by decide⟩ : Fin 50)) * g) (hg c)).trans
    (h2.symm.trans (congrArg (Cert.Spec.G (N := 1) x0 x1 x2 x3 x4) h3.symm)))

/-- Store 20 of 50: output column 20 takes input column 22 (part 3). -/
theorem store_20 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay41 (k0_pay39 (k0_pay2 (View.ld x0 r0_0))) (k0_pay40 (k0_pay1 (View.ld x0 r0_0))) (View.ld x1 r0_35) (View.ld x2 r0_36) (View.ld x3 r0_37) (View.ld x4 r0_38)) (ix4 (0 : Fin 1) c (0 : Fin 1) (0 : Fin 1))
      = Cert.Spec.gate (N := 1) x0 x1 x2 x3 x4 3 0 c)
    (x : r0_9.shape.Idx) :
    (k0_pay47 (k0_pay41 (k0_pay39 (k0_pay2 (View.ld x0 r0_0))) (k0_pay40 (k0_pay1 (View.ld x0 r0_0))) (View.ld x1 r0_35) (View.ld x2 r0_36) (View.ld x3 r0_37) (View.ld x4 r0_38)) (View.ld x0 r0_41)) x
      = Cert.Spec.G (N := 1) x0 x1 x2 x3 x4 (r0_9.emb x) := by
  obtain ⟨c, t, rfl⟩ := piece_idx x
  have h1 := store_apply x0 (k0_pay41 (k0_pay39 (k0_pay2 (View.ld x0 r0_0))) (k0_pay40 (k0_pay1 (View.ld x0 r0_0))) (View.ld x1 r0_35) (View.ld x2 r0_36) (View.ld x3 r0_37) (View.ld x4 r0_38)) 22 inb_S1x256x64x50_S1x256x64x1_0_0_0_22 broadcasts_S1x256x1x1_S1x256x64x1 c t
    (⟨22, by decide⟩ : Fin 50) rfl
  have h2 := spec_col_of x0 x1 x2 x3 x4 c t (⟨20, by decide⟩ : Fin 50) (⟨22, by decide⟩ : Fin 50) (3 : Fin 10) rfl rfl
  have h3 := col_emb 20 inb_S1x256x64x50_S1x256x64x1_0_0_0_20 c t (⟨20, by decide⟩ : Fin 50) rfl
  exact h1.trans ((congrArg (fun g => x0 (ix4 (0 : Fin 1) c t (⟨22, by decide⟩ : Fin 50)) * g) (hg c)).trans
    (h2.symm.trans (congrArg (Cert.Spec.G (N := 1) x0 x1 x2 x3 x4) h3.symm)))

/-- Store 21 of 50: output column 21 takes input column 12 (part 4). -/
theorem store_21 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) (ix4 (0 : Fin 1) c (0 : Fin 1) (0 : Fin 1))
      = Cert.Spec.gate (N := 1) x0 x1 x2 x3 x4 4 0 c)
    (x : r0_40.shape.Idx) :
    (k0_pay55 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42)) (View.ld x0 r0_30)) x
      = Cert.Spec.G (N := 1) x0 x1 x2 x3 x4 (r0_40.emb x) := by
  obtain ⟨c, t, rfl⟩ := piece_idx x
  have h1 := store_apply x0 (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) 12 inb_S1x256x64x50_S1x256x64x1_0_0_0_12 broadcasts_S1x256x1x1_S1x256x64x1 c t
    (⟨12, by decide⟩ : Fin 50) rfl
  have h2 := spec_col_of x0 x1 x2 x3 x4 c t (⟨21, by decide⟩ : Fin 50) (⟨12, by decide⟩ : Fin 50) (4 : Fin 10) rfl rfl
  have h3 := col_emb 21 inb_S1x256x64x50_S1x256x64x1_0_0_0_21 c t (⟨21, by decide⟩ : Fin 50) rfl
  exact h1.trans ((congrArg (fun g => x0 (ix4 (0 : Fin 1) c t (⟨12, by decide⟩ : Fin 50)) * g) (hg c)).trans
    (h2.symm.trans (congrArg (Cert.Spec.G (N := 1) x0 x1 x2 x3 x4) h3.symm)))

/-- Store 22 of 50: output column 22 takes input column 13 (part 4). -/
theorem store_22 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) (ix4 (0 : Fin 1) c (0 : Fin 1) (0 : Fin 1))
      = Cert.Spec.gate (N := 1) x0 x1 x2 x3 x4 4 0 c)
    (x : r0_41.shape.Idx) :
    (k0_pay56 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42)) (View.ld x0 r0_32)) x
      = Cert.Spec.G (N := 1) x0 x1 x2 x3 x4 (r0_41.emb x) := by
  obtain ⟨c, t, rfl⟩ := piece_idx x
  have h1 := store_apply x0 (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) 13 inb_S1x256x64x50_S1x256x64x1_0_0_0_13 broadcasts_S1x256x1x1_S1x256x64x1 c t
    (⟨13, by decide⟩ : Fin 50) rfl
  have h2 := spec_col_of x0 x1 x2 x3 x4 c t (⟨22, by decide⟩ : Fin 50) (⟨13, by decide⟩ : Fin 50) (4 : Fin 10) rfl rfl
  have h3 := col_emb 22 inb_S1x256x64x50_S1x256x64x1_0_0_0_22 c t (⟨22, by decide⟩ : Fin 50) rfl
  exact h1.trans ((congrArg (fun g => x0 (ix4 (0 : Fin 1) c t (⟨13, by decide⟩ : Fin 50)) * g) (hg c)).trans
    (h2.symm.trans (congrArg (Cert.Spec.G (N := 1) x0 x1 x2 x3 x4) h3.symm)))

/-- Store 23 of 50: output column 23 takes input column 14 (part 4). -/
theorem store_23 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) (ix4 (0 : Fin 1) c (0 : Fin 1) (0 : Fin 1))
      = Cert.Spec.gate (N := 1) x0 x1 x2 x3 x4 4 0 c)
    (x : r0_22.shape.Idx) :
    (k0_pay57 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42)) (View.ld x0 r0_34)) x
      = Cert.Spec.G (N := 1) x0 x1 x2 x3 x4 (r0_22.emb x) := by
  obtain ⟨c, t, rfl⟩ := piece_idx x
  have h1 := store_apply x0 (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) 14 inb_S1x256x64x50_S1x256x64x1_0_0_0_14 broadcasts_S1x256x1x1_S1x256x64x1 c t
    (⟨14, by decide⟩ : Fin 50) rfl
  have h2 := spec_col_of x0 x1 x2 x3 x4 c t (⟨23, by decide⟩ : Fin 50) (⟨14, by decide⟩ : Fin 50) (4 : Fin 10) rfl rfl
  have h3 := col_emb 23 inb_S1x256x64x50_S1x256x64x1_0_0_0_23 c t (⟨23, by decide⟩ : Fin 50) rfl
  exact h1.trans ((congrArg (fun g => x0 (ix4 (0 : Fin 1) c t (⟨14, by decide⟩ : Fin 50)) * g) (hg c)).trans
    (h2.symm.trans (congrArg (Cert.Spec.G (N := 1) x0 x1 x2 x3 x4) h3.symm)))

/-- Store 24 of 50: output column 24 takes input column 15 (part 4). -/
theorem store_24 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) (ix4 (0 : Fin 1) c (0 : Fin 1) (0 : Fin 1))
      = Cert.Spec.gate (N := 1) x0 x1 x2 x3 x4 4 0 c)
    (x : r0_23.shape.Idx) :
    (k0_pay58 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42)) (View.ld x0 r0_39)) x
      = Cert.Spec.G (N := 1) x0 x1 x2 x3 x4 (r0_23.emb x) := by
  obtain ⟨c, t, rfl⟩ := piece_idx x
  have h1 := store_apply x0 (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) 15 inb_S1x256x64x50_S1x256x64x1_0_0_0_15 broadcasts_S1x256x1x1_S1x256x64x1 c t
    (⟨15, by decide⟩ : Fin 50) rfl
  have h2 := spec_col_of x0 x1 x2 x3 x4 c t (⟨24, by decide⟩ : Fin 50) (⟨15, by decide⟩ : Fin 50) (4 : Fin 10) rfl rfl
  have h3 := col_emb 24 inb_S1x256x64x50_S1x256x64x1_0_0_0_24 c t (⟨24, by decide⟩ : Fin 50) rfl
  exact h1.trans ((congrArg (fun g => x0 (ix4 (0 : Fin 1) c t (⟨15, by decide⟩ : Fin 50)) * g) (hg c)).trans
    (h2.symm.trans (congrArg (Cert.Spec.G (N := 1) x0 x1 x2 x3 x4) h3.symm)))

end Cert.KernelIdeal.KerBody

end
-- ==== Proof.KerBody.StoresHi.lean ====
/-
  The stores of parts 5 … 9 (output columns 25 … 49).
  Each of the body's stores, at every index of its piece, is the specification at the block index the piece's
  rectangle names: the stored column is the input's column `joint d` times the part's gate, and the part's gate
  term is the specification's gate by hypothesis.
-/
import proofs.«140205_j1228360647386_2_alg».proof.Proof.Gen.KernelIdeal.Frame
import proofs.«140205_j1228360647386_2_alg».proof.Proof.Spec
import proofs.«140205_j1228360647386_2_alg».proof.Proof.KerBody.Piece

noncomputable section

namespace Cert.KernelIdeal.KerBody

open Idealize.ShloMosaic Idealize.ShloMosaic.ValueIdx
open Cert.KernelIdeal Cert.KernelIdeal.Gen

set_option maxRecDepth 16384

/-- Store 25 of 50: output column 25 takes input column 25 (part 5). -/
theorem store_25 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (ix4 (0 : Fin 1) c (0 : Fin 1) (0 : Fin 1))
      = Cert.Spec.gate (N := 1) x0 x1 x2 x3 x4 5 0 c)
    (x : r0_50.shape.Idx) :
    (k0_pay66 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32) (View.ld x0 r0_50)) x
      = Cert.Spec.G (N := 1) x0 x1 x2 x3 x4 (r0_50.emb x) := by
  obtain ⟨c, t, rfl⟩ := piece_idx x
  have h1 := store_apply x0 (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) 25 inb_S1x256x64x50_S1x256x64x1_0_0_0_25 broadcasts_S1x256x1x1_S1x256x64x1 c t
    (⟨25, by decide⟩ : Fin 50) rfl
  have h2 := spec_col_of x0 x1 x2 x3 x4 c t (⟨25, by decide⟩ : Fin 50) (⟨25, by decide⟩ : Fin 50) (5 : Fin 10) rfl rfl
  have h3 := col_emb 25 inb_S1x256x64x50_S1x256x64x1_0_0_0_25 c t (⟨25, by decide⟩ : Fin 50) rfl
  exact h1.trans ((congrArg (fun g => x0 (ix4 (0 : Fin 1) c t (⟨25, by decide⟩ : Fin 50)) * g) (hg c)).trans
    (h2.symm.trans (congrArg (Cert.Spec.G (N := 1) x0 x1 x2 x3 x4) h3.symm)))

/-- Store 26 of 50: output column 26 takes input column 26 (part 5). -/
theorem store_26 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (ix4 (0 : Fin 1) c (0 : Fin 1) (0 : Fin 1))
      = Cert.Spec.gate (N := 1) x0 x1 x2 x3 x4 5 0 c)
    (x : r0_51.shape.Idx) :
    (k0_pay67 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32) (View.ld x0 r0_51)) x
      = Cert.Spec.G (N := 1) x0 x1 x2 x3 x4 (r0_51.emb x) := by
  obtain ⟨c, t, rfl⟩ := piece_idx x
  have h1 := store_apply x0 (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) 26 inb_S1x256x64x50_S1x256x64x1_0_0_0_26 broadcasts_S1x256x1x1_S1x256x64x1 c t
    (⟨26, by decide⟩ : Fin 50) rfl
  have h2 := spec_col_of x0 x1 x2 x3 x4 c t (⟨26, by decide⟩ : Fin 50) (⟨26, by decide⟩ : Fin 50) (5 : Fin 10) rfl rfl
  have h3 := col_emb 26 inb_S1x256x64x50_S1x256x64x1_0_0_0_26 c t (⟨26, by decide⟩ : Fin 50) rfl
  exact h1.trans ((congrArg (fun g => x0 (ix4 (0 : Fin 1) c t (⟨26, by decide⟩ : Fin 50)) * g) (hg c)).trans
    (h2.symm.trans (congrArg (Cert.Spec.G (N := 1) x0 x1 x2 x3 x4) h3.symm)))

/-- Store 27 of 50: output column 27 takes input column 27 (part 5). -/
theorem store_27 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (ix4 (0 : Fin 1) c (0 : Fin 1) (0 : Fin 1))
      = Cert.Spec.gate (N := 1) x0 x1 x2 x3 x4 5 0 c)
    (x : r0_52.shape.Idx) :
    (k0_pay68 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32) (View.ld x0 r0_52)) x
      = Cert.Spec.G (N := 1) x0 x1 x2 x3 x4 (r0_52.emb x) := by
  obtain ⟨c, t, rfl⟩ := piece_idx x
  have h1 := store_apply x0 (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) 27 inb_S1x256x64x50_S1x256x64x1_0_0_0_27 broadcasts_S1x256x1x1_S1x256x64x1 c t
    (⟨27, by decide⟩ : Fin 50) rfl
  have h2 := spec_col_of x0 x1 x2 x3 x4 c t (⟨27, by decide⟩ : Fin 50) (⟨27, by decide⟩ : Fin 50) (5 : Fin 10) rfl rfl
  have h3 := col_emb 27 inb_S1x256x64x50_S1x256x64x1_0_0_0_27 c t (⟨27, by decide⟩ : Fin 50) rfl
  exact h1.trans ((congrArg (fun g => x0 (ix4 (0 : Fin 1) c t (⟨27, by decide⟩ : Fin 50)) * g) (hg c)).trans
    (h2.symm.trans (congrArg (Cert.Spec.G (N := 1) x0 x1 x2 x3 x4) h3.symm)))

/-- Store 28 of 50: output column 28 takes input column 28 (part 5). -/
theorem store_28 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (ix4 (0 : Fin 1) c (0 : Fin 1) (0 : Fin 1))
      = Cert.Spec.gate (N := 1) x0 x1 x2 x3 x4 5 0 c)
    (x : r0_53.shape.Idx) :
    (k0_pay69 (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (View.ld x0 r0_53)) x
      = Cert.Spec.G (N := 1) x0 x1 x2 x3 x4 (r0_53.emb x) := by
  obtain ⟨c, t, rfl⟩ := piece_idx x
  have h1 := store_apply x0 (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) 28 inb_S1x256x64x50_S1x256x64x1_0_0_0_28 broadcasts_S1x256x1x1_S1x256x64x1 c t
    (⟨28, by decide⟩ : Fin 50) rfl
  have h2 := spec_col_of x0 x1 x2 x3 x4 c t (⟨28, by decide⟩ : Fin 50) (⟨28, by decide⟩ : Fin 50) (5 : Fin 10) rfl rfl
  have h3 := col_emb 28 inb_S1x256x64x50_S1x256x64x1_0_0_0_28 c t (⟨28, by decide⟩ : Fin 50) rfl
  exact h1.trans ((congrArg (fun g => x0 (ix4 (0 : Fin 1) c t (⟨28, by decide⟩ : Fin 50)) * g) (hg c)).trans
    (h2.symm.trans (congrArg (Cert.Spec.G (N := 1) x0 x1 x2 x3 x4) h3.symm)))

/-- Store 29 of 50: output column 29 takes input column 45 (part 5). -/
theorem store_29 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (ix4 (0 : Fin 1) c (0 : Fin 1) (0 : Fin 1))
      = Cert.Spec.gate (N := 1) x0 x1 x2 x3 x4 5 0 c)
    (x : r0_55.shape.Idx) :
    (k0_pay70 (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (View.ld x0 r0_54)) x
      = Cert.Spec.G (N := 1) x0 x1 x2 x3 x4 (r0_55.emb x) := by
  obtain ⟨c, t, rfl⟩ := piece_idx x
  have h1 := store_apply x0 (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) 45 inb_S1x256x64x50_S1x256x64x1_0_0_0_45 broadcasts_S1x256x1x1_S1x256x64x1 c t
    (⟨45, by decide⟩ : Fin 50) rfl
  have h2 := spec_col_of x0 x1 x2 x3 x4 c t (⟨29, by decide⟩ : Fin 50) (⟨45, by decide⟩ : Fin 50) (5 : Fin 10) rfl rfl
  have h3 := col_emb 29 inb_S1x256x64x50_S1x256x64x1_0_0_0_29 c t (⟨29, by decide⟩ : Fin 50) rfl
  exact h1.trans ((congrArg (fun g => x0 (ix4 (0 : Fin 1) c t (⟨45, by decide⟩ : Fin 50)) * g) (hg c)).trans
    (h2.symm.trans (congrArg (Cert.Spec.G (N := 1) x0 x1 x2 x3 x4) h3.symm)))

/-- Store 30 of 50: output column 30 takes input column 33 (part 6). -/
theorem store_30 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (ix4 (0 : Fin 1) c (0 : Fin 1) (0 : Fin 1))
      = Cert.Spec.gate (N := 1) x0 x1 x2 x3 x4 6 0 c)
    (x : r0_61.shape.Idx) :
    (k0_pay75 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59) (View.ld x0 r0_60)) x
      = Cert.Spec.G (N := 1) x0 x1 x2 x3 x4 (r0_61.emb x) := by
  obtain ⟨c, t, rfl⟩ := piece_idx x
  have h1 := store_apply x0 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) 33 inb_S1x256x64x50_S1x256x64x1_0_0_0_33 broadcasts_S1x256x1x1_S1x256x64x1 c t
    (⟨33, by decide⟩ : Fin 50) rfl
  have h2 := spec_col_of x0 x1 x2 x3 x4 c t (⟨30, by decide⟩ : Fin 50) (⟨33, by decide⟩ : Fin 50) (6 : Fin 10) rfl rfl
  have h3 := col_emb 30 inb_S1x256x64x50_S1x256x64x1_0_0_0_30 c t (⟨30, by decide⟩ : Fin 50) rfl
  exact h1.trans ((congrArg (fun g => x0 (ix4 (0 : Fin 1) c t (⟨33, by decide⟩ : Fin 50)) * g) (hg c)).trans
    (h2.symm.trans (congrArg (Cert.Spec.G (N := 1) x0 x1 x2 x3 x4) h3.symm)))

/-- Store 31 of 50: output column 31 takes input column 34 (part 6). -/
theorem store_31 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (ix4 (0 : Fin 1) c (0 : Fin 1) (0 : Fin 1))
      = Cert.Spec.gate (N := 1) x0 x1 x2 x3 x4 6 0 c)
    (x : r0_63.shape.Idx) :
    (k0_pay76 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (View.ld x0 r0_62)) x
      = Cert.Spec.G (N := 1) x0 x1 x2 x3 x4 (r0_63.emb x) := by
  obtain ⟨c, t, rfl⟩ := piece_idx x
  have h1 := store_apply x0 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) 34 inb_S1x256x64x50_S1x256x64x1_0_0_0_34 broadcasts_S1x256x1x1_S1x256x64x1 c t
    (⟨34, by decide⟩ : Fin 50) rfl
  have h2 := spec_col_of x0 x1 x2 x3 x4 c t (⟨31, by decide⟩ : Fin 50) (⟨34, by decide⟩ : Fin 50) (6 : Fin 10) rfl rfl
  have h3 := col_emb 31 inb_S1x256x64x50_S1x256x64x1_0_0_0_31 c t (⟨31, by decide⟩ : Fin 50) rfl
  exact h1.trans ((congrArg (fun g => x0 (ix4 (0 : Fin 1) c t (⟨34, by decide⟩ : Fin 50)) * g) (hg c)).trans
    (h2.symm.trans (congrArg (Cert.Spec.G (N := 1) x0 x1 x2 x3 x4) h3.symm)))

/-- Store 32 of 50: output column 32 takes input column 35 (part 6). -/
theorem store_32 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (ix4 (0 : Fin 1) c (0 : Fin 1) (0 : Fin 1))
      = Cert.Spec.gate (N := 1) x0 x1 x2 x3 x4 6 0 c)
    (x : r0_65.shape.Idx) :
    (k0_pay77 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (View.ld x0 r0_64)) x
      = Cert.Spec.G (N := 1) x0 x1 x2 x3 x4 (r0_65.emb x) := by
  obtain ⟨c, t, rfl⟩ := piece_idx x
  have h1 := store_apply x0 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) 35 inb_S1x256x64x50_S1x256x64x1_0_0_0_35 broadcasts_S1x256x1x1_S1x256x64x1 c t
    (⟨35, by decide⟩ : Fin 50) rfl
  have h2 := spec_col_of x0 x1 x2 x3 x4 c t (⟨32, by decide⟩ : Fin 50) (⟨35, by decide⟩ : Fin 50) (6 : Fin 10) rfl rfl
  have h3 := col_emb 32 inb_S1x256x64x50_S1x256x64x1_0_0_0_32 c t (⟨32, by decide⟩ : Fin 50) rfl
  exact h1.trans ((congrArg (fun g => x0 (ix4 (0 : Fin 1) c t (⟨35, by decide⟩ : Fin 50)) * g) (hg c)).trans
    (h2.symm.trans (congrArg (Cert.Spec.G (N := 1) x0 x1 x2 x3 x4) h3.symm)))

/-- Store 33 of 50: output column 33 takes input column 36 (part 6). -/
theorem store_33 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (ix4 (0 : Fin 1) c (0 : Fin 1) (0 : Fin 1))
      = Cert.Spec.gate (N := 1) x0 x1 x2 x3 x4 6 0 c)
    (x : r0_60.shape.Idx) :
    (k0_pay78 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (View.ld x0 r0_66)) x
      = Cert.Spec.G (N := 1) x0 x1 x2 x3 x4 (r0_60.emb x) := by
  obtain ⟨c, t, rfl⟩ := piece_idx x
  have h1 := store_apply x0 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) 36 inb_S1x256x64x50_S1x256x64x1_0_0_0_36 broadcasts_S1x256x1x1_S1x256x64x1 c t
    (⟨36, by decide⟩ : Fin 50) rfl
  have h2 := spec_col_of x0 x1 x2 x3 x4 c t (⟨33, by decide⟩ : Fin 50) (⟨36, by decide⟩ : Fin 50) (6 : Fin 10) rfl rfl
  have h3 := col_emb 33 inb_S1x256x64x50_S1x256x64x1_0_0_0_33 c t (⟨33, by decide⟩ : Fin 50) rfl
  exact h1.trans ((congrArg (fun g => x0 (ix4 (0 : Fin 1) c t (⟨36, by decide⟩ : Fin 50)) * g) (hg c)).trans
    (h2.symm.trans (congrArg (Cert.Spec.G (N := 1) x0 x1 x2 x3 x4) h3.symm)))

/-- Store 34 of 50: output column 34 takes input column 48 (part 6). -/
theorem store_34 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (ix4 (0 : Fin 1) c (0 : Fin 1) (0 : Fin 1))
      = Cert.Spec.gate (N := 1) x0 x1 x2 x3 x4 6 0 c)
    (x : r0_62.shape.Idx) :
    (k0_pay79 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (View.ld x0 r0_67)) x
      = Cert.Spec.G (N := 1) x0 x1 x2 x3 x4 (r0_62.emb x) := by
  obtain ⟨c, t, rfl⟩ := piece_idx x
  have h1 := store_apply x0 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) 48 inb_S1x256x64x50_S1x256x64x1_0_0_0_48 broadcasts_S1x256x1x1_S1x256x64x1 c t
    (⟨48, by decide⟩ : Fin 50) rfl
  have h2 := spec_col_of x0 x1 x2 x3 x4 c t (⟨34, by decide⟩ : Fin 50) (⟨48, by decide⟩ : Fin 50) (6 : Fin 10) rfl rfl
  have h3 := col_emb 34 inb_S1x256x64x50_S1x256x64x1_0_0_0_34 c t (⟨34, by decide⟩ : Fin 50) rfl
  exact h1.trans ((congrArg (fun g => x0 (ix4 (0 : Fin 1) c t (⟨48, by decide⟩ : Fin 50)) * g) (hg c)).trans
    (h2.symm.trans (congrArg (Cert.Spec.G (N := 1) x0 x1 x2 x3 x4) h3.symm)))

/-- Store 35 of 50: output column 35 takes input column 49 (part 6). -/
theorem store_35 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (ix4 (0 : Fin 1) c (0 : Fin 1) (0 : Fin 1))
      = Cert.Spec.gate (N := 1) x0 x1 x2 x3 x4 6 0 c)
    (x : r0_64.shape.Idx) :
    (k0_pay80 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (View.ld x0 r0_68)) x
      = Cert.Spec.G (N := 1) x0 x1 x2 x3 x4 (r0_64.emb x) := by
  obtain ⟨c, t, rfl⟩ := piece_idx x
  have h1 := store_apply x0 (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) 49 inb_S1x256x64x50_S1x256x64x1_0_0_0_49 broadcasts_S1x256x1x1_S1x256x64x1 c t
    (⟨49, by decide⟩ : Fin 50) rfl
  have h2 := spec_col_of x0 x1 x2 x3 x4 c t (⟨35, by decide⟩ : Fin 50) (⟨49, by decide⟩ : Fin 50) (6 : Fin 10) rfl rfl
  have h3 := col_emb 35 inb_S1x256x64x50_S1x256x64x1_0_0_0_35 c t (⟨35, by decide⟩ : Fin 50) rfl
  exact h1.trans ((congrArg (fun g => x0 (ix4 (0 : Fin 1) c t (⟨49, by decide⟩ : Fin 50)) * g) (hg c)).trans
    (h2.symm.trans (congrArg (Cert.Spec.G (N := 1) x0 x1 x2 x3 x4) h3.symm)))

/-- Store 36 of 50: output column 36 takes input column 41 (part 7). -/
theorem store_36 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) (ix4 (0 : Fin 1) c (0 : Fin 1) (0 : Fin 1))
      = Cert.Spec.gate (N := 1) x0 x1 x2 x3 x4 7 0 c)
    (x : r0_66.shape.Idx) :
    (k0_pay89 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal)) (View.ld x0 r0_73)) x
      = Cert.Spec.G (N := 1) x0 x1 x2 x3 x4 (r0_66.emb x) := by
  obtain ⟨c, t, rfl⟩ := piece_idx x
  have h1 := store_apply x0 (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) 41 inb_S1x256x64x50_S1x256x64x1_0_0_0_41 broadcasts_S1x256x1x1_S1x256x64x1 c t
    (⟨41, by decide⟩ : Fin 50) rfl
  have h2 := spec_col_of x0 x1 x2 x3 x4 c t (⟨36, by decide⟩ : Fin 50) (⟨41, by decide⟩ : Fin 50) (7 : Fin 10) rfl rfl
  have h3 := col_emb 36 inb_S1x256x64x50_S1x256x64x1_0_0_0_36 c t (⟨36, by decide⟩ : Fin 50) rfl
  exact h1.trans ((congrArg (fun g => x0 (ix4 (0 : Fin 1) c t (⟨41, by decide⟩ : Fin 50)) * g) (hg c)).trans
    (h2.symm.trans (congrArg (Cert.Spec.G (N := 1) x0 x1 x2 x3 x4) h3.symm)))

/-- Store 37 of 50: output column 37 takes input column 42 (part 7). -/
theorem store_37 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) (ix4 (0 : Fin 1) c (0 : Fin 1) (0 : Fin 1))
      = Cert.Spec.gate (N := 1) x0 x1 x2 x3 x4 7 0 c)
    (x : r0_75.shape.Idx) :
    (k0_pay90 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal)) (View.ld x0 r0_74)) x
      = Cert.Spec.G (N := 1) x0 x1 x2 x3 x4 (r0_75.emb x) := by
  obtain ⟨c, t, rfl⟩ := piece_idx x
  have h1 := store_apply x0 (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) 42 inb_S1x256x64x50_S1x256x64x1_0_0_0_42 broadcasts_S1x256x1x1_S1x256x64x1 c t
    (⟨42, by decide⟩ : Fin 50) rfl
  have h2 := spec_col_of x0 x1 x2 x3 x4 c t (⟨37, by decide⟩ : Fin 50) (⟨42, by decide⟩ : Fin 50) (7 : Fin 10) rfl rfl
  have h3 := col_emb 37 inb_S1x256x64x50_S1x256x64x1_0_0_0_37 c t (⟨37, by decide⟩ : Fin 50) rfl
  exact h1.trans ((congrArg (fun g => x0 (ix4 (0 : Fin 1) c t (⟨42, by decide⟩ : Fin 50)) * g) (hg c)).trans
    (h2.symm.trans (congrArg (Cert.Spec.G (N := 1) x0 x1 x2 x3 x4) h3.symm)))

/-- Store 38 of 50: output column 38 takes input column 43 (part 7). -/
theorem store_38 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) (ix4 (0 : Fin 1) c (0 : Fin 1) (0 : Fin 1))
      = Cert.Spec.gate (N := 1) x0 x1 x2 x3 x4 7 0 c)
    (x : r0_77.shape.Idx) :
    (k0_pay91 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal)) (View.ld x0 r0_76)) x
      = Cert.Spec.G (N := 1) x0 x1 x2 x3 x4 (r0_77.emb x) := by
  obtain ⟨c, t, rfl⟩ := piece_idx x
  have h1 := store_apply x0 (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) 43 inb_S1x256x64x50_S1x256x64x1_0_0_0_43 broadcasts_S1x256x1x1_S1x256x64x1 c t
    (⟨43, by decide⟩ : Fin 50) rfl
  have h2 := spec_col_of x0 x1 x2 x3 x4 c t (⟨38, by decide⟩ : Fin 50) (⟨43, by decide⟩ : Fin 50) (7 : Fin 10) rfl rfl
  have h3 := col_emb 38 inb_S1x256x64x50_S1x256x64x1_0_0_0_38 c t (⟨38, by decide⟩ : Fin 50) rfl
  exact h1.trans ((congrArg (fun g => x0 (ix4 (0 : Fin 1) c t (⟨43, by decide⟩ : Fin 50)) * g) (hg c)).trans
    (h2.symm.trans (congrArg (Cert.Spec.G (N := 1) x0 x1 x2 x3 x4) h3.symm)))

/-- Store 39 of 50: output column 39 takes input column 44 (part 7). -/
theorem store_39 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) (ix4 (0 : Fin 1) c (0 : Fin 1) (0 : Fin 1))
      = Cert.Spec.gate (N := 1) x0 x1 x2 x3 x4 7 0 c)
    (x : r0_79.shape.Idx) :
    (k0_pay92 (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) (View.ld x0 r0_78)) x
      = Cert.Spec.G (N := 1) x0 x1 x2 x3 x4 (r0_79.emb x) := by
  obtain ⟨c, t, rfl⟩ := piece_idx x
  have h1 := store_apply x0 (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) 44 inb_S1x256x64x50_S1x256x64x1_0_0_0_44 broadcasts_S1x256x1x1_S1x256x64x1 c t
    (⟨44, by decide⟩ : Fin 50) rfl
  have h2 := spec_col_of x0 x1 x2 x3 x4 c t (⟨39, by decide⟩ : Fin 50) (⟨44, by decide⟩ : Fin 50) (7 : Fin 10) rfl rfl
  have h3 := col_emb 39 inb_S1x256x64x50_S1x256x64x1_0_0_0_39 c t (⟨39, by decide⟩ : Fin 50) rfl
  exact h1.trans ((congrArg (fun g => x0 (ix4 (0 : Fin 1) c t (⟨44, by decide⟩ : Fin 50)) * g) (hg c)).trans
    (h2.symm.trans (congrArg (Cert.Spec.G (N := 1) x0 x1 x2 x3 x4) h3.symm)))

/-- Store 40 of 50: output column 40 takes input column 29 (part 8). -/
theorem store_40 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (ix4 (0 : Fin 1) c (0 : Fin 1) (0 : Fin 1))
      = Cert.Spec.gate (N := 1) x0 x1 x2 x3 x4 8 0 c)
    (x : r0_84.shape.Idx) :
    (k0_pay98 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83) (View.ld x0 r0_55)) x
      = Cert.Spec.G (N := 1) x0 x1 x2 x3 x4 (r0_84.emb x) := by
  obtain ⟨c, t, rfl⟩ := piece_idx x
  have h1 := store_apply x0 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) 29 inb_S1x256x64x50_S1x256x64x1_0_0_0_29 broadcasts_S1x256x1x1_S1x256x64x1 c t
    (⟨29, by decide⟩ : Fin 50) rfl
  have h2 := spec_col_of x0 x1 x2 x3 x4 c t (⟨40, by decide⟩ : Fin 50) (⟨29, by decide⟩ : Fin 50) (8 : Fin 10) rfl rfl
  have h3 := col_emb 40 inb_S1x256x64x50_S1x256x64x1_0_0_0_40 c t (⟨40, by decide⟩ : Fin 50) rfl
  exact h1.trans ((congrArg (fun g => x0 (ix4 (0 : Fin 1) c t (⟨29, by decide⟩ : Fin 50)) * g) (hg c)).trans
    (h2.symm.trans (congrArg (Cert.Spec.G (N := 1) x0 x1 x2 x3 x4) h3.symm)))

/-- Store 41 of 50: output column 41 takes input column 30 (part 8). -/
theorem store_41 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (ix4 (0 : Fin 1) c (0 : Fin 1) (0 : Fin 1))
      = Cert.Spec.gate (N := 1) x0 x1 x2 x3 x4 8 0 c)
    (x : r0_73.shape.Idx) :
    (k0_pay99 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83) (View.ld x0 r0_61)) x
      = Cert.Spec.G (N := 1) x0 x1 x2 x3 x4 (r0_73.emb x) := by
  obtain ⟨c, t, rfl⟩ := piece_idx x
  have h1 := store_apply x0 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) 30 inb_S1x256x64x50_S1x256x64x1_0_0_0_30 broadcasts_S1x256x1x1_S1x256x64x1 c t
    (⟨30, by decide⟩ : Fin 50) rfl
  have h2 := spec_col_of x0 x1 x2 x3 x4 c t (⟨41, by decide⟩ : Fin 50) (⟨30, by decide⟩ : Fin 50) (8 : Fin 10) rfl rfl
  have h3 := col_emb 41 inb_S1x256x64x50_S1x256x64x1_0_0_0_41 c t (⟨41, by decide⟩ : Fin 50) rfl
  exact h1.trans ((congrArg (fun g => x0 (ix4 (0 : Fin 1) c t (⟨30, by decide⟩ : Fin 50)) * g) (hg c)).trans
    (h2.symm.trans (congrArg (Cert.Spec.G (N := 1) x0 x1 x2 x3 x4) h3.symm)))

/-- Store 42 of 50: output column 42 takes input column 31 (part 8). -/
theorem store_42 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (ix4 (0 : Fin 1) c (0 : Fin 1) (0 : Fin 1))
      = Cert.Spec.gate (N := 1) x0 x1 x2 x3 x4 8 0 c)
    (x : r0_74.shape.Idx) :
    (k0_pay100 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (View.ld x0 r0_63)) x
      = Cert.Spec.G (N := 1) x0 x1 x2 x3 x4 (r0_74.emb x) := by
  obtain ⟨c, t, rfl⟩ := piece_idx x
  have h1 := store_apply x0 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) 31 inb_S1x256x64x50_S1x256x64x1_0_0_0_31 broadcasts_S1x256x1x1_S1x256x64x1 c t
    (⟨31, by decide⟩ : Fin 50) rfl
  have h2 := spec_col_of x0 x1 x2 x3 x4 c t (⟨42, by decide⟩ : Fin 50) (⟨31, by decide⟩ : Fin 50) (8 : Fin 10) rfl rfl
  have h3 := col_emb 42 inb_S1x256x64x50_S1x256x64x1_0_0_0_42 c t (⟨42, by decide⟩ : Fin 50) rfl
  exact h1.trans ((congrArg (fun g => x0 (ix4 (0 : Fin 1) c t (⟨31, by decide⟩ : Fin 50)) * g) (hg c)).trans
    (h2.symm.trans (congrArg (Cert.Spec.G (N := 1) x0 x1 x2 x3 x4) h3.symm)))

/-- Store 43 of 50: output column 43 takes input column 32 (part 8). -/
theorem store_43 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (ix4 (0 : Fin 1) c (0 : Fin 1) (0 : Fin 1))
      = Cert.Spec.gate (N := 1) x0 x1 x2 x3 x4 8 0 c)
    (x : r0_76.shape.Idx) :
    (k0_pay101 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (View.ld x0 r0_65)) x
      = Cert.Spec.G (N := 1) x0 x1 x2 x3 x4 (r0_76.emb x) := by
  obtain ⟨c, t, rfl⟩ := piece_idx x
  have h1 := store_apply x0 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) 32 inb_S1x256x64x50_S1x256x64x1_0_0_0_32 broadcasts_S1x256x1x1_S1x256x64x1 c t
    (⟨32, by decide⟩ : Fin 50) rfl
  have h2 := spec_col_of x0 x1 x2 x3 x4 c t (⟨43, by decide⟩ : Fin 50) (⟨32, by decide⟩ : Fin 50) (8 : Fin 10) rfl rfl
  have h3 := col_emb 43 inb_S1x256x64x50_S1x256x64x1_0_0_0_43 c t (⟨43, by decide⟩ : Fin 50) rfl
  exact h1.trans ((congrArg (fun g => x0 (ix4 (0 : Fin 1) c t (⟨32, by decide⟩ : Fin 50)) * g) (hg c)).trans
    (h2.symm.trans (congrArg (Cert.Spec.G (N := 1) x0 x1 x2 x3 x4) h3.symm)))

/-- Store 44 of 50: output column 44 takes input column 46 (part 8). -/
theorem store_44 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (ix4 (0 : Fin 1) c (0 : Fin 1) (0 : Fin 1))
      = Cert.Spec.gate (N := 1) x0 x1 x2 x3 x4 8 0 c)
    (x : r0_78.shape.Idx) :
    (k0_pay102 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (View.ld x0 r0_85)) x
      = Cert.Spec.G (N := 1) x0 x1 x2 x3 x4 (r0_78.emb x) := by
  obtain ⟨c, t, rfl⟩ := piece_idx x
  have h1 := store_apply x0 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) 46 inb_S1x256x64x50_S1x256x64x1_0_0_0_46 broadcasts_S1x256x1x1_S1x256x64x1 c t
    (⟨46, by decide⟩ : Fin 50) rfl
  have h2 := spec_col_of x0 x1 x2 x3 x4 c t (⟨44, by decide⟩ : Fin 50) (⟨46, by decide⟩ : Fin 50) (8 : Fin 10) rfl rfl
  have h3 := col_emb 44 inb_S1x256x64x50_S1x256x64x1_0_0_0_44 c t (⟨44, by decide⟩ : Fin 50) rfl
  exact h1.trans ((congrArg (fun g => x0 (ix4 (0 : Fin 1) c t (⟨46, by decide⟩ : Fin 50)) * g) (hg c)).trans
    (h2.symm.trans (congrArg (Cert.Spec.G (N := 1) x0 x1 x2 x3 x4) h3.symm)))

/-- Store 45 of 50: output column 45 takes input column 47 (part 8). -/
theorem store_45 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (ix4 (0 : Fin 1) c (0 : Fin 1) (0 : Fin 1))
      = Cert.Spec.gate (N := 1) x0 x1 x2 x3 x4 8 0 c)
    (x : r0_54.shape.Idx) :
    (k0_pay103 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (View.ld x0 r0_86)) x
      = Cert.Spec.G (N := 1) x0 x1 x2 x3 x4 (r0_54.emb x) := by
  obtain ⟨c, t, rfl⟩ := piece_idx x
  have h1 := store_apply x0 (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) 47 inb_S1x256x64x50_S1x256x64x1_0_0_0_47 broadcasts_S1x256x1x1_S1x256x64x1 c t
    (⟨47, by decide⟩ : Fin 50) rfl
  have h2 := spec_col_of x0 x1 x2 x3 x4 c t (⟨45, by decide⟩ : Fin 50) (⟨47, by decide⟩ : Fin 50) (8 : Fin 10) rfl rfl
  have h3 := col_emb 45 inb_S1x256x64x50_S1x256x64x1_0_0_0_45 c t (⟨45, by decide⟩ : Fin 50) rfl
  exact h1.trans ((congrArg (fun g => x0 (ix4 (0 : Fin 1) c t (⟨47, by decide⟩ : Fin 50)) * g) (hg c)).trans
    (h2.symm.trans (congrArg (Cert.Spec.G (N := 1) x0 x1 x2 x3 x4) h3.symm)))

/-- Store 46 of 50: output column 46 takes input column 37 (part 9). -/
theorem store_46 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) (ix4 (0 : Fin 1) c (0 : Fin 1) (0 : Fin 1))
      = Cert.Spec.gate (N := 1) x0 x1 x2 x3 x4 9 0 c)
    (x : r0_85.shape.Idx) :
    (k0_pay113 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88)) (View.ld x0 r0_75)) x
      = Cert.Spec.G (N := 1) x0 x1 x2 x3 x4 (r0_85.emb x) := by
  obtain ⟨c, t, rfl⟩ := piece_idx x
  have h1 := store_apply x0 (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) 37 inb_S1x256x64x50_S1x256x64x1_0_0_0_37 broadcasts_S1x256x1x1_S1x256x64x1 c t
    (⟨37, by decide⟩ : Fin 50) rfl
  have h2 := spec_col_of x0 x1 x2 x3 x4 c t (⟨46, by decide⟩ : Fin 50) (⟨37, by decide⟩ : Fin 50) (9 : Fin 10) rfl rfl
  have h3 := col_emb 46 inb_S1x256x64x50_S1x256x64x1_0_0_0_46 c t (⟨46, by decide⟩ : Fin 50) rfl
  exact h1.trans ((congrArg (fun g => x0 (ix4 (0 : Fin 1) c t (⟨37, by decide⟩ : Fin 50)) * g) (hg c)).trans
    (h2.symm.trans (congrArg (Cert.Spec.G (N := 1) x0 x1 x2 x3 x4) h3.symm)))

/-- Store 47 of 50: output column 47 takes input column 38 (part 9). -/
theorem store_47 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) (ix4 (0 : Fin 1) c (0 : Fin 1) (0 : Fin 1))
      = Cert.Spec.gate (N := 1) x0 x1 x2 x3 x4 9 0 c)
    (x : r0_86.shape.Idx) :
    (k0_pay114 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88)) (View.ld x0 r0_77)) x
      = Cert.Spec.G (N := 1) x0 x1 x2 x3 x4 (r0_86.emb x) := by
  obtain ⟨c, t, rfl⟩ := piece_idx x
  have h1 := store_apply x0 (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) 38 inb_S1x256x64x50_S1x256x64x1_0_0_0_38 broadcasts_S1x256x1x1_S1x256x64x1 c t
    (⟨38, by decide⟩ : Fin 50) rfl
  have h2 := spec_col_of x0 x1 x2 x3 x4 c t (⟨47, by decide⟩ : Fin 50) (⟨38, by decide⟩ : Fin 50) (9 : Fin 10) rfl rfl
  have h3 := col_emb 47 inb_S1x256x64x50_S1x256x64x1_0_0_0_47 c t (⟨47, by decide⟩ : Fin 50) rfl
  exact h1.trans ((congrArg (fun g => x0 (ix4 (0 : Fin 1) c t (⟨38, by decide⟩ : Fin 50)) * g) (hg c)).trans
    (h2.symm.trans (congrArg (Cert.Spec.G (N := 1) x0 x1 x2 x3 x4) h3.symm)))

/-- Store 48 of 50: output column 48 takes input column 39 (part 9). -/
theorem store_48 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) (ix4 (0 : Fin 1) c (0 : Fin 1) (0 : Fin 1))
      = Cert.Spec.gate (N := 1) x0 x1 x2 x3 x4 9 0 c)
    (x : r0_67.shape.Idx) :
    (k0_pay115 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88)) (View.ld x0 r0_79)) x
      = Cert.Spec.G (N := 1) x0 x1 x2 x3 x4 (r0_67.emb x) := by
  obtain ⟨c, t, rfl⟩ := piece_idx x
  have h1 := store_apply x0 (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) 39 inb_S1x256x64x50_S1x256x64x1_0_0_0_39 broadcasts_S1x256x1x1_S1x256x64x1 c t
    (⟨39, by decide⟩ : Fin 50) rfl
  have h2 := spec_col_of x0 x1 x2 x3 x4 c t (⟨48, by decide⟩ : Fin 50) (⟨39, by decide⟩ : Fin 50) (9 : Fin 10) rfl rfl
  have h3 := col_emb 48 inb_S1x256x64x50_S1x256x64x1_0_0_0_48 c t (⟨48, by decide⟩ : Fin 50) rfl
  exact h1.trans ((congrArg (fun g => x0 (ix4 (0 : Fin 1) c t (⟨39, by decide⟩ : Fin 50)) * g) (hg c)).trans
    (h2.symm.trans (congrArg (Cert.Spec.G (N := 1) x0 x1 x2 x3 x4) h3.symm)))

/-- Store 49 of 50: output column 49 takes input column 40 (part 9). -/
theorem store_49 (x0 : Vec Ideal S1x256x64x50 .f32) (x1 : Vec Ideal S10x16x256 .f32) (x2 : Vec Ideal S10x16 .f32)
    (x3 : Vec Ideal S10x256x16 .f32) (x4 : Vec Ideal S10x256 .f32)
    (hg : ∀ c : Fin 256, (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) (ix4 (0 : Fin 1) c (0 : Fin 1) (0 : Fin 1))
      = Cert.Spec.gate (N := 1) x0 x1 x2 x3 x4 9 0 c)
    (x : r0_68.shape.Idx) :
    (k0_pay116 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88)) (View.ld x0 r0_84)) x
      = Cert.Spec.G (N := 1) x0 x1 x2 x3 x4 (r0_68.emb x) := by
  obtain ⟨c, t, rfl⟩ := piece_idx x
  have h1 := store_apply x0 (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) 40 inb_S1x256x64x50_S1x256x64x1_0_0_0_40 broadcasts_S1x256x1x1_S1x256x64x1 c t
    (⟨40, by decide⟩ : Fin 50) rfl
  have h2 := spec_col_of x0 x1 x2 x3 x4 c t (⟨49, by decide⟩ : Fin 50) (⟨40, by decide⟩ : Fin 50) (9 : Fin 10) rfl rfl
  have h3 := col_emb 49 inb_S1x256x64x50_S1x256x64x1_0_0_0_49 c t (⟨49, by decide⟩ : Fin 50) rfl
  exact h1.trans ((congrArg (fun g => x0 (ix4 (0 : Fin 1) c t (⟨40, by decide⟩ : Fin 50)) * g) (hg c)).trans
    (h2.symm.trans (congrArg (Cert.Spec.G (N := 1) x0 x1 x2 x3 x4) h3.symm)))

end Cert.KernelIdeal.KerBody

end
-- ==== Proof.KerBody.Assemble.lean ====
/-
  The kernel body's output block from its parts' gates.

  The body fills its output block by 50 one-column stores whose rectangles tile the block. Each store's payload is,
  at every index of its piece, the specification at the block index the piece's rectangle names — given, for each of
  the ten parts, that the part's gate term is the specification's gate. Pieces that are all blocks of one function
  leave that function wherever a piece covers, and the pieces cover every index: the block is the specification.
-/
import proofs.«140205_j1228360647386_2_alg».proof.Proof.Gen.KernelIdeal.Frame
import proofs.«140205_j1228360647386_2_alg».proof.Proof.Spec
import proofs.«140205_j1228360647386_2_alg».proof.Proof.KerBody.StoresLo
import proofs.«140205_j1228360647386_2_alg».proof.Proof.KerBody.StoresHi

noncomputable section

namespace Cert.KernelIdeal.KerBody

open Idealize.ShloMosaic Idealize.ShloMosaic.ValueIdx
open Cert.KernelIdeal Cert.KernelIdeal.Gen

set_option maxRecDepth 16384

/-- The output block is the specification function of the loaded blocks, given each part's gate. -/
theorem out0_5_of_gates (x0 : Vec Ideal S1x256x64x50 .f32) (x1 : Vec Ideal S10x16x256 .f32) (x2 : Vec Ideal S10x16 .f32)
    (x3 : Vec Ideal S10x256x16 .f32) (x4 : Vec Ideal S10x256 .f32)
    (hg0 : ∀ c : Fin 256, (k0_pay10 (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1))) (ix4 (0 : Fin 1) c (0 : Fin 1) (0 : Fin 1))
      = Cert.Spec.gate (N := 1) x0 x1 x2 x3 x4 0 0 c)
    (hg1 : ∀ c : Fin 256, (k0_pay20 (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14)) (ix4 (0 : Fin 1) c (0 : Fin 1) (0 : Fin 1))
      = Cert.Spec.gate (N := 1) x0 x1 x2 x3 x4 1 0 c)
    (hg2 : ∀ c : Fin 256, (k0_pay34 (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32)) (ix4 (0 : Fin 1) c (0 : Fin 1) (0 : Fin 1))
      = Cert.Spec.gate (N := 1) x0 x1 x2 x3 x4 2 0 c)
    (hg3 : ∀ c : Fin 256, (k0_pay41 (k0_pay39 (k0_pay2 (View.ld x0 r0_0))) (k0_pay40 (k0_pay1 (View.ld x0 r0_0))) (View.ld x1 r0_35) (View.ld x2 r0_36) (View.ld x3 r0_37) (View.ld x4 r0_38)) (ix4 (0 : Fin 1) c (0 : Fin 1) (0 : Fin 1))
      = Cert.Spec.gate (N := 1) x0 x1 x2 x3 x4 3 0 c)
    (hg4 : ∀ c : Fin 256, (k0_pay54 (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42))) (ix4 (0 : Fin 1) c (0 : Fin 1) (0 : Fin 1))
      = Cert.Spec.gate (N := 1) x0 x1 x2 x3 x4 4 0 c)
    (hg5 : ∀ c : Fin 256, (k0_pay65 (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32)) (ix4 (0 : Fin 1) c (0 : Fin 1) (0 : Fin 1))
      = Cert.Spec.gate (N := 1) x0 x1 x2 x3 x4 5 0 c)
    (hg6 : ∀ c : Fin 256, (k0_pay74 (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59)) (ix4 (0 : Fin 1) c (0 : Fin 1) (0 : Fin 1))
      = Cert.Spec.gate (N := 1) x0 x1 x2 x3 x4 6 0 c)
    (hg7 : ∀ c : Fin 256, (k0_pay88 (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal))) (ix4 (0 : Fin 1) c (0 : Fin 1) (0 : Fin 1))
      = Cert.Spec.gate (N := 1) x0 x1 x2 x3 x4 7 0 c)
    (hg8 : ∀ c : Fin 256, (k0_pay97 (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83)) (ix4 (0 : Fin 1) c (0 : Fin 1) (0 : Fin 1))
      = Cert.Spec.gate (N := 1) x0 x1 x2 x3 x4 8 0 c)
    (hg9 : ∀ c : Fin 256, (k0_pay112 (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88))) (ix4 (0 : Fin 1) c (0 : Fin 1) (0 : Fin 1))
      = Cert.Spec.gate (N := 1) x0 x1 x2 x3 x4 9 0 c) :
    Gen.out0_5 (F := Ideal) x0 x1 x2 x3 x4 = Cert.Spec.G (N := 1) x0 x1 x2 x3 x4 := by
  funext y
  unfold Gen.out0_5
  refine View.canon_apply_of_pieces (Val := Elt Ideal) (Cert.Spec.G (N := 1) x0 x1 x2 x3 x4) _ ?_ y
    (Gen.cover0_5 _ _ _ _ _ _ _ _ _ _ _ _ _ _ _ _ _ _ _ _ _ _ _ _ _ _ _ _ _ _ _ _ _ _ _ _ _ _ _ _ _ _ _ _ _ _ _ _ _ _ y)
  exact List.forall_mem_cons.mpr ⟨store_49 x0 x1 x2 x3 x4 hg9,
    List.forall_mem_cons.mpr ⟨store_48 x0 x1 x2 x3 x4 hg9,
    List.forall_mem_cons.mpr ⟨store_47 x0 x1 x2 x3 x4 hg9,
    List.forall_mem_cons.mpr ⟨store_46 x0 x1 x2 x3 x4 hg9,
    List.forall_mem_cons.mpr ⟨store_45 x0 x1 x2 x3 x4 hg8,
    List.forall_mem_cons.mpr ⟨store_44 x0 x1 x2 x3 x4 hg8,
    List.forall_mem_cons.mpr ⟨store_43 x0 x1 x2 x3 x4 hg8,
    List.forall_mem_cons.mpr ⟨store_42 x0 x1 x2 x3 x4 hg8,
    List.forall_mem_cons.mpr ⟨store_41 x0 x1 x2 x3 x4 hg8,
    List.forall_mem_cons.mpr ⟨store_40 x0 x1 x2 x3 x4 hg8,
    List.forall_mem_cons.mpr ⟨store_39 x0 x1 x2 x3 x4 hg7,
    List.forall_mem_cons.mpr ⟨store_38 x0 x1 x2 x3 x4 hg7,
    List.forall_mem_cons.mpr ⟨store_37 x0 x1 x2 x3 x4 hg7,
    List.forall_mem_cons.mpr ⟨store_36 x0 x1 x2 x3 x4 hg7,
    List.forall_mem_cons.mpr ⟨store_35 x0 x1 x2 x3 x4 hg6,
    List.forall_mem_cons.mpr ⟨store_34 x0 x1 x2 x3 x4 hg6,
    List.forall_mem_cons.mpr ⟨store_33 x0 x1 x2 x3 x4 hg6,
    List.forall_mem_cons.mpr ⟨store_32 x0 x1 x2 x3 x4 hg6,
    List.forall_mem_cons.mpr ⟨store_31 x0 x1 x2 x3 x4 hg6,
    List.forall_mem_cons.mpr ⟨store_30 x0 x1 x2 x3 x4 hg6,
    List.forall_mem_cons.mpr ⟨store_29 x0 x1 x2 x3 x4 hg5,
    List.forall_mem_cons.mpr ⟨store_28 x0 x1 x2 x3 x4 hg5,
    List.forall_mem_cons.mpr ⟨store_27 x0 x1 x2 x3 x4 hg5,
    List.forall_mem_cons.mpr ⟨store_26 x0 x1 x2 x3 x4 hg5,
    List.forall_mem_cons.mpr ⟨store_25 x0 x1 x2 x3 x4 hg5,
    List.forall_mem_cons.mpr ⟨store_24 x0 x1 x2 x3 x4 hg4,
    List.forall_mem_cons.mpr ⟨store_23 x0 x1 x2 x3 x4 hg4,
    List.forall_mem_cons.mpr ⟨store_22 x0 x1 x2 x3 x4 hg4,
    List.forall_mem_cons.mpr ⟨store_21 x0 x1 x2 x3 x4 hg4,
    List.forall_mem_cons.mpr ⟨store_20 x0 x1 x2 x3 x4 hg3,
    List.forall_mem_cons.mpr ⟨store_19 x0 x1 x2 x3 x4 hg3,
    List.forall_mem_cons.mpr ⟨store_18 x0 x1 x2 x3 x4 hg3,
    List.forall_mem_cons.mpr ⟨store_17 x0 x1 x2 x3 x4 hg3,
    List.forall_mem_cons.mpr ⟨store_16 x0 x1 x2 x3 x4 hg3,
    List.forall_mem_cons.mpr ⟨store_15 x0 x1 x2 x3 x4 hg3,
    List.forall_mem_cons.mpr ⟨store_14 x0 x1 x2 x3 x4 hg2,
    List.forall_mem_cons.mpr ⟨store_13 x0 x1 x2 x3 x4 hg2,
    List.forall_mem_cons.mpr ⟨store_12 x0 x1 x2 x3 x4 hg2,
    List.forall_mem_cons.mpr ⟨store_11 x0 x1 x2 x3 x4 hg2,
    List.forall_mem_cons.mpr ⟨store_10 x0 x1 x2 x3 x4 hg1,
    List.forall_mem_cons.mpr ⟨store_9 x0 x1 x2 x3 x4 hg1,
    List.forall_mem_cons.mpr ⟨store_8 x0 x1 x2 x3 x4 hg1,
    List.forall_mem_cons.mpr ⟨store_7 x0 x1 x2 x3 x4 hg1,
    List.forall_mem_cons.mpr ⟨store_6 x0 x1 x2 x3 x4 hg1,
    List.forall_mem_cons.mpr ⟨store_5 x0 x1 x2 x3 x4 hg1,
    List.forall_mem_cons.mpr ⟨store_4 x0 x1 x2 x3 x4 hg0,
    List.forall_mem_cons.mpr ⟨store_3 x0 x1 x2 x3 x4 hg0,
    List.forall_mem_cons.mpr ⟨store_2 x0 x1 x2 x3 x4 hg0,
    List.forall_mem_cons.mpr ⟨store_1 x0 x1 x2 x3 x4 hg0,
    List.forall_mem_cons.mpr ⟨store_0 x0 x1 x2 x3 x4 hg0,
    (fun _ h => nomatch h)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.KernelIdeal.KerBody

end
-- ==== Proof.KerBody.Layout.lean ====
/-
  Layout operations of the kernel body read at an index written by coordinates: one lane of a three-axis array as a
  two-axis array, a row of gates laid along a block's channel axis and repeated over its frames, and loads through the
  rectangles the body uses (one column of the input block; one part's slice of a weight array).
-/
import Idealize.ShloMosaic.Lib.ValueLayout
import Idealize.ShloMosaic.Lib.Pipeline.FrameBody

namespace Cert.KernelIdeal.KerBody

open Idealize.ShloMosaic Idealize.ShloMosaic.ValueIdx

variable {α : Type}

/-- Lane `v` of an `[n0, n1, n2]` array, cut out as `[n0, n1, 1]` and cast to `[n0, n1]`, reads at `(a, b)` the
    array at `(a, b, v)`. -/
theorem lane_apply {n0 n1 n2 : Nat} (v : Nat) (X : (⟨3, ![n0, n1, n2]⟩ : Shape).Idx → α)
    (h : (⟨3, ![n0, n1, n2]⟩ : Shape).Slices ![0, 0, v] ⟨3, ![n0, n1, 1]⟩)
    (h' : (⟨3, ![n0, n1, 1]⟩ : Shape).ShapeCasts ⟨2, ![n0, n1]⟩)
    (a : Fin n0) (b : Fin n1) (k : Fin n2) (hk : k.val = v) :
    shapeCast ⟨2, ![n0, n1]⟩ (extractStridedSlice ⟨3, ![n0, n1, 1]⟩ ![0, 0, v] X h) h' (ix2 a b) = X (ix3 a b k) := by
  refine (shapeCast_apply _ h' _ (ix3 a b (0 : Fin 1)) ?_).trans ?_
  · rw [Shape.rowMajor_val_three, Shape.rowMajor_val_two]
    show (a.val * n1 + b.val) * 1 + 0 = a.val * n1 + b.val
    omega
  · exact extractStridedSlice_apply _ _ _ _ _ (fun ax => by
      match ax with
      | ⟨0, _⟩ => exact (Nat.zero_add _).symm
      | ⟨1, _⟩ => exact (Nat.zero_add _).symm
      | ⟨2, _⟩ => exact hk.trans (Nat.add_zero _).symm)

/-- A `[1, n1]` row cast to `[1, n1, 1, 1]` and repeated over `n2` frames reads at `(u, c, t, w)` the row at `c`. -/
theorem row_bcast_apply {n1 n2 : Nat} (g : (⟨2, ![1, n1]⟩ : Shape).Idx → α)
    (h : (⟨2, ![1, n1]⟩ : Shape).ShapeCasts ⟨4, ![1, n1, 1, 1]⟩)
    (h' : (⟨4, ![1, n1, 1, 1]⟩ : Shape).Broadcasts ⟨4, ![1, n1, n2, 1]⟩)
    (u : Fin 1) (c : Fin n1) (t : Fin n2) (w : Fin 1) :
    broadcastTo ⟨4, ![1, n1, n2, 1]⟩ (shapeCast ⟨4, ![1, n1, 1, 1]⟩ g h) h' (ix4 u c t w) = g (ix2 (0 : Fin 1) c) := by
  refine (broadcastTo_apply _ h' _ (ix4 (0 : Fin 1) c (0 : Fin 1) (0 : Fin 1)) (fun ax => ?_)).trans ?_
  · match ax with
    | ⟨0, _⟩ => exact (if_pos rfl).symm
    | ⟨1, _⟩ =>
      show c.val = if n1 = 1 then 0 else c.val
      by_cases h1 : n1 = 1
      · rw [if_pos h1]; have := c.isLt; omega
      · rw [if_neg h1]
    | ⟨2, _⟩ => exact (if_pos rfl).symm
    | ⟨3, _⟩ => exact (if_pos rfl).symm
  · refine shapeCast_apply _ h _ _ ?_
    rw [Shape.rowMajor_val_four, Shape.rowMajor_val_two]
    show 0 * n1 + c.val = ((0 * n1 + c.val) * 1 + 0) * 1 + 0
    omega

/-- A `[1, n1]` row cast to `[1, n1, 1, 1]` reads at `(u, c, v, w)` the row at `c`. -/
theorem cast_row4_apply {n1 : Nat} (g : (⟨2, ![1, n1]⟩ : Shape).Idx → α)
    (h : (⟨2, ![1, n1]⟩ : Shape).ShapeCasts ⟨4, ![1, n1, 1, 1]⟩) (u : Fin 1) (c : Fin n1) (v w : Fin 1) :
    shapeCast ⟨4, ![1, n1, 1, 1]⟩ g h (ix4 u c v w) = g (ix2 (0 : Fin 1) c) := by
  refine shapeCast_apply _ h _ _ ?_
  rw [Shape.rowMajor_val_four, Shape.rowMajor_val_two]
  show 0 * n1 + c.val = ((u.val * n1 + c.val) * 1 + v.val) * 1 + w.val
  have := u.isLt; have := v.isLt; have := w.isLt
  have hu : u.val = 0 := by omega
  rw [hu]; omega

/-- A `[1, n1, 1, 1]` array repeated over `n2` frames reads at `(u, c, t, w)` the array at `(0, c, 0, 0)`. -/
theorem bcast_frames_apply {n1 n2 : Nat} (G4 : (⟨4, ![1, n1, 1, 1]⟩ : Shape).Idx → α)
    (h' : (⟨4, ![1, n1, 1, 1]⟩ : Shape).Broadcasts ⟨4, ![1, n1, n2, 1]⟩) (u : Fin 1) (c : Fin n1) (t : Fin n2) (w : Fin 1) :
    broadcastTo ⟨4, ![1, n1, n2, 1]⟩ G4 h' (ix4 u c t w) = G4 (ix4 (0 : Fin 1) c (0 : Fin 1) (0 : Fin 1)) := by
  refine broadcastTo_apply _ h' _ _ (fun ax => ?_)
  match ax with
  | ⟨0, _⟩ => exact (if_pos rfl).symm
  | ⟨1, _⟩ =>
    show c.val = if n1 = 1 then 0 else c.val
    by_cases h1 : n1 = 1
    · rw [if_pos h1]; have := c.isLt; omega
    · rw [if_neg h1]
  | ⟨2, _⟩ => exact (if_pos rfl).symm
  | ⟨3, _⟩ => exact (if_pos rfl).symm

/-- A load through the rectangle of column `col` of a four-axis array reads at `(a, b, c, w)` the array at
    `(a, b, c, col)`. -/
theorem ld_col_apply {Val : EltTy → Type} {e : EltTy} {n0 n1 n2 n3 : Nat} (X : (⟨4, ![n0, n1, n2, n3]⟩ : Shape).Idx → Val e) (col : Nat)
    (inb : ∀ ax, (![0, 0, 0, col] : Fin 4 → Nat) ax + (![n0, n1, n2, 1] : Fin 4 → Nat) ax ≤ (⟨4, ![n0, n1, n2, n3]⟩ : Shape).size ax)
    (a : Fin n0) (b : Fin n1) (c : Fin n2) (w : Fin 1) (k : Fin n3) (hk : k.val = col) :
    View.ld X (Rect.unit (s := ⟨4, ![n0, n1, n2, n3]⟩) ![0, 0, 0, col] ![n0, n1, n2, 1] inb) (ix4 a b c w) = X (ix4 a b c k) := by
  refine congrArg X (funext fun ax => Fin.ext ?_)
  match ax with
  | ⟨0, _⟩ => show 0 + 1 * a.val = a.val; omega
  | ⟨1, _⟩ => show 0 + 1 * b.val = b.val; omega
  | ⟨2, _⟩ => show 0 + 1 * c.val = c.val; omega
  | ⟨3, _⟩ => show col + 1 * w.val = k.val; have := w.isLt; omega

/-- A load through the rectangle of part `p` of a three-axis array reads at `(u, b, c)` the array at `(p, b, c)`. -/
theorem ld_part3_apply {Val : EltTy → Type} {e : EltTy} {n0 n1 n2 : Nat} (X : (⟨3, ![n0, n1, n2]⟩ : Shape).Idx → Val e) (p : Nat)
    (inb : ∀ ax, (![p, 0, 0] : Fin 3 → Nat) ax + (![1, n1, n2] : Fin 3 → Nat) ax ≤ (⟨3, ![n0, n1, n2]⟩ : Shape).size ax)
    (u : Fin 1) (b : Fin n1) (c : Fin n2) (k : Fin n0) (hk : k.val = p) :
    View.ld X (Rect.unit (s := ⟨3, ![n0, n1, n2]⟩) ![p, 0, 0] ![1, n1, n2] inb) (ix3 u b c) = X (ix3 k b c) := by
  refine congrArg X (funext fun ax => Fin.ext ?_)
  match ax with
  | ⟨0, _⟩ => show p + 1 * u.val = k.val; have := u.isLt; omega
  | ⟨1, _⟩ => show 0 + 1 * b.val = b.val; omega
  | ⟨2, _⟩ => show 0 + 1 * c.val = c.val; omega

/-- A load through the rectangle of part `p` of a two-axis array reads at `(u, b)` the array at `(p, b)`. -/
theorem ld_part2_apply {Val : EltTy → Type} {e : EltTy} {n0 n1 : Nat} (X : (⟨2, ![n0, n1]⟩ : Shape).Idx → Val e) (p : Nat)
    (inb : ∀ ax, (![p, 0] : Fin 2 → Nat) ax + (![1, n1] : Fin 2 → Nat) ax ≤ (⟨2, ![n0, n1]⟩ : Shape).size ax)
    (u : Fin 1) (b : Fin n1) (k : Fin n0) (hk : k.val = p) :
    View.ld X (Rect.unit (s := ⟨2, ![n0, n1]⟩) ![p, 0] ![1, n1] inb) (ix2 u b) = X (ix2 k b) := by
  refine congrArg X (funext fun ax => Fin.ext ?_)
  match ax with
  | ⟨0, _⟩ => show p + 1 * u.val = k.val; have := u.isLt; omega
  | ⟨1, _⟩ => show 0 + 1 * b.val = b.val; omega

/-! The same lemmas with the coordinate written out, in the form a rewriting step can use. -/

theorem lane_eq {n0 n1 n2 : Nat} (v : Nat) (X : (⟨3, ![n0, n1, n2]⟩ : Shape).Idx → α)
    (h : (⟨3, ![n0, n1, n2]⟩ : Shape).Slices ![0, 0, v] ⟨3, ![n0, n1, 1]⟩)
    (h' : (⟨3, ![n0, n1, 1]⟩ : Shape).ShapeCasts ⟨2, ![n0, n1]⟩) (a : Fin n0) (b : Fin n1) :
    shapeCast ⟨2, ![n0, n1]⟩ (extractStridedSlice ⟨3, ![n0, n1, 1]⟩ ![0, 0, v] X h) h' (ix2 a b)
      = X (ix3 a b ⟨v, Nat.lt_of_succ_le (h.2 2)⟩) :=
  lane_apply v X h h' a b _ rfl

theorem ld_col_eq {Val : EltTy → Type} {e : EltTy} {n0 n1 n2 n3 : Nat} (X : (⟨4, ![n0, n1, n2, n3]⟩ : Shape).Idx → Val e) (col : Nat)
    (inb : ∀ ax, (![0, 0, 0, col] : Fin 4 → Nat) ax + (![n0, n1, n2, 1] : Fin 4 → Nat) ax ≤ (⟨4, ![n0, n1, n2, n3]⟩ : Shape).size ax)
    (a : Fin n0) (b : Fin n1) (c : Fin n2) (w : Fin 1) :
    View.ld X (Rect.unit (s := ⟨4, ![n0, n1, n2, n3]⟩) ![0, 0, 0, col] ![n0, n1, n2, 1] inb) (ix4 a b c w)
      = X (ix4 a b c ⟨col, Nat.lt_of_succ_le (inb 3)⟩) :=
  ld_col_apply X col inb a b c w _ rfl

theorem ld_part3_eq {Val : EltTy → Type} {e : EltTy} {n0 n1 n2 : Nat} (X : (⟨3, ![n0, n1, n2]⟩ : Shape).Idx → Val e) (p : Nat)
    (inb : ∀ ax, (![p, 0, 0] : Fin 3 → Nat) ax + (![1, n1, n2] : Fin 3 → Nat) ax ≤ (⟨3, ![n0, n1, n2]⟩ : Shape).size ax)
    (u : Fin 1) (b : Fin n1) (c : Fin n2) :
    View.ld X (Rect.unit (s := ⟨3, ![n0, n1, n2]⟩) ![p, 0, 0] ![1, n1, n2] inb) (ix3 u b c)
      = X (ix3 ⟨p, Nat.lt_of_succ_le (inb 0)⟩ b c) :=
  ld_part3_apply X p inb u b c _ rfl

theorem ld_part2_eq {Val : EltTy → Type} {e : EltTy} {n0 n1 : Nat} (X : (⟨2, ![n0, n1]⟩ : Shape).Idx → Val e) (p : Nat)
    (inb : ∀ ax, (![p, 0] : Fin 2 → Nat) ax + (![1, n1] : Fin 2 → Nat) ax ≤ (⟨2, ![n0, n1]⟩ : Shape).size ax)
    (u : Fin 1) (b : Fin n1) :
    View.ld X (Rect.unit (s := ⟨2, ![n0, n1]⟩) ![p, 0] ![1, n1] inb) (ix2 u b) = X (ix2 ⟨p, Nat.lt_of_succ_le (inb 0)⟩ b) :=
  ld_part2_apply X p inb u b _ rfl

end Cert.KernelIdeal.KerBody
-- ==== Proof.KerBody.Reduce.lean ====
/-
  The two reductions over the frame axis read at an index: the sum of a four-axis array over its third axis is a sum
  over that axis's coordinates, and its maximum from minus infinity is the supremum over them. Also the logistic
  function of a vector and a scalar constant's word, read at the ideal values.
-/
import Idealize.ShloMosaic.PureOps.Ideal.Laws
import Idealize.ShloMosaic.Lib.ValueIdx

namespace Cert.KernelIdeal.KerBody

open Idealize.ShloMosaic Idealize.ShloMosaic.ValueIdx

/-- The sum over axis 2 of an `[n0, n1, n2, n3]` array reads at `(a, c, v)` the sum over `t` of the array at
    `(a, c, t, v)`. -/
theorem sumFrames_apply {n0 n1 n2 n3 : Nat} (x : FVec Ideal ⟨4, ![n0, n1, n2, n3]⟩ .f32) (acc : BitVec 32)
    (h : Shape.Reduces ⟨4, ![n0, n1, n2, n3]⟩ [2] ⟨3, ![n0, n1, n3]⟩) (hφ : FKind.Formats .f32)
    (hacc : acc = FKind.add.neutral .f32 hφ) (a : Fin n0) (c : Fin n1) (v : Fin n3) :
    multiReduction .add [2] ⟨3, ![n0, n1, n3]⟩ x acc h hφ hacc (ix3 a c v) = ∑ t : Fin n2, x (ix4 a c t v) := by
  refine (Ideal.multiReduction_add_single x acc h hφ hacc _).trans ?_
  refine Finset.sum_congr rfl fun t _ => congrArg x (funext fun ax => Fin.ext ?_)
  match ax with
  | ⟨0, _⟩ => rfl
  | ⟨1, _⟩ => rfl
  | ⟨2, _⟩ => rfl
  | ⟨3, _⟩ => rfl

/-- The maximum over axis 2 of an `[n0, n1, n2, n3]` array, from an accumulator word that reads as minus infinity, reads
    at `(a, c, v)` the supremum over `t` of the array at `(a, c, t, v)`. -/
theorem maxFrames_apply {n0 n1 n2 n3 : Nat} (x : FVec Ideal ⟨4, ![n0, n1, n2, n3]⟩ .f32) (acc : BitVec 32)
    (h : Shape.Reduces ⟨4, ![n0, n1, n2, n3]⟩ [2] ⟨3, ![n0, n1, n3]⟩) (hφ : FKind.Formats .f32)
    (hacc : acc = FKind.maximumf.neutral .f32 hφ) (hb : Ideal.ofBits .f32 acc = ⊥) (a : Fin n0) (c : Fin n1) (v : Fin n3) :
    multiReduction .maximumf [2] ⟨3, ![n0, n1, n3]⟩ x acc h hφ hacc (ix3 a c v)
      = Finset.univ.sup fun t : Fin n2 => x (ix4 a c t v) := by
  refine (Ideal.multiReduction_maximumf_single x acc h hφ hacc _).trans ?_
  have e : (x ∘ h.lift (ix3 a c v)) = fun t : Fin n2 => x (ix4 a c t v) := funext fun t => congrArg x (funext fun ax => Fin.ext (by
    match ax with
    | ⟨0, _⟩ => rfl
    | ⟨1, _⟩ => rfl
    | ⟨2, _⟩ => rfl
    | ⟨3, _⟩ => rfl))
  rw [e, show FloatOps.ofBits (F := Ideal) .f32 acc = (⊥ : EReal) from hb]
  rfl

/-- The logistic function of a vector, entry by entry. -/
theorem logistic_apply {s : Shape} {φ : FTy} (x : FVec Ideal s φ) (i : s.Idx) : logistic x i = Ideal.logistic (x i) := rfl

/-- A scalar constant reads as its word does. -/
theorem scalar_ofBits_def {φ : FTy} (b : BitVec φ.bits) : Scalar.ofBits (F := Ideal) φ b = Ideal.ofBits φ b := rfl

end Cert.KernelIdeal.KerBody
-- ==== Proof.KerBody.Matmul.lean ====
/-
  The body's two matrix products read at an index: a `[1, 256]` row against a `[256, 16]` matrix and a `[1, 16]` row
  against a `[16, 256]` matrix, each into a zero accumulator, are the sums over the contracted coordinate of the
  operands' products.
-/
import proofs.«140205_j1228360647386_2_alg».proof.Proof.Gen.KernelIdeal
import Idealize.ShloMosaic.PureOps.Ideal.Laws
import Idealize.ShloMosaic.Lib.ValueIdx

namespace Cert.KernelIdeal.KerBody

open Idealize.ShloMosaic Idealize.ShloMosaic.ValueIdx
open Cert.KernelIdeal Cert.KernelIdeal.Gen

/-- The product of a `[1, 256]` row and a `[256, 16]` matrix. -/
abbrev dotA : DotDims S1x256 S256x16 S1x16 := dot_S1x256_S256x16_S1x16_1_0_0_1_n_n
/-- The product of a `[1, 16]` row and a `[16, 256]` matrix. -/
abbrev dotB : DotDims S1x16 S16x256 S1x256 := dot_S1x16_S16x256_S1x256_1_0_0_1_n_n

/-! The operands' indices of the first product, axis by axis. -/

theorem dotA_lhs_0 (i : S1x16.Idx) (q : (DotDims.contr dotA).Idx) : (DotDims.lhsIdx dotA i q 0).val = (i 0).val := by
  unfold DotDims.lhsIdx
  rw [dif_neg (show ¬(0 : Fin S1x256.rank) ∈ DotDims.lhsBatch dotA by decide),
    dif_pos (show (0 : Fin S1x256.rank) ∈ DotDims.lhsNonContracting dotA by decide)]
  rfl

theorem dotA_lhs_1 (i : S1x16.Idx) (q : (DotDims.contr dotA).Idx) : (DotDims.lhsIdx dotA i q 1).val = (q ⟨0, by decide⟩).val :=
  DotDims.lhsIdx_val_of_single dotA rfl i q

theorem dotA_rhs_0 (i : S1x16.Idx) (q : (DotDims.contr dotA).Idx) : (DotDims.rhsIdx dotA i q 0).val = (q ⟨0, by decide⟩).val :=
  DotDims.rhsIdx_val_of_single dotA rfl i q

theorem dotA_rhs_1 (i : S1x16.Idx) (q : (DotDims.contr dotA).Idx) : (DotDims.rhsIdx dotA i q 1).val = (i 1).val := by
  unfold DotDims.rhsIdx
  rw [dif_neg (show ¬(1 : Fin S256x16.rank) ∈ DotDims.rhsBatch dotA by decide),
    dif_pos (show (1 : Fin S256x16.rank) ∈ DotDims.rhsNonContracting dotA by decide)]
  rfl

/-- A `[1, 256]` row times a `[256, 16]` matrix into a zero accumulator, at hidden unit `h`. -/
theorem matmul_row_256x16_apply (v : FVec Ideal S1x256 .f32) (B : FVec Ideal S256x16 .f32) (h : Fin 16) :
    matmul (F := Ideal) dotA (some .fp32) v B (constant (F := Ideal) S1x16 .f32 0x00000000#32) (ix2 (0 : Fin 1) h)
      = ∑ c : Fin 256, v (ix2 (0 : Fin 1) c) * B (ix2 c h) := by
  simp only [matmul]
  rw [Ideal.matmul_constant_zero_apply, ← Equiv.sum_comp (contrEquiv1 dotA 256 rfl rfl).symm]
  refine Finset.sum_congr rfl fun k _ => ?_
  have hk := contrEquiv1_symm_val dotA 256 rfl rfl k
  have el : DotDims.lhsIdx dotA (ix2 (0 : Fin 1) h) ((contrEquiv1 dotA 256 rfl rfl).symm k) = ix2 (0 : Fin 1) k :=
    funext fun a => Fin.ext (by
      match a with
      | ⟨0, _⟩ => exact dotA_lhs_0 _ _
      | ⟨1, _⟩ => exact (dotA_lhs_1 _ _).trans hk)
  have er : DotDims.rhsIdx dotA (ix2 (0 : Fin 1) h) ((contrEquiv1 dotA 256 rfl rfl).symm k) = ix2 k h :=
    funext fun a => Fin.ext (by
      match a with
      | ⟨0, _⟩ => exact (dotA_rhs_0 _ _).trans hk
      | ⟨1, _⟩ => exact dotA_rhs_1 _ _)
  rw [el, er]

/-! The operands' indices of the second product, axis by axis. -/

theorem dotB_lhs_0 (i : S1x256.Idx) (q : (DotDims.contr dotB).Idx) : (DotDims.lhsIdx dotB i q 0).val = (i 0).val := by
  unfold DotDims.lhsIdx
  rw [dif_neg (show ¬(0 : Fin S1x16.rank) ∈ DotDims.lhsBatch dotB by decide),
    dif_pos (show (0 : Fin S1x16.rank) ∈ DotDims.lhsNonContracting dotB by decide)]
  rfl

theorem dotB_lhs_1 (i : S1x256.Idx) (q : (DotDims.contr dotB).Idx) : (DotDims.lhsIdx dotB i q 1).val = (q ⟨0, by decide⟩).val :=
  DotDims.lhsIdx_val_of_single dotB rfl i q

theorem dotB_rhs_0 (i : S1x256.Idx) (q : (DotDims.contr dotB).Idx) : (DotDims.rhsIdx dotB i q 0).val = (q ⟨0, by decide⟩).val :=
  DotDims.rhsIdx_val_of_single dotB rfl i q

theorem dotB_rhs_1 (i : S1x256.Idx) (q : (DotDims.contr dotB).Idx) : (DotDims.rhsIdx dotB i q 1).val = (i 1).val := by
  unfold DotDims.rhsIdx
  rw [dif_neg (show ¬(1 : Fin S16x256.rank) ∈ DotDims.rhsBatch dotB by decide),
    dif_pos (show (1 : Fin S16x256.rank) ∈ DotDims.rhsNonContracting dotB by decide)]
  rfl

/-- A `[1, 16]` row times a `[16, 256]` matrix into a zero accumulator, at channel `c`. -/
theorem matmul_row_16x256_apply (u : FVec Ideal S1x16 .f32) (B : FVec Ideal S16x256 .f32) (c : Fin 256) :
    matmul (F := Ideal) dotB (some .fp32) u B (constant (F := Ideal) S1x256 .f32 0x00000000#32) (ix2 (0 : Fin 1) c)
      = ∑ h : Fin 16, u (ix2 (0 : Fin 1) h) * B (ix2 h c) := by
  simp only [matmul]
  rw [Ideal.matmul_constant_zero_apply, ← Equiv.sum_comp (contrEquiv1 dotB 16 rfl rfl).symm]
  refine Finset.sum_congr rfl fun k _ => ?_
  have hk := contrEquiv1_symm_val dotB 16 rfl rfl k
  have el : DotDims.lhsIdx dotB (ix2 (0 : Fin 1) c) ((contrEquiv1 dotB 16 rfl rfl).symm k) = ix2 (0 : Fin 1) k :=
    funext fun a => Fin.ext (by
      match a with
      | ⟨0, _⟩ => exact dotB_lhs_0 _ _
      | ⟨1, _⟩ => exact (dotB_lhs_1 _ _).trans hk)
  have er : DotDims.rhsIdx dotB (ix2 (0 : Fin 1) c) ((contrEquiv1 dotB 16 rfl rfl).symm k) = ix2 k c :=
    funext fun a => Fin.ext (by
      match a with
      | ⟨0, _⟩ => exact (dotB_rhs_0 _ _).trans hk
      | ⟨1, _⟩ => exact dotB_rhs_1 _ _)
  rw [el, er]

end Cert.KernelIdeal.KerBody
-- ==== Proof.KerBody.Mlp.lean ====
/-
  The gate as the body computes it from two pooled rows: each row goes through the part's two-layer map (a product with
  the transposed first-layer weights, the bias, the maximum with zero, a product with the transposed second-layer
  weights, the bias), the two results are added, and the logistic function is applied; the row of gates is then laid
  along the channel axis of a `[1, 256, 1, 1]` array. Read at channel `c`, this is the specification's map of the two
  rows, whatever the rows are.
-/
import proofs.«140205_j1228360647386_2_alg».proof.Proof.Gen.KernelIdeal
import proofs.«140205_j1228360647386_2_alg».proof.Proof.Spec
import proofs.«140205_j1228360647386_2_alg».proof.Proof.KerBody.Layout
import proofs.«140205_j1228360647386_2_alg».proof.Proof.KerBody.Reduce
import proofs.«140205_j1228360647386_2_alg».proof.Proof.KerBody.Matmul

noncomputable section

namespace Cert.KernelIdeal.KerBody

open Idealize.ShloMosaic Idealize.ShloMosaic.ValueIdx
open Cert.KernelIdeal Cert.KernelIdeal.Gen

variable (x1 : Vec Ideal S10x16x256 .f32) (x2 : Vec Ideal S10x16 .f32) (x3 : Vec Ideal S10x256x16 .f32) (x4 : Vec Ideal S10x256 .f32)
variable (p : Nat)
variable (inb1 : ∀ ax, (![p, 0, 0] : Fin 3 → Nat) ax + S1x16x256.size ax ≤ S10x16x256.size ax)
variable (inb2 : ∀ ax, (![p, 0] : Fin 2 → Nat) ax + S1x16.size ax ≤ S10x16.size ax)
variable (inb3 : ∀ ax, (![p, 0, 0] : Fin 3 → Nat) ax + S1x256x16.size ax ≤ S10x256x16.size ax)
variable (inb4 : ∀ ax, (![p, 0] : Fin 2 → Nat) ax + S1x256.size ax ≤ S10x256.size ax)

/-- The hidden layer of part `p` as the body computes it from a row `v` and the part's loaded slices. -/
def kHidden (v : FVec Ideal S1x256 .f32) : FVec Ideal S1x16 .f32 :=
  maximumf
    (addf
      (matmul dot_S1x256_S256x16_S1x16_1_0_0_1_n_n (some .fp32) v
        (transpose S256x16 [1, 0]
          (shapeCast S16x256 (View.ld x1 (Rect.unit (s := S10x16x256) ![p, 0, 0] S1x16x256.size inb1)) shapeCasts_S1x16x256_S16x256 : FVec Ideal S16x256 .f32)
          transposes_S16x256_p1_0_S256x16)
        (constant S1x16 .f32 0x00000000#32))
      (shapeCast S1x16 (shapeCast S16 (View.ld x2 (Rect.unit (s := S10x16) ![p, 0] S1x16.size inb2)) shapeCasts_S1x16_S16 : FVec Ideal S16 .f32) shapeCasts_S16_S1x16))
    (broadcast S1x16 (Scalar.ofBits .f32 0x00000000#32))

/-- The two-layer map of part `p` as the body computes it from a row `v`. -/
def kMlp (v : FVec Ideal S1x256 .f32) : FVec Ideal S1x256 .f32 :=
  addf
    (matmul dot_S1x16_S16x256_S1x256_1_0_0_1_n_n (some .fp32) (kHidden x1 x2 p inb1 inb2 v)
      (transpose S16x256 [1, 0]
        (shapeCast S256x16 (View.ld x3 (Rect.unit (s := S10x256x16) ![p, 0, 0] S1x256x16.size inb3)) shapeCasts_S1x256x16_S256x16 : FVec Ideal S256x16 .f32)
        transposes_S256x16_p1_0_S16x256)
      (constant S1x256 .f32 0x00000000#32))
    (shapeCast S1x256 (shapeCast S256 (View.ld x4 (Rect.unit (s := S10x256) ![p, 0] S1x256.size inb4)) shapeCasts_S1x256_S256 : FVec Ideal S256 .f32) shapeCasts_S256_S1x256)

/-- The row of gates of part `p` as the body computes it from the two pooled rows, as a `[1, 256, 1, 1]` array. -/
def kGate (avg mx : FVec Ideal S1x256 .f32) : FVec Ideal S1x256x1x1 .f32 :=
  shapeCast S1x256x1x1
    (logistic (addf (kMlp x1 x2 x3 x4 p inb1 inb2 inb3 inb4 avg) (kMlp x1 x2 x3 x4 p inb1 inb2 inb3 inb4 mx)))
    shapeCasts_S1x256_S1x256x1x1

variable (pp : Fin 10) (hp : pp.val = p)
include hp

/-- The body's hidden layer at unit `h` is the specification's. -/
theorem kHidden_apply (v : FVec Ideal S1x256 .f32) (h : Fin 16) :
    kHidden x1 x2 p inb1 inb2 v (ix2 (0 : Fin 1) h) = Cert.Spec.hidden x1 x2 pp (fun c' => v (ix2 (0 : Fin 1) c')) h := by
  unfold kHidden Cert.Spec.hidden
  show max (matmul dot_S1x256_S256x16_S1x16_1_0_0_1_n_n (some .fp32) v _ (constant S1x16 .f32 0x00000000#32) (ix2 (0 : Fin 1) h)
      + shapeCast S1x16 _ shapeCasts_S16_S1x16 (ix2 (0 : Fin 1) h)) (Ideal.ofBits .f32 0x00000000#32) = _
  refine congrArg₂ max (congrArg₂ (· + ·) ((matmul_row_256x16_apply v _ h).trans
    (Finset.sum_congr rfl fun c' _ => congrArg (v (ix2 (0 : Fin 1) c') * ·) ?_)) ?_) Ideal.ofBits_zero_f32
  · exact (transpose_ix2_apply _ _ c' h).trans ((shapeCast_1ab_ab_apply _ _ h c').trans
      (ld_part3_apply x1 p inb1 0 h c' pp hp))
  · exact (shapeCast_a_1a_apply _ _ 0 h).trans ((shapeCast_1a_a_apply _ _ h).trans (ld_part2_apply x2 p inb2 0 h pp hp))

/-- The body's two-layer map at channel `c` is the specification's. -/
theorem kMlp_apply (v : FVec Ideal S1x256 .f32) (c : Fin 256) :
    kMlp x1 x2 x3 x4 p inb1 inb2 inb3 inb4 v (ix2 (0 : Fin 1) c)
      = Cert.Spec.mlp x1 x2 x3 x4 pp (fun c' => v (ix2 (0 : Fin 1) c')) c := by
  unfold kMlp Cert.Spec.mlp
  show matmul dot_S1x16_S16x256_S1x256_1_0_0_1_n_n (some .fp32) (kHidden x1 x2 p inb1 inb2 v) _ (constant S1x256 .f32 0x00000000#32) (ix2 (0 : Fin 1) c)
      + shapeCast S1x256 _ shapeCasts_S256_S1x256 (ix2 (0 : Fin 1) c) = _
  refine congrArg₂ (· + ·) ((matmul_row_16x256_apply _ _ c).trans
    (Finset.sum_congr rfl fun h _ => congrArg₂ (· * ·) (kHidden_apply x1 x2 p inb1 inb2 pp hp v h) ?_)) ?_
  · exact (transpose_ix2_apply _ _ h c).trans ((shapeCast_1ab_ab_apply _ _ c h).trans
      (ld_part3_apply x3 p inb3 0 c h pp hp))
  · exact (shapeCast_a_1a_apply _ _ 0 c).trans ((shapeCast_1a_a_apply _ _ c).trans (ld_part2_apply x4 p inb4 0 c pp hp))

/-- The body's gate at channel `c`: the logistic function of the sum of the two rows' images. -/
theorem kGate_apply (avg mx : FVec Ideal S1x256 .f32) (c : Fin 256) :
    kGate x1 x2 x3 x4 p inb1 inb2 inb3 inb4 avg mx (ix4 (0 : Fin 1) c (0 : Fin 1) (0 : Fin 1))
      = Ideal.logistic (Cert.Spec.mlp x1 x2 x3 x4 pp (fun c' => avg (ix2 (0 : Fin 1) c')) c
          + Cert.Spec.mlp x1 x2 x3 x4 pp (fun c' => mx (ix2 (0 : Fin 1) c')) c) := by
  unfold kGate
  refine (cast_row4_apply _ _ 0 c 0 0).trans ?_
  show Ideal.logistic (kMlp x1 x2 x3 x4 p inb1 inb2 inb3 inb4 avg (ix2 (0 : Fin 1) c)
      + kMlp x1 x2 x3 x4 p inb1 inb2 inb3 inb4 mx (ix2 (0 : Fin 1) c)) = _
  rw [kMlp_apply x1 x2 x3 x4 p inb1 inb2 inb3 inb4 pp hp avg c, kMlp_apply x1 x2 x3 x4 p inb1 inb2 inb3 inb4 pp hp mx c]

end Cert.KernelIdeal.KerBody

end
-- ==== Proof.KerBody.Consts.lean ====
/-
  The float constants the kernel body spells, as the extended reals they denote: the two named reciprocals
  `1 / 320` and `1 / 384`, the word of `1 / 256`, and the word of minus infinity the maximum starts from.
-/
import proofs.«140205_j1228360647386_2_alg».proof.KernelIdeal
import Idealize.ShloMosaic.PureOps.Ideal
import Idealize.ShloMosaic.PureOps.IdealRules

noncomputable section

namespace Cert.KernelIdeal.KerBody

open Idealize.ShloMosaic

/-- The named reciprocal of 320 (five joints of 64 frames). -/
theorem inv_320 : Named.named (F := Ideal) Cert.KernelIdeal.κ "inv_320" (φ := .f32) 0x3B4CCCCD#32 = ((1 / 320 : ℝ) : EReal) :=
  IdealRules.named_const.ideal_named_scalar _ _ _ _ rfl

/-- The named reciprocal of 384 (six joints of 64 frames). -/
theorem inv_384 : Named.named (F := Ideal) Cert.KernelIdeal.κ "inv_384" (φ := .f32) 0x3B2AAAAB#32 = ((1 / 384 : ℝ) : EReal) :=
  IdealRules.named_const.ideal_named_scalar _ _ _ _ rfl

/-- The word `0x3B800000` is `2⁻⁸`, the reciprocal of 256 (four joints of 64 frames). -/
theorem ofBits_inv_256 : Ideal.ofBits .f32 0x3B800000#32 = ((1 / 256 : ℝ) : EReal) := by
  simp [Ideal.ofBits, Ideal.ieee, -EReal.coe_mul]; norm_num

/-- The word `0xFF800000` reads as minus infinity. -/
theorem ofBits_neg_inf : Ideal.ofBits .f32 0xFF800000#32 = ⊥ := by simp [Ideal.ofBits, Ideal.ieee]

end Cert.KernelIdeal.KerBody

end
-- ==== Proof.KerBody.PoolFrames.lean ====
/-
  The kernel body's two reductions over the 64 frames, read at an index: the sum is the specification's column sum
  and the maximum (from the word of minus infinity) its column maximum; and one lane of either, cut out of the
  [1, 256, 50] result and cast to [1, 256], read at a channel.
-/
import proofs.«140205_j1228360647386_2_alg».proof.Proof.Gen.KernelIdeal.Skeleton
import proofs.«140205_j1228360647386_2_alg».proof.Proof.Spec
import proofs.«140205_j1228360647386_2_alg».proof.Proof.KerBody.Consts
import proofs.«140205_j1228360647386_2_alg».proof.Proof.KerBody.Layout
import proofs.«140205_j1228360647386_2_alg».proof.Proof.KerBody.Reduce

noncomputable section

namespace Cert.KernelIdeal.KerBody

open Idealize.ShloMosaic Idealize.ShloMosaic.ValueIdx
open Cert.KernelIdeal Cert.KernelIdeal.Gen

/-- The sum over the frames reads at channel `c` and joint `v` the sum of the block over `t`. -/
theorem pay1_apply (x0 : Vec Ideal S1x256x64x50 .f32) (c : Fin 256) (v : Fin 50) :
    k0_pay1 (F := Ideal) x0 (ix3 (0 : Fin 1) c v) = ∑ t : Fin 64, x0 (ix4 (0 : Fin 1) c t v) := by
  unfold k0_pay1
  exact sumFrames_apply x0 _ _ _ _ 0 c v

/-- The maximum over the frames reads at channel `c` and joint `v` the supremum of the block over `t`. -/
theorem pay2_apply (x0 : Vec Ideal S1x256x64x50 .f32) (c : Fin 256) (v : Fin 50) :
    k0_pay2 (F := Ideal) x0 (ix3 (0 : Fin 1) c v) = Finset.univ.sup fun t : Fin 64 => x0 (ix4 (0 : Fin 1) c t v) := by
  unfold k0_pay2
  exact maxFrames_apply x0 _ _ _ _ ofBits_neg_inf 0 c v

/-- Lane `l` of the frames' sum, as a [1, 256] row, reads at channel `c` the column sum at joint `l`. -/
theorem sumLane (x0 : Vec Ideal S1x256x64x50 .f32) (c : Fin 256) (l : Nat)
    (h : S1x256x50.Slices ![0, 0, l] S1x256x1) (h' : S1x256x1.ShapeCasts S1x256) (v : Fin 50) (hv : v.val = l) :
    shapeCast S1x256 (extractStridedSlice S1x256x1 ![0, 0, l] (k0_pay1 (F := Ideal) x0) h) h' (ix2 (0 : Fin 1) c)
      = Cert.Spec.colSum (N := 1) x0 0 c v :=
  (lane_apply l _ h h' 0 c v hv).trans (pay1_apply x0 c v)

/-- Lane `l` of the frames' maximum, as a [1, 256] row, reads at channel `c` the column maximum at joint `l`. -/
theorem maxLane (x0 : Vec Ideal S1x256x64x50 .f32) (c : Fin 256) (l : Nat)
    (h : S1x256x50.Slices ![0, 0, l] S1x256x1) (h' : S1x256x1.ShapeCasts S1x256) (v : Fin 50) (hv : v.val = l) :
    shapeCast S1x256 (extractStridedSlice S1x256x1 ![0, 0, l] (k0_pay2 (F := Ideal) x0) h) h' (ix2 (0 : Fin 1) c)
      = Cert.Spec.colMax (N := 1) x0 0 c v :=
  (lane_apply l _ h h' 0 c v hv).trans (pay2_apply x0 c v)

end Cert.KernelIdeal.KerBody

end
-- ==== Proof.SpecTables.lean ====
/-
  The ten body parts of the specification, case by case: each part's joints as a table `Jp : Fin k → Fin 50`
  (`k` = 5, 6 or 4) agreeing with `Spec.joints p`; the number of entries pooled for it (64 frames times `k`); and,
  column by column within a part, which joint an output column shows and that it belongs to that part.
-/
import proofs.«140205_j1228360647386_2_alg».proof.Proof.Spec

noncomputable section

namespace Cert.Spec

open Idealize.ShloMosaic

/-! ## The joint tables -/

/-- The joints of part 0, as a table. -/
def J0 : Fin 5 → Fin 50 := ![0, 1, 2, 3, 20]
/-- The joints of part 1, as a table. -/
def J1 : Fin 6 → Fin 50 := ![8, 9, 10, 11, 23, 24]
/-- The joints of part 2, as a table. -/
def J2 : Fin 4 → Fin 50 := ![16, 17, 18, 19]
/-- The joints of part 3, as a table. -/
def J3 : Fin 6 → Fin 50 := ![4, 5, 6, 7, 21, 22]
/-- The joints of part 4, as a table. -/
def J4 : Fin 4 → Fin 50 := ![12, 13, 14, 15]
/-- The joints of part 5, as a table. -/
def J5 : Fin 5 → Fin 50 := ![25, 26, 27, 28, 45]
/-- The joints of part 6, as a table. -/
def J6 : Fin 6 → Fin 50 := ![33, 34, 35, 36, 48, 49]
/-- The joints of part 7, as a table. -/
def J7 : Fin 4 → Fin 50 := ![41, 42, 43, 44]
/-- The joints of part 8, as a table. -/
def J8 : Fin 6 → Fin 50 := ![29, 30, 31, 32, 46, 47]
/-- The joints of part 9, as a table. -/
def J9 : Fin 4 → Fin 50 := ![37, 38, 39, 40]

theorem joints_0 : joints 0 = List.ofFn J0 := by decide
theorem joints_1 : joints 1 = List.ofFn J1 := by decide
theorem joints_2 : joints 2 = List.ofFn J2 := by decide
theorem joints_3 : joints 3 = List.ofFn J3 := by decide
theorem joints_4 : joints 4 = List.ofFn J4 := by decide
theorem joints_5 : joints 5 = List.ofFn J5 := by decide
theorem joints_6 : joints 6 = List.ofFn J6 := by decide
theorem joints_7 : joints 7 = List.ofFn J7 := by decide
theorem joints_8 : joints 8 = List.ofFn J8 := by decide
theorem joints_9 : joints 9 = List.ofFn J9 := by decide

/-! ## The pooled counts -/

theorem cnt_0 : cnt 0 = 320 := by simp [cnt]
theorem cnt_1 : cnt 1 = 384 := by simp [cnt]
theorem cnt_2 : cnt 2 = 256 := by simp [cnt]
theorem cnt_3 : cnt 3 = 384 := by simp [cnt]
theorem cnt_4 : cnt 4 = 256 := by simp [cnt]
theorem cnt_5 : cnt 5 = 320 := by simp [cnt]
theorem cnt_6 : cnt 6 = 384 := by simp [cnt]
theorem cnt_7 : cnt 7 = 256 := by simp [cnt]
theorem cnt_8 : cnt 8 = 384 := by simp [cnt]
theorem cnt_9 : cnt 9 = 256 := by simp [cnt]

/-! ## Which part and joint a column shows -/

/-- Column `0 + q` shows joint `J0 q` … -/
theorem joint_0 (q : Fin 5) : joint ⟨0 + q.val, by have := q.isLt; omega⟩ = J0 q := by fin_cases q <;> rfl
/-- … and belongs to part 0. -/
theorem part_0 (q : Fin 5) : part ⟨0 + q.val, by have := q.isLt; omega⟩ = 0 := by fin_cases q <;> rfl
/-- Column `5 + q` shows joint `J1 q` … -/
theorem joint_1 (q : Fin 6) : joint ⟨5 + q.val, by have := q.isLt; omega⟩ = J1 q := by fin_cases q <;> rfl
/-- … and belongs to part 1. -/
theorem part_1 (q : Fin 6) : part ⟨5 + q.val, by have := q.isLt; omega⟩ = 1 := by fin_cases q <;> rfl
/-- Column `11 + q` shows joint `J2 q` … -/
theorem joint_2 (q : Fin 4) : joint ⟨11 + q.val, by have := q.isLt; omega⟩ = J2 q := by fin_cases q <;> rfl
/-- … and belongs to part 2. -/
theorem part_2 (q : Fin 4) : part ⟨11 + q.val, by have := q.isLt; omega⟩ = 2 := by fin_cases q <;> rfl
/-- Column `15 + q` shows joint `J3 q` … -/
theorem joint_3 (q : Fin 6) : joint ⟨15 + q.val, by have := q.isLt; omega⟩ = J3 q := by fin_cases q <;> rfl
/-- … and belongs to part 3. -/
theorem part_3 (q : Fin 6) : part ⟨15 + q.val, by have := q.isLt; omega⟩ = 3 := by fin_cases q <;> rfl
/-- Column `21 + q` shows joint `J4 q` … -/
theorem joint_4 (q : Fin 4) : joint ⟨21 + q.val, by have := q.isLt; omega⟩ = J4 q := by fin_cases q <;> rfl
/-- … and belongs to part 4. -/
theorem part_4 (q : Fin 4) : part ⟨21 + q.val, by have := q.isLt; omega⟩ = 4 := by fin_cases q <;> rfl
/-- Column `25 + q` shows joint `J5 q` … -/
theorem joint_5 (q : Fin 5) : joint ⟨25 + q.val, by have := q.isLt; omega⟩ = J5 q := by fin_cases q <;> rfl
/-- … and belongs to part 5. -/
theorem part_5 (q : Fin 5) : part ⟨25 + q.val, by have := q.isLt; omega⟩ = 5 := by fin_cases q <;> rfl
/-- Column `30 + q` shows joint `J6 q` … -/
theorem joint_6 (q : Fin 6) : joint ⟨30 + q.val, by have := q.isLt; omega⟩ = J6 q := by fin_cases q <;> rfl
/-- … and belongs to part 6. -/
theorem part_6 (q : Fin 6) : part ⟨30 + q.val, by have := q.isLt; omega⟩ = 6 := by fin_cases q <;> rfl
/-- Column `36 + q` shows joint `J7 q` … -/
theorem joint_7 (q : Fin 4) : joint ⟨36 + q.val, by have := q.isLt; omega⟩ = J7 q := by fin_cases q <;> rfl
/-- … and belongs to part 7. -/
theorem part_7 (q : Fin 4) : part ⟨36 + q.val, by have := q.isLt; omega⟩ = 7 := by fin_cases q <;> rfl
/-- Column `40 + q` shows joint `J8 q` … -/
theorem joint_8 (q : Fin 6) : joint ⟨40 + q.val, by have := q.isLt; omega⟩ = J8 q := by fin_cases q <;> rfl
/-- … and belongs to part 8. -/
theorem part_8 (q : Fin 6) : part ⟨40 + q.val, by have := q.isLt; omega⟩ = 8 := by fin_cases q <;> rfl
/-- Column `46 + q` shows joint `J9 q` … -/
theorem joint_9 (q : Fin 4) : joint ⟨46 + q.val, by have := q.isLt; omega⟩ = J9 q := by fin_cases q <;> rfl
/-- … and belongs to part 9. -/
theorem part_9 (q : Fin 4) : part ⟨46 + q.val, by have := q.isLt; omega⟩ = 9 := by fin_cases q <;> rfl

end Cert.Spec

end
-- ==== Proof.SpecAlg.lean ====
/-
  Facts about the specification that both programs' value proofs end in; nothing here mentions a program.

  The pooled sum of a body part is the double sum over its joint table and the frames, and the pooled maximum the
  double maximum: a sum, or a right-nested maximum from the least element, over a listed table is the sum, or the
  supremum, over the table's positions. The logistic function, spelt out. (The tables themselves, the pooled
  counts and the columns' parts and joints are the cases of SpecTables.lean.)
-/
import proofs.«140205_j1228360647386_2_alg».proof.Proof.Spec
import proofs.«140205_j1228360647386_2_alg».proof.Proof.SpecTables

noncomputable section

namespace Cert.Spec

open Idealize.ShloMosaic Idealize.ShloMosaic.ValueIdx

/-! ## Sums and maxima over a table -/

/-- The sum of `f` over a listed table is the sum over the table's positions. -/
theorem sum_map_ofFn {M : Type} [AddCommMonoid M] {k : Nat} (J : Fin k → Fin 50) (f : Fin 50 → M) :
    ((List.ofFn J).map f).sum = ∑ q : Fin k, f (J q) := by
  rw [List.map_ofFn, List.sum_ofFn]
  rfl

/-- The right-nested maximum of `f` over a listed table, from the least element, is the supremum over the
    table's positions. -/
theorem foldr_max_ofFn : ∀ {k : Nat} (J : Fin k → Fin 50) (f : Fin 50 → EReal),
    (List.ofFn J).foldr (fun v acc => max (f v) acc) ⊥ = Finset.univ.sup fun q : Fin k => f (J q)
  | 0, J, f => by simp
  | k + 1, J, f => by
    rw [List.ofFn_succ, List.foldr_cons, foldr_max_ofFn (fun i => J i.succ) f, Fin.univ_succ, Finset.sup_cons, Finset.sup_map]
    rfl

/-- The pooled sum of a part is the double sum over its table and the frames. -/
theorem poolSum_eq {N k : Nat} (x : TX N) (p : Fin 10) (J : Fin k → Fin 50) (h : joints p = List.ofFn J) (n : Fin N) (c : Fin 256) :
    poolSum x p n c = ∑ q : Fin k, ∑ t : Fin 64, x (ix4 n c t (J q)) := by
  unfold poolSum
  rw [h, sum_map_ofFn]
  rfl

/-- The pooled maximum of a part is the double maximum over its table and the frames. -/
theorem poolMax_eq {N k : Nat} (x : TX N) (p : Fin 10) (J : Fin k → Fin 50) (h : joints p = List.ofFn J) (n : Fin N) (c : Fin 256) :
    poolMax x p n c = Finset.univ.sup fun q : Fin k => Finset.univ.sup fun t : Fin 64 => x (ix4 n c t (J q)) := by
  unfold poolMax
  rw [h, foldr_max_ofFn]
  rfl

/-! ## The logistic function -/

/-- The logistic function is the quotient `1 / (1 + exp (-z))` on every extended real. -/
theorem logistic_eq (z : EReal) : Ideal.logistic z = Ideal.div 1 (1 + Ideal.exp (-z)) := rfl

end Cert.Spec

end
-- ==== Proof.KerBody.PoolSpec.lean ====
/-
  The specification's pooled values written out joint by joint, in the order a left-to-right accumulation visits
  the joints of a part: the pooled sum of part `p` is `((s j₀ + s j₁) + …) + s jₖ₋₁` with `s v` the sum of the input
  over the 64 frames at joint `v` (`colSum`), the pooled mean is that times `1 / (64 · k)`, and the pooled maximum is
  `max (… (max (m j₀) (m j₁)) …) (m jₖ₋₁)` with `m v` the maximum over the frames (`colMax`). Sums and maxima of
  extended reals regroup freely; the joints are those of the part's table.
-/
import proofs.«140205_j1228360647386_2_alg».proof.Proof.SpecAlg

noncomputable section

namespace Cert.Spec

open Idealize.ShloMosaic Idealize.ShloMosaic.ValueIdx

variable {N : Nat} (x : TX N) (n : Fin N) (c : Fin 256)

/-! ### Part 0: joints 0, 1, 2, 3, 20 -/

/-- The pooled sum of part 0, joint by joint from the left. -/
theorem poolSum_0 : poolSum x 0 n c = colSum x n c 0 + colSum x n c 1 + colSum x n c 2 + colSum x n c 3 + colSum x n c 20 := by
  rw [poolSum_eq x 0 J0 joints_0, Fin.sum_univ_five]
  rfl

/-- The pooled mean of part 0: that sum times `1 / 320`. -/
theorem poolAvg_0 : poolAvg x 0 n c = (colSum x n c 0 + colSum x n c 1 + colSum x n c 2 + colSum x n c 3 + colSum x n c 20) * ((1 / 320 : ℝ) : EReal) := by
  unfold poolAvg
  rw [poolSum_0, cnt_0]

/-- The pooled maximum of part 0, joint by joint from the left. -/
theorem poolMax_0 : poolMax x 0 n c = max (max (max (max (colMax x n c 0) (colMax x n c 1)) (colMax x n c 2)) (colMax x n c 3)) (colMax x n c 20) := by
  have h : poolMax x 0 n c = max (colMax x n c 0) (max (colMax x n c 1) (max (colMax x n c 2) (max (colMax x n c 3) (max (colMax x n c 20) (⊥))))) := rfl
  rw [h, max_bot_right]
  simp only [max_assoc]

/-! ### Part 1: joints 8, 9, 10, 11, 23, 24 -/

/-- The pooled sum of part 1, joint by joint from the left. -/
theorem poolSum_1 : poolSum x 1 n c = colSum x n c 8 + colSum x n c 9 + colSum x n c 10 + colSum x n c 11 + colSum x n c 23 + colSum x n c 24 := by
  rw [poolSum_eq x 1 J1 joints_1, Fin.sum_univ_six]
  rfl

/-- The pooled mean of part 1: that sum times `1 / 384`. -/
theorem poolAvg_1 : poolAvg x 1 n c = (colSum x n c 8 + colSum x n c 9 + colSum x n c 10 + colSum x n c 11 + colSum x n c 23 + colSum x n c 24) * ((1 / 384 : ℝ) : EReal) := by
  unfold poolAvg
  rw [poolSum_1, cnt_1]

/-- The pooled maximum of part 1, joint by joint from the left. -/
theorem poolMax_1 : poolMax x 1 n c = max (max (max (max (max (colMax x n c 8) (colMax x n c 9)) (colMax x n c 10)) (colMax x n c 11)) (colMax x n c 23)) (colMax x n c 24) := by
  have h : poolMax x 1 n c = max (colMax x n c 8) (max (colMax x n c 9) (max (colMax x n c 10) (max (colMax x n c 11) (max (colMax x n c 23) (max (colMax x n c 24) (⊥)))))) := rfl
  rw [h, max_bot_right]
  simp only [max_assoc]

/-! ### Part 2: joints 16, 17, 18, 19 -/

/-- The pooled sum of part 2, joint by joint from the left. -/
theorem poolSum_2 : poolSum x 2 n c = colSum x n c 16 + colSum x n c 17 + colSum x n c 18 + colSum x n c 19 := by
  rw [poolSum_eq x 2 J2 joints_2, Fin.sum_univ_four]
  rfl

/-- The pooled mean of part 2: that sum times `1 / 256`. -/
theorem poolAvg_2 : poolAvg x 2 n c = (colSum x n c 16 + colSum x n c 17 + colSum x n c 18 + colSum x n c 19) * ((1 / 256 : ℝ) : EReal) := by
  unfold poolAvg
  rw [poolSum_2, cnt_2]

/-- The pooled maximum of part 2, joint by joint from the left. -/
theorem poolMax_2 : poolMax x 2 n c = max (max (max (colMax x n c 16) (colMax x n c 17)) (colMax x n c 18)) (colMax x n c 19) := by
  have h : poolMax x 2 n c = max (colMax x n c 16) (max (colMax x n c 17) (max (colMax x n c 18) (max (colMax x n c 19) (⊥)))) := rfl
  rw [h, max_bot_right]
  simp only [max_assoc]

/-! ### Part 3: joints 4, 5, 6, 7, 21, 22 -/

/-- The pooled sum of part 3, joint by joint from the left. -/
theorem poolSum_3 : poolSum x 3 n c = colSum x n c 4 + colSum x n c 5 + colSum x n c 6 + colSum x n c 7 + colSum x n c 21 + colSum x n c 22 := by
  rw [poolSum_eq x 3 J3 joints_3, Fin.sum_univ_six]
  rfl

/-- The pooled mean of part 3: that sum times `1 / 384`. -/
theorem poolAvg_3 : poolAvg x 3 n c = (colSum x n c 4 + colSum x n c 5 + colSum x n c 6 + colSum x n c 7 + colSum x n c 21 + colSum x n c 22) * ((1 / 384 : ℝ) : EReal) := by
  unfold poolAvg
  rw [poolSum_3, cnt_3]

/-- The pooled maximum of part 3, joint by joint from the left. -/
theorem poolMax_3 : poolMax x 3 n c = max (max (max (max (max (colMax x n c 4) (colMax x n c 5)) (colMax x n c 6)) (colMax x n c 7)) (colMax x n c 21)) (colMax x n c 22) := by
  have h : poolMax x 3 n c = max (colMax x n c 4) (max (colMax x n c 5) (max (colMax x n c 6) (max (colMax x n c 7) (max (colMax x n c 21) (max (colMax x n c 22) (⊥)))))) := rfl
  rw [h, max_bot_right]
  simp only [max_assoc]

/-! ### Part 4: joints 12, 13, 14, 15 -/

/-- The pooled sum of part 4, joint by joint from the left. -/
theorem poolSum_4 : poolSum x 4 n c = colSum x n c 12 + colSum x n c 13 + colSum x n c 14 + colSum x n c 15 := by
  rw [poolSum_eq x 4 J4 joints_4, Fin.sum_univ_four]
  rfl

/-- The pooled mean of part 4: that sum times `1 / 256`. -/
theorem poolAvg_4 : poolAvg x 4 n c = (colSum x n c 12 + colSum x n c 13 + colSum x n c 14 + colSum x n c 15) * ((1 / 256 : ℝ) : EReal) := by
  unfold poolAvg
  rw [poolSum_4, cnt_4]

/-- The pooled maximum of part 4, joint by joint from the left. -/
theorem poolMax_4 : poolMax x 4 n c = max (max (max (colMax x n c 12) (colMax x n c 13)) (colMax x n c 14)) (colMax x n c 15) := by
  have h : poolMax x 4 n c = max (colMax x n c 12) (max (colMax x n c 13) (max (colMax x n c 14) (max (colMax x n c 15) (⊥)))) := rfl
  rw [h, max_bot_right]
  simp only [max_assoc]

/-! ### Part 5: joints 25, 26, 27, 28, 45 -/

/-- The pooled sum of part 5, joint by joint from the left. -/
theorem poolSum_5 : poolSum x 5 n c = colSum x n c 25 + colSum x n c 26 + colSum x n c 27 + colSum x n c 28 + colSum x n c 45 := by
  rw [poolSum_eq x 5 J5 joints_5, Fin.sum_univ_five]
  rfl

/-- The pooled mean of part 5: that sum times `1 / 320`. -/
theorem poolAvg_5 : poolAvg x 5 n c = (colSum x n c 25 + colSum x n c 26 + colSum x n c 27 + colSum x n c 28 + colSum x n c 45) * ((1 / 320 : ℝ) : EReal) := by
  unfold poolAvg
  rw [poolSum_5, cnt_5]

/-- The pooled maximum of part 5, joint by joint from the left. -/
theorem poolMax_5 : poolMax x 5 n c = max (max (max (max (colMax x n c 25) (colMax x n c 26)) (colMax x n c 27)) (colMax x n c 28)) (colMax x n c 45) := by
  have h : poolMax x 5 n c = max (colMax x n c 25) (max (colMax x n c 26) (max (colMax x n c 27) (max (colMax x n c 28) (max (colMax x n c 45) (⊥))))) := rfl
  rw [h, max_bot_right]
  simp only [max_assoc]

/-! ### Part 6: joints 33, 34, 35, 36, 48, 49 -/

/-- The pooled sum of part 6, joint by joint from the left. -/
theorem poolSum_6 : poolSum x 6 n c = colSum x n c 33 + colSum x n c 34 + colSum x n c 35 + colSum x n c 36 + colSum x n c 48 + colSum x n c 49 := by
  rw [poolSum_eq x 6 J6 joints_6, Fin.sum_univ_six]
  rfl

/-- The pooled mean of part 6: that sum times `1 / 384`. -/
theorem poolAvg_6 : poolAvg x 6 n c = (colSum x n c 33 + colSum x n c 34 + colSum x n c 35 + colSum x n c 36 + colSum x n c 48 + colSum x n c 49) * ((1 / 384 : ℝ) : EReal) := by
  unfold poolAvg
  rw [poolSum_6, cnt_6]

/-- The pooled maximum of part 6, joint by joint from the left. -/
theorem poolMax_6 : poolMax x 6 n c = max (max (max (max (max (colMax x n c 33) (colMax x n c 34)) (colMax x n c 35)) (colMax x n c 36)) (colMax x n c 48)) (colMax x n c 49) := by
  have h : poolMax x 6 n c = max (colMax x n c 33) (max (colMax x n c 34) (max (colMax x n c 35) (max (colMax x n c 36) (max (colMax x n c 48) (max (colMax x n c 49) (⊥)))))) := rfl
  rw [h, max_bot_right]
  simp only [max_assoc]

/-! ### Part 7: joints 41, 42, 43, 44 -/

/-- The pooled sum of part 7, joint by joint from the left. -/
theorem poolSum_7 : poolSum x 7 n c = colSum x n c 41 + colSum x n c 42 + colSum x n c 43 + colSum x n c 44 := by
  rw [poolSum_eq x 7 J7 joints_7, Fin.sum_univ_four]
  rfl

/-- The pooled mean of part 7: that sum times `1 / 256`. -/
theorem poolAvg_7 : poolAvg x 7 n c = (colSum x n c 41 + colSum x n c 42 + colSum x n c 43 + colSum x n c 44) * ((1 / 256 : ℝ) : EReal) := by
  unfold poolAvg
  rw [poolSum_7, cnt_7]

/-- The pooled maximum of part 7, joint by joint from the left. -/
theorem poolMax_7 : poolMax x 7 n c = max (max (max (colMax x n c 41) (colMax x n c 42)) (colMax x n c 43)) (colMax x n c 44) := by
  have h : poolMax x 7 n c = max (colMax x n c 41) (max (colMax x n c 42) (max (colMax x n c 43) (max (colMax x n c 44) (⊥)))) := rfl
  rw [h, max_bot_right]
  simp only [max_assoc]

/-! ### Part 8: joints 29, 30, 31, 32, 46, 47 -/

/-- The pooled sum of part 8, joint by joint from the left. -/
theorem poolSum_8 : poolSum x 8 n c = colSum x n c 29 + colSum x n c 30 + colSum x n c 31 + colSum x n c 32 + colSum x n c 46 + colSum x n c 47 := by
  rw [poolSum_eq x 8 J8 joints_8, Fin.sum_univ_six]
  rfl

/-- The pooled mean of part 8: that sum times `1 / 384`. -/
theorem poolAvg_8 : poolAvg x 8 n c = (colSum x n c 29 + colSum x n c 30 + colSum x n c 31 + colSum x n c 32 + colSum x n c 46 + colSum x n c 47) * ((1 / 384 : ℝ) : EReal) := by
  unfold poolAvg
  rw [poolSum_8, cnt_8]

/-- The pooled maximum of part 8, joint by joint from the left. -/
theorem poolMax_8 : poolMax x 8 n c = max (max (max (max (max (colMax x n c 29) (colMax x n c 30)) (colMax x n c 31)) (colMax x n c 32)) (colMax x n c 46)) (colMax x n c 47) := by
  have h : poolMax x 8 n c = max (colMax x n c 29) (max (colMax x n c 30) (max (colMax x n c 31) (max (colMax x n c 32) (max (colMax x n c 46) (max (colMax x n c 47) (⊥)))))) := rfl
  rw [h, max_bot_right]
  simp only [max_assoc]

/-! ### Part 9: joints 37, 38, 39, 40 -/

/-- The pooled sum of part 9, joint by joint from the left. -/
theorem poolSum_9 : poolSum x 9 n c = colSum x n c 37 + colSum x n c 38 + colSum x n c 39 + colSum x n c 40 := by
  rw [poolSum_eq x 9 J9 joints_9, Fin.sum_univ_four]
  rfl

/-- The pooled mean of part 9: that sum times `1 / 256`. -/
theorem poolAvg_9 : poolAvg x 9 n c = (colSum x n c 37 + colSum x n c 38 + colSum x n c 39 + colSum x n c 40) * ((1 / 256 : ℝ) : EReal) := by
  unfold poolAvg
  rw [poolSum_9, cnt_9]

/-- The pooled maximum of part 9, joint by joint from the left. -/
theorem poolMax_9 : poolMax x 9 n c = max (max (max (colMax x n c 37) (colMax x n c 38)) (colMax x n c 39)) (colMax x n c 40) := by
  have h : poolMax x 9 n c = max (colMax x n c 37) (max (colMax x n c 38) (max (colMax x n c 39) (max (colMax x n c 40) (⊥)))) := rfl
  rw [h, max_bot_right]
  simp only [max_assoc]

end Cert.Spec

end
-- ==== Proof.KerBody.Gate0.lean ====
/-
  The gate of body part 0 (joints 0, 1, 2, 3, 20; 5 joints, 320 pooled entries) as the kernel body computes it, read at
  channel `c`, is the specification's gate: the two pooled rows are the sum over the part's joints of the frame sums
  times `1 / 320` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 0 at channel `c` is the specification's. -/
theorem gate_0 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay10 (F := Ideal) (k0_pay3 (View.ld x0 r0_0)) (k0_pay4 (View.ld x0 r0_0)) (k0_pay5 (View.ld x1 r0_1)) (k0_pay6 (View.ld x2 r0_2)) (k0_pay7 (View.ld x3 r0_3)) (k0_pay8 (View.ld x4 r0_4)) (k0_pay9 (View.ld x1 r0_1)) (ix4 (0 : Fin 1) c (0 : Fin 1) (0 : Fin 1))
      = Cert.Spec.gate (N := 1) x0 x1 x2 x3 x4 0 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 0 _ _ _ _ 0 rfl _ _ c).trans ?_
  unfold Cert.Spec.gate
  refine congrArg Ideal.logistic (congrArg₂ (· + ·)
    (congrArg (fun v => Cert.Spec.mlp x1 x2 x3 x4 0 v c) (funext fun c' => ?_))
    (congrArg (fun v => Cert.Spec.mlp x1 x2 x3 x4 0 v c) (funext fun c' => ?_)))
  · -- the mean row: the joints' frame sums added from the left, times the reciprocal of the count
    show (((((shapeCast S1x256 (extractStridedSlice S1x256x1 ![0, 0, 0] (k0_pay1 (F := Ideal) x0) slices_S1x256x50_o0_0_0_S1x256x1) shapeCasts_S1x256x1_S1x256 (ix2 (0 : Fin 1) c')
      + shapeCast S1x256 (extractStridedSlice S1x256x1 ![0, 0, 1] (k0_pay1 (F := Ideal) x0) slices_S1x256x50_o0_0_1_S1x256x1) shapeCasts_S1x256x1_S1x256 (ix2 (0 : Fin 1) c'))
      + shapeCast S1x256 (extractStridedSlice S1x256x1 ![0, 0, 2] (k0_pay1 (F := Ideal) x0) slices_S1x256x50_o0_0_2_S1x256x1) shapeCasts_S1x256x1_S1x256 (ix2 (0 : Fin 1) c'))
      + shapeCast S1x256 (extractStridedSlice S1x256x1 ![0, 0, 3] (k0_pay1 (F := Ideal) x0) slices_S1x256x50_o0_0_3_S1x256x1) shapeCasts_S1x256x1_S1x256 (ix2 (0 : Fin 1) c'))
      + shapeCast S1x256 (extractStridedSlice S1x256x1 ![0, 0, 20] (k0_pay1 (F := Ideal) x0) slices_S1x256x50_o0_0_20_S1x256x1) shapeCasts_S1x256x1_S1x256 (ix2 (0 : Fin 1) c')))
      * Named.named (F := Ideal) Cert.KernelIdeal.κ "inv_320" (φ := .f32) 0x3B4CCCCD#32 = _
    refine (congrArg₂ (· * ·) (congrArg₂ (· + ·) (congrArg₂ (· + ·) (congrArg₂ (· + ·) (congrArg₂ (· + ·) (sumLane x0 c' 0 slices_S1x256x50_o0_0_0_S1x256x1 shapeCasts_S1x256x1_S1x256 0 rfl) (sumLane x0 c' 1 slices_S1x256x50_o0_0_1_S1x256x1 shapeCasts_S1x256x1_S1x256 1 rfl)) (sumLane x0 c' 2 slices_S1x256x50_o0_0_2_S1x256x1 shapeCasts_S1x256x1_S1x256 2 rfl)) (sumLane x0 c' 3 slices_S1x256x50_o0_0_3_S1x256x1 shapeCasts_S1x256x1_S1x256 3 rfl)) (sumLane x0 c' 20 slices_S1x256x50_o0_0_20_S1x256x1 shapeCasts_S1x256x1_S1x256 20 rfl)) inv_320).trans (Cert.Spec.poolAvg_0 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max ((maximumf_apply _ _ _).trans (congrArg₂ max (maxLane x0 c' 0 slices_S1x256x50_o0_0_0_S1x256x1 shapeCasts_S1x256x1_S1x256 0 rfl) (maxLane x0 c' 1 slices_S1x256x50_o0_0_1_S1x256x1 shapeCasts_S1x256x1_S1x256 1 rfl))) (maxLane x0 c' 2 slices_S1x256x50_o0_0_2_S1x256x1 shapeCasts_S1x256x1_S1x256 2 rfl))) (maxLane x0 c' 3 slices_S1x256x50_o0_0_3_S1x256x1 shapeCasts_S1x256x1_S1x256 3 rfl))) (maxLane x0 c' 20 slices_S1x256x50_o0_0_20_S1x256x1 shapeCasts_S1x256x1_S1x256 20 rfl))).trans (Cert.Spec.poolMax_0 x0 0 c').symm

end Cert.KernelIdeal.KerBody

end
-- ==== Proof.KerBody.Gate1.lean ====
/-
  The gate of body part 1 (joints 8, 9, 10, 11, 23, 24; 6 joints, 384 pooled entries) as the kernel body computes it, read at
  channel `c`, is the specification's gate: the two pooled rows are the sum over the part's joints of the frame sums
  times `1 / 384` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 1 at channel `c` is the specification's. -/
theorem gate_1 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay20 (F := Ideal) (k0_pay2 (View.ld x0 r0_0)) (k0_pay17 (k0_pay1 (View.ld x0 r0_0))) (k0_pay18 (k0_pay2 (View.ld x0 r0_0))) (k0_pay19 (k0_pay2 (View.ld x0 r0_0))) (View.ld x1 r0_11) (View.ld x2 r0_12) (View.ld x3 r0_13) (View.ld x4 r0_14) (ix4 (0 : Fin 1) c (0 : Fin 1) (0 : Fin 1))
      = Cert.Spec.gate (N := 1) x0 x1 x2 x3 x4 1 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 1 _ _ _ _ 1 rfl _ _ c).trans ?_
  unfold Cert.Spec.gate
  refine congrArg Ideal.logistic (congrArg₂ (· + ·)
    (congrArg (fun v => Cert.Spec.mlp x1 x2 x3 x4 1 v c) (funext fun c' => ?_))
    (congrArg (fun v => Cert.Spec.mlp x1 x2 x3 x4 1 v c) (funext fun c' => ?_)))
  · -- the mean row: the joints' frame sums added from the left, times the reciprocal of the count
    show ((((((shapeCast S1x256 (extractStridedSlice S1x256x1 ![0, 0, 8] (k0_pay1 (F := Ideal) x0) slices_S1x256x50_o0_0_8_S1x256x1) shapeCasts_S1x256x1_S1x256 (ix2 (0 : Fin 1) c')
      + shapeCast S1x256 (extractStridedSlice S1x256x1 ![0, 0, 9] (k0_pay1 (F := Ideal) x0) slices_S1x256x50_o0_0_9_S1x256x1) shapeCasts_S1x256x1_S1x256 (ix2 (0 : Fin 1) c'))
      + shapeCast S1x256 (extractStridedSlice S1x256x1 ![0, 0, 10] (k0_pay1 (F := Ideal) x0) slices_S1x256x50_o0_0_10_S1x256x1) shapeCasts_S1x256x1_S1x256 (ix2 (0 : Fin 1) c'))
      + shapeCast S1x256 (extractStridedSlice S1x256x1 ![0, 0, 11] (k0_pay1 (F := Ideal) x0) slices_S1x256x50_o0_0_11_S1x256x1) shapeCasts_S1x256x1_S1x256 (ix2 (0 : Fin 1) c'))
      + shapeCast S1x256 (extractStridedSlice S1x256x1 ![0, 0, 23] (k0_pay1 (F := Ideal) x0) slices_S1x256x50_o0_0_23_S1x256x1) shapeCasts_S1x256x1_S1x256 (ix2 (0 : Fin 1) c'))
      + shapeCast S1x256 (extractStridedSlice S1x256x1 ![0, 0, 24] (k0_pay1 (F := Ideal) x0) slices_S1x256x50_o0_0_24_S1x256x1) shapeCasts_S1x256x1_S1x256 (ix2 (0 : Fin 1) c')))
      * Named.named (F := Ideal) Cert.KernelIdeal.κ "inv_384" (φ := .f32) 0x3B2AAAAB#32 = _
    refine (congrArg₂ (· * ·) (congrArg₂ (· + ·) (congrArg₂ (· + ·) (congrArg₂ (· + ·) (congrArg₂ (· + ·) (congrArg₂ (· + ·) (sumLane x0 c' 8 slices_S1x256x50_o0_0_8_S1x256x1 shapeCasts_S1x256x1_S1x256 8 rfl) (sumLane x0 c' 9 slices_S1x256x50_o0_0_9_S1x256x1 shapeCasts_S1x256x1_S1x256 9 rfl)) (sumLane x0 c' 10 slices_S1x256x50_o0_0_10_S1x256x1 shapeCasts_S1x256x1_S1x256 10 rfl)) (sumLane x0 c' 11 slices_S1x256x50_o0_0_11_S1x256x1 shapeCasts_S1x256x1_S1x256 11 rfl)) (sumLane x0 c' 23 slices_S1x256x50_o0_0_23_S1x256x1 shapeCasts_S1x256x1_S1x256 23 rfl)) (sumLane x0 c' 24 slices_S1x256x50_o0_0_24_S1x256x1 shapeCasts_S1x256x1_S1x256 24 rfl)) inv_384).trans (Cert.Spec.poolAvg_1 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max ((maximumf_apply _ _ _).trans (congrArg₂ max ((maximumf_apply _ _ _).trans (congrArg₂ max (maxLane x0 c' 8 slices_S1x256x50_o0_0_8_S1x256x1 shapeCasts_S1x256x1_S1x256 8 rfl) (maxLane x0 c' 9 slices_S1x256x50_o0_0_9_S1x256x1 shapeCasts_S1x256x1_S1x256 9 rfl))) (maxLane x0 c' 10 slices_S1x256x50_o0_0_10_S1x256x1 shapeCasts_S1x256x1_S1x256 10 rfl))) (maxLane x0 c' 11 slices_S1x256x50_o0_0_11_S1x256x1 shapeCasts_S1x256x1_S1x256 11 rfl))) (maxLane x0 c' 23 slices_S1x256x50_o0_0_23_S1x256x1 shapeCasts_S1x256x1_S1x256 23 rfl))) (maxLane x0 c' 24 slices_S1x256x50_o0_0_24_S1x256x1 shapeCasts_S1x256x1_S1x256 24 rfl))).trans (Cert.Spec.poolMax_1 x0 0 c').symm

end Cert.KernelIdeal.KerBody

end
-- ==== Proof.KerBody.Gate2.lean ====
/-
  The gate of body part 2 (joints 16, 17, 18, 19; 4 joints, 256 pooled entries) as the kernel body computes it, read at
  channel `c`, is the specification's gate: the two pooled rows are the sum over the part's joints of the frame sums
  times `1 / 256` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 2 at channel `c` is the specification's. -/
theorem gate_2 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay34 (F := Ideal) (k0_pay27 (k0_pay2 (View.ld x0 r0_0))) (k0_pay28 (k0_pay1 (View.ld x0 r0_0))) (k0_pay29 (View.ld x1 r0_24)) (k0_pay30 (View.ld x2 r0_25)) (k0_pay31 (View.ld x3 r0_26)) (k0_pay32 (View.ld x4 r0_27)) (k0_pay33 (View.ld x1 r0_24)) (constant S1x16 .f32 0x00000000#32) (ix4 (0 : Fin 1) c (0 : Fin 1) (0 : Fin 1))
      = Cert.Spec.gate (N := 1) x0 x1 x2 x3 x4 2 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 2 _ _ _ _ 2 rfl _ _ c).trans ?_
  unfold Cert.Spec.gate
  refine congrArg Ideal.logistic (congrArg₂ (· + ·)
    (congrArg (fun v => Cert.Spec.mlp x1 x2 x3 x4 2 v c) (funext fun c' => ?_))
    (congrArg (fun v => Cert.Spec.mlp x1 x2 x3 x4 2 v c) (funext fun c' => ?_)))
  · -- the mean row: the joints' frame sums added from the left, times the reciprocal of the count
    show ((((shapeCast S1x256 (extractStridedSlice S1x256x1 ![0, 0, 16] (k0_pay1 (F := Ideal) x0) slices_S1x256x50_o0_0_16_S1x256x1) shapeCasts_S1x256x1_S1x256 (ix2 (0 : Fin 1) c')
      + shapeCast S1x256 (extractStridedSlice S1x256x1 ![0, 0, 17] (k0_pay1 (F := Ideal) x0) slices_S1x256x50_o0_0_17_S1x256x1) shapeCasts_S1x256x1_S1x256 (ix2 (0 : Fin 1) c'))
      + shapeCast S1x256 (extractStridedSlice S1x256x1 ![0, 0, 18] (k0_pay1 (F := Ideal) x0) slices_S1x256x50_o0_0_18_S1x256x1) shapeCasts_S1x256x1_S1x256 (ix2 (0 : Fin 1) c'))
      + shapeCast S1x256 (extractStridedSlice S1x256x1 ![0, 0, 19] (k0_pay1 (F := Ideal) x0) slices_S1x256x50_o0_0_19_S1x256x1) shapeCasts_S1x256x1_S1x256 (ix2 (0 : Fin 1) c')))
      * Ideal.ofBits .f32 0x3B800000#32 = _
    refine (congrArg₂ (· * ·) (congrArg₂ (· + ·) (congrArg₂ (· + ·) (congrArg₂ (· + ·) (sumLane x0 c' 16 slices_S1x256x50_o0_0_16_S1x256x1 shapeCasts_S1x256x1_S1x256 16 rfl) (sumLane x0 c' 17 slices_S1x256x50_o0_0_17_S1x256x1 shapeCasts_S1x256x1_S1x256 17 rfl)) (sumLane x0 c' 18 slices_S1x256x50_o0_0_18_S1x256x1 shapeCasts_S1x256x1_S1x256 18 rfl)) (sumLane x0 c' 19 slices_S1x256x50_o0_0_19_S1x256x1 shapeCasts_S1x256x1_S1x256 19 rfl)) ofBits_inv_256).trans (Cert.Spec.poolAvg_2 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max (maxLane x0 c' 16 slices_S1x256x50_o0_0_16_S1x256x1 shapeCasts_S1x256x1_S1x256 16 rfl) (maxLane x0 c' 17 slices_S1x256x50_o0_0_17_S1x256x1 shapeCasts_S1x256x1_S1x256 17 rfl))) (maxLane x0 c' 18 slices_S1x256x50_o0_0_18_S1x256x1 shapeCasts_S1x256x1_S1x256 18 rfl))) (maxLane x0 c' 19 slices_S1x256x50_o0_0_19_S1x256x1 shapeCasts_S1x256x1_S1x256 19 rfl))).trans (Cert.Spec.poolMax_2 x0 0 c').symm

end Cert.KernelIdeal.KerBody

end
-- ==== Proof.KerBody.Gate3.lean ====
/-
  The gate of body part 3 (joints 4, 5, 6, 7, 21, 22; 6 joints, 384 pooled entries) as the kernel body computes it, read at
  channel `c`, is the specification's gate: the two pooled rows are the sum over the part's joints of the frame sums
  times `1 / 384` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 3 at channel `c` is the specification's. -/
theorem gate_3 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay41 (F := Ideal) (k0_pay39 (k0_pay2 (View.ld x0 r0_0))) (k0_pay40 (k0_pay1 (View.ld x0 r0_0))) (View.ld x1 r0_35) (View.ld x2 r0_36) (View.ld x3 r0_37) (View.ld x4 r0_38) (ix4 (0 : Fin 1) c (0 : Fin 1) (0 : Fin 1))
      = Cert.Spec.gate (N := 1) x0 x1 x2 x3 x4 3 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 3 _ _ _ _ 3 rfl _ _ c).trans ?_
  unfold Cert.Spec.gate
  refine congrArg Ideal.logistic (congrArg₂ (· + ·)
    (congrArg (fun v => Cert.Spec.mlp x1 x2 x3 x4 3 v c) (funext fun c' => ?_))
    (congrArg (fun v => Cert.Spec.mlp x1 x2 x3 x4 3 v c) (funext fun c' => ?_)))
  · -- the mean row: the joints' frame sums added from the left, times the reciprocal of the count
    show ((((((shapeCast S1x256 (extractStridedSlice S1x256x1 ![0, 0, 4] (k0_pay1 (F := Ideal) x0) slices_S1x256x50_o0_0_4_S1x256x1) shapeCasts_S1x256x1_S1x256 (ix2 (0 : Fin 1) c')
      + shapeCast S1x256 (extractStridedSlice S1x256x1 ![0, 0, 5] (k0_pay1 (F := Ideal) x0) slices_S1x256x50_o0_0_5_S1x256x1) shapeCasts_S1x256x1_S1x256 (ix2 (0 : Fin 1) c'))
      + shapeCast S1x256 (extractStridedSlice S1x256x1 ![0, 0, 6] (k0_pay1 (F := Ideal) x0) slices_S1x256x50_o0_0_6_S1x256x1) shapeCasts_S1x256x1_S1x256 (ix2 (0 : Fin 1) c'))
      + shapeCast S1x256 (extractStridedSlice S1x256x1 ![0, 0, 7] (k0_pay1 (F := Ideal) x0) slices_S1x256x50_o0_0_7_S1x256x1) shapeCasts_S1x256x1_S1x256 (ix2 (0 : Fin 1) c'))
      + shapeCast S1x256 (extractStridedSlice S1x256x1 ![0, 0, 21] (k0_pay1 (F := Ideal) x0) slices_S1x256x50_o0_0_21_S1x256x1) shapeCasts_S1x256x1_S1x256 (ix2 (0 : Fin 1) c'))
      + shapeCast S1x256 (extractStridedSlice S1x256x1 ![0, 0, 22] (k0_pay1 (F := Ideal) x0) slices_S1x256x50_o0_0_22_S1x256x1) shapeCasts_S1x256x1_S1x256 (ix2 (0 : Fin 1) c')))
      * Named.named (F := Ideal) Cert.KernelIdeal.κ "inv_384" (φ := .f32) 0x3B2AAAAB#32 = _
    refine (congrArg₂ (· * ·) (congrArg₂ (· + ·) (congrArg₂ (· + ·) (congrArg₂ (· + ·) (congrArg₂ (· + ·) (congrArg₂ (· + ·) (sumLane x0 c' 4 slices_S1x256x50_o0_0_4_S1x256x1 shapeCasts_S1x256x1_S1x256 4 rfl) (sumLane x0 c' 5 slices_S1x256x50_o0_0_5_S1x256x1 shapeCasts_S1x256x1_S1x256 5 rfl)) (sumLane x0 c' 6 slices_S1x256x50_o0_0_6_S1x256x1 shapeCasts_S1x256x1_S1x256 6 rfl)) (sumLane x0 c' 7 slices_S1x256x50_o0_0_7_S1x256x1 shapeCasts_S1x256x1_S1x256 7 rfl)) (sumLane x0 c' 21 slices_S1x256x50_o0_0_21_S1x256x1 shapeCasts_S1x256x1_S1x256 21 rfl)) (sumLane x0 c' 22 slices_S1x256x50_o0_0_22_S1x256x1 shapeCasts_S1x256x1_S1x256 22 rfl)) inv_384).trans (Cert.Spec.poolAvg_3 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max ((maximumf_apply _ _ _).trans (congrArg₂ max ((maximumf_apply _ _ _).trans (congrArg₂ max (maxLane x0 c' 4 slices_S1x256x50_o0_0_4_S1x256x1 shapeCasts_S1x256x1_S1x256 4 rfl) (maxLane x0 c' 5 slices_S1x256x50_o0_0_5_S1x256x1 shapeCasts_S1x256x1_S1x256 5 rfl))) (maxLane x0 c' 6 slices_S1x256x50_o0_0_6_S1x256x1 shapeCasts_S1x256x1_S1x256 6 rfl))) (maxLane x0 c' 7 slices_S1x256x50_o0_0_7_S1x256x1 shapeCasts_S1x256x1_S1x256 7 rfl))) (maxLane x0 c' 21 slices_S1x256x50_o0_0_21_S1x256x1 shapeCasts_S1x256x1_S1x256 21 rfl))) (maxLane x0 c' 22 slices_S1x256x50_o0_0_22_S1x256x1 shapeCasts_S1x256x1_S1x256 22 rfl))).trans (Cert.Spec.poolMax_3 x0 0 c').symm

end Cert.KernelIdeal.KerBody

end
-- ==== Proof.KerBody.Gate4.lean ====
/-
  The gate of body part 4 (joints 12, 13, 14, 15; 4 joints, 256 pooled entries) as the kernel body computes it, read at
  channel `c`, is the specification's gate: the two pooled rows are the sum over the part's joints of the frame sums
  times `1 / 256` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 4 at channel `c` is the specification's. -/
theorem gate_4 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay54 (F := Ideal) (k0_pay49 (View.ld x2 r0_43)) (k0_pay50 (View.ld x3 r0_44)) (k0_pay51 (View.ld x4 r0_45)) (k0_pay52 (k0_pay1 (View.ld x0 r0_0)) (View.ld x1 r0_42) (View.ld x2 r0_43) (View.ld x3 r0_44) (View.ld x4 r0_45)) (k0_pay53 (k0_pay2 (View.ld x0 r0_0)) (View.ld x1 r0_42)) (ix4 (0 : Fin 1) c (0 : Fin 1) (0 : Fin 1))
      = Cert.Spec.gate (N := 1) x0 x1 x2 x3 x4 4 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 4 _ _ _ _ 4 rfl _ _ c).trans ?_
  unfold Cert.Spec.gate
  refine congrArg Ideal.logistic (congrArg₂ (· + ·)
    (congrArg (fun v => Cert.Spec.mlp x1 x2 x3 x4 4 v c) (funext fun c' => ?_))
    (congrArg (fun v => Cert.Spec.mlp x1 x2 x3 x4 4 v c) (funext fun c' => ?_)))
  · -- the mean row: the joints' frame sums added from the left, times the reciprocal of the count
    show ((((shapeCast S1x256 (extractStridedSlice S1x256x1 ![0, 0, 12] (k0_pay1 (F := Ideal) x0) slices_S1x256x50_o0_0_12_S1x256x1) shapeCasts_S1x256x1_S1x256 (ix2 (0 : Fin 1) c')
      + shapeCast S1x256 (extractStridedSlice S1x256x1 ![0, 0, 13] (k0_pay1 (F := Ideal) x0) slices_S1x256x50_o0_0_13_S1x256x1) shapeCasts_S1x256x1_S1x256 (ix2 (0 : Fin 1) c'))
      + shapeCast S1x256 (extractStridedSlice S1x256x1 ![0, 0, 14] (k0_pay1 (F := Ideal) x0) slices_S1x256x50_o0_0_14_S1x256x1) shapeCasts_S1x256x1_S1x256 (ix2 (0 : Fin 1) c'))
      + shapeCast S1x256 (extractStridedSlice S1x256x1 ![0, 0, 15] (k0_pay1 (F := Ideal) x0) slices_S1x256x50_o0_0_15_S1x256x1) shapeCasts_S1x256x1_S1x256 (ix2 (0 : Fin 1) c')))
      * Ideal.ofBits .f32 0x3B800000#32 = _
    refine (congrArg₂ (· * ·) (congrArg₂ (· + ·) (congrArg₂ (· + ·) (congrArg₂ (· + ·) (sumLane x0 c' 12 slices_S1x256x50_o0_0_12_S1x256x1 shapeCasts_S1x256x1_S1x256 12 rfl) (sumLane x0 c' 13 slices_S1x256x50_o0_0_13_S1x256x1 shapeCasts_S1x256x1_S1x256 13 rfl)) (sumLane x0 c' 14 slices_S1x256x50_o0_0_14_S1x256x1 shapeCasts_S1x256x1_S1x256 14 rfl)) (sumLane x0 c' 15 slices_S1x256x50_o0_0_15_S1x256x1 shapeCasts_S1x256x1_S1x256 15 rfl)) ofBits_inv_256).trans (Cert.Spec.poolAvg_4 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max (maxLane x0 c' 12 slices_S1x256x50_o0_0_12_S1x256x1 shapeCasts_S1x256x1_S1x256 12 rfl) (maxLane x0 c' 13 slices_S1x256x50_o0_0_13_S1x256x1 shapeCasts_S1x256x1_S1x256 13 rfl))) (maxLane x0 c' 14 slices_S1x256x50_o0_0_14_S1x256x1 shapeCasts_S1x256x1_S1x256 14 rfl))) (maxLane x0 c' 15 slices_S1x256x50_o0_0_15_S1x256x1 shapeCasts_S1x256x1_S1x256 15 rfl))).trans (Cert.Spec.poolMax_4 x0 0 c').symm

end Cert.KernelIdeal.KerBody

end
-- ==== Proof.KerBody.Gate5.lean ====
/-
  The gate of body part 5 (joints 25, 26, 27, 28, 45; 5 joints, 320 pooled entries) as the kernel body computes it, read at
  channel `c`, is the specification's gate: the two pooled rows are the sum over the part's joints of the frame sums
  times `1 / 320` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 5 at channel `c` is the specification's. -/
theorem gate_5 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay65 (F := Ideal) (k0_pay59 (k0_pay2 (View.ld x0 r0_0))) (k0_pay60 (View.ld x1 r0_46)) (k0_pay61 (View.ld x2 r0_47)) (k0_pay62 (View.ld x3 r0_48)) (k0_pay63 (View.ld x4 r0_49)) (k0_pay64 (k0_pay1 (View.ld x0 r0_0)) (View.ld x1 r0_46) (View.ld x2 r0_47)) (Scalar.ofBits .f32 0x00000000#32) (ix4 (0 : Fin 1) c (0 : Fin 1) (0 : Fin 1))
      = Cert.Spec.gate (N := 1) x0 x1 x2 x3 x4 5 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 5 _ _ _ _ 5 rfl _ _ c).trans ?_
  unfold Cert.Spec.gate
  refine congrArg Ideal.logistic (congrArg₂ (· + ·)
    (congrArg (fun v => Cert.Spec.mlp x1 x2 x3 x4 5 v c) (funext fun c' => ?_))
    (congrArg (fun v => Cert.Spec.mlp x1 x2 x3 x4 5 v c) (funext fun c' => ?_)))
  · -- the mean row: the joints' frame sums added from the left, times the reciprocal of the count
    show (((((shapeCast S1x256 (extractStridedSlice S1x256x1 ![0, 0, 25] (k0_pay1 (F := Ideal) x0) slices_S1x256x50_o0_0_25_S1x256x1) shapeCasts_S1x256x1_S1x256 (ix2 (0 : Fin 1) c')
      + shapeCast S1x256 (extractStridedSlice S1x256x1 ![0, 0, 26] (k0_pay1 (F := Ideal) x0) slices_S1x256x50_o0_0_26_S1x256x1) shapeCasts_S1x256x1_S1x256 (ix2 (0 : Fin 1) c'))
      + shapeCast S1x256 (extractStridedSlice S1x256x1 ![0, 0, 27] (k0_pay1 (F := Ideal) x0) slices_S1x256x50_o0_0_27_S1x256x1) shapeCasts_S1x256x1_S1x256 (ix2 (0 : Fin 1) c'))
      + shapeCast S1x256 (extractStridedSlice S1x256x1 ![0, 0, 28] (k0_pay1 (F := Ideal) x0) slices_S1x256x50_o0_0_28_S1x256x1) shapeCasts_S1x256x1_S1x256 (ix2 (0 : Fin 1) c'))
      + shapeCast S1x256 (extractStridedSlice S1x256x1 ![0, 0, 45] (k0_pay1 (F := Ideal) x0) slices_S1x256x50_o0_0_45_S1x256x1) shapeCasts_S1x256x1_S1x256 (ix2 (0 : Fin 1) c')))
      * Named.named (F := Ideal) Cert.KernelIdeal.κ "inv_320" (φ := .f32) 0x3B4CCCCD#32 = _
    refine (congrArg₂ (· * ·) (congrArg₂ (· + ·) (congrArg₂ (· + ·) (congrArg₂ (· + ·) (congrArg₂ (· + ·) (sumLane x0 c' 25 slices_S1x256x50_o0_0_25_S1x256x1 shapeCasts_S1x256x1_S1x256 25 rfl) (sumLane x0 c' 26 slices_S1x256x50_o0_0_26_S1x256x1 shapeCasts_S1x256x1_S1x256 26 rfl)) (sumLane x0 c' 27 slices_S1x256x50_o0_0_27_S1x256x1 shapeCasts_S1x256x1_S1x256 27 rfl)) (sumLane x0 c' 28 slices_S1x256x50_o0_0_28_S1x256x1 shapeCasts_S1x256x1_S1x256 28 rfl)) (sumLane x0 c' 45 slices_S1x256x50_o0_0_45_S1x256x1 shapeCasts_S1x256x1_S1x256 45 rfl)) inv_320).trans (Cert.Spec.poolAvg_5 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max ((maximumf_apply _ _ _).trans (congrArg₂ max (maxLane x0 c' 25 slices_S1x256x50_o0_0_25_S1x256x1 shapeCasts_S1x256x1_S1x256 25 rfl) (maxLane x0 c' 26 slices_S1x256x50_o0_0_26_S1x256x1 shapeCasts_S1x256x1_S1x256 26 rfl))) (maxLane x0 c' 27 slices_S1x256x50_o0_0_27_S1x256x1 shapeCasts_S1x256x1_S1x256 27 rfl))) (maxLane x0 c' 28 slices_S1x256x50_o0_0_28_S1x256x1 shapeCasts_S1x256x1_S1x256 28 rfl))) (maxLane x0 c' 45 slices_S1x256x50_o0_0_45_S1x256x1 shapeCasts_S1x256x1_S1x256 45 rfl))).trans (Cert.Spec.poolMax_5 x0 0 c').symm

end Cert.KernelIdeal.KerBody

end
-- ==== Proof.KerBody.Gate6.lean ====
/-
  The gate of body part 6 (joints 33, 34, 35, 36, 48, 49; 6 joints, 384 pooled entries) as the kernel body computes it, read at
  channel `c`, is the specification's gate: the two pooled rows are the sum over the part's joints of the frame sums
  times `1 / 384` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 6 at channel `c` is the specification's. -/
theorem gate_6 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay74 (F := Ideal) (k0_pay71 (k0_pay1 (View.ld x0 r0_0))) (k0_pay72 (k0_pay2 (View.ld x0 r0_0))) (k0_pay73 (k0_pay2 (View.ld x0 r0_0))) (View.ld x1 r0_56) (View.ld x2 r0_57) (View.ld x3 r0_58) (View.ld x4 r0_59) (ix4 (0 : Fin 1) c (0 : Fin 1) (0 : Fin 1))
      = Cert.Spec.gate (N := 1) x0 x1 x2 x3 x4 6 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 6 _ _ _ _ 6 rfl _ _ c).trans ?_
  unfold Cert.Spec.gate
  refine congrArg Ideal.logistic (congrArg₂ (· + ·)
    (congrArg (fun v => Cert.Spec.mlp x1 x2 x3 x4 6 v c) (funext fun c' => ?_))
    (congrArg (fun v => Cert.Spec.mlp x1 x2 x3 x4 6 v c) (funext fun c' => ?_)))
  · -- the mean row: the joints' frame sums added from the left, times the reciprocal of the count
    show ((((((shapeCast S1x256 (extractStridedSlice S1x256x1 ![0, 0, 33] (k0_pay1 (F := Ideal) x0) slices_S1x256x50_o0_0_33_S1x256x1) shapeCasts_S1x256x1_S1x256 (ix2 (0 : Fin 1) c')
      + shapeCast S1x256 (extractStridedSlice S1x256x1 ![0, 0, 34] (k0_pay1 (F := Ideal) x0) slices_S1x256x50_o0_0_34_S1x256x1) shapeCasts_S1x256x1_S1x256 (ix2 (0 : Fin 1) c'))
      + shapeCast S1x256 (extractStridedSlice S1x256x1 ![0, 0, 35] (k0_pay1 (F := Ideal) x0) slices_S1x256x50_o0_0_35_S1x256x1) shapeCasts_S1x256x1_S1x256 (ix2 (0 : Fin 1) c'))
      + shapeCast S1x256 (extractStridedSlice S1x256x1 ![0, 0, 36] (k0_pay1 (F := Ideal) x0) slices_S1x256x50_o0_0_36_S1x256x1) shapeCasts_S1x256x1_S1x256 (ix2 (0 : Fin 1) c'))
      + shapeCast S1x256 (extractStridedSlice S1x256x1 ![0, 0, 48] (k0_pay1 (F := Ideal) x0) slices_S1x256x50_o0_0_48_S1x256x1) shapeCasts_S1x256x1_S1x256 (ix2 (0 : Fin 1) c'))
      + shapeCast S1x256 (extractStridedSlice S1x256x1 ![0, 0, 49] (k0_pay1 (F := Ideal) x0) slices_S1x256x50_o0_0_49_S1x256x1) shapeCasts_S1x256x1_S1x256 (ix2 (0 : Fin 1) c')))
      * Named.named (F := Ideal) Cert.KernelIdeal.κ "inv_384" (φ := .f32) 0x3B2AAAAB#32 = _
    refine (congrArg₂ (· * ·) (congrArg₂ (· + ·) (congrArg₂ (· + ·) (congrArg₂ (· + ·) (congrArg₂ (· + ·) (congrArg₂ (· + ·) (sumLane x0 c' 33 slices_S1x256x50_o0_0_33_S1x256x1 shapeCasts_S1x256x1_S1x256 33 rfl) (sumLane x0 c' 34 slices_S1x256x50_o0_0_34_S1x256x1 shapeCasts_S1x256x1_S1x256 34 rfl)) (sumLane x0 c' 35 slices_S1x256x50_o0_0_35_S1x256x1 shapeCasts_S1x256x1_S1x256 35 rfl)) (sumLane x0 c' 36 slices_S1x256x50_o0_0_36_S1x256x1 shapeCasts_S1x256x1_S1x256 36 rfl)) (sumLane x0 c' 48 slices_S1x256x50_o0_0_48_S1x256x1 shapeCasts_S1x256x1_S1x256 48 rfl)) (sumLane x0 c' 49 slices_S1x256x50_o0_0_49_S1x256x1 shapeCasts_S1x256x1_S1x256 49 rfl)) inv_384).trans (Cert.Spec.poolAvg_6 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max ((maximumf_apply _ _ _).trans (congrArg₂ max ((maximumf_apply _ _ _).trans (congrArg₂ max (maxLane x0 c' 33 slices_S1x256x50_o0_0_33_S1x256x1 shapeCasts_S1x256x1_S1x256 33 rfl) (maxLane x0 c' 34 slices_S1x256x50_o0_0_34_S1x256x1 shapeCasts_S1x256x1_S1x256 34 rfl))) (maxLane x0 c' 35 slices_S1x256x50_o0_0_35_S1x256x1 shapeCasts_S1x256x1_S1x256 35 rfl))) (maxLane x0 c' 36 slices_S1x256x50_o0_0_36_S1x256x1 shapeCasts_S1x256x1_S1x256 36 rfl))) (maxLane x0 c' 48 slices_S1x256x50_o0_0_48_S1x256x1 shapeCasts_S1x256x1_S1x256 48 rfl))) (maxLane x0 c' 49 slices_S1x256x50_o0_0_49_S1x256x1 shapeCasts_S1x256x1_S1x256 49 rfl))).trans (Cert.Spec.poolMax_6 x0 0 c').symm

end Cert.KernelIdeal.KerBody

end
-- ==== Proof.KerBody.Gate7.lean ====
/-
  The gate of body part 7 (joints 41, 42, 43, 44; 4 joints, 256 pooled entries) as the kernel body computes it, read at
  channel `c`, is the specification's gate: the two pooled rows are the sum over the part's joints of the frame sums
  times `1 / 256` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 7 at channel `c` is the specification's. -/
theorem gate_7 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay88 (F := Ideal) (k0_pay81 (k0_pay2 (View.ld x0 r0_0))) (k0_pay82 (View.ld x1 r0_69)) (k0_pay83 (View.ld x2 r0_70)) (k0_pay84 (View.ld x3 r0_71)) (k0_pay85 (View.ld x4 r0_72)) (k0_pay86 (k0_pay1 (View.ld x0 r0_0)) (View.ld x1 r0_69) (View.ld x2 r0_70)) (k0_pay87 (F := Ideal)) (ix4 (0 : Fin 1) c (0 : Fin 1) (0 : Fin 1))
      = Cert.Spec.gate (N := 1) x0 x1 x2 x3 x4 7 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 7 _ _ _ _ 7 rfl _ _ c).trans ?_
  unfold Cert.Spec.gate
  refine congrArg Ideal.logistic (congrArg₂ (· + ·)
    (congrArg (fun v => Cert.Spec.mlp x1 x2 x3 x4 7 v c) (funext fun c' => ?_))
    (congrArg (fun v => Cert.Spec.mlp x1 x2 x3 x4 7 v c) (funext fun c' => ?_)))
  · -- the mean row: the joints' frame sums added from the left, times the reciprocal of the count
    show ((((shapeCast S1x256 (extractStridedSlice S1x256x1 ![0, 0, 41] (k0_pay1 (F := Ideal) x0) slices_S1x256x50_o0_0_41_S1x256x1) shapeCasts_S1x256x1_S1x256 (ix2 (0 : Fin 1) c')
      + shapeCast S1x256 (extractStridedSlice S1x256x1 ![0, 0, 42] (k0_pay1 (F := Ideal) x0) slices_S1x256x50_o0_0_42_S1x256x1) shapeCasts_S1x256x1_S1x256 (ix2 (0 : Fin 1) c'))
      + shapeCast S1x256 (extractStridedSlice S1x256x1 ![0, 0, 43] (k0_pay1 (F := Ideal) x0) slices_S1x256x50_o0_0_43_S1x256x1) shapeCasts_S1x256x1_S1x256 (ix2 (0 : Fin 1) c'))
      + shapeCast S1x256 (extractStridedSlice S1x256x1 ![0, 0, 44] (k0_pay1 (F := Ideal) x0) slices_S1x256x50_o0_0_44_S1x256x1) shapeCasts_S1x256x1_S1x256 (ix2 (0 : Fin 1) c')))
      * Ideal.ofBits .f32 0x3B800000#32 = _
    refine (congrArg₂ (· * ·) (congrArg₂ (· + ·) (congrArg₂ (· + ·) (congrArg₂ (· + ·) (sumLane x0 c' 41 slices_S1x256x50_o0_0_41_S1x256x1 shapeCasts_S1x256x1_S1x256 41 rfl) (sumLane x0 c' 42 slices_S1x256x50_o0_0_42_S1x256x1 shapeCasts_S1x256x1_S1x256 42 rfl)) (sumLane x0 c' 43 slices_S1x256x50_o0_0_43_S1x256x1 shapeCasts_S1x256x1_S1x256 43 rfl)) (sumLane x0 c' 44 slices_S1x256x50_o0_0_44_S1x256x1 shapeCasts_S1x256x1_S1x256 44 rfl)) ofBits_inv_256).trans (Cert.Spec.poolAvg_7 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max (maxLane x0 c' 41 slices_S1x256x50_o0_0_41_S1x256x1 shapeCasts_S1x256x1_S1x256 41 rfl) (maxLane x0 c' 42 slices_S1x256x50_o0_0_42_S1x256x1 shapeCasts_S1x256x1_S1x256 42 rfl))) (maxLane x0 c' 43 slices_S1x256x50_o0_0_43_S1x256x1 shapeCasts_S1x256x1_S1x256 43 rfl))) (maxLane x0 c' 44 slices_S1x256x50_o0_0_44_S1x256x1 shapeCasts_S1x256x1_S1x256 44 rfl))).trans (Cert.Spec.poolMax_7 x0 0 c').symm

end Cert.KernelIdeal.KerBody

end
-- ==== Proof.KerBody.Gate8.lean ====
/-
  The gate of body part 8 (joints 29, 30, 31, 32, 46, 47; 6 joints, 384 pooled entries) as the kernel body computes it, read at
  channel `c`, is the specification's gate: the two pooled rows are the sum over the part's joints of the frame sums
  times `1 / 384` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 8 at channel `c` is the specification's. -/
theorem gate_8 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay97 (F := Ideal) (k0_pay93 (k0_pay2 (View.ld x0 r0_0))) (k0_pay94 (k0_pay1 (View.ld x0 r0_0))) (k0_pay95 (View.ld x1 r0_80)) (k0_pay96 (View.ld x2 r0_81)) (View.ld x3 r0_82) (View.ld x4 r0_83) (ix4 (0 : Fin 1) c (0 : Fin 1) (0 : Fin 1))
      = Cert.Spec.gate (N := 1) x0 x1 x2 x3 x4 8 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 8 _ _ _ _ 8 rfl _ _ c).trans ?_
  unfold Cert.Spec.gate
  refine congrArg Ideal.logistic (congrArg₂ (· + ·)
    (congrArg (fun v => Cert.Spec.mlp x1 x2 x3 x4 8 v c) (funext fun c' => ?_))
    (congrArg (fun v => Cert.Spec.mlp x1 x2 x3 x4 8 v c) (funext fun c' => ?_)))
  · -- the mean row: the joints' frame sums added from the left, times the reciprocal of the count
    show ((((((shapeCast S1x256 (extractStridedSlice S1x256x1 ![0, 0, 29] (k0_pay1 (F := Ideal) x0) slices_S1x256x50_o0_0_29_S1x256x1) shapeCasts_S1x256x1_S1x256 (ix2 (0 : Fin 1) c')
      + shapeCast S1x256 (extractStridedSlice S1x256x1 ![0, 0, 30] (k0_pay1 (F := Ideal) x0) slices_S1x256x50_o0_0_30_S1x256x1) shapeCasts_S1x256x1_S1x256 (ix2 (0 : Fin 1) c'))
      + shapeCast S1x256 (extractStridedSlice S1x256x1 ![0, 0, 31] (k0_pay1 (F := Ideal) x0) slices_S1x256x50_o0_0_31_S1x256x1) shapeCasts_S1x256x1_S1x256 (ix2 (0 : Fin 1) c'))
      + shapeCast S1x256 (extractStridedSlice S1x256x1 ![0, 0, 32] (k0_pay1 (F := Ideal) x0) slices_S1x256x50_o0_0_32_S1x256x1) shapeCasts_S1x256x1_S1x256 (ix2 (0 : Fin 1) c'))
      + shapeCast S1x256 (extractStridedSlice S1x256x1 ![0, 0, 46] (k0_pay1 (F := Ideal) x0) slices_S1x256x50_o0_0_46_S1x256x1) shapeCasts_S1x256x1_S1x256 (ix2 (0 : Fin 1) c'))
      + shapeCast S1x256 (extractStridedSlice S1x256x1 ![0, 0, 47] (k0_pay1 (F := Ideal) x0) slices_S1x256x50_o0_0_47_S1x256x1) shapeCasts_S1x256x1_S1x256 (ix2 (0 : Fin 1) c')))
      * Named.named (F := Ideal) Cert.KernelIdeal.κ "inv_384" (φ := .f32) 0x3B2AAAAB#32 = _
    refine (congrArg₂ (· * ·) (congrArg₂ (· + ·) (congrArg₂ (· + ·) (congrArg₂ (· + ·) (congrArg₂ (· + ·) (congrArg₂ (· + ·) (sumLane x0 c' 29 slices_S1x256x50_o0_0_29_S1x256x1 shapeCasts_S1x256x1_S1x256 29 rfl) (sumLane x0 c' 30 slices_S1x256x50_o0_0_30_S1x256x1 shapeCasts_S1x256x1_S1x256 30 rfl)) (sumLane x0 c' 31 slices_S1x256x50_o0_0_31_S1x256x1 shapeCasts_S1x256x1_S1x256 31 rfl)) (sumLane x0 c' 32 slices_S1x256x50_o0_0_32_S1x256x1 shapeCasts_S1x256x1_S1x256 32 rfl)) (sumLane x0 c' 46 slices_S1x256x50_o0_0_46_S1x256x1 shapeCasts_S1x256x1_S1x256 46 rfl)) (sumLane x0 c' 47 slices_S1x256x50_o0_0_47_S1x256x1 shapeCasts_S1x256x1_S1x256 47 rfl)) inv_384).trans (Cert.Spec.poolAvg_8 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max ((maximumf_apply _ _ _).trans (congrArg₂ max ((maximumf_apply _ _ _).trans (congrArg₂ max (maxLane x0 c' 29 slices_S1x256x50_o0_0_29_S1x256x1 shapeCasts_S1x256x1_S1x256 29 rfl) (maxLane x0 c' 30 slices_S1x256x50_o0_0_30_S1x256x1 shapeCasts_S1x256x1_S1x256 30 rfl))) (maxLane x0 c' 31 slices_S1x256x50_o0_0_31_S1x256x1 shapeCasts_S1x256x1_S1x256 31 rfl))) (maxLane x0 c' 32 slices_S1x256x50_o0_0_32_S1x256x1 shapeCasts_S1x256x1_S1x256 32 rfl))) (maxLane x0 c' 46 slices_S1x256x50_o0_0_46_S1x256x1 shapeCasts_S1x256x1_S1x256 46 rfl))) (maxLane x0 c' 47 slices_S1x256x50_o0_0_47_S1x256x1 shapeCasts_S1x256x1_S1x256 47 rfl))).trans (Cert.Spec.poolMax_8 x0 0 c').symm

end Cert.KernelIdeal.KerBody

end
-- ==== Proof.KerBody.Gate9.lean ====
/-
  The gate of body part 9 (joints 37, 38, 39, 40; 4 joints, 256 pooled entries) as the kernel body computes it, read at
  channel `c`, is the specification's gate: the two pooled rows are the sum over the part's joints of the frame sums
  times `1 / 256` and the maximum over them of the frame maxima, in the order the body adds and compares them; the
  two-layer map and the logistic function are the body's, whatever the rows.
-/
import proofs.«140205_j1228360647386_2_alg».proof.Proof.Gen.KernelIdeal.Frame
import proofs.«140205_j1228360647386_2_alg».proof.Proof.Spec
import proofs.«140205_j1228360647386_2_alg».proof.Proof.KerBody.Mlp
import proofs.«140205_j1228360647386_2_alg».proof.Proof.KerBody.PoolFrames
import proofs.«140205_j1228360647386_2_alg».proof.Proof.KerBody.PoolSpec

noncomputable section

namespace Cert.KernelIdeal.KerBody

open Idealize.ShloMosaic Idealize.ShloMosaic.ValueIdx
open Cert.KernelIdeal Cert.KernelIdeal.Gen

/-- The body's gate of part 9 at channel `c` is the specification's. -/
theorem gate_9 (x0 : Vec Ideal S1x256x64x50 .f32) (x1 : Vec Ideal S10x16x256 .f32) (x2 : Vec Ideal S10x16 .f32)
    (x3 : Vec Ideal S10x256x16 .f32) (x4 : Vec Ideal S10x256 .f32) (c : Fin 256) :
    k0_pay112 (F := Ideal) (k0_pay108 (View.ld x3 r0_89)) (k0_pay109 (View.ld x4 r0_90)) (k0_pay110 (k0_pay1 (View.ld x0 r0_0)) (k0_pay104 (k0_pay1 (View.ld x0 r0_0))) (k0_pay105 (k0_pay1 (View.ld x0 r0_0))) (View.ld x1 r0_87) (View.ld x2 r0_88) (View.ld x3 r0_89) (View.ld x4 r0_90)) (k0_pay111 (k0_pay2 (View.ld x0 r0_0)) (View.ld x1 r0_87) (View.ld x2 r0_88)) (ix4 (0 : Fin 1) c (0 : Fin 1) (0 : Fin 1))
      = Cert.Spec.gate (N := 1) x0 x1 x2 x3 x4 9 0 c := by
  -- the load of the whole block reads the block
  have hw : View.ld x0 r0_0 = x0 :=
    View.ld_unit_zero (funext fun a => by match a with | ⟨0, _⟩ => rfl | ⟨1, _⟩ => rfl | ⟨2, _⟩ => rfl | ⟨3, _⟩ => rfl) _ x0
  rw [hw]
  -- the two-layer map and the logistic function, on whatever the two pooled rows are
  refine (kGate_apply x1 x2 x3 x4 9 _ _ _ _ 9 rfl _ _ c).trans ?_
  unfold Cert.Spec.gate
  refine congrArg Ideal.logistic (congrArg₂ (· + ·)
    (congrArg (fun v => Cert.Spec.mlp x1 x2 x3 x4 9 v c) (funext fun c' => ?_))
    (congrArg (fun v => Cert.Spec.mlp x1 x2 x3 x4 9 v c) (funext fun c' => ?_)))
  · -- the mean row: the joints' frame sums added from the left, times the reciprocal of the count
    show ((((shapeCast S1x256 (extractStridedSlice S1x256x1 ![0, 0, 37] (k0_pay1 (F := Ideal) x0) slices_S1x256x50_o0_0_37_S1x256x1) shapeCasts_S1x256x1_S1x256 (ix2 (0 : Fin 1) c')
      + shapeCast S1x256 (extractStridedSlice S1x256x1 ![0, 0, 38] (k0_pay1 (F := Ideal) x0) slices_S1x256x50_o0_0_38_S1x256x1) shapeCasts_S1x256x1_S1x256 (ix2 (0 : Fin 1) c'))
      + shapeCast S1x256 (extractStridedSlice S1x256x1 ![0, 0, 39] (k0_pay1 (F := Ideal) x0) slices_S1x256x50_o0_0_39_S1x256x1) shapeCasts_S1x256x1_S1x256 (ix2 (0 : Fin 1) c'))
      + shapeCast S1x256 (extractStridedSlice S1x256x1 ![0, 0, 40] (k0_pay1 (F := Ideal) x0) slices_S1x256x50_o0_0_40_S1x256x1) shapeCasts_S1x256x1_S1x256 (ix2 (0 : Fin 1) c')))
      * Ideal.ofBits .f32 0x3B800000#32 = _
    refine (congrArg₂ (· * ·) (congrArg₂ (· + ·) (congrArg₂ (· + ·) (congrArg₂ (· + ·) (sumLane x0 c' 37 slices_S1x256x50_o0_0_37_S1x256x1 shapeCasts_S1x256x1_S1x256 37 rfl) (sumLane x0 c' 38 slices_S1x256x50_o0_0_38_S1x256x1 shapeCasts_S1x256x1_S1x256 38 rfl)) (sumLane x0 c' 39 slices_S1x256x50_o0_0_39_S1x256x1 shapeCasts_S1x256x1_S1x256 39 rfl)) (sumLane x0 c' 40 slices_S1x256x50_o0_0_40_S1x256x1 shapeCasts_S1x256x1_S1x256 40 rfl)) ofBits_inv_256).trans (Cert.Spec.poolAvg_9 x0 0 c').symm
  · -- the maximum row: the joints' frame maxima compared from the left, one comparison at a time
    refine ((maximumf_apply _ _ _).trans (congrArg₂ max ((maximumf_apply _ _ _).trans (congrArg₂ max ((maximumf_apply _ _ _).trans (congrArg₂ max (maxLane x0 c' 37 slices_S1x256x50_o0_0_37_S1x256x1 shapeCasts_S1x256x1_S1x256 37 rfl) (maxLane x0 c' 38 slices_S1x256x50_o0_0_38_S1x256x1 shapeCasts_S1x256x1_S1x256 38 rfl))) (maxLane x0 c' 39 slices_S1x256x50_o0_0_39_S1x256x1 shapeCasts_S1x256x1_S1x256 39 rfl))) (maxLane x0 c' 40 slices_S1x256x50_o0_0_40_S1x256x1 shapeCasts_S1x256x1_S1x256 40 rfl))).trans (Cert.Spec.poolMax_9 x0 0 c').symm

end Cert.KernelIdeal.KerBody

end
-- ==== Proof.KerBody.lean ====
/-
  What one grid point of the idealized kernel stores, as one array over its block: the specification
  function `Cert.Spec.G` of the blocks it loaded (one sample, `N = 1`). Each of the fifty stored columns is a
  column of the input block times its body part's gate; the ten gates are the specification's, and the stored
  columns cover the block.
-/
import proofs.«140205_j1228360647386_2_alg».proof.Proof.Gen.KernelIdeal.Frame
import proofs.«140205_j1228360647386_2_alg».proof.Proof.Spec
import proofs.«140205_j1228360647386_2_alg».proof.Proof.KerBody.Assemble
import proofs.«140205_j1228360647386_2_alg».proof.Proof.KerBody.Gate0
import proofs.«140205_j1228360647386_2_alg».proof.Proof.KerBody.Gate1
import proofs.«140205_j1228360647386_2_alg».proof.Proof.KerBody.Gate2
import proofs.«140205_j1228360647386_2_alg».proof.Proof.KerBody.Gate3
import proofs.«140205_j1228360647386_2_alg».proof.Proof.KerBody.Gate4
import proofs.«140205_j1228360647386_2_alg».proof.Proof.KerBody.Gate5
import proofs.«140205_j1228360647386_2_alg».proof.Proof.KerBody.Gate6
import proofs.«140205_j1228360647386_2_alg».proof.Proof.KerBody.Gate7
import proofs.«140205_j1228360647386_2_alg».proof.Proof.KerBody.Gate8
import proofs.«140205_j1228360647386_2_alg».proof.Proof.KerBody.Gate9

noncomputable section

namespace Cert.KernelIdeal.KerBody

open Idealize.ShloMosaic Idealize.ShloMosaic.ValueIdx
open Cert.KernelIdeal Cert.KernelIdeal.Gen

/-- The output staging buffer after the body is the specification function of the loaded blocks. -/
theorem out0_5_eq (x0 : Vec Ideal S1x256x64x50 .f32) (x1 : Vec Ideal S10x16x256 .f32) (x2 : Vec Ideal S10x16 .f32)
    (x3 : Vec Ideal S10x256x16 .f32) (x4 : Vec Ideal S10x256 .f32) :
    Gen.out0_5 (F := Ideal) x0 x1 x2 x3 x4 = Cert.Spec.G (N := 1) x0 x1 x2 x3 x4 :=
  out0_5_of_gates x0 x1 x2 x3 x4 (gate_0 x0 x1 x2 x3 x4) (gate_1 x0 x1 x2 x3 x4) (gate_2 x0 x1 x2 x3 x4)
    (gate_3 x0 x1 x2 x3 x4) (gate_4 x0 x1 x2 x3 x4) (gate_5 x0 x1 x2 x3 x4) (gate_6 x0 x1 x2 x3 x4)
    (gate_7 x0 x1 x2 x3 x4) (gate_8 x0 x1 x2 x3 x4) (gate_9 x0 x1 x2 x3 x4)

end Cert.KernelIdeal.KerBody

end
-- ==== Proof.KerArray.lean ====
/-
  The kernel's result array, whole.

  At grid point `t` the body stores, over the output block, the specification function of the blocks it loaded
  (one sample of `x`, the whole weight arrays). The specification treats samples independently, so that block is
  block `t` of the specification function of the whole arrays; the 64 blocks cover the output array; hence after
  the run the output array is the specification function of the five argument arrays, and the arguments are as
  launched.
-/
import proofs.«140205_j1228360647386_2_alg».proof.Proof.Gen.KernelIdeal.Value
import proofs.«140205_j1228360647386_2_alg».proof.Proof.Spec
import proofs.«140205_j1228360647386_2_alg».proof.Proof.KerBlocks
import proofs.«140205_j1228360647386_2_alg».proof.Proof.KerBody
import Idealize.ShloMosaic.Lib.Pipeline.Value
import Idealize.ShloMosaic.Lib.ValueIdx

set_option maxRecDepth 16384

noncomputable section

namespace Cert.KernelIdeal.KerArray

open Cert.KernelIdeal Cert.KernelIdeal.Gen Cert.KernelIdeal.KerBlocks Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- The specification function of the five argument arrays as launched on core `c`. -/
def result (c : Dev nD) : S64x256x64x50.Idx → Elt Ideal .f32 :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the specification function of the whole arrays. -/
theorem flushed_eq (c : Dev nD) (t : Fin cfg0.N) :
    (dats m 0 c).flushed 5 t = ((cfg0.win 5).blk t).view.read (Elt Ideal) (result m c) := by
  have hbody := KerBody.out0_5_eq (iblk m c 0 t) (iblk m c 1 t) (iblk m c 2 t) (iblk m c 3 t) (iblk m c 4 t)
  have hx : (iblk m c 0 t : Vec Ideal S1x256x64x50 .f32)
      = fun y => (m ((c : Thread nD τ).loc main_arg0) : S64x256x64x50.Idx → Elt Ideal .f32) (ix4 (⟨t.val, pt_lt t⟩ : Fin 64) (y 1) (y 2) (y 3)) :=
    funext fun y => iblk0_apply m c t y _ rfl rfl rfl rfl
  rw [Value.flushed5, hbody, hx, iblk1_eq m c t, iblk2_eq m c t, iblk3_eq m c t, iblk4_eq m c t]
  funext j
  show Cert.Spec.G (N := 1) _ _ _ _ _ j = result m c (((cfg0.win 5).blk t).view.emb j)
  rw [emb5 t j]
  rfl

/-- After the run the output array is the specification function of the argument arrays. -/
theorem final (c : Dev nD) : (dats m 0 c).arrAt 5 cfg0.N = result m c :=
  (dats m 0 c).arrAt_eq_of_cover 5 (result m c) (fun t _ => flushed_eq m c t) cover5

/-- Every weakly fair execution of the idealized kernel terminates with its result array at the specification
    function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KerArray

end
-- ==== Proof.RefRun.Ops0.lean ====
/- Window 0 of the reference's @main (statements 1 … 60 of 652), as the list of its 62 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order. -/
abbrev ops_part0 : List (HloOp τ sig (Elt F)) :=
  [ nullary main_c (fun i => lit0 (S5.rowMajor i)),
    nullary main_c_0 (constantI S5 1 0#1),
    nullary main_c_1 (fun i => lit1 (S6.rowMajor i)),
    nullary main_c_2 (constantI S6 1 0#1),
    nullary main_c_3 (fun i => lit2 (S4.rowMajor i)),
    nullary main_c_4 (constantI S4 1 0#1),
    nullary main_c_5 (fun i => lit3 (S6.rowMajor i)),
    nullary main_c_6 (constantI S6 1 0#1),
    nullary main_c_7 (fun i => lit4 (S4.rowMajor i)),
    nullary main_c_8 (constantI S4 1 0#1),
    nullary main_c_9 (fun i => lit5 (S5.rowMajor i)),
    nullary main_c_10 (constantI S5 1 0#1),
    nullary main_c_11 (fun i => lit6 (S6.rowMajor i)),
    nullary main_c_12 (constantI S6 1 0#1),
    nullary main_c_13 (fun i => lit7 (S4.rowMajor i)),
    nullary main_c_14 (constantI S4 1 0#1),
    nullary main_c_15 (fun i => lit8 (S6.rowMajor i)),
    nullary main_c_16 (constantI S6 1 0#1),
    nullary main_c_17 (fun i => lit9 (S4.rowMajor i)),
    nullary main_c_18 (constantI S4 1 0#1),
    nullary main_c_19 (constantI S_ 32 50#32),
    unary main_c_19 main_v0 (broadcastInDim S5 ![] bcast_S_S5 : (⟨S_, .i32⟩ : BufTy).Contents (Elt F) → (⟨S5, .i32⟩ : BufTy).Contents (Elt F)),
    binary main_c main_v0 main_v1 (addi : (⟨S5, .i32⟩ : BufTy).Contents (Elt F) → (⟨S5, .i32⟩ : BufTy).Contents (Elt F) → (⟨S5, .i32⟩ : BufTy).Contents (Elt F)),
    ternary main_c_0 main_v1 main_c main_v2 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v2 main_v3 (broadcastInDim S5x1 ![0] bcast_S5_S5x1_0 : (⟨S5, .i32⟩ : BufTy).Contents (Elt F) → (⟨S5x1, .i32⟩ : BufTy).Contents (Elt F)),
    binary main_arg0 main_v3 main_v4 ((fun x i => Host.gather gather_S64x256x64x50_S5x1_S64x256x64x5_012_3_n_n_3_1_64256641 x i) : (⟨S64x256x64x50, .f32⟩ : BufTy).Contents (Elt F) → (⟨S5x1, .i32⟩ : BufTy).Contents (Elt F) → (⟨S64x256x64x5, .f32⟩ : BufTy).Contents (Elt F)),
    nullary main_cst (constant S_ .f32 0x00000000#32),
    binary main_v4 main_cst main_v5 ((fun x v => Host.reduceAdd x v reducesTo_S64x256x64x5_S64x256_d2_3 h_S_) : (⟨S64x256x64x5, .f32⟩ : BufTy).Contents (Elt F) → (⟨S_, .f32⟩ : BufTy).Contents (Elt F) → (⟨S64x256, .f32⟩ : BufTy).Contents (Elt F)),
    nullary main_cst_20 (constant S_ .f32 0x43A00000#32),
    unary main_cst_20 main_v6 (broadcastInDim S64x256 ![] bcast_S_S64x256 : (⟨S_, .f32⟩ : BufTy).Contents (Elt F) → (⟨S64x256, .f32⟩ : BufTy).Contents (Elt F)),
    binary main_v5 main_v6 main_v7 (Host.divf : (⟨S64x256, .f32⟩ : BufTy).Contents (Elt F) → (⟨S64x256, .f32⟩ : BufTy).Contents (Elt F) → (⟨S64x256, .f32⟩ : BufTy).Contents (Elt F)),
    nullary main_cst_21 (constant S_ .f32 0xFF800000#32),
    binary main_v4 main_cst_21 main_v8 ((fun x v => Host.reduce FloatOps.maximumf x v reducesTo_S64x256x64x5_S64x256_d2_3 h_S_) : (⟨S64x256x64x5, .f32⟩ : BufTy).Contents (Elt F) → (⟨S_, .f32⟩ : BufTy).Contents (Elt F) → (⟨S64x256, .f32⟩ : BufTy).Contents (Elt F)),
    unary main_arg1 main_v9 ((extractStridedSlice S1x16x256 ![0, 0, 0] · slices_S10x16x256_S1x16x256_0_0_0) : (⟨S10x16x256, .f32⟩ : BufTy).Contents (Elt F) → (⟨S1x16x256, .f32⟩ : BufTy).Contents (Elt F)),
    reshape main_v9 main_v10 rfl shapeCasts_S1x16x256_S16x256,
    unary main_v10 main_v11 ((transpose S256x16 [1, 0] · transposes_S16x256_S256x16_1_0) : (⟨S16x256, .f32⟩ : BufTy).Contents (Elt F) → (⟨S256x16, .f32⟩ : BufTy).Contents (Elt F)),
    binary main_v7 main_v11 main_v12 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v13 ((extractStridedSlice S1x16 ![0, 0] · slices_S10x16_S1x16_0_0) : (⟨S10x16, .f32⟩ : BufTy).Contents (Elt F) → (⟨S1x16, .f32⟩ : BufTy).Contents (Elt F)),
    reshape main_v13 main_v14 rfl shapeCasts_S1x16_S16,
    unary main_v14 main_v15 (broadcastInDim S1x16 ![1] bcast_S16_S1x16_1 : (⟨S16, .f32⟩ : BufTy).Contents (Elt F) → (⟨S1x16, .f32⟩ : BufTy).Contents (Elt F)),
    unary main_v15 main_v16 (broadcastInDim S64x16 ![0, 1] bcast_S1x16_S64x16_0_1 : (⟨S1x16, .f32⟩ : BufTy).Contents (Elt F) → (⟨S64x16, .f32⟩ : BufTy).Contents (Elt F)),
    binary main_v12 main_v16 main_v17 (addf : (⟨S64x16, .f32⟩ : BufTy).Contents (Elt F) → (⟨S64x16, .f32⟩ : BufTy).Contents (Elt F) → (⟨S64x16, .f32⟩ : BufTy).Contents (Elt F)),
    TRef.nullary main_call0.cst (constant S_ .f32 0x00000000#32),
    TRef.unary main_call0.cst main_call0.v0 (broadcastInDim S64x16 ![] bcast_S_S64x16),
    TRef.binary (.of main_v17) main_call0.v0 main_call0.v1 maximumf,
    unary main_arg3 main_v19 ((extractStridedSlice S1x256x16 ![0, 0, 0] · slices_S10x256x16_S1x256x16_0_0_0) : (⟨S10x256x16, .f32⟩ : BufTy).Contents (Elt F) → (⟨S1x256x16, .f32⟩ : BufTy).Contents (Elt F)),
    reshape main_v19 main_v20 rfl shapeCasts_S1x256x16_S256x16,
    unary main_v20 main_v21 ((transpose S16x256 [1, 0] · transposes_S256x16_S16x256_1_0) : (⟨S256x16, .f32⟩ : BufTy).Contents (Elt F) → (⟨S16x256, .f32⟩ : BufTy).Contents (Elt F)),
    binary main_v18 main_v21 main_v22 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v23 ((extractStridedSlice S1x256 ![0, 0] · slices_S10x256_S1x256_0_0) : (⟨S10x256, .f32⟩ : BufTy).Contents (Elt F) → (⟨S1x256, .f32⟩ : BufTy).Contents (Elt F)),
    reshape main_v23 main_v24 rfl shapeCasts_S1x256_S256,
    unary main_v24 main_v25 (broadcastInDim S1x256 ![1] bcast_S256_S1x256_1 : (⟨S256, .f32⟩ : BufTy).Contents (Elt F) → (⟨S1x256, .f32⟩ : BufTy).Contents (Elt F)),
    unary main_v25 main_v26 (broadcastInDim S64x256 ![0, 1] bcast_S1x256_S64x256_0_1 : (⟨S1x256, .f32⟩ : BufTy).Contents (Elt F) → (⟨S64x256, .f32⟩ : BufTy).Contents (Elt F)),
    binary main_v22 main_v26 main_v27 (addf : (⟨S64x256, .f32⟩ : BufTy).Contents (Elt F) → (⟨S64x256, .f32⟩ : BufTy).Contents (Elt F) → (⟨S64x256, .f32⟩ : BufTy).Contents (Elt F)),
    unary main_arg1 main_v28 ((extractStridedSlice S1x16x256 ![0, 0, 0] · slices_S10x16x256_S1x16x256_0_0_0) : (⟨S10x16x256, .f32⟩ : BufTy).Contents (Elt F) → (⟨S1x16x256, .f32⟩ : BufTy).Contents (Elt F)),
    reshape main_v28 main_v29 rfl shapeCasts_S1x16x256_S16x256,
    unary main_v29 main_v30 ((transpose S256x16 [1, 0] · transposes_S16x256_S256x16_1_0) : (⟨S16x256, .f32⟩ : BufTy).Contents (Elt F) → (⟨S256x16, .f32⟩ : BufTy).Contents (Elt F)),
    binary main_v8 main_v30 main_v31 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v32 ((extractStridedSlice S1x16 ![0, 0] · slices_S10x16_S1x16_0_0) : (⟨S10x16, .f32⟩ : BufTy).Contents (Elt F) → (⟨S1x16, .f32⟩ : BufTy).Contents (Elt F)),
    reshape main_v32 main_v33 rfl shapeCasts_S1x16_S16,
    unary main_v33 main_v34 (broadcastInDim S1x16 ![1] bcast_S16_S1x16_1 : (⟨S16, .f32⟩ : BufTy).Contents (Elt F) → (⟨S1x16, .f32⟩ : BufTy).Contents (Elt F)),
    unary main_v34 main_v35 (broadcastInDim S64x16 ![0, 1] bcast_S1x16_S64x16_0_1 : (⟨S1x16, .f32⟩ : BufTy).Contents (Elt F) → (⟨S64x16, .f32⟩ : BufTy).Contents (Elt F)) ]

/-- The buffers window 0 writes, in order. -/
abbrev ops_part0_W : List (Ref sig .tc) :=
  [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_v0, main_v1, main_v2, main_v3, main_v4, main_cst, main_v5, main_cst_20, main_v6, main_v7, main_cst_21, main_v8, main_v9, main_v10, main_v11, main_v12, main_v13, main_v14, main_v15, main_v16, main_v17, main_call0_cst, main_call0_v0, main_v18, main_v19, main_v20, main_v21, main_v22, main_v23, main_v24, main_v25, main_v26, main_v27, main_v28, main_v29, main_v30, main_v31, main_v32, main_v33, main_v34, main_v35]

end Cert.ReferenceIdeal.RefRun

end
-- ==== Proof.RefTerm.lean ====
/- The value the reference computes, named piece by piece: for each of the ten body parts the joints are gathered,
   pooled over time and joints by mean and by maximum, each pooled vector goes through the part's two-layer MLP, the
   sigmoid of the two outputs' sum gates the gathered channels, and the ten gated parts are concatenated along the
   joint axis. Every definition is a few operations of the reference over the previous ones. -/
import proofs.«140205_j1228360647386_2_alg».proof.ReferenceIdeal

noncomputable section

namespace Cert.ReferenceIdeal.RefTerm

open Cert.ReferenceIdeal Idealize.ShloMosaic
open Cert.ReferenceIdeal.Facts₀ Cert.ReferenceIdeal.Facts

variable {F : FTy → Type} [FloatOps F] [Cert.ReferenceIdeal.Facts]

/-! ## The squeeze-excite MLP, shared by the ten parts and by the mean and the maximum paths -/

/-- The first layer's weight slice [1, 16, 256] as the [256, 16] matrix the product takes: `W1[p].T`. -/
def w1T (w1 : FVec F S1x16x256 .f32) : FVec F S256x16 .f32 :=
  transpose S256x16 [1, 0] (shapeCast S16x256 w1 shapeCasts_S1x16x256_S16x256) transposes_S16x256_S256x16_1_0

/-- The first layer's bias slice [1, 16] laid over the 64 rows. -/
def b1B (b1 : FVec F S1x16 .f32) : FVec F S64x16 .f32 :=
  broadcastInDim S64x16 ![0, 1] bcast_S1x16_S64x16_0_1
    (broadcastInDim S1x16 ![1] bcast_S16_S1x16_1 (shapeCast S16 b1 shapeCasts_S1x16_S16))

/-- `v @ W1[p].T`: the product contracting the 256 channels. -/
def lin1 (w1t : FVec F S256x16 .f32) (v : FVec F S64x256 .f32) : FVec F S64x16 .f32 :=
  Host.dotGeneral dot_S64x256_S256x16_S64x16_1_0_0_1_n_n none v w1t

/-- `relu h = max h 0`. -/
def relu (h : FVec F S64x16 .f32) : FVec F S64x16 .f32 :=
  maximumf h (broadcastInDim S64x16 ![] bcast_S_S64x16 (constant S_ .f32 0x00000000#32))

/-- The second layer's weight slice [1, 256, 16] as the [16, 256] matrix the product takes: `W2[p].T`. -/
def w2T (w2 : FVec F S1x256x16 .f32) : FVec F S16x256 .f32 :=
  transpose S16x256 [1, 0] (shapeCast S256x16 w2 shapeCasts_S1x256x16_S256x16) transposes_S256x16_S16x256_1_0

/-- The second layer's bias slice [1, 256] laid over the 64 rows. -/
def b2B (b2 : FVec F S1x256 .f32) : FVec F S64x256 .f32 :=
  broadcastInDim S64x256 ![0, 1] bcast_S1x256_S64x256_0_1
    (broadcastInDim S1x256 ![1] bcast_S256_S1x256_1 (shapeCast S256 b2 shapeCasts_S1x256_S256))

/-- `h @ W2[p].T`: the product contracting the 16 hidden units. -/
def lin2 (w2t : FVec F S16x256 .f32) (r : FVec F S64x16 .f32) : FVec F S64x256 .f32 :=
  Host.dotGeneral dot_S64x16_S16x256_S64x256_1_0_0_1_n_n none r w2t

/-- The hidden layer before the relu: `v @ W1[p].T + b1[p]`. -/
def hid (w1 : FVec F S1x16x256 .f32) (b1 : FVec F S1x16 .f32) (v : FVec F S64x256 .f32) : FVec F S64x16 .f32 :=
  addf (lin1 (w1T w1) v) (b1B b1)

/-- `mlp v = relu (v @ W1[p].T + b1[p]) @ W2[p].T + b2[p]`. -/
def mlp (w1 : FVec F S1x16x256 .f32) (b1 : FVec F S1x16 .f32) (w2 : FVec F S1x256x16 .f32) (b2 : FVec F S1x256 .f32)
    (v : FVec F S64x256 .f32) : FVec F S64x256 .f32 :=
  addf (lin2 (w2T w2) (relu (hid w1 b1 v))) (b2B b2)

/-- `sigmoid (a + b) = 1 / (1 + exp (-(a + b)))`, each 1 the constant laid over [64, 256]. -/
def gateOf (a b : FVec F S64x256 .f32) : FVec F S64x256 .f32 :=
  Host.divf (broadcastInDim S64x256 ![] bcast_S_S64x256 (constant S_ .f32 0x3F800000#32))
    (addf (broadcastInDim S64x256 ![] bcast_S_S64x256 (constant S_ .f32 0x3F800000#32)) (Host.exp (Host.negf (addf a b))))

/-! ### Parts with 5 joints -/

/-- The index column of a 5-joint table: an entry the mask marks is moved up by the joint count 50 (the wrap of a
    negative index), the others stay; the row is then laid out as a [5, 1] column of start indices. -/
def idxColM5 (mask : IVec S5 1) (lit : IVec S5 32) : IVec S5x1 32 :=
  broadcastInDim S5x1 ![0] bcast_S5_S5x1_0
    (select mask (addi lit (broadcastInDim S5 ![] bcast_S_S5 (constantI S_ 32 50#32))) lit)

/-- The same with the mask the reference uses: all false, no entry is negative. -/
def idxCol5 (lit : IVec S5 32) : IVec S5x1 32 := idxColM5 (constantI S5 1 0#1) lit

/-- The joints of a part gathered along the last axis: `x[:, :, :, idx]`. -/
def gath5 (x : FVec F S64x256x64x50 .f32) (ix : IVec S5x1 32) : FVec F S64x256x64x5 .f32 :=
  Host.gather gather_S64x256x64x50_S5x1_S64x256x64x5_012_3_n_n_3_1_64256641 x ix

/-- The mean over time and joints: the sum over axes 2 and 3 from 0, divided by 64 · 5 = 320. -/
def avg5 (g : FVec F S64x256x64x5 .f32) : FVec F S64x256 .f32 :=
  Host.divf (Host.reduceAdd g (constant S_ .f32 0x00000000#32) reducesTo_S64x256x64x5_S64x256_d2_3 h_S_)
    (broadcastInDim S64x256 ![] bcast_S_S64x256 (constant S_ .f32 0x43A00000#32))

/-- The maximum over time and joints: the fold of max over axes 2 and 3 from -∞. -/
def max5 (g : FVec F S64x256x64x5 .f32) : FVec F S64x256 .f32 :=
  Host.reduce FloatOps.maximumf g (constant S_ .f32 0xFF800000#32) reducesTo_S64x256x64x5_S64x256_d2_3 h_S_

/-- A channel gate laid over time and joints: [64, 256] → [64, 256, 1, 1] → [64, 256, 64, 5]. -/
def gateBB5 (s : FVec F S64x256 .f32) : FVec F S64x256x64x5 .f32 :=
  broadcastInDim S64x256x64x5 ![0, 1, 2, 3] bcast_S64x256x1x1_S64x256x64x5_0_1_2_3
    (broadcastInDim S64x256x1x1 ![0, 1] bcast_S64x256_S64x256x1x1_0_1 s)

/-- A gathered part re-weighted by its channel gate: `xs * gate[:, :, None, None]` with
    `gate = sigmoid (mlp avg + mlp max)`. -/
def partOf5 (g : FVec F S64x256x64x5 .f32) (w1 : FVec F S1x16x256 .f32) (b1 : FVec F S1x16 .f32)
    (w2 : FVec F S1x256x16 .f32) (b2 : FVec F S1x256 .f32) : FVec F S64x256x64x5 .f32 :=
  mulf g (gateBB5 (gateOf (mlp w1 b1 w2 b2 (avg5 g)) (mlp w1 b1 w2 b2 (max5 g))))

/-- One 5-joint part of the output from the input array, the part's joint table and its slices of the weights. -/
def part5 (x : FVec F S64x256x64x50 .f32) (lit : IVec S5 32) (w1 : FVec F S1x16x256 .f32) (b1 : FVec F S1x16 .f32)
    (w2 : FVec F S1x256x16 .f32) (b2 : FVec F S1x256 .f32) : FVec F S64x256x64x5 .f32 :=
  partOf5 (gath5 x (idxCol5 lit)) w1 b1 w2 b2

/-! ### Parts with 6 joints -/

/-- The index column of a 6-joint table: an entry the mask marks is moved up by the joint count 50 (the wrap of a
    negative index), the others stay; the row is then laid out as a [6, 1] column of start indices. -/
def idxColM6 (mask : IVec S6 1) (lit : IVec S6 32) : IVec S6x1 32 :=
  broadcastInDim S6x1 ![0] bcast_S6_S6x1_0
    (select mask (addi lit (broadcastInDim S6 ![] bcast_S_S6 (constantI S_ 32 50#32))) lit)

/-- The same with the mask the reference uses: all false, no entry is negative. -/
def idxCol6 (lit : IVec S6 32) : IVec S6x1 32 := idxColM6 (constantI S6 1 0#1) lit

/-- The joints of a part gathered along the last axis: `x[:, :, :, idx]`. -/
def gath6 (x : FVec F S64x256x64x50 .f32) (ix : IVec S6x1 32) : FVec F S64x256x64x6 .f32 :=
  Host.gather gather_S64x256x64x50_S6x1_S64x256x64x6_012_3_n_n_3_1_64256641 x ix

/-- The mean over time and joints: the sum over axes 2 and 3 from 0, divided by 64 · 6 = 384. -/
def avg6 (g : FVec F S64x256x64x6 .f32) : FVec F S64x256 .f32 :=
  Host.divf (Host.reduceAdd g (constant S_ .f32 0x00000000#32) reducesTo_S64x256x64x6_S64x256_d2_3 h_S_)
    (broadcastInDim S64x256 ![] bcast_S_S64x256 (constant S_ .f32 0x43C00000#32))

/-- The maximum over time and joints: the fold of max over axes 2 and 3 from -∞. -/
def max6 (g : FVec F S64x256x64x6 .f32) : FVec F S64x256 .f32 :=
  Host.reduce FloatOps.maximumf g (constant S_ .f32 0xFF800000#32) reducesTo_S64x256x64x6_S64x256_d2_3 h_S_

/-- A channel gate laid over time and joints: [64, 256] → [64, 256, 1, 1] → [64, 256, 64, 6]. -/
def gateBB6 (s : FVec F S64x256 .f32) : FVec F S64x256x64x6 .f32 :=
  broadcastInDim S64x256x64x6 ![0, 1, 2, 3] bcast_S64x256x1x1_S64x256x64x6_0_1_2_3
    (broadcastInDim S64x256x1x1 ![0, 1] bcast_S64x256_S64x256x1x1_0_1 s)

/-- A gathered part re-weighted by its channel gate: `xs * gate[:, :, None, None]` with
    `gate = sigmoid (mlp avg + mlp max)`. -/
def partOf6 (g : FVec F S64x256x64x6 .f32) (w1 : FVec F S1x16x256 .f32) (b1 : FVec F S1x16 .f32)
    (w2 : FVec F S1x256x16 .f32) (b2 : FVec F S1x256 .f32) : FVec F S64x256x64x6 .f32 :=
  mulf g (gateBB6 (gateOf (mlp w1 b1 w2 b2 (avg6 g)) (mlp w1 b1 w2 b2 (max6 g))))

/-- One 6-joint part of the output from the input array, the part's joint table and its slices of the weights. -/
def part6 (x : FVec F S64x256x64x50 .f32) (lit : IVec S6 32) (w1 : FVec F S1x16x256 .f32) (b1 : FVec F S1x16 .f32)
    (w2 : FVec F S1x256x16 .f32) (b2 : FVec F S1x256 .f32) : FVec F S64x256x64x6 .f32 :=
  partOf6 (gath6 x (idxCol6 lit)) w1 b1 w2 b2

/-! ### Parts with 4 joints -/

/-- The index column of a 4-joint table: an entry the mask marks is moved up by the joint count 50 (the wrap of a
    negative index), the others stay; the row is then laid out as a [4, 1] column of start indices. -/
def idxColM4 (mask : IVec S4 1) (lit : IVec S4 32) : IVec S4x1 32 :=
  broadcastInDim S4x1 ![0] bcast_S4_S4x1_0
    (select mask (addi lit (broadcastInDim S4 ![] bcast_S_S4 (constantI S_ 32 50#32))) lit)

/-- The same with the mask the reference uses: all false, no entry is negative. -/
def idxCol4 (lit : IVec S4 32) : IVec S4x1 32 := idxColM4 (constantI S4 1 0#1) lit

/-- The joints of a part gathered along the last axis: `x[:, :, :, idx]`. -/
def gath4 (x : FVec F S64x256x64x50 .f32) (ix : IVec S4x1 32) : FVec F S64x256x64x4 .f32 :=
  Host.gather gather_S64x256x64x50_S4x1_S64x256x64x4_012_3_n_n_3_1_64256641 x ix

/-- The mean over time and joints: the sum over axes 2 and 3 from 0, divided by 64 · 4 = 256. -/
def avg4 (g : FVec F S64x256x64x4 .f32) : FVec F S64x256 .f32 :=
  Host.divf (Host.reduceAdd g (constant S_ .f32 0x00000000#32) reducesTo_S64x256x64x4_S64x256_d2_3 h_S_)
    (broadcastInDim S64x256 ![] bcast_S_S64x256 (constant S_ .f32 0x43800000#32))

/-- The maximum over time and joints: the fold of max over axes 2 and 3 from -∞. -/
def max4 (g : FVec F S64x256x64x4 .f32) : FVec F S64x256 .f32 :=
  Host.reduce FloatOps.maximumf g (constant S_ .f32 0xFF800000#32) reducesTo_S64x256x64x4_S64x256_d2_3 h_S_

/-- A channel gate laid over time and joints: [64, 256] → [64, 256, 1, 1] → [64, 256, 64, 4]. -/
def gateBB4 (s : FVec F S64x256 .f32) : FVec F S64x256x64x4 .f32 :=
  broadcastInDim S64x256x64x4 ![0, 1, 2, 3] bcast_S64x256x1x1_S64x256x64x4_0_1_2_3
    (broadcastInDim S64x256x1x1 ![0, 1] bcast_S64x256_S64x256x1x1_0_1 s)

/-- A gathered part re-weighted by its channel gate: `xs * gate[:, :, None, None]` with
    `gate = sigmoid (mlp avg + mlp max)`. -/
def partOf4 (g : FVec F S64x256x64x4 .f32) (w1 : FVec F S1x16x256 .f32) (b1 : FVec F S1x16 .f32)
    (w2 : FVec F S1x256x16 .f32) (b2 : FVec F S1x256 .f32) : FVec F S64x256x64x4 .f32 :=
  mulf g (gateBB4 (gateOf (mlp w1 b1 w2 b2 (avg4 g)) (mlp w1 b1 w2 b2 (max4 g))))

/-- One 4-joint part of the output from the input array, the part's joint table and its slices of the weights. -/
def part4 (x : FVec F S64x256x64x50 .f32) (lit : IVec S4 32) (w1 : FVec F S1x16x256 .f32) (b1 : FVec F S1x16 .f32)
    (w2 : FVec F S1x256x16 .f32) (b2 : FVec F S1x256 .f32) : FVec F S64x256x64x4 .f32 :=
  partOf4 (gath4 x (idxCol4 lit)) w1 b1 w2 b2

/-! ## The joint tables and the weights' slices, part by part

`w1sP W1 = W1[P:P+1]` of shape [1, 16, 256], `b1sP b1 = b1[P:P+1]` of shape [1, 16], `w2sP W2 = W2[P:P+1]` of shape
[1, 256, 16], `b2sP b2 = b2[P:P+1]` of shape [1, 256]: the slices the reference takes for part `P`. -/

/-- The joint table of part 0, as the reference's constant holds it (row-major). -/
def tab0 : IVec S5 32 := fun i => lit0 (S5.rowMajor i)
/-- The joint table of part 1, as the reference's constant holds it (row-major). -/
def tab1 : IVec S6 32 := fun i => lit1 (S6.rowMajor i)
/-- The joint table of part 2, as the reference's constant holds it (row-major). -/
def tab2 : IVec S4 32 := fun i => lit2 (S4.rowMajor i)
/-- The joint table of part 3, as the reference's constant holds it (row-major). -/
def tab3 : IVec S6 32 := fun i => lit3 (S6.rowMajor i)
/-- The joint table of part 4, as the reference's constant holds it (row-major). -/
def tab4 : IVec S4 32 := fun i => lit4 (S4.rowMajor i)
/-- The joint table of part 5, as the reference's constant holds it (row-major). -/
def tab5 : IVec S5 32 := fun i => lit5 (S5.rowMajor i)
/-- The joint table of part 6, as the reference's constant holds it (row-major). -/
def tab6 : IVec S6 32 := fun i => lit6 (S6.rowMajor i)
/-- The joint table of part 7, as the reference's constant holds it (row-major). -/
def tab7 : IVec S4 32 := fun i => lit7 (S4.rowMajor i)
/-- The joint table of part 8, as the reference's constant holds it (row-major). -/
def tab8 : IVec S6 32 := fun i => lit8 (S6.rowMajor i)
/-- The joint table of part 9, as the reference's constant holds it (row-major). -/
def tab9 : IVec S4 32 := fun i => lit9 (S4.rowMajor i)

def w1s0 (W1 : FVec F S10x16x256 .f32) : FVec F S1x16x256 .f32 := extractStridedSlice S1x16x256 ![0, 0, 0] W1 slices_S10x16x256_S1x16x256_0_0_0
def b1s0 (b1 : FVec F S10x16 .f32) : FVec F S1x16 .f32 := extractStridedSlice S1x16 ![0, 0] b1 slices_S10x16_S1x16_0_0
def w2s0 (W2 : FVec F S10x256x16 .f32) : FVec F S1x256x16 .f32 := extractStridedSlice S1x256x16 ![0, 0, 0] W2 slices_S10x256x16_S1x256x16_0_0_0
def b2s0 (b2 : FVec F S10x256 .f32) : FVec F S1x256 .f32 := extractStridedSlice S1x256 ![0, 0] b2 slices_S10x256_S1x256_0_0
def w1s1 (W1 : FVec F S10x16x256 .f32) : FVec F S1x16x256 .f32 := extractStridedSlice S1x16x256 ![1, 0, 0] W1 slices_S10x16x256_S1x16x256_1_0_0
def b1s1 (b1 : FVec F S10x16 .f32) : FVec F S1x16 .f32 := extractStridedSlice S1x16 ![1, 0] b1 slices_S10x16_S1x16_1_0
def w2s1 (W2 : FVec F S10x256x16 .f32) : FVec F S1x256x16 .f32 := extractStridedSlice S1x256x16 ![1, 0, 0] W2 slices_S10x256x16_S1x256x16_1_0_0
def b2s1 (b2 : FVec F S10x256 .f32) : FVec F S1x256 .f32 := extractStridedSlice S1x256 ![1, 0] b2 slices_S10x256_S1x256_1_0
def w1s2 (W1 : FVec F S10x16x256 .f32) : FVec F S1x16x256 .f32 := extractStridedSlice S1x16x256 ![2, 0, 0] W1 slices_S10x16x256_S1x16x256_2_0_0
def b1s2 (b1 : FVec F S10x16 .f32) : FVec F S1x16 .f32 := extractStridedSlice S1x16 ![2, 0] b1 slices_S10x16_S1x16_2_0
def w2s2 (W2 : FVec F S10x256x16 .f32) : FVec F S1x256x16 .f32 := extractStridedSlice S1x256x16 ![2, 0, 0] W2 slices_S10x256x16_S1x256x16_2_0_0
def b2s2 (b2 : FVec F S10x256 .f32) : FVec F S1x256 .f32 := extractStridedSlice S1x256 ![2, 0] b2 slices_S10x256_S1x256_2_0
def w1s3 (W1 : FVec F S10x16x256 .f32) : FVec F S1x16x256 .f32 := extractStridedSlice S1x16x256 ![3, 0, 0] W1 slices_S10x16x256_S1x16x256_3_0_0
def b1s3 (b1 : FVec F S10x16 .f32) : FVec F S1x16 .f32 := extractStridedSlice S1x16 ![3, 0] b1 slices_S10x16_S1x16_3_0
def w2s3 (W2 : FVec F S10x256x16 .f32) : FVec F S1x256x16 .f32 := extractStridedSlice S1x256x16 ![3, 0, 0] W2 slices_S10x256x16_S1x256x16_3_0_0
def b2s3 (b2 : FVec F S10x256 .f32) : FVec F S1x256 .f32 := extractStridedSlice S1x256 ![3, 0] b2 slices_S10x256_S1x256_3_0
def w1s4 (W1 : FVec F S10x16x256 .f32) : FVec F S1x16x256 .f32 := extractStridedSlice S1x16x256 ![4, 0, 0] W1 slices_S10x16x256_S1x16x256_4_0_0
def b1s4 (b1 : FVec F S10x16 .f32) : FVec F S1x16 .f32 := extractStridedSlice S1x16 ![4, 0] b1 slices_S10x16_S1x16_4_0
def w2s4 (W2 : FVec F S10x256x16 .f32) : FVec F S1x256x16 .f32 := extractStridedSlice S1x256x16 ![4, 0, 0] W2 slices_S10x256x16_S1x256x16_4_0_0
def b2s4 (b2 : FVec F S10x256 .f32) : FVec F S1x256 .f32 := extractStridedSlice S1x256 ![4, 0] b2 slices_S10x256_S1x256_4_0
def w1s5 (W1 : FVec F S10x16x256 .f32) : FVec F S1x16x256 .f32 := extractStridedSlice S1x16x256 ![5, 0, 0] W1 slices_S10x16x256_S1x16x256_5_0_0
def b1s5 (b1 : FVec F S10x16 .f32) : FVec F S1x16 .f32 := extractStridedSlice S1x16 ![5, 0] b1 slices_S10x16_S1x16_5_0
def w2s5 (W2 : FVec F S10x256x16 .f32) : FVec F S1x256x16 .f32 := extractStridedSlice S1x256x16 ![5, 0, 0] W2 slices_S10x256x16_S1x256x16_5_0_0
def b2s5 (b2 : FVec F S10x256 .f32) : FVec F S1x256 .f32 := extractStridedSlice S1x256 ![5, 0] b2 slices_S10x256_S1x256_5_0
def w1s6 (W1 : FVec F S10x16x256 .f32) : FVec F S1x16x256 .f32 := extractStridedSlice S1x16x256 ![6, 0, 0] W1 slices_S10x16x256_S1x16x256_6_0_0
def b1s6 (b1 : FVec F S10x16 .f32) : FVec F S1x16 .f32 := extractStridedSlice S1x16 ![6, 0] b1 slices_S10x16_S1x16_6_0
def w2s6 (W2 : FVec F S10x256x16 .f32) : FVec F S1x256x16 .f32 := extractStridedSlice S1x256x16 ![6, 0, 0] W2 slices_S10x256x16_S1x256x16_6_0_0
def b2s6 (b2 : FVec F S10x256 .f32) : FVec F S1x256 .f32 := extractStridedSlice S1x256 ![6, 0] b2 slices_S10x256_S1x256_6_0
def w1s7 (W1 : FVec F S10x16x256 .f32) : FVec F S1x16x256 .f32 := extractStridedSlice S1x16x256 ![7, 0, 0] W1 slices_S10x16x256_S1x16x256_7_0_0
def b1s7 (b1 : FVec F S10x16 .f32) : FVec F S1x16 .f32 := extractStridedSlice S1x16 ![7, 0] b1 slices_S10x16_S1x16_7_0
def w2s7 (W2 : FVec F S10x256x16 .f32) : FVec F S1x256x16 .f32 := extractStridedSlice S1x256x16 ![7, 0, 0] W2 slices_S10x256x16_S1x256x16_7_0_0
def b2s7 (b2 : FVec F S10x256 .f32) : FVec F S1x256 .f32 := extractStridedSlice S1x256 ![7, 0] b2 slices_S10x256_S1x256_7_0
def w1s8 (W1 : FVec F S10x16x256 .f32) : FVec F S1x16x256 .f32 := extractStridedSlice S1x16x256 ![8, 0, 0] W1 slices_S10x16x256_S1x16x256_8_0_0
def b1s8 (b1 : FVec F S10x16 .f32) : FVec F S1x16 .f32 := extractStridedSlice S1x16 ![8, 0] b1 slices_S10x16_S1x16_8_0
def w2s8 (W2 : FVec F S10x256x16 .f32) : FVec F S1x256x16 .f32 := extractStridedSlice S1x256x16 ![8, 0, 0] W2 slices_S10x256x16_S1x256x16_8_0_0
def b2s8 (b2 : FVec F S10x256 .f32) : FVec F S1x256 .f32 := extractStridedSlice S1x256 ![8, 0] b2 slices_S10x256_S1x256_8_0
def w1s9 (W1 : FVec F S10x16x256 .f32) : FVec F S1x16x256 .f32 := extractStridedSlice S1x16x256 ![9, 0, 0] W1 slices_S10x16x256_S1x16x256_9_0_0
def b1s9 (b1 : FVec F S10x16 .f32) : FVec F S1x16 .f32 := extractStridedSlice S1x16 ![9, 0] b1 slices_S10x16_S1x16_9_0
def w2s9 (W2 : FVec F S10x256x16 .f32) : FVec F S1x256x16 .f32 := extractStridedSlice S1x256x16 ![9, 0, 0] W2 slices_S10x256x16_S1x256x16_9_0_0
def b2s9 (b2 : FVec F S10x256 .f32) : FVec F S1x256 .f32 := extractStridedSlice S1x256 ![9, 0] b2 slices_S10x256_S1x256_9_0

/-! ## The output -/

/-- The ten parts side by side along the joint axis, in part order (the function of the reference's last operation). -/
def catFn (u0 : FVec F S64x256x64x5 .f32) (u1 : FVec F S64x256x64x6 .f32) (u2 : FVec F S64x256x64x4 .f32) (u3 : FVec F S64x256x64x6 .f32) (u4 : FVec F S64x256x64x4 .f32) (u5 : FVec F S64x256x64x5 .f32) (u6 : FVec F S64x256x64x6 .f32) (u7 : FVec F S64x256x64x4 .f32) (u8 : FVec F S64x256x64x6 .f32) (u9 : FVec F S64x256x64x4 .f32) : FVec F S64x256x64x50 .f32 :=
  concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] concatenates_S64x256x64x5_S64x256x64x6_S64x256x64x4_S64x256x64x6_S64x256x64x4_S64x256x64x5_S64x256x64x6_S64x256x64x4_S64x256x64x6_S64x256x64x4_S64x256x64x50_d3

/-- What the reference computes from its five arguments: part `p` from the `p`-th joint table and the `p`-th slices of
    the weights, the ten parts concatenated. -/
def refOut (x : FVec F S64x256x64x50 .f32) (W1 : FVec F S10x16x256 .f32) (b1 : FVec F S10x16 .f32)
    (W2 : FVec F S10x256x16 .f32) (b2 : FVec F S10x256 .f32) : FVec F S64x256x64x50 .f32 :=
  catFn
    (part5 x tab0 (w1s0 W1) (b1s0 b1) (w2s0 W2) (b2s0 b2))
    (part6 x tab1 (w1s1 W1) (b1s1 b1) (w2s1 W2) (b2s1 b2))
    (part4 x tab2 (w1s2 W1) (b1s2 b1) (w2s2 W2) (b2s2 b2))
    (part6 x tab3 (w1s3 W1) (b1s3 b1) (w2s3 W2) (b2s3 b2))
    (part4 x tab4 (w1s4 W1) (b1s4 b1) (w2s4 W2) (b2s4 b2))
    (part5 x tab5 (w1s5 W1) (b1s5 b1) (w2s5 W2) (b2s5 b2))
    (part6 x tab6 (w1s6 W1) (b1s6 b1) (w2s6 W2) (b2s6 b2))
    (part4 x tab7 (w1s7 W1) (b1s7 b1) (w2s7 W2) (b2s7 b2))
    (part6 x tab8 (w1s8 W1) (b1s8 b1) (w2s8 W2) (b2s8 b2))
    (part4 x tab9 (w1s9 W1) (b1s9 b1) (w2s9 W2) (b2s9 b2))

end Cert.ReferenceIdeal.RefTerm

end
-- ==== Proof.RefRun.W0.lean ====
/- Window 0 of the reference's run (statements 1 … 60): the ten joint tables and their all-false masks, then part 0
   (torso of person 1, 5 joints) up to the bias of the hidden layer on the maximum path. -/
import proofs.«140205_j1228360647386_2_alg».proof.Proof.RefRun.Ops0
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part0_eq (c : Dev nD) : main_part0 (F := F) c = seq ops_part0 := by
  simp only [main_part0, fn_relu.body, seq, bind_assoc, pure_bind]
  rfl

/-- Every operation of the window touches TensorCore buffers only. -/
theorem ops_part0_sub : (ops_part0 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part0_fresh : ∀ op ∈ (ops_part0 : List (HloOp τ sig (Elt F))), op.fresh = ∅ := by
  intro _ h
  repeat (cases h with | head => rfl | tail _ h => ?_)
  exact nomatch h

set_option maxRecDepth 8192 in
/-- Every operation of the window writes a buffer of the window's list. -/
theorem ops_part0_writes : (ops_part0 : List (HloOp τ sig (Elt F))).Forall fun op =>
    op.writes ⊆ (ops_part0_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part0_keep (W : Valuation τ sig (Elt F)) (r : Ref sig .tc) (h : r ∉ ops_part0_W) :
    after ops_part0 W (Proc.devRef .tc r) = W (Proc.devRef .tc r) :=
  after_of_writes_sub ops_part0 W ops_part0_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- The gathered joints of part 0. -/
theorem part0_main_v4 : after ops_part0 W (Proc.devRef .tc main_v4) = gath5 (W (Proc.devRef .tc main_arg0)) (idxCol5 tab0) := by
  simp only [ops_part0]
  after_results_simp
  all_goals rfl

set_option maxRecDepth 8192 in
set_option maxHeartbeats 2000000 in
/-- The MLP of the mean over time and joints, part 0. -/
theorem part0_main_v27 : after ops_part0 W (Proc.devRef .tc main_v27) = mlp (w1s0 (W (Proc.devRef .tc main_arg1))) (b1s0 (W (Proc.devRef .tc main_arg2))) (w2s0 (W (Proc.devRef .tc main_arg3))) (b2s0 (W (Proc.devRef .tc main_arg4))) (avg5 (gath5 (W (Proc.devRef .tc main_arg0)) (idxCol5 tab0))) := by
  simp only [ops_part0]
  after_results_simp
  all_goals rfl

set_option maxRecDepth 8192 in
set_option maxHeartbeats 2000000 in
/-- The first product on the maximum path, part 0: `max @ W1[0].T`. -/
theorem part0_main_v31 : after ops_part0 W (Proc.devRef .tc main_v31) = lin1 (w1T (w1s0 (W (Proc.devRef .tc main_arg1)))) (max5 (gath5 (W (Proc.devRef .tc main_arg0)) (idxCol5 tab0))) := by
  simp only [ops_part0]
  after_results_simp
  all_goals rfl

set_option maxRecDepth 8192 in
set_option maxHeartbeats 2000000 in
/-- The first layer's bias of part 0 laid over the rows. -/
theorem part0_main_v35 : after ops_part0 W (Proc.devRef .tc main_v35) = b1B (b1s0 (W (Proc.devRef .tc main_arg2))) := by
  simp only [ops_part0]
  after_results_simp
  all_goals rfl

set_option maxRecDepth 8192 in
set_option maxHeartbeats 2000000 in
/-- The joint table of part 1. -/
theorem part0_main_c_1 : after ops_part0 W (Proc.devRef .tc main_c_1) = tab1 := by
  simp only [ops_part0]
  after_results_simp
  all_goals rfl

set_option maxRecDepth 8192 in
set_option maxHeartbeats 2000000 in
/-- The mask of part 1's table: no entry is negative. -/
theorem part0_main_c_2 : after ops_part0 W (Proc.devRef .tc main_c_2) = constantI S6 1 0#1 := by
  simp only [ops_part0]
  after_results_simp
  all_goals rfl

set_option maxRecDepth 8192 in
set_option maxHeartbeats 2000000 in
/-- The joint table of part 2. -/
theorem part0_main_c_3 : after ops_part0 W (Proc.devRef .tc main_c_3) = tab2 := by
  simp only [ops_part0]
  after_results_simp
  all_goals rfl

set_option maxRecDepth 8192 in
set_option maxHeartbeats 2000000 in
/-- The mask of part 2's table: no entry is negative. -/
theorem part0_main_c_4 : after ops_part0 W (Proc.devRef .tc main_c_4) = constantI S4 1 0#1 := by
  simp only [ops_part0]
  after_results_simp
  all_goals rfl

set_option maxRecDepth 8192 in
set_option maxHeartbeats 2000000 in
/-- The joint table of part 3. -/
theorem part0_main_c_5 : after ops_part0 W (Proc.devRef .tc main_c_5) = tab3 := by
  simp only [ops_part0]
  after_results_simp
  all_goals rfl

set_option maxRecDepth 8192 in
set_option maxHeartbeats 2000000 in
/-- The mask of part 3's table: no entry is negative. -/
theorem part0_main_c_6 : after ops_part0 W (Proc.devRef .tc main_c_6) = constantI S6 1 0#1 := by
  simp only [ops_part0]
  after_results_simp
  all_goals rfl

set_option maxRecDepth 8192 in
set_option maxHeartbeats 2000000 in
/-- The joint table of part 4. -/
theorem part0_main_c_7 : after ops_part0 W (Proc.devRef .tc main_c_7) = tab4 := by
  simp only [ops_part0]
  after_results_simp
  all_goals rfl

set_option maxRecDepth 8192 in
set_option maxHeartbeats 2000000 in
/-- The mask of part 4's table: no entry is negative. -/
theorem part0_main_c_8 : after ops_part0 W (Proc.devRef .tc main_c_8) = constantI S4 1 0#1 := by
  simp only [ops_part0]
  after_results_simp
  all_goals rfl

set_option maxRecDepth 8192 in
set_option maxHeartbeats 2000000 in
/-- The joint table of part 5. -/
theorem part0_main_c_9 : after ops_part0 W (Proc.devRef .tc main_c_9) = tab5 := by
  simp only [ops_part0]
  after_results_simp
  all_goals rfl

set_option maxRecDepth 8192 in
set_option maxHeartbeats 2000000 in
/-- The mask of part 5's table: no entry is negative. -/
theorem part0_main_c_10 : after ops_part0 W (Proc.devRef .tc main_c_10) = constantI S5 1 0#1 := by
  simp only [ops_part0]
  after_results_simp
  all_goals rfl

set_option maxRecDepth 8192 in
set_option maxHeartbeats 2000000 in
/-- The joint table of part 6. -/
theorem part0_main_c_11 : after ops_part0 W (Proc.devRef .tc main_c_11) = tab6 := by
  simp only [ops_part0]
  after_results_simp
  all_goals rfl

set_option maxRecDepth 8192 in
set_option maxHeartbeats 2000000 in
/-- The mask of part 6's table: no entry is negative. -/
theorem part0_main_c_12 : after ops_part0 W (Proc.devRef .tc main_c_12) = constantI S6 1 0#1 := by
  simp only [ops_part0]
  after_results_simp
  all_goals rfl

set_option maxRecDepth 8192 in
set_option maxHeartbeats 2000000 in
/-- The joint table of part 7. -/
theorem part0_main_c_13 : after ops_part0 W (Proc.devRef .tc main_c_13) = tab7 := by
  simp only [ops_part0]
  after_results_simp
  all_goals rfl

set_option maxRecDepth 8192 in
set_option maxHeartbeats 2000000 in
/-- The mask of part 7's table: no entry is negative. -/
theorem part0_main_c_14 : after ops_part0 W (Proc.devRef .tc main_c_14) = constantI S4 1 0#1 := by
  simp only [ops_part0]
  after_results_simp
  all_goals rfl

set_option maxRecDepth 8192 in
set_option maxHeartbeats 2000000 in
/-- The joint table of part 8. -/
theorem part0_main_c_15 : after ops_part0 W (Proc.devRef .tc main_c_15) = tab8 := by
  simp only [ops_part0]
  after_results_simp
  all_goals rfl

set_option maxRecDepth 8192 in
set_option maxHeartbeats 2000000 in
/-- The mask of part 8's table: no entry is negative. -/
theorem part0_main_c_16 : after ops_part0 W (Proc.devRef .tc main_c_16) = constantI S6 1 0#1 := by
  simp only [ops_part0]
  after_results_simp
  all_goals rfl

set_option maxRecDepth 8192 in
set_option maxHeartbeats 2000000 in
/-- The joint table of part 9. -/
theorem part0_main_c_17 : after ops_part0 W (Proc.devRef .tc main_c_17) = tab9 := by
  simp only [ops_part0]
  after_results_simp
  all_goals rfl

set_option maxRecDepth 8192 in
set_option maxHeartbeats 2000000 in
/-- The mask of part 9's table: no entry is negative. -/
theorem part0_main_c_18 : after ops_part0 W (Proc.devRef .tc main_c_18) = constantI S4 1 0#1 := by
  simp only [ops_part0]
  after_results_simp
  all_goals rfl

end

end Cert.ReferenceIdeal.RefRun

end
-- ==== Proof.RefRun.Ops1.lean ====
/- Window 1 of the reference's @main (statements 61 … 120 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 1, in order. -/
abbrev ops_part1 : List (HloOp τ sig (Elt F)) :=
  [ binary main_v31 main_v35 main_v36 (addf : (⟨S64x16, .f32⟩ : BufTy).Contents (Elt F) → (⟨S64x16, .f32⟩ : BufTy).Contents (Elt F) → (⟨S64x16, .f32⟩ : BufTy).Contents (Elt F)),
    TRef.nullary main_call1.cst (constant S_ .f32 0x00000000#32),
    TRef.unary main_call1.cst main_call1.v0 (broadcastInDim S64x16 ![] bcast_S_S64x16),
    TRef.binary (.of main_v36) main_call1.v0 main_call1.v1 maximumf,
    unary main_arg3 main_v38 ((extractStridedSlice S1x256x16 ![0, 0, 0] · slices_S10x256x16_S1x256x16_0_0_0) : (⟨S10x256x16, .f32⟩ : BufTy).Contents (Elt F) → (⟨S1x256x16, .f32⟩ : BufTy).Contents (Elt F)),
    reshape main_v38 main_v39 rfl shapeCasts_S1x256x16_S256x16,
    unary main_v39 main_v40 ((transpose S16x256 [1, 0] · transposes_S256x16_S16x256_1_0) : (⟨S256x16, .f32⟩ : BufTy).Contents (Elt F) → (⟨S16x256, .f32⟩ : BufTy).Contents (Elt F)),
    binary main_v37 main_v40 main_v41 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v42 ((extractStridedSlice S1x256 ![0, 0] · slices_S10x256_S1x256_0_0) : (⟨S10x256, .f32⟩ : BufTy).Contents (Elt F) → (⟨S1x256, .f32⟩ : BufTy).Contents (Elt F)),
    reshape main_v42 main_v43 rfl shapeCasts_S1x256_S256,
    unary main_v43 main_v44 (broadcastInDim S1x256 ![1] bcast_S256_S1x256_1 : (⟨S256, .f32⟩ : BufTy).Contents (Elt F) → (⟨S1x256, .f32⟩ : BufTy).Contents (Elt F)),
    unary main_v44 main_v45 (broadcastInDim S64x256 ![0, 1] bcast_S1x256_S64x256_0_1 : (⟨S1x256, .f32⟩ : BufTy).Contents (Elt F) → (⟨S64x256, .f32⟩ : BufTy).Contents (Elt F)),
    binary main_v41 main_v45 main_v46 (addf : (⟨S64x256, .f32⟩ : BufTy).Contents (Elt F) → (⟨S64x256, .f32⟩ : BufTy).Contents (Elt F) → (⟨S64x256, .f32⟩ : BufTy).Contents (Elt F)),
    binary main_v27 main_v46 main_v47 (addf : (⟨S64x256, .f32⟩ : BufTy).Contents (Elt F) → (⟨S64x256, .f32⟩ : BufTy).Contents (Elt F) → (⟨S64x256, .f32⟩ : BufTy).Contents (Elt F)),
    unary main_v47 main_v48 (Host.negf : (⟨S64x256, .f32⟩ : BufTy).Contents (Elt F) → (⟨S64x256, .f32⟩ : BufTy).Contents (Elt F)),
    unary main_v48 main_v49 (Host.exp : (⟨S64x256, .f32⟩ : BufTy).Contents (Elt F) → (⟨S64x256, .f32⟩ : BufTy).Contents (Elt F)),
    nullary main_cst_22 (constant S_ .f32 0x3F800000#32),
    unary main_cst_22 main_v50 (broadcastInDim S64x256 ![] bcast_S_S64x256 : (⟨S_, .f32⟩ : BufTy).Contents (Elt F) → (⟨S64x256, .f32⟩ : BufTy).Contents (Elt F)),
    binary main_v50 main_v49 main_v51 (addf : (⟨S64x256, .f32⟩ : BufTy).Contents (Elt F) → (⟨S64x256, .f32⟩ : BufTy).Contents (Elt F) → (⟨S64x256, .f32⟩ : BufTy).Contents (Elt F)),
    nullary main_cst_23 (constant S_ .f32 0x3F800000#32),
    unary main_cst_23 main_v52 (broadcastInDim S64x256 ![] bcast_S_S64x256 : (⟨S_, .f32⟩ : BufTy).Contents (Elt F) → (⟨S64x256, .f32⟩ : BufTy).Contents (Elt F)),
    binary main_v52 main_v51 main_v53 (Host.divf : (⟨S64x256, .f32⟩ : BufTy).Contents (Elt F) → (⟨S64x256, .f32⟩ : BufTy).Contents (Elt F) → (⟨S64x256, .f32⟩ : BufTy).Contents (Elt F)),
    unary main_v53 main_v54 (broadcastInDim S64x256x1x1 ![0, 1] bcast_S64x256_S64x256x1x1_0_1 : (⟨S64x256, .f32⟩ : BufTy).Contents (Elt F) → (⟨S64x256x1x1, .f32⟩ : BufTy).Contents (Elt F)),
    unary main_v54 main_v55 (broadcastInDim S64x256x64x5 ![0, 1, 2, 3] bcast_S64x256x1x1_S64x256x64x5_0_1_2_3 : (⟨S64x256x1x1, .f32⟩ : BufTy).Contents (Elt F) → (⟨S64x256x64x5, .f32⟩ : BufTy).Contents (Elt F)),
    binary main_v4 main_v55 main_v56 (mulf : (⟨S64x256x64x5, .f32⟩ : BufTy).Contents (Elt F) → (⟨S64x256x64x5, .f32⟩ : BufTy).Contents (Elt F) → (⟨S64x256x64x5, .f32⟩ : BufTy).Contents (Elt F)),
    nullary main_c_24 (constantI S_ 32 50#32),
    unary main_c_24 main_v57 (broadcastInDim S6 ![] bcast_S_S6 : (⟨S_, .i32⟩ : BufTy).Contents (Elt F) → (⟨S6, .i32⟩ : BufTy).Contents (Elt F)),
    binary main_c_1 main_v57 main_v58 (addi : (⟨S6, .i32⟩ : BufTy).Contents (Elt F) → (⟨S6, .i32⟩ : BufTy).Contents (Elt F) → (⟨S6, .i32⟩ : BufTy).Contents (Elt F)),
    ternary main_c_2 main_v58 main_c_1 main_v59 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v59 main_v60 (broadcastInDim S6x1 ![0] bcast_S6_S6x1_0 : (⟨S6, .i32⟩ : BufTy).Contents (Elt F) → (⟨S6x1, .i32⟩ : BufTy).Contents (Elt F)),
    binary main_arg0 main_v60 main_v61 ((fun x i => Host.gather gather_S64x256x64x50_S6x1_S64x256x64x6_012_3_n_n_3_1_64256641 x i) : (⟨S64x256x64x50, .f32⟩ : BufTy).Contents (Elt F) → (⟨S6x1, .i32⟩ : BufTy).Contents (Elt F) → (⟨S64x256x64x6, .f32⟩ : BufTy).Contents (Elt F)),
    nullary main_cst_25 (constant S_ .f32 0x00000000#32),
    binary main_v61 main_cst_25 main_v62 ((fun x v => Host.reduceAdd x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    nullary main_cst_26 (constant S_ .f32 0x43C00000#32),
    unary main_cst_26 main_v63 (broadcastInDim S64x256 ![] bcast_S_S64x256 : (⟨S_, .f32⟩ : BufTy).Contents (Elt F) → (⟨S64x256, .f32⟩ : BufTy).Contents (Elt F)),
    binary main_v62 main_v63 main_v64 (Host.divf : (⟨S64x256, .f32⟩ : BufTy).Contents (Elt F) → (⟨S64x256, .f32⟩ : BufTy).Contents (Elt F) → (⟨S64x256, .f32⟩ : BufTy).Contents (Elt F)),
    nullary main_cst_27 (constant S_ .f32 0xFF800000#32),
    binary main_v61 main_cst_27 main_v65 ((fun x v => Host.reduce FloatOps.maximumf x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    unary main_arg1 main_v66 ((extractStridedSlice S1x16x256 ![1, 0, 0] · slices_S10x16x256_S1x16x256_1_0_0) : (⟨S10x16x256, .f32⟩ : BufTy).Contents (Elt F) → (⟨S1x16x256, .f32⟩ : BufTy).Contents (Elt F)),
    reshape main_v66 main_v67 rfl shapeCasts_S1x16x256_S16x256,
    unary main_v67 main_v68 ((transpose S256x16 [1, 0] · transposes_S16x256_S256x16_1_0) : (⟨S16x256, .f32⟩ : BufTy).Contents (Elt F) → (⟨S256x16, .f32⟩ : BufTy).Contents (Elt F)),
    binary main_v64 main_v68 main_v69 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v70 ((extractStridedSlice S1x16 ![1, 0] · slices_S10x16_S1x16_1_0) : (⟨S10x16, .f32⟩ : BufTy).Contents (Elt F) → (⟨S1x16, .f32⟩ : BufTy).Contents (Elt F)),
    reshape main_v70 main_v71 rfl shapeCasts_S1x16_S16,
    unary main_v71 main_v72 (broadcastInDim S1x16 ![1] bcast_S16_S1x16_1 : (⟨S16, .f32⟩ : BufTy).Contents (Elt F) → (⟨S1x16, .f32⟩ : BufTy).Contents (Elt F)),
    unary main_v72 main_v73 (broadcastInDim S64x16 ![0, 1] bcast_S1x16_S64x16_0_1 : (⟨S1x16, .f32⟩ : BufTy).Contents (Elt F) → (⟨S64x16, .f32⟩ : BufTy).Contents (Elt F)),
    binary main_v69 main_v73 main_v74 (addf : (⟨S64x16, .f32⟩ : BufTy).Contents (Elt F) → (⟨S64x16, .f32⟩ : BufTy).Contents (Elt F) → (⟨S64x16, .f32⟩ : BufTy).Contents (Elt F)),
    TRef.nullary main_call2.cst (constant S_ .f32 0x00000000#32),
    TRef.unary main_call2.cst main_call2.v0 (broadcastInDim S64x16 ![] bcast_S_S64x16),
    TRef.binary (.of main_v74) main_call2.v0 main_call2.v1 maximumf,
    unary main_arg3 main_v76 ((extractStridedSlice S1x256x16 ![1, 0, 0] · slices_S10x256x16_S1x256x16_1_0_0) : (⟨S10x256x16, .f32⟩ : BufTy).Contents (Elt F) → (⟨S1x256x16, .f32⟩ : BufTy).Contents (Elt F)),
    reshape main_v76 main_v77 rfl shapeCasts_S1x256x16_S256x16,
    unary main_v77 main_v78 ((transpose S16x256 [1, 0] · transposes_S256x16_S16x256_1_0) : (⟨S256x16, .f32⟩ : BufTy).Contents (Elt F) → (⟨S16x256, .f32⟩ : BufTy).Contents (Elt F)),
    binary main_v75 main_v78 main_v79 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v80 ((extractStridedSlice S1x256 ![1, 0] · slices_S10x256_S1x256_1_0) : (⟨S10x256, .f32⟩ : BufTy).Contents (Elt F) → (⟨S1x256, .f32⟩ : BufTy).Contents (Elt F)),
    reshape main_v80 main_v81 rfl shapeCasts_S1x256_S256,
    unary main_v81 main_v82 (broadcastInDim S1x256 ![1] bcast_S256_S1x256_1 : (⟨S256, .f32⟩ : BufTy).Contents (Elt F) → (⟨S1x256, .f32⟩ : BufTy).Contents (Elt F)),
    unary main_v82 main_v83 (broadcastInDim S64x256 ![0, 1] bcast_S1x256_S64x256_0_1 : (⟨S1x256, .f32⟩ : BufTy).Contents (Elt F) → (⟨S64x256, .f32⟩ : BufTy).Contents (Elt F)),
    binary main_v79 main_v83 main_v84 (addf : (⟨S64x256, .f32⟩ : BufTy).Contents (Elt F) → (⟨S64x256, .f32⟩ : BufTy).Contents (Elt F) → (⟨S64x256, .f32⟩ : BufTy).Contents (Elt F)),
    unary main_arg1 main_v85 ((extractStridedSlice S1x16x256 ![1, 0, 0] · slices_S10x16x256_S1x16x256_1_0_0) : (⟨S10x16x256, .f32⟩ : BufTy).Contents (Elt F) → (⟨S1x16x256, .f32⟩ : BufTy).Contents (Elt F)),
    reshape main_v85 main_v86 rfl shapeCasts_S1x16x256_S16x256,
    unary main_v86 main_v87 ((transpose S256x16 [1, 0] · transposes_S16x256_S256x16_1_0) : (⟨S16x256, .f32⟩ : BufTy).Contents (Elt F) → (⟨S256x16, .f32⟩ : BufTy).Contents (Elt F)),
    binary main_v65 main_v87 main_v88 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v89 ((extractStridedSlice S1x16 ![1, 0] · slices_S10x16_S1x16_1_0) : (⟨S10x16, .f32⟩ : BufTy).Contents (Elt F) → (⟨S1x16, .f32⟩ : BufTy).Contents (Elt F)) ]

/-- The buffers window 1 writes, in order. -/
abbrev ops_part1_W : List (Ref sig .tc) :=
  [main_v36, main_call1_cst, main_call1_v0, main_v37, main_v38, main_v39, main_v40, main_v41, main_v42, main_v43, main_v44, main_v45, main_v46, main_v47, main_v48, main_v49, main_cst_22, main_v50, main_v51, main_cst_23, main_v52, main_v53, main_v54, main_v55, main_v56, main_c_24, main_v57, main_v58, main_v59, main_v60, main_v61, main_cst_25, main_v62, main_cst_26, main_v63, main_v64, main_cst_27, main_v65, main_v66, main_v67, main_v68, main_v69, main_v70, main_v71, main_v72, main_v73, main_v74, main_call2_cst, main_call2_v0, main_v75, main_v76, main_v77, main_v78, main_v79, main_v80, main_v81, main_v82, main_v83, main_v84, main_v85, main_v86, main_v87, main_v88, main_v89]

end Cert.ReferenceIdeal.RefRun

end
-- ==== Proof.RefRun.W1.lean ====
/- Window 1 of the reference's run (statements 61 … 120): the end of part 0 (torso of person 1, 5 joints) — its
   gate and the re-weighted joints — and the beginning of part 1 (left hand of person 1, 6 joints). -/
import proofs.«140205_j1228360647386_2_alg».proof.Proof.RefRun.Ops1
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part1_eq (c : Dev nD) : main_part1 (F := F) c = seq ops_part1 := by
  simp only [main_part1, fn_relu.body, seq, bind_assoc, pure_bind]
  rfl

/-- Every operation of the window touches TensorCore buffers only. -/
theorem ops_part1_sub : (ops_part1 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part1_fresh : ∀ op ∈ (ops_part1 : List (HloOp τ sig (Elt F))), op.fresh = ∅ := by
  intro _ h
  repeat (cases h with | head => rfl | tail _ h => ?_)
  exact nomatch h

set_option maxRecDepth 8192 in
/-- Every operation of the window writes a buffer of the window's list. -/
theorem ops_part1_writes : (ops_part1 : List (HloOp τ sig (Elt F))).Forall fun op =>
    op.writes ⊆ (ops_part1_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part1_keep (W : Valuation τ sig (Elt F)) (r : Ref sig .tc) (h : r ∉ ops_part1_W) :
    after ops_part1 W (Proc.devRef .tc r) = W (Proc.devRef .tc r) :=
  after_of_writes_sub ops_part1 W ops_part1_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 0 of the output: the gathered joints times the gate `sigmoid (mlp avg + mlp max)`, from what the window before left. -/
theorem part1_main_v56 : after ops_part1 W (Proc.devRef .tc main_v56) = mulf (W (Proc.devRef .tc main_v4)) (gateBB5 (gateOf (W (Proc.devRef .tc main_v27)) (addf (lin2 (w2T (w2s0 (W (Proc.devRef .tc main_arg3)))) (relu (addf (W (Proc.devRef .tc main_v31)) (W (Proc.devRef .tc main_v35))))) (b2B (b2s0 (W (Proc.devRef .tc main_arg4))))))) := by
  simp only [ops_part1]
  after_results_simp
  all_goals rfl

set_option maxRecDepth 8192 in
set_option maxHeartbeats 2000000 in
/-- The gathered joints of part 1. -/
theorem part1_main_v61 : after ops_part1 W (Proc.devRef .tc main_v61) = gath6 (W (Proc.devRef .tc main_arg0)) (idxColM6 (W (Proc.devRef .tc main_c_2)) (W (Proc.devRef .tc main_c_1))) := by
  simp only [ops_part1]
  after_results_simp
  all_goals rfl

set_option maxRecDepth 8192 in
set_option maxHeartbeats 2000000 in
/-- The MLP of the mean over time and joints, part 1. -/
theorem part1_main_v84 : after ops_part1 W (Proc.devRef .tc main_v84) = mlp (w1s1 (W (Proc.devRef .tc main_arg1))) (b1s1 (W (Proc.devRef .tc main_arg2))) (w2s1 (W (Proc.devRef .tc main_arg3))) (b2s1 (W (Proc.devRef .tc main_arg4))) (avg6 (gath6 (W (Proc.devRef .tc main_arg0)) (idxColM6 (W (Proc.devRef .tc main_c_2)) (W (Proc.devRef .tc main_c_1))))) := by
  simp only [ops_part1]
  after_results_simp
  all_goals rfl

set_option maxRecDepth 8192 in
set_option maxHeartbeats 2000000 in
/-- The first product on the maximum path, part 1: `max @ W1[1].T`. -/
theorem part1_main_v88 : after ops_part1 W (Proc.devRef .tc main_v88) = lin1 (w1T (w1s1 (W (Proc.devRef .tc main_arg1)))) (max6 (gath6 (W (Proc.devRef .tc main_arg0)) (idxColM6 (W (Proc.devRef .tc main_c_2)) (W (Proc.devRef .tc main_c_1))))) := by
  simp only [ops_part1]
  after_results_simp
  all_goals rfl

set_option maxRecDepth 8192 in
set_option maxHeartbeats 2000000 in
/-- The slice `b1[1:2]`. -/
theorem part1_main_v89 : after ops_part1 W (Proc.devRef .tc main_v89) = b1s1 (W (Proc.devRef .tc main_arg2)) := by
  simp only [ops_part1]
  after_results_simp
  all_goals rfl

end

end Cert.ReferenceIdeal.RefRun

end
-- ==== Proof.RefRun.Ops2.lean ====
/- Window 2 of the reference's @main (statements 121 … 180 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 2, in order. -/
abbrev ops_part2 : List (HloOp τ sig (Elt F)) :=
  [ reshape main_v89 main_v90 rfl shapeCasts_S1x16_S16,
    unary main_v90 main_v91 (broadcastInDim S1x16 ![1] bcast_S16_S1x16_1 : (⟨S16, .f32⟩ : BufTy).Contents (Elt F) → (⟨S1x16, .f32⟩ : BufTy).Contents (Elt F)),
    unary main_v91 main_v92 (broadcastInDim S64x16 ![0, 1] bcast_S1x16_S64x16_0_1 : (⟨S1x16, .f32⟩ : BufTy).Contents (Elt F) → (⟨S64x16, .f32⟩ : BufTy).Contents (Elt F)),
    binary main_v88 main_v92 main_v93 (addf : (⟨S64x16, .f32⟩ : BufTy).Contents (Elt F) → (⟨S64x16, .f32⟩ : BufTy).Contents (Elt F) → (⟨S64x16, .f32⟩ : BufTy).Contents (Elt F)),
    TRef.nullary main_call3.cst (constant S_ .f32 0x00000000#32),
    TRef.unary main_call3.cst main_call3.v0 (broadcastInDim S64x16 ![] bcast_S_S64x16),
    TRef.binary (.of main_v93) main_call3.v0 main_call3.v1 maximumf,
    unary main_arg3 main_v95 ((extractStridedSlice S1x256x16 ![1, 0, 0] · slices_S10x256x16_S1x256x16_1_0_0) : (⟨S10x256x16, .f32⟩ : BufTy).Contents (Elt F) → (⟨S1x256x16, .f32⟩ : BufTy).Contents (Elt F)),
    reshape main_v95 main_v96 rfl shapeCasts_S1x256x16_S256x16,
    unary main_v96 main_v97 ((transpose S16x256 [1, 0] · transposes_S256x16_S16x256_1_0) : (⟨S256x16, .f32⟩ : BufTy).Contents (Elt F) → (⟨S16x256, .f32⟩ : BufTy).Contents (Elt F)),
    binary main_v94 main_v97 main_v98 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v99 ((extractStridedSlice S1x256 ![1, 0] · slices_S10x256_S1x256_1_0) : (⟨S10x256, .f32⟩ : BufTy).Contents (Elt F) → (⟨S1x256, .f32⟩ : BufTy).Contents (Elt F)),
    reshape main_v99 main_v100 rfl shapeCasts_S1x256_S256,
    unary main_v100 main_v101 (broadcastInDim S1x256 ![1] bcast_S256_S1x256_1 : (⟨S256, .f32⟩ : BufTy).Contents (Elt F) → (⟨S1x256, .f32⟩ : BufTy).Contents (Elt F)),
    unary main_v101 main_v102 (broadcastInDim S64x256 ![0, 1] bcast_S1x256_S64x256_0_1 : (⟨S1x256, .f32⟩ : BufTy).Contents (Elt F) → (⟨S64x256, .f32⟩ : BufTy).Contents (Elt F)),
    binary main_v98 main_v102 main_v103 (addf : (⟨S64x256, .f32⟩ : BufTy).Contents (Elt F) → (⟨S64x256, .f32⟩ : BufTy).Contents (Elt F) → (⟨S64x256, .f32⟩ : BufTy).Contents (Elt F)),
    binary main_v84 main_v103 main_v104 (addf : (⟨S64x256, .f32⟩ : BufTy).Contents (Elt F) → (⟨S64x256, .f32⟩ : BufTy).Contents (Elt F) → (⟨S64x256, .f32⟩ : BufTy).Contents (Elt F)),
    unary main_v104 main_v105 (Host.negf : (⟨S64x256, .f32⟩ : BufTy).Contents (Elt F) → (⟨S64x256, .f32⟩ : BufTy).Contents (Elt F)),
    unary main_v105 main_v106 (Host.exp : (⟨S64x256, .f32⟩ : BufTy).Contents (Elt F) → (⟨S64x256, .f32⟩ : BufTy).Contents (Elt F)),
    nullary main_cst_28 (constant S_ .f32 0x3F800000#32),
    unary main_cst_28 main_v107 (broadcastInDim S64x256 ![] bcast_S_S64x256 : (⟨S_, .f32⟩ : BufTy).Contents (Elt F) → (⟨S64x256, .f32⟩ : BufTy).Contents (Elt F)),
    binary main_v107 main_v106 main_v108 (addf : (⟨S64x256, .f32⟩ : BufTy).Contents (Elt F) → (⟨S64x256, .f32⟩ : BufTy).Contents (Elt F) → (⟨S64x256, .f32⟩ : BufTy).Contents (Elt F)),
    nullary main_cst_29 (constant S_ .f32 0x3F800000#32),
    unary main_cst_29 main_v109 (broadcastInDim S64x256 ![] bcast_S_S64x256 : (⟨S_, .f32⟩ : BufTy).Contents (Elt F) → (⟨S64x256, .f32⟩ : BufTy).Contents (Elt F)),
    binary main_v109 main_v108 main_v110 (Host.divf : (⟨S64x256, .f32⟩ : BufTy).Contents (Elt F) → (⟨S64x256, .f32⟩ : BufTy).Contents (Elt F) → (⟨S64x256, .f32⟩ : BufTy).Contents (Elt F)),
    unary main_v110 main_v111 (broadcastInDim S64x256x1x1 ![0, 1] bcast_S64x256_S64x256x1x1_0_1 : (⟨S64x256, .f32⟩ : BufTy).Contents (Elt F) → (⟨S64x256x1x1, .f32⟩ : BufTy).Contents (Elt F)),
    unary main_v111 main_v112 (broadcastInDim S64x256x64x6 ![0, 1, 2, 3] bcast_S64x256x1x1_S64x256x64x6_0_1_2_3 : (⟨S64x256x1x1, .f32⟩ : BufTy).Contents (Elt F) → (⟨S64x256x64x6, .f32⟩ : BufTy).Contents (Elt F)),
    binary main_v61 main_v112 main_v113 (mulf : (⟨S64x256x64x6, .f32⟩ : BufTy).Contents (Elt F) → (⟨S64x256x64x6, .f32⟩ : BufTy).Contents (Elt F) → (⟨S64x256x64x6, .f32⟩ : BufTy).Contents (Elt F)),
    nullary main_c_30 (constantI S_ 32 50#32),
    unary main_c_30 main_v114 (broadcastInDim S4 ![] bcast_S_S4 : (⟨S_, .i32⟩ : BufTy).Contents (Elt F) → (⟨S4, .i32⟩ : BufTy).Contents (Elt F)),
    binary main_c_3 main_v114 main_v115 (addi : (⟨S4, .i32⟩ : BufTy).Contents (Elt F) → (⟨S4, .i32⟩ : BufTy).Contents (Elt F) → (⟨S4, .i32⟩ : BufTy).Contents (Elt F)),
    ternary main_c_4 main_v115 main_c_3 main_v116 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v116 main_v117 (broadcastInDim S4x1 ![0] bcast_S4_S4x1_0 : (⟨S4, .i32⟩ : BufTy).Contents (Elt F) → (⟨S4x1, .i32⟩ : BufTy).Contents (Elt F)),
    binary main_arg0 main_v117 main_v118 ((fun x i => Host.gather gather_S64x256x64x50_S4x1_S64x256x64x4_012_3_n_n_3_1_64256641 x i) : (⟨S64x256x64x50, .f32⟩ : BufTy).Contents (Elt F) → (⟨S4x1, .i32⟩ : BufTy).Contents (Elt F) → (⟨S64x256x64x4, .f32⟩ : BufTy).Contents (Elt F)),
    nullary main_cst_31 (constant S_ .f32 0x00000000#32),
    binary main_v118 main_cst_31 main_v119 ((fun x v => Host.reduceAdd x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)),
    nullary main_cst_32 (constant S_ .f32 0x43800000#32),
    unary main_cst_32 main_v120 (broadcastInDim S64x256 ![] bcast_S_S64x256 : (⟨S_, .f32⟩ : BufTy).Contents (Elt F) → (⟨S64x256, .f32⟩ : BufTy).Contents (Elt F)),
    binary main_v119 main_v120 main_v121 (Host.divf : (⟨S64x256, .f32⟩ : BufTy).Contents (Elt F) → (⟨S64x256, .f32⟩ : BufTy).Contents (Elt F) → (⟨S64x256, .f32⟩ : BufTy).Contents (Elt F)),
    nullary main_cst_33 (constant S_ .f32 0xFF800000#32),
    binary main_v118 main_cst_33 main_v122 ((fun x v => Host.reduce FloatOps.maximumf x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)),
    unary main_arg1 main_v123 ((extractStridedSlice S1x16x256 ![2, 0, 0] · slices_S10x16x256_S1x16x256_2_0_0) : (⟨S10x16x256, .f32⟩ : BufTy).Contents (Elt F) → (⟨S1x16x256, .f32⟩ : BufTy).Contents (Elt F)),
    reshape main_v123 main_v124 rfl shapeCasts_S1x16x256_S16x256,
    unary main_v124 main_v125 ((transpose S256x16 [1, 0] · transposes_S16x256_S256x16_1_0) : (⟨S16x256, .f32⟩ : BufTy).Contents (Elt F) → (⟨S256x16, .f32⟩ : BufTy).Contents (Elt F)),
    binary main_v121 main_v125 main_v126 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v127 ((extractStridedSlice S1x16 ![2, 0] · slices_S10x16_S1x16_2_0) : (⟨S10x16, .f32⟩ : BufTy).Contents (Elt F) → (⟨S1x16, .f32⟩ : BufTy).Contents (Elt F)),
    reshape main_v127 main_v128 rfl shapeCasts_S1x16_S16,
    unary main_v128 main_v129 (broadcastInDim S1x16 ![1] bcast_S16_S1x16_1 : (⟨S16, .f32⟩ : BufTy).Contents (Elt F) → (⟨S1x16, .f32⟩ : BufTy).Contents (Elt F)),
    unary main_v129 main_v130 (broadcastInDim S64x16 ![0, 1] bcast_S1x16_S64x16_0_1 : (⟨S1x16, .f32⟩ : BufTy).Contents (Elt F) → (⟨S64x16, .f32⟩ : BufTy).Contents (Elt F)),
    binary main_v126 main_v130 main_v131 (addf : (⟨S64x16, .f32⟩ : BufTy).Contents (Elt F) → (⟨S64x16, .f32⟩ : BufTy).Contents (Elt F) → (⟨S64x16, .f32⟩ : BufTy).Contents (Elt F)),
    TRef.nullary main_call4.cst (constant S_ .f32 0x00000000#32),
    TRef.unary main_call4.cst main_call4.v0 (broadcastInDim S64x16 ![] bcast_S_S64x16),
    TRef.binary (.of main_v131) main_call4.v0 main_call4.v1 maximumf,
    unary main_arg3 main_v133 ((extractStridedSlice S1x256x16 ![2, 0, 0] · slices_S10x256x16_S1x256x16_2_0_0) : (⟨S10x256x16, .f32⟩ : BufTy).Contents (Elt F) → (⟨S1x256x16, .f32⟩ : BufTy).Contents (Elt F)),
    reshape main_v133 main_v134 rfl shapeCasts_S1x256x16_S256x16,
    unary main_v134 main_v135 ((transpose S16x256 [1, 0] · transposes_S256x16_S16x256_1_0) : (⟨S256x16, .f32⟩ : BufTy).Contents (Elt F) → (⟨S16x256, .f32⟩ : BufTy).Contents (Elt F)),
    binary main_v132 main_v135 main_v136 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v137 ((extractStridedSlice S1x256 ![2, 0] · slices_S10x256_S1x256_2_0) : (⟨S10x256, .f32⟩ : BufTy).Contents (Elt F) → (⟨S1x256, .f32⟩ : BufTy).Contents (Elt F)),
    reshape main_v137 main_v138 rfl shapeCasts_S1x256_S256,
    unary main_v138 main_v139 (broadcastInDim S1x256 ![1] bcast_S256_S1x256_1 : (⟨S256, .f32⟩ : BufTy).Contents (Elt F) → (⟨S1x256, .f32⟩ : BufTy).Contents (Elt F)),
    unary main_v139 main_v140 (broadcastInDim S64x256 ![0, 1] bcast_S1x256_S64x256_0_1 : (⟨S1x256, .f32⟩ : BufTy).Contents (Elt F) → (⟨S64x256, .f32⟩ : BufTy).Contents (Elt F)),
    binary main_v136 main_v140 main_v141 (addf : (⟨S64x256, .f32⟩ : BufTy).Contents (Elt F) → (⟨S64x256, .f32⟩ : BufTy).Contents (Elt F) → (⟨S64x256, .f32⟩ : BufTy).Contents (Elt F)),
    unary main_arg1 main_v142 ((extractStridedSlice S1x16x256 ![2, 0, 0] · slices_S10x16x256_S1x16x256_2_0_0) : (⟨S10x16x256, .f32⟩ : BufTy).Contents (Elt F) → (⟨S1x16x256, .f32⟩ : BufTy).Contents (Elt F)),
    reshape main_v142 main_v143 rfl shapeCasts_S1x16x256_S16x256 ]

/-- The buffers window 2 writes, in order. -/
abbrev ops_part2_W : List (Ref sig .tc) :=
  [main_v90, main_v91, main_v92, main_v93, main_call3_cst, main_call3_v0, main_v94, main_v95, main_v96, main_v97, main_v98, main_v99, main_v100, main_v101, main_v102, main_v103, main_v104, main_v105, main_v106, main_cst_28, main_v107, main_v108, main_cst_29, main_v109, main_v110, main_v111, main_v112, main_v113, main_c_30, main_v114, main_v115, main_v116, main_v117, main_v118, main_cst_31, main_v119, main_cst_32, main_v120, main_v121, main_cst_33, main_v122, main_v123, main_v124, main_v125, main_v126, main_v127, main_v128, main_v129, main_v130, main_v131, main_call4_cst, main_call4_v0, main_v132, main_v133, main_v134, main_v135, main_v136, main_v137, main_v138, main_v139, main_v140, main_v141, main_v142, main_v143]

end Cert.ReferenceIdeal.RefRun

end
-- ==== Proof.RefRun.W2.lean ====
/- Window 2 of the reference's run (statements 121 … 180): the end of part 1 (left hand of person 1, 6 joints) — its
   gate and the re-weighted joints — and the beginning of part 2 (left leg of person 1, 4 joints). -/
import proofs.«140205_j1228360647386_2_alg».proof.Proof.RefRun.Ops2
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part2_eq (c : Dev nD) : main_part2 (F := F) c = seq ops_part2 := by
  simp only [main_part2, fn_relu.body, seq, bind_assoc, pure_bind]
  rfl

/-- Every operation of the window touches TensorCore buffers only. -/
theorem ops_part2_sub : (ops_part2 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part2_fresh : ∀ op ∈ (ops_part2 : List (HloOp τ sig (Elt F))), op.fresh = ∅ := by
  intro _ h
  repeat (cases h with | head => rfl | tail _ h => ?_)
  exact nomatch h

set_option maxRecDepth 8192 in
/-- Every operation of the window writes a buffer of the window's list. -/
theorem ops_part2_writes : (ops_part2 : List (HloOp τ sig (Elt F))).Forall fun op =>
    op.writes ⊆ (ops_part2_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part2_keep (W : Valuation τ sig (Elt F)) (r : Ref sig .tc) (h : r ∉ ops_part2_W) :
    after ops_part2 W (Proc.devRef .tc r) = W (Proc.devRef .tc r) :=
  after_of_writes_sub ops_part2 W ops_part2_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 1 of the output: the gathered joints times the gate `sigmoid (mlp avg + mlp max)`, from what the window before left. -/
theorem part2_main_v113 : after ops_part2 W (Proc.devRef .tc main_v113) = mulf (W (Proc.devRef .tc main_v61)) (gateBB6 (gateOf (W (Proc.devRef .tc main_v84)) (addf (lin2 (w2T (w2s1 (W (Proc.devRef .tc main_arg3)))) (relu (addf (W (Proc.devRef .tc main_v88)) (b1B (W (Proc.devRef .tc main_v89)))))) (b2B (b2s1 (W (Proc.devRef .tc main_arg4))))))) := by
  simp only [ops_part2]
  after_results_simp
  all_goals rfl

set_option maxRecDepth 8192 in
set_option maxHeartbeats 2000000 in
/-- The gathered joints of part 2. -/
theorem part2_main_v118 : after ops_part2 W (Proc.devRef .tc main_v118) = gath4 (W (Proc.devRef .tc main_arg0)) (idxColM4 (W (Proc.devRef .tc main_c_4)) (W (Proc.devRef .tc main_c_3))) := by
  simp only [ops_part2]
  after_results_simp
  all_goals rfl

set_option maxRecDepth 8192 in
set_option maxHeartbeats 2000000 in
/-- The maximum over time and joints, part 2. -/
theorem part2_main_v122 : after ops_part2 W (Proc.devRef .tc main_v122) = max4 (gath4 (W (Proc.devRef .tc main_arg0)) (idxColM4 (W (Proc.devRef .tc main_c_4)) (W (Proc.devRef .tc main_c_3)))) := by
  simp only [ops_part2]
  after_results_simp
  all_goals rfl

set_option maxRecDepth 8192 in
set_option maxHeartbeats 2000000 in
/-- The MLP of the mean over time and joints, part 2. -/
theorem part2_main_v141 : after ops_part2 W (Proc.devRef .tc main_v141) = mlp (w1s2 (W (Proc.devRef .tc main_arg1))) (b1s2 (W (Proc.devRef .tc main_arg2))) (w2s2 (W (Proc.devRef .tc main_arg3))) (b2s2 (W (Proc.devRef .tc main_arg4))) (avg4 (gath4 (W (Proc.devRef .tc main_arg0)) (idxColM4 (W (Proc.devRef .tc main_c_4)) (W (Proc.devRef .tc main_c_3))))) := by
  simp only [ops_part2]
  after_results_simp
  all_goals rfl

set_option maxRecDepth 8192 in
set_option maxHeartbeats 2000000 in
/-- `W1[2]` as a [16, 256] matrix. -/
theorem part2_main_v143 : after ops_part2 W (Proc.devRef .tc main_v143) = shapeCast S16x256 (w1s2 (W (Proc.devRef .tc main_arg1))) shapeCasts_S1x16x256_S16x256 := by
  simp only [ops_part2]
  after_results_simp
  all_goals rfl

end

end Cert.ReferenceIdeal.RefRun

end
-- ==== Proof.RefRun.Ops3.lean ====
/- Window 3 of the reference's @main (statements 181 … 240 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 3, in order. -/
abbrev ops_part3 : List (HloOp τ sig (Elt F)) :=
  [ unary main_v143 main_v144 ((transpose S256x16 [1, 0] · transposes_S16x256_S256x16_1_0) : (⟨S16x256, .f32⟩ : BufTy).Contents (Elt F) → (⟨S256x16, .f32⟩ : BufTy).Contents (Elt F)),
    binary main_v122 main_v144 main_v145 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v146 ((extractStridedSlice S1x16 ![2, 0] · slices_S10x16_S1x16_2_0) : (⟨S10x16, .f32⟩ : BufTy).Contents (Elt F) → (⟨S1x16, .f32⟩ : BufTy).Contents (Elt F)),
    reshape main_v146 main_v147 rfl shapeCasts_S1x16_S16,
    unary main_v147 main_v148 (broadcastInDim S1x16 ![1] bcast_S16_S1x16_1 : (⟨S16, .f32⟩ : BufTy).Contents (Elt F) → (⟨S1x16, .f32⟩ : BufTy).Contents (Elt F)),
    unary main_v148 main_v149 (broadcastInDim S64x16 ![0, 1] bcast_S1x16_S64x16_0_1 : (⟨S1x16, .f32⟩ : BufTy).Contents (Elt F) → (⟨S64x16, .f32⟩ : BufTy).Contents (Elt F)),
    binary main_v145 main_v149 main_v150 (addf : (⟨S64x16, .f32⟩ : BufTy).Contents (Elt F) → (⟨S64x16, .f32⟩ : BufTy).Contents (Elt F) → (⟨S64x16, .f32⟩ : BufTy).Contents (Elt F)),
    TRef.nullary main_call5.cst (constant S_ .f32 0x00000000#32),
    TRef.unary main_call5.cst main_call5.v0 (broadcastInDim S64x16 ![] bcast_S_S64x16),
    TRef.binary (.of main_v150) main_call5.v0 main_call5.v1 maximumf,
    unary main_arg3 main_v152 ((extractStridedSlice S1x256x16 ![2, 0, 0] · slices_S10x256x16_S1x256x16_2_0_0) : (⟨S10x256x16, .f32⟩ : BufTy).Contents (Elt F) → (⟨S1x256x16, .f32⟩ : BufTy).Contents (Elt F)),
    reshape main_v152 main_v153 rfl shapeCasts_S1x256x16_S256x16,
    unary main_v153 main_v154 ((transpose S16x256 [1, 0] · transposes_S256x16_S16x256_1_0) : (⟨S256x16, .f32⟩ : BufTy).Contents (Elt F) → (⟨S16x256, .f32⟩ : BufTy).Contents (Elt F)),
    binary main_v151 main_v154 main_v155 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v156 ((extractStridedSlice S1x256 ![2, 0] · slices_S10x256_S1x256_2_0) : (⟨S10x256, .f32⟩ : BufTy).Contents (Elt F) → (⟨S1x256, .f32⟩ : BufTy).Contents (Elt F)),
    reshape main_v156 main_v157 rfl shapeCasts_S1x256_S256,
    unary main_v157 main_v158 (broadcastInDim S1x256 ![1] bcast_S256_S1x256_1 : (⟨S256, .f32⟩ : BufTy).Contents (Elt F) → (⟨S1x256, .f32⟩ : BufTy).Contents (Elt F)),
    unary main_v158 main_v159 (broadcastInDim S64x256 ![0, 1] bcast_S1x256_S64x256_0_1 : (⟨S1x256, .f32⟩ : BufTy).Contents (Elt F) → (⟨S64x256, .f32⟩ : BufTy).Contents (Elt F)),
    binary main_v155 main_v159 main_v160 (addf : (⟨S64x256, .f32⟩ : BufTy).Contents (Elt F) → (⟨S64x256, .f32⟩ : BufTy).Contents (Elt F) → (⟨S64x256, .f32⟩ : BufTy).Contents (Elt F)),
    binary main_v141 main_v160 main_v161 (addf : (⟨S64x256, .f32⟩ : BufTy).Contents (Elt F) → (⟨S64x256, .f32⟩ : BufTy).Contents (Elt F) → (⟨S64x256, .f32⟩ : BufTy).Contents (Elt F)),
    unary main_v161 main_v162 (Host.negf : (⟨S64x256, .f32⟩ : BufTy).Contents (Elt F) → (⟨S64x256, .f32⟩ : BufTy).Contents (Elt F)),
    unary main_v162 main_v163 (Host.exp : (⟨S64x256, .f32⟩ : BufTy).Contents (Elt F) → (⟨S64x256, .f32⟩ : BufTy).Contents (Elt F)),
    nullary main_cst_34 (constant S_ .f32 0x3F800000#32),
    unary main_cst_34 main_v164 (broadcastInDim S64x256 ![] bcast_S_S64x256 : (⟨S_, .f32⟩ : BufTy).Contents (Elt F) → (⟨S64x256, .f32⟩ : BufTy).Contents (Elt F)),
    binary main_v164 main_v163 main_v165 (addf : (⟨S64x256, .f32⟩ : BufTy).Contents (Elt F) → (⟨S64x256, .f32⟩ : BufTy).Contents (Elt F) → (⟨S64x256, .f32⟩ : BufTy).Contents (Elt F)),
    nullary main_cst_35 (constant S_ .f32 0x3F800000#32),
    unary main_cst_35 main_v166 (broadcastInDim S64x256 ![] bcast_S_S64x256 : (⟨S_, .f32⟩ : BufTy).Contents (Elt F) → (⟨S64x256, .f32⟩ : BufTy).Contents (Elt F)),
    binary main_v166 main_v165 main_v167 (Host.divf : (⟨S64x256, .f32⟩ : BufTy).Contents (Elt F) → (⟨S64x256, .f32⟩ : BufTy).Contents (Elt F) → (⟨S64x256, .f32⟩ : BufTy).Contents (Elt F)),
    unary main_v167 main_v168 (broadcastInDim S64x256x1x1 ![0, 1] bcast_S64x256_S64x256x1x1_0_1 : (⟨S64x256, .f32⟩ : BufTy).Contents (Elt F) → (⟨S64x256x1x1, .f32⟩ : BufTy).Contents (Elt F)),
    unary main_v168 main_v169 (broadcastInDim S64x256x64x4 ![0, 1, 2, 3] bcast_S64x256x1x1_S64x256x64x4_0_1_2_3 : (⟨S64x256x1x1, .f32⟩ : BufTy).Contents (Elt F) → (⟨S64x256x64x4, .f32⟩ : BufTy).Contents (Elt F)),
    binary main_v118 main_v169 main_v170 (mulf : (⟨S64x256x64x4, .f32⟩ : BufTy).Contents (Elt F) → (⟨S64x256x64x4, .f32⟩ : BufTy).Contents (Elt F) → (⟨S64x256x64x4, .f32⟩ : BufTy).Contents (Elt F)),
    nullary main_c_36 (constantI S_ 32 50#32),
    unary main_c_36 main_v171 (broadcastInDim S6 ![] bcast_S_S6 : (⟨S_, .i32⟩ : BufTy).Contents (Elt F) → (⟨S6, .i32⟩ : BufTy).Contents (Elt F)),
    binary main_c_5 main_v171 main_v172 (addi : (⟨S6, .i32⟩ : BufTy).Contents (Elt F) → (⟨S6, .i32⟩ : BufTy).Contents (Elt F) → (⟨S6, .i32⟩ : BufTy).Contents (Elt F)),
    ternary main_c_6 main_v172 main_c_5 main_v173 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v173 main_v174 (broadcastInDim S6x1 ![0] bcast_S6_S6x1_0 : (⟨S6, .i32⟩ : BufTy).Contents (Elt F) → (⟨S6x1, .i32⟩ : BufTy).Contents (Elt F)),
    binary main_arg0 main_v174 main_v175 ((fun x i => Host.gather gather_S64x256x64x50_S6x1_S64x256x64x6_012_3_n_n_3_1_64256641 x i) : (⟨S64x256x64x50, .f32⟩ : BufTy).Contents (Elt F) → (⟨S6x1, .i32⟩ : BufTy).Contents (Elt F) → (⟨S64x256x64x6, .f32⟩ : BufTy).Contents (Elt F)),
    nullary main_cst_37 (constant S_ .f32 0x00000000#32),
    binary main_v175 main_cst_37 main_v176 ((fun x v => Host.reduceAdd x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    nullary main_cst_38 (constant S_ .f32 0x43C00000#32),
    unary main_cst_38 main_v177 (broadcastInDim S64x256 ![] bcast_S_S64x256 : (⟨S_, .f32⟩ : BufTy).Contents (Elt F) → (⟨S64x256, .f32⟩ : BufTy).Contents (Elt F)),
    binary main_v176 main_v177 main_v178 (Host.divf : (⟨S64x256, .f32⟩ : BufTy).Contents (Elt F) → (⟨S64x256, .f32⟩ : BufTy).Contents (Elt F) → (⟨S64x256, .f32⟩ : BufTy).Contents (Elt F)),
    nullary main_cst_39 (constant S_ .f32 0xFF800000#32),
    binary main_v175 main_cst_39 main_v179 ((fun x v => Host.reduce FloatOps.maximumf x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    unary main_arg1 main_v180 ((extractStridedSlice S1x16x256 ![3, 0, 0] · slices_S10x16x256_S1x16x256_3_0_0) : (⟨S10x16x256, .f32⟩ : BufTy).Contents (Elt F) → (⟨S1x16x256, .f32⟩ : BufTy).Contents (Elt F)),
    reshape main_v180 main_v181 rfl shapeCasts_S1x16x256_S16x256,
    unary main_v181 main_v182 ((transpose S256x16 [1, 0] · transposes_S16x256_S256x16_1_0) : (⟨S16x256, .f32⟩ : BufTy).Contents (Elt F) → (⟨S256x16, .f32⟩ : BufTy).Contents (Elt F)),
    binary main_v178 main_v182 main_v183 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v184 ((extractStridedSlice S1x16 ![3, 0] · slices_S10x16_S1x16_3_0) : (⟨S10x16, .f32⟩ : BufTy).Contents (Elt F) → (⟨S1x16, .f32⟩ : BufTy).Contents (Elt F)),
    reshape main_v184 main_v185 rfl shapeCasts_S1x16_S16,
    unary main_v185 main_v186 (broadcastInDim S1x16 ![1] bcast_S16_S1x16_1 : (⟨S16, .f32⟩ : BufTy).Contents (Elt F) → (⟨S1x16, .f32⟩ : BufTy).Contents (Elt F)),
    unary main_v186 main_v187 (broadcastInDim S64x16 ![0, 1] bcast_S1x16_S64x16_0_1 : (⟨S1x16, .f32⟩ : BufTy).Contents (Elt F) → (⟨S64x16, .f32⟩ : BufTy).Contents (Elt F)),
    binary main_v183 main_v187 main_v188 (addf : (⟨S64x16, .f32⟩ : BufTy).Contents (Elt F) → (⟨S64x16, .f32⟩ : BufTy).Contents (Elt F) → (⟨S64x16, .f32⟩ : BufTy).Contents (Elt F)),
    TRef.nullary main_call6.cst (constant S_ .f32 0x00000000#32),
    TRef.unary main_call6.cst main_call6.v0 (broadcastInDim S64x16 ![] bcast_S_S64x16),
    TRef.binary (.of main_v188) main_call6.v0 main_call6.v1 maximumf,
    unary main_arg3 main_v190 ((extractStridedSlice S1x256x16 ![3, 0, 0] · slices_S10x256x16_S1x256x16_3_0_0) : (⟨S10x256x16, .f32⟩ : BufTy).Contents (Elt F) → (⟨S1x256x16, .f32⟩ : BufTy).Contents (Elt F)),
    reshape main_v190 main_v191 rfl shapeCasts_S1x256x16_S256x16,
    unary main_v191 main_v192 ((transpose S16x256 [1, 0] · transposes_S256x16_S16x256_1_0) : (⟨S256x16, .f32⟩ : BufTy).Contents (Elt F) → (⟨S16x256, .f32⟩ : BufTy).Contents (Elt F)),
    binary main_v189 main_v192 main_v193 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v194 ((extractStridedSlice S1x256 ![3, 0] · slices_S10x256_S1x256_3_0) : (⟨S10x256, .f32⟩ : BufTy).Contents (Elt F) → (⟨S1x256, .f32⟩ : BufTy).Contents (Elt F)),
    reshape main_v194 main_v195 rfl shapeCasts_S1x256_S256,
    unary main_v195 main_v196 (broadcastInDim S1x256 ![1] bcast_S256_S1x256_1 : (⟨S256, .f32⟩ : BufTy).Contents (Elt F) → (⟨S1x256, .f32⟩ : BufTy).Contents (Elt F)),
    unary main_v196 main_v197 (broadcastInDim S64x256 ![0, 1] bcast_S1x256_S64x256_0_1 : (⟨S1x256, .f32⟩ : BufTy).Contents (Elt F) → (⟨S64x256, .f32⟩ : BufTy).Contents (Elt F)) ]

/-- The buffers window 3 writes, in order. -/
abbrev ops_part3_W : List (Ref sig .tc) :=
  [main_v144, main_v145, main_v146, main_v147, main_v148, main_v149, main_v150, main_call5_cst, main_call5_v0, main_v151, main_v152, main_v153, main_v154, main_v155, main_v156, main_v157, main_v158, main_v159, main_v160, main_v161, main_v162, main_v163, main_cst_34, main_v164, main_v165, main_cst_35, main_v166, main_v167, main_v168, main_v169, main_v170, main_c_36, main_v171, main_v172, main_v173, main_v174, main_v175, main_cst_37, main_v176, main_cst_38, main_v177, main_v178, main_cst_39, main_v179, main_v180, main_v181, main_v182, main_v183, main_v184, main_v185, main_v186, main_v187, main_v188, main_call6_cst, main_call6_v0, main_v189, main_v190, main_v191, main_v192, main_v193, main_v194, main_v195, main_v196, main_v197]

end Cert.ReferenceIdeal.RefRun

end
-- ==== Proof.RefRun.W3.lean ====
/- Window 3 of the reference's run (statements 181 … 240): the end of part 2 (left leg of person 1, 4 joints) — its
   gate and the re-weighted joints — and the beginning of part 3 (right hand of person 1, 6 joints). -/
import proofs.«140205_j1228360647386_2_alg».proof.Proof.RefRun.Ops3
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part3_eq (c : Dev nD) : main_part3 (F := F) c = seq ops_part3 := by
  simp only [main_part3, fn_relu.body, seq, bind_assoc, pure_bind]
  rfl

/-- Every operation of the window touches TensorCore buffers only. -/
theorem ops_part3_sub : (ops_part3 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part3_fresh : ∀ op ∈ (ops_part3 : List (HloOp τ sig (Elt F))), op.fresh = ∅ := by
  intro _ h
  repeat (cases h with | head => rfl | tail _ h => ?_)
  exact nomatch h

set_option maxRecDepth 8192 in
/-- Every operation of the window writes a buffer of the window's list. -/
theorem ops_part3_writes : (ops_part3 : List (HloOp τ sig (Elt F))).Forall fun op =>
    op.writes ⊆ (ops_part3_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part3_keep (W : Valuation τ sig (Elt F)) (r : Ref sig .tc) (h : r ∉ ops_part3_W) :
    after ops_part3 W (Proc.devRef .tc r) = W (Proc.devRef .tc r) :=
  after_of_writes_sub ops_part3 W ops_part3_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 2 of the output: the gathered joints times the gate `sigmoid (mlp avg + mlp max)`, from what the window before left. -/
theorem part3_main_v170 : after ops_part3 W (Proc.devRef .tc main_v170) = mulf (W (Proc.devRef .tc main_v118)) (gateBB4 (gateOf (W (Proc.devRef .tc main_v141)) (addf (lin2 (w2T (w2s2 (W (Proc.devRef .tc main_arg3)))) (relu (addf (lin1 (transpose S256x16 [1, 0] (W (Proc.devRef .tc main_v143)) transposes_S16x256_S256x16_1_0) (W (Proc.devRef .tc main_v122))) (b1B (b1s2 (W (Proc.devRef .tc main_arg2))))))) (b2B (b2s2 (W (Proc.devRef .tc main_arg4))))))) := by
  simp only [ops_part3]
  after_results_simp
  all_goals rfl

set_option maxRecDepth 8192 in
set_option maxHeartbeats 2000000 in
/-- The gathered joints of part 3. -/
theorem part3_main_v175 : after ops_part3 W (Proc.devRef .tc main_v175) = gath6 (W (Proc.devRef .tc main_arg0)) (idxColM6 (W (Proc.devRef .tc main_c_6)) (W (Proc.devRef .tc main_c_5))) := by
  simp only [ops_part3]
  after_results_simp
  all_goals rfl

set_option maxRecDepth 8192 in
set_option maxHeartbeats 2000000 in
/-- The maximum over time and joints, part 3. -/
theorem part3_main_v179 : after ops_part3 W (Proc.devRef .tc main_v179) = max6 (gath6 (W (Proc.devRef .tc main_arg0)) (idxColM6 (W (Proc.devRef .tc main_c_6)) (W (Proc.devRef .tc main_c_5)))) := by
  simp only [ops_part3]
  after_results_simp
  all_goals rfl

set_option maxRecDepth 8192 in
set_option maxHeartbeats 2000000 in
/-- The second product on the mean path, part 3. -/
theorem part3_main_v193 : after ops_part3 W (Proc.devRef .tc main_v193) = lin2 (w2T (w2s3 (W (Proc.devRef .tc main_arg3)))) (relu (hid (w1s3 (W (Proc.devRef .tc main_arg1))) (b1s3 (W (Proc.devRef .tc main_arg2))) (avg6 (gath6 (W (Proc.devRef .tc main_arg0)) (idxColM6 (W (Proc.devRef .tc main_c_6)) (W (Proc.devRef .tc main_c_5))))))) := by
  simp only [ops_part3]
  after_results_simp
  all_goals rfl

set_option maxRecDepth 8192 in
set_option maxHeartbeats 2000000 in
/-- The second layer's bias of part 3 laid over the rows. -/
theorem part3_main_v197 : after ops_part3 W (Proc.devRef .tc main_v197) = b2B (b2s3 (W (Proc.devRef .tc main_arg4))) := by
  simp only [ops_part3]
  after_results_simp
  all_goals rfl

end

end Cert.ReferenceIdeal.RefRun

end
-- ==== Proof.RefRun.Ops4.lean ====
/- Window 4 of the reference's @main (statements 241 … 300 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 4, in order. -/
abbrev ops_part4 : List (HloOp τ sig (Elt F)) :=
  [ binary main_v193 main_v197 main_v198 (addf : (⟨S64x256, .f32⟩ : BufTy).Contents (Elt F) → (⟨S64x256, .f32⟩ : BufTy).Contents (Elt F) → (⟨S64x256, .f32⟩ : BufTy).Contents (Elt F)),
    unary main_arg1 main_v199 ((extractStridedSlice S1x16x256 ![3, 0, 0] · slices_S10x16x256_S1x16x256_3_0_0) : (⟨S10x16x256, .f32⟩ : BufTy).Contents (Elt F) → (⟨S1x16x256, .f32⟩ : BufTy).Contents (Elt F)),
    reshape main_v199 main_v200 rfl shapeCasts_S1x16x256_S16x256,
    unary main_v200 main_v201 ((transpose S256x16 [1, 0] · transposes_S16x256_S256x16_1_0) : (⟨S16x256, .f32⟩ : BufTy).Contents (Elt F) → (⟨S256x16, .f32⟩ : BufTy).Contents (Elt F)),
    binary main_v179 main_v201 main_v202 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v203 ((extractStridedSlice S1x16 ![3, 0] · slices_S10x16_S1x16_3_0) : (⟨S10x16, .f32⟩ : BufTy).Contents (Elt F) → (⟨S1x16, .f32⟩ : BufTy).Contents (Elt F)),
    reshape main_v203 main_v204 rfl shapeCasts_S1x16_S16,
    unary main_v204 main_v205 (broadcastInDim S1x16 ![1] bcast_S16_S1x16_1 : (⟨S16, .f32⟩ : BufTy).Contents (Elt F) → (⟨S1x16, .f32⟩ : BufTy).Contents (Elt F)),
    unary main_v205 main_v206 (broadcastInDim S64x16 ![0, 1] bcast_S1x16_S64x16_0_1 : (⟨S1x16, .f32⟩ : BufTy).Contents (Elt F) → (⟨S64x16, .f32⟩ : BufTy).Contents (Elt F)),
    binary main_v202 main_v206 main_v207 (addf : (⟨S64x16, .f32⟩ : BufTy).Contents (Elt F) → (⟨S64x16, .f32⟩ : BufTy).Contents (Elt F) → (⟨S64x16, .f32⟩ : BufTy).Contents (Elt F)),
    TRef.nullary main_call7.cst (constant S_ .f32 0x00000000#32),
    TRef.unary main_call7.cst main_call7.v0 (broadcastInDim S64x16 ![] bcast_S_S64x16),
    TRef.binary (.of main_v207) main_call7.v0 main_call7.v1 maximumf,
    unary main_arg3 main_v209 ((extractStridedSlice S1x256x16 ![3, 0, 0] · slices_S10x256x16_S1x256x16_3_0_0) : (⟨S10x256x16, .f32⟩ : BufTy).Contents (Elt F) → (⟨S1x256x16, .f32⟩ : BufTy).Contents (Elt F)),
    reshape main_v209 main_v210 rfl shapeCasts_S1x256x16_S256x16,
    unary main_v210 main_v211 ((transpose S16x256 [1, 0] · transposes_S256x16_S16x256_1_0) : (⟨S256x16, .f32⟩ : BufTy).Contents (Elt F) → (⟨S16x256, .f32⟩ : BufTy).Contents (Elt F)),
    binary main_v208 main_v211 main_v212 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v213 ((extractStridedSlice S1x256 ![3, 0] · slices_S10x256_S1x256_3_0) : (⟨S10x256, .f32⟩ : BufTy).Contents (Elt F) → (⟨S1x256, .f32⟩ : BufTy).Contents (Elt F)),
    reshape main_v213 main_v214 rfl shapeCasts_S1x256_S256,
    unary main_v214 main_v215 (broadcastInDim S1x256 ![1] bcast_S256_S1x256_1 : (⟨S256, .f32⟩ : BufTy).Contents (Elt F) → (⟨S1x256, .f32⟩ : BufTy).Contents (Elt F)),
    unary main_v215 main_v216 (broadcastInDim S64x256 ![0, 1] bcast_S1x256_S64x256_0_1 : (⟨S1x256, .f32⟩ : BufTy).Contents (Elt F) → (⟨S64x256, .f32⟩ : BufTy).Contents (Elt F)),
    binary main_v212 main_v216 main_v217 (addf : (⟨S64x256, .f32⟩ : BufTy).Contents (Elt F) → (⟨S64x256, .f32⟩ : BufTy).Contents (Elt F) → (⟨S64x256, .f32⟩ : BufTy).Contents (Elt F)),
    binary main_v198 main_v217 main_v218 (addf : (⟨S64x256, .f32⟩ : BufTy).Contents (Elt F) → (⟨S64x256, .f32⟩ : BufTy).Contents (Elt F) → (⟨S64x256, .f32⟩ : BufTy).Contents (Elt F)),
    unary main_v218 main_v219 (Host.negf : (⟨S64x256, .f32⟩ : BufTy).Contents (Elt F) → (⟨S64x256, .f32⟩ : BufTy).Contents (Elt F)),
    unary main_v219 main_v220 (Host.exp : (⟨S64x256, .f32⟩ : BufTy).Contents (Elt F) → (⟨S64x256, .f32⟩ : BufTy).Contents (Elt F)),
    nullary main_cst_40 (constant S_ .f32 0x3F800000#32),
    unary main_cst_40 main_v221 (broadcastInDim S64x256 ![] bcast_S_S64x256 : (⟨S_, .f32⟩ : BufTy).Contents (Elt F) → (⟨S64x256, .f32⟩ : BufTy).Contents (Elt F)),
    binary main_v221 main_v220 main_v222 (addf : (⟨S64x256, .f32⟩ : BufTy).Contents (Elt F) → (⟨S64x256, .f32⟩ : BufTy).Contents (Elt F) → (⟨S64x256, .f32⟩ : BufTy).Contents (Elt F)),
    nullary main_cst_41 (constant S_ .f32 0x3F800000#32),
    unary main_cst_41 main_v223 (broadcastInDim S64x256 ![] bcast_S_S64x256 : (⟨S_, .f32⟩ : BufTy).Contents (Elt F) → (⟨S64x256, .f32⟩ : BufTy).Contents (Elt F)),
    binary main_v223 main_v222 main_v224 (Host.divf : (⟨S64x256, .f32⟩ : BufTy).Contents (Elt F) → (⟨S64x256, .f32⟩ : BufTy).Contents (Elt F) → (⟨S64x256, .f32⟩ : BufTy).Contents (Elt F)),
    unary main_v224 main_v225 (broadcastInDim S64x256x1x1 ![0, 1] bcast_S64x256_S64x256x1x1_0_1 : (⟨S64x256, .f32⟩ : BufTy).Contents (Elt F) → (⟨S64x256x1x1, .f32⟩ : BufTy).Contents (Elt F)),
    unary main_v225 main_v226 (broadcastInDim S64x256x64x6 ![0, 1, 2, 3] bcast_S64x256x1x1_S64x256x64x6_0_1_2_3 : (⟨S64x256x1x1, .f32⟩ : BufTy).Contents (Elt F) → (⟨S64x256x64x6, .f32⟩ : BufTy).Contents (Elt F)),
    binary main_v175 main_v226 main_v227 (mulf : (⟨S64x256x64x6, .f32⟩ : BufTy).Contents (Elt F) → (⟨S64x256x64x6, .f32⟩ : BufTy).Contents (Elt F) → (⟨S64x256x64x6, .f32⟩ : BufTy).Contents (Elt F)),
    nullary main_c_42 (constantI S_ 32 50#32),
    unary main_c_42 main_v228 (broadcastInDim S4 ![] bcast_S_S4 : (⟨S_, .i32⟩ : BufTy).Contents (Elt F) → (⟨S4, .i32⟩ : BufTy).Contents (Elt F)),
    binary main_c_7 main_v228 main_v229 (addi : (⟨S4, .i32⟩ : BufTy).Contents (Elt F) → (⟨S4, .i32⟩ : BufTy).Contents (Elt F) → (⟨S4, .i32⟩ : BufTy).Contents (Elt F)),
    ternary main_c_8 main_v229 main_c_7 main_v230 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v230 main_v231 (broadcastInDim S4x1 ![0] bcast_S4_S4x1_0 : (⟨S4, .i32⟩ : BufTy).Contents (Elt F) → (⟨S4x1, .i32⟩ : BufTy).Contents (Elt F)),
    binary main_arg0 main_v231 main_v232 ((fun x i => Host.gather gather_S64x256x64x50_S4x1_S64x256x64x4_012_3_n_n_3_1_64256641 x i) : (⟨S64x256x64x50, .f32⟩ : BufTy).Contents (Elt F) → (⟨S4x1, .i32⟩ : BufTy).Contents (Elt F) → (⟨S64x256x64x4, .f32⟩ : BufTy).Contents (Elt F)),
    nullary main_cst_43 (constant S_ .f32 0x00000000#32),
    binary main_v232 main_cst_43 main_v233 ((fun x v => Host.reduceAdd x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)),
    nullary main_cst_44 (constant S_ .f32 0x43800000#32),
    unary main_cst_44 main_v234 (broadcastInDim S64x256 ![] bcast_S_S64x256 : (⟨S_, .f32⟩ : BufTy).Contents (Elt F) → (⟨S64x256, .f32⟩ : BufTy).Contents (Elt F)),
    binary main_v233 main_v234 main_v235 (Host.divf : (⟨S64x256, .f32⟩ : BufTy).Contents (Elt F) → (⟨S64x256, .f32⟩ : BufTy).Contents (Elt F) → (⟨S64x256, .f32⟩ : BufTy).Contents (Elt F)),
    nullary main_cst_45 (constant S_ .f32 0xFF800000#32),
    binary main_v232 main_cst_45 main_v236 ((fun x v => Host.reduce FloatOps.maximumf x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)),
    unary main_arg1 main_v237 ((extractStridedSlice S1x16x256 ![4, 0, 0] · slices_S10x16x256_S1x16x256_4_0_0) : (⟨S10x16x256, .f32⟩ : BufTy).Contents (Elt F) → (⟨S1x16x256, .f32⟩ : BufTy).Contents (Elt F)),
    reshape main_v237 main_v238 rfl shapeCasts_S1x16x256_S16x256,
    unary main_v238 main_v239 ((transpose S256x16 [1, 0] · transposes_S16x256_S256x16_1_0) : (⟨S16x256, .f32⟩ : BufTy).Contents (Elt F) → (⟨S256x16, .f32⟩ : BufTy).Contents (Elt F)),
    binary main_v235 main_v239 main_v240 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v241 ((extractStridedSlice S1x16 ![4, 0] · slices_S10x16_S1x16_4_0) : (⟨S10x16, .f32⟩ : BufTy).Contents (Elt F) → (⟨S1x16, .f32⟩ : BufTy).Contents (Elt F)),
    reshape main_v241 main_v242 rfl shapeCasts_S1x16_S16,
    unary main_v242 main_v243 (broadcastInDim S1x16 ![1] bcast_S16_S1x16_1 : (⟨S16, .f32⟩ : BufTy).Contents (Elt F) → (⟨S1x16, .f32⟩ : BufTy).Contents (Elt F)),
    unary main_v243 main_v244 (broadcastInDim S64x16 ![0, 1] bcast_S1x16_S64x16_0_1 : (⟨S1x16, .f32⟩ : BufTy).Contents (Elt F) → (⟨S64x16, .f32⟩ : BufTy).Contents (Elt F)),
    binary main_v240 main_v244 main_v245 (addf : (⟨S64x16, .f32⟩ : BufTy).Contents (Elt F) → (⟨S64x16, .f32⟩ : BufTy).Contents (Elt F) → (⟨S64x16, .f32⟩ : BufTy).Contents (Elt F)),
    TRef.nullary main_call8.cst (constant S_ .f32 0x00000000#32),
    TRef.unary main_call8.cst main_call8.v0 (broadcastInDim S64x16 ![] bcast_S_S64x16),
    TRef.binary (.of main_v245) main_call8.v0 main_call8.v1 maximumf,
    unary main_arg3 main_v247 ((extractStridedSlice S1x256x16 ![4, 0, 0] · slices_S10x256x16_S1x256x16_4_0_0) : (⟨S10x256x16, .f32⟩ : BufTy).Contents (Elt F) → (⟨S1x256x16, .f32⟩ : BufTy).Contents (Elt F)),
    reshape main_v247 main_v248 rfl shapeCasts_S1x256x16_S256x16,
    unary main_v248 main_v249 ((transpose S16x256 [1, 0] · transposes_S256x16_S16x256_1_0) : (⟨S256x16, .f32⟩ : BufTy).Contents (Elt F) → (⟨S16x256, .f32⟩ : BufTy).Contents (Elt F)),
    binary main_v246 main_v249 main_v250 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v251 ((extractStridedSlice S1x256 ![4, 0] · slices_S10x256_S1x256_4_0) : (⟨S10x256, .f32⟩ : BufTy).Contents (Elt F) → (⟨S1x256, .f32⟩ : BufTy).Contents (Elt F)) ]

/-- The buffers window 4 writes, in order. -/
abbrev ops_part4_W : List (Ref sig .tc) :=
  [main_v198, main_v199, main_v200, main_v201, main_v202, main_v203, main_v204, main_v205, main_v206, main_v207, main_call7_cst, main_call7_v0, main_v208, main_v209, main_v210, main_v211, main_v212, main_v213, main_v214, main_v215, main_v216, main_v217, main_v218, main_v219, main_v220, main_cst_40, main_v221, main_v222, main_cst_41, main_v223, main_v224, main_v225, main_v226, main_v227, main_c_42, main_v228, main_v229, main_v230, main_v231, main_v232, main_cst_43, main_v233, main_cst_44, main_v234, main_v235, main_cst_45, main_v236, main_v237, main_v238, main_v239, main_v240, main_v241, main_v242, main_v243, main_v244, main_v245, main_call8_cst, main_call8_v0, main_v246, main_v247, main_v248, main_v249, main_v250, main_v251]

end Cert.ReferenceIdeal.RefRun

end
-- ==== Proof.RefRun.W4.lean ====
/- Window 4 of the reference's run (statements 241 … 300): the end of part 3 (right hand of person 1, 6 joints) — its
   gate and the re-weighted joints — and the beginning of part 4 (right leg of person 1, 4 joints). -/
import proofs.«140205_j1228360647386_2_alg».proof.Proof.RefRun.Ops4
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part4_eq (c : Dev nD) : main_part4 (F := F) c = seq ops_part4 := by
  simp only [main_part4, fn_relu.body, seq, bind_assoc, pure_bind]
  rfl

/-- Every operation of the window touches TensorCore buffers only. -/
theorem ops_part4_sub : (ops_part4 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part4_fresh : ∀ op ∈ (ops_part4 : List (HloOp τ sig (Elt F))), op.fresh = ∅ := by
  intro _ h
  repeat (cases h with | head => rfl | tail _ h => ?_)
  exact nomatch h

set_option maxRecDepth 8192 in
/-- Every operation of the window writes a buffer of the window's list. -/
theorem ops_part4_writes : (ops_part4 : List (HloOp τ sig (Elt F))).Forall fun op =>
    op.writes ⊆ (ops_part4_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part4_keep (W : Valuation τ sig (Elt F)) (r : Ref sig .tc) (h : r ∉ ops_part4_W) :
    after ops_part4 W (Proc.devRef .tc r) = W (Proc.devRef .tc r) :=
  after_of_writes_sub ops_part4 W ops_part4_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 3 of the output: the gathered joints times the gate `sigmoid (mlp avg + mlp max)`, from what the window before left. -/
theorem part4_main_v227 : after ops_part4 W (Proc.devRef .tc main_v227) = mulf (W (Proc.devRef .tc main_v175)) (gateBB6 (gateOf (addf (W (Proc.devRef .tc main_v193)) (W (Proc.devRef .tc main_v197))) (mlp (w1s3 (W (Proc.devRef .tc main_arg1))) (b1s3 (W (Proc.devRef .tc main_arg2))) (w2s3 (W (Proc.devRef .tc main_arg3))) (b2s3 (W (Proc.devRef .tc main_arg4))) (W (Proc.devRef .tc main_v179))))) := by
  simp only [ops_part4]
  after_results_simp
  all_goals rfl

set_option maxRecDepth 8192 in
set_option maxHeartbeats 2000000 in
/-- The gathered joints of part 4. -/
theorem part4_main_v232 : after ops_part4 W (Proc.devRef .tc main_v232) = gath4 (W (Proc.devRef .tc main_arg0)) (idxColM4 (W (Proc.devRef .tc main_c_8)) (W (Proc.devRef .tc main_c_7))) := by
  simp only [ops_part4]
  after_results_simp
  all_goals rfl

set_option maxRecDepth 8192 in
set_option maxHeartbeats 2000000 in
/-- The maximum over time and joints, part 4. -/
theorem part4_main_v236 : after ops_part4 W (Proc.devRef .tc main_v236) = max4 (gath4 (W (Proc.devRef .tc main_arg0)) (idxColM4 (W (Proc.devRef .tc main_c_8)) (W (Proc.devRef .tc main_c_7)))) := by
  simp only [ops_part4]
  after_results_simp
  all_goals rfl

set_option maxRecDepth 8192 in
set_option maxHeartbeats 2000000 in
/-- The second product on the mean path, part 4. -/
theorem part4_main_v250 : after ops_part4 W (Proc.devRef .tc main_v250) = lin2 (w2T (w2s4 (W (Proc.devRef .tc main_arg3)))) (relu (hid (w1s4 (W (Proc.devRef .tc main_arg1))) (b1s4 (W (Proc.devRef .tc main_arg2))) (avg4 (gath4 (W (Proc.devRef .tc main_arg0)) (idxColM4 (W (Proc.devRef .tc main_c_8)) (W (Proc.devRef .tc main_c_7))))))) := by
  simp only [ops_part4]
  after_results_simp
  all_goals rfl

set_option maxRecDepth 8192 in
set_option maxHeartbeats 2000000 in
/-- The slice `b2[4:5]`. -/
theorem part4_main_v251 : after ops_part4 W (Proc.devRef .tc main_v251) = b2s4 (W (Proc.devRef .tc main_arg4)) := by
  simp only [ops_part4]
  after_results_simp
  all_goals rfl

end

end Cert.ReferenceIdeal.RefRun

end
-- ==== Proof.RefRun.Ops5.lean ====
/- Window 5 of the reference's @main (statements 301 … 360 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 5, in order. -/
abbrev ops_part5 : List (HloOp τ sig (Elt F)) :=
  [ reshape main_v251 main_v252 rfl shapeCasts_S1x256_S256,
    unary main_v252 main_v253 (broadcastInDim S1x256 ![1] bcast_S256_S1x256_1 : (⟨S256, .f32⟩ : BufTy).Contents (Elt F) → (⟨S1x256, .f32⟩ : BufTy).Contents (Elt F)),
    unary main_v253 main_v254 (broadcastInDim S64x256 ![0, 1] bcast_S1x256_S64x256_0_1 : (⟨S1x256, .f32⟩ : BufTy).Contents (Elt F) → (⟨S64x256, .f32⟩ : BufTy).Contents (Elt F)),
    binary main_v250 main_v254 main_v255 (addf : (⟨S64x256, .f32⟩ : BufTy).Contents (Elt F) → (⟨S64x256, .f32⟩ : BufTy).Contents (Elt F) → (⟨S64x256, .f32⟩ : BufTy).Contents (Elt F)),
    unary main_arg1 main_v256 ((extractStridedSlice S1x16x256 ![4, 0, 0] · slices_S10x16x256_S1x16x256_4_0_0) : (⟨S10x16x256, .f32⟩ : BufTy).Contents (Elt F) → (⟨S1x16x256, .f32⟩ : BufTy).Contents (Elt F)),
    reshape main_v256 main_v257 rfl shapeCasts_S1x16x256_S16x256,
    unary main_v257 main_v258 ((transpose S256x16 [1, 0] · transposes_S16x256_S256x16_1_0) : (⟨S16x256, .f32⟩ : BufTy).Contents (Elt F) → (⟨S256x16, .f32⟩ : BufTy).Contents (Elt F)),
    binary main_v236 main_v258 main_v259 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v260 ((extractStridedSlice S1x16 ![4, 0] · slices_S10x16_S1x16_4_0) : (⟨S10x16, .f32⟩ : BufTy).Contents (Elt F) → (⟨S1x16, .f32⟩ : BufTy).Contents (Elt F)),
    reshape main_v260 main_v261 rfl shapeCasts_S1x16_S16,
    unary main_v261 main_v262 (broadcastInDim S1x16 ![1] bcast_S16_S1x16_1 : (⟨S16, .f32⟩ : BufTy).Contents (Elt F) → (⟨S1x16, .f32⟩ : BufTy).Contents (Elt F)),
    unary main_v262 main_v263 (broadcastInDim S64x16 ![0, 1] bcast_S1x16_S64x16_0_1 : (⟨S1x16, .f32⟩ : BufTy).Contents (Elt F) → (⟨S64x16, .f32⟩ : BufTy).Contents (Elt F)),
    binary main_v259 main_v263 main_v264 (addf : (⟨S64x16, .f32⟩ : BufTy).Contents (Elt F) → (⟨S64x16, .f32⟩ : BufTy).Contents (Elt F) → (⟨S64x16, .f32⟩ : BufTy).Contents (Elt F)),
    TRef.nullary main_call9.cst (constant S_ .f32 0x00000000#32),
    TRef.unary main_call9.cst main_call9.v0 (broadcastInDim S64x16 ![] bcast_S_S64x16),
    TRef.binary (.of main_v264) main_call9.v0 main_call9.v1 maximumf,
    unary main_arg3 main_v266 ((extractStridedSlice S1x256x16 ![4, 0, 0] · slices_S10x256x16_S1x256x16_4_0_0) : (⟨S10x256x16, .f32⟩ : BufTy).Contents (Elt F) → (⟨S1x256x16, .f32⟩ : BufTy).Contents (Elt F)),
    reshape main_v266 main_v267 rfl shapeCasts_S1x256x16_S256x16,
    unary main_v267 main_v268 ((transpose S16x256 [1, 0] · transposes_S256x16_S16x256_1_0) : (⟨S256x16, .f32⟩ : BufTy).Contents (Elt F) → (⟨S16x256, .f32⟩ : BufTy).Contents (Elt F)),
    binary main_v265 main_v268 main_v269 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v270 ((extractStridedSlice S1x256 ![4, 0] · slices_S10x256_S1x256_4_0) : (⟨S10x256, .f32⟩ : BufTy).Contents (Elt F) → (⟨S1x256, .f32⟩ : BufTy).Contents (Elt F)),
    reshape main_v270 main_v271 rfl shapeCasts_S1x256_S256,
    unary main_v271 main_v272 (broadcastInDim S1x256 ![1] bcast_S256_S1x256_1 : (⟨S256, .f32⟩ : BufTy).Contents (Elt F) → (⟨S1x256, .f32⟩ : BufTy).Contents (Elt F)),
    unary main_v272 main_v273 (broadcastInDim S64x256 ![0, 1] bcast_S1x256_S64x256_0_1 : (⟨S1x256, .f32⟩ : BufTy).Contents (Elt F) → (⟨S64x256, .f32⟩ : BufTy).Contents (Elt F)),
    binary main_v269 main_v273 main_v274 (addf : (⟨S64x256, .f32⟩ : BufTy).Contents (Elt F) → (⟨S64x256, .f32⟩ : BufTy).Contents (Elt F) → (⟨S64x256, .f32⟩ : BufTy).Contents (Elt F)),
    binary main_v255 main_v274 main_v275 (addf : (⟨S64x256, .f32⟩ : BufTy).Contents (Elt F) → (⟨S64x256, .f32⟩ : BufTy).Contents (Elt F) → (⟨S64x256, .f32⟩ : BufTy).Contents (Elt F)),
    unary main_v275 main_v276 (Host.negf : (⟨S64x256, .f32⟩ : BufTy).Contents (Elt F) → (⟨S64x256, .f32⟩ : BufTy).Contents (Elt F)),
    unary main_v276 main_v277 (Host.exp : (⟨S64x256, .f32⟩ : BufTy).Contents (Elt F) → (⟨S64x256, .f32⟩ : BufTy).Contents (Elt F)),
    nullary main_cst_46 (constant S_ .f32 0x3F800000#32),
    unary main_cst_46 main_v278 (broadcastInDim S64x256 ![] bcast_S_S64x256 : (⟨S_, .f32⟩ : BufTy).Contents (Elt F) → (⟨S64x256, .f32⟩ : BufTy).Contents (Elt F)),
    binary main_v278 main_v277 main_v279 (addf : (⟨S64x256, .f32⟩ : BufTy).Contents (Elt F) → (⟨S64x256, .f32⟩ : BufTy).Contents (Elt F) → (⟨S64x256, .f32⟩ : BufTy).Contents (Elt F)),
    nullary main_cst_47 (constant S_ .f32 0x3F800000#32),
    unary main_cst_47 main_v280 (broadcastInDim S64x256 ![] bcast_S_S64x256 : (⟨S_, .f32⟩ : BufTy).Contents (Elt F) → (⟨S64x256, .f32⟩ : BufTy).Contents (Elt F)),
    binary main_v280 main_v279 main_v281 (Host.divf : (⟨S64x256, .f32⟩ : BufTy).Contents (Elt F) → (⟨S64x256, .f32⟩ : BufTy).Contents (Elt F) → (⟨S64x256, .f32⟩ : BufTy).Contents (Elt F)),
    unary main_v281 main_v282 (broadcastInDim S64x256x1x1 ![0, 1] bcast_S64x256_S64x256x1x1_0_1 : (⟨S64x256, .f32⟩ : BufTy).Contents (Elt F) → (⟨S64x256x1x1, .f32⟩ : BufTy).Contents (Elt F)),
    unary main_v282 main_v283 (broadcastInDim S64x256x64x4 ![0, 1, 2, 3] bcast_S64x256x1x1_S64x256x64x4_0_1_2_3 : (⟨S64x256x1x1, .f32⟩ : BufTy).Contents (Elt F) → (⟨S64x256x64x4, .f32⟩ : BufTy).Contents (Elt F)),
    binary main_v232 main_v283 main_v284 (mulf : (⟨S64x256x64x4, .f32⟩ : BufTy).Contents (Elt F) → (⟨S64x256x64x4, .f32⟩ : BufTy).Contents (Elt F) → (⟨S64x256x64x4, .f32⟩ : BufTy).Contents (Elt F)),
    nullary main_c_48 (constantI S_ 32 50#32),
    unary main_c_48 main_v285 (broadcastInDim S5 ![] bcast_S_S5 : (⟨S_, .i32⟩ : BufTy).Contents (Elt F) → (⟨S5, .i32⟩ : BufTy).Contents (Elt F)),
    binary main_c_9 main_v285 main_v286 (addi : (⟨S5, .i32⟩ : BufTy).Contents (Elt F) → (⟨S5, .i32⟩ : BufTy).Contents (Elt F) → (⟨S5, .i32⟩ : BufTy).Contents (Elt F)),
    ternary main_c_10 main_v286 main_c_9 main_v287 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v287 main_v288 (broadcastInDim S5x1 ![0] bcast_S5_S5x1_0 : (⟨S5, .i32⟩ : BufTy).Contents (Elt F) → (⟨S5x1, .i32⟩ : BufTy).Contents (Elt F)),
    binary main_arg0 main_v288 main_v289 ((fun x i => Host.gather gather_S64x256x64x50_S5x1_S64x256x64x5_012_3_n_n_3_1_64256641 x i) : (⟨S64x256x64x50, .f32⟩ : BufTy).Contents (Elt F) → (⟨S5x1, .i32⟩ : BufTy).Contents (Elt F) → (⟨S64x256x64x5, .f32⟩ : BufTy).Contents (Elt F)),
    nullary main_cst_49 (constant S_ .f32 0x00000000#32),
    binary main_v289 main_cst_49 main_v290 ((fun x v => Host.reduceAdd x v reducesTo_S64x256x64x5_S64x256_d2_3 h_S_) : (⟨S64x256x64x5, .f32⟩ : BufTy).Contents (Elt F) → (⟨S_, .f32⟩ : BufTy).Contents (Elt F) → (⟨S64x256, .f32⟩ : BufTy).Contents (Elt F)),
    nullary main_cst_50 (constant S_ .f32 0x43A00000#32),
    unary main_cst_50 main_v291 (broadcastInDim S64x256 ![] bcast_S_S64x256 : (⟨S_, .f32⟩ : BufTy).Contents (Elt F) → (⟨S64x256, .f32⟩ : BufTy).Contents (Elt F)),
    binary main_v290 main_v291 main_v292 (Host.divf : (⟨S64x256, .f32⟩ : BufTy).Contents (Elt F) → (⟨S64x256, .f32⟩ : BufTy).Contents (Elt F) → (⟨S64x256, .f32⟩ : BufTy).Contents (Elt F)),
    nullary main_cst_51 (constant S_ .f32 0xFF800000#32),
    binary main_v289 main_cst_51 main_v293 ((fun x v => Host.reduce FloatOps.maximumf x v reducesTo_S64x256x64x5_S64x256_d2_3 h_S_) : (⟨S64x256x64x5, .f32⟩ : BufTy).Contents (Elt F) → (⟨S_, .f32⟩ : BufTy).Contents (Elt F) → (⟨S64x256, .f32⟩ : BufTy).Contents (Elt F)),
    unary main_arg1 main_v294 ((extractStridedSlice S1x16x256 ![5, 0, 0] · slices_S10x16x256_S1x16x256_5_0_0) : (⟨S10x16x256, .f32⟩ : BufTy).Contents (Elt F) → (⟨S1x16x256, .f32⟩ : BufTy).Contents (Elt F)),
    reshape main_v294 main_v295 rfl shapeCasts_S1x16x256_S16x256,
    unary main_v295 main_v296 ((transpose S256x16 [1, 0] · transposes_S16x256_S256x16_1_0) : (⟨S16x256, .f32⟩ : BufTy).Contents (Elt F) → (⟨S256x16, .f32⟩ : BufTy).Contents (Elt F)),
    binary main_v292 main_v296 main_v297 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v298 ((extractStridedSlice S1x16 ![5, 0] · slices_S10x16_S1x16_5_0) : (⟨S10x16, .f32⟩ : BufTy).Contents (Elt F) → (⟨S1x16, .f32⟩ : BufTy).Contents (Elt F)),
    reshape main_v298 main_v299 rfl shapeCasts_S1x16_S16,
    unary main_v299 main_v300 (broadcastInDim S1x16 ![1] bcast_S16_S1x16_1 : (⟨S16, .f32⟩ : BufTy).Contents (Elt F) → (⟨S1x16, .f32⟩ : BufTy).Contents (Elt F)),
    unary main_v300 main_v301 (broadcastInDim S64x16 ![0, 1] bcast_S1x16_S64x16_0_1 : (⟨S1x16, .f32⟩ : BufTy).Contents (Elt F) → (⟨S64x16, .f32⟩ : BufTy).Contents (Elt F)),
    binary main_v297 main_v301 main_v302 (addf : (⟨S64x16, .f32⟩ : BufTy).Contents (Elt F) → (⟨S64x16, .f32⟩ : BufTy).Contents (Elt F) → (⟨S64x16, .f32⟩ : BufTy).Contents (Elt F)),
    TRef.nullary main_call10.cst (constant S_ .f32 0x00000000#32),
    TRef.unary main_call10.cst main_call10.v0 (broadcastInDim S64x16 ![] bcast_S_S64x16),
    TRef.binary (.of main_v302) main_call10.v0 main_call10.v1 maximumf,
    unary main_arg3 main_v304 ((extractStridedSlice S1x256x16 ![5, 0, 0] · slices_S10x256x16_S1x256x16_5_0_0) : (⟨S10x256x16, .f32⟩ : BufTy).Contents (Elt F) → (⟨S1x256x16, .f32⟩ : BufTy).Contents (Elt F)),
    reshape main_v304 main_v305 rfl shapeCasts_S1x256x16_S256x16 ]

/-- The buffers window 5 writes, in order. -/
abbrev ops_part5_W : List (Ref sig .tc) :=
  [main_v252, main_v253, main_v254, main_v255, main_v256, main_v257, main_v258, main_v259, main_v260, main_v261, main_v262, main_v263, main_v264, main_call9_cst, main_call9_v0, main_v265, main_v266, main_v267, main_v268, main_v269, main_v270, main_v271, main_v272, main_v273, main_v274, main_v275, main_v276, main_v277, main_cst_46, main_v278, main_v279, main_cst_47, main_v280, main_v281, main_v282, main_v283, main_v284, main_c_48, main_v285, main_v286, main_v287, main_v288, main_v289, main_cst_49, main_v290, main_cst_50, main_v291, main_v292, main_cst_51, main_v293, main_v294, main_v295, main_v296, main_v297, main_v298, main_v299, main_v300, main_v301, main_v302, main_call10_cst, main_call10_v0, main_v303, main_v304, main_v305]

end Cert.ReferenceIdeal.RefRun

end
-- ==== Proof.RefRun.W5.lean ====
/- Window 5 of the reference's run (statements 301 … 360): the end of part 4 (right leg of person 1, 4 joints) — its
   gate and the re-weighted joints — and the beginning of part 5 (torso of person 2, 5 joints). -/
import proofs.«140205_j1228360647386_2_alg».proof.Proof.RefRun.Ops5
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part5_eq (c : Dev nD) : main_part5 (F := F) c = seq ops_part5 := by
  simp only [main_part5, fn_relu.body, seq, bind_assoc, pure_bind]
  rfl

/-- Every operation of the window touches TensorCore buffers only. -/
theorem ops_part5_sub : (ops_part5 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part5_fresh : ∀ op ∈ (ops_part5 : List (HloOp τ sig (Elt F))), op.fresh = ∅ := by
  intro _ h
  repeat (cases h with | head => rfl | tail _ h => ?_)
  exact nomatch h

set_option maxRecDepth 8192 in
/-- Every operation of the window writes a buffer of the window's list. -/
theorem ops_part5_writes : (ops_part5 : List (HloOp τ sig (Elt F))).Forall fun op =>
    op.writes ⊆ (ops_part5_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part5_keep (W : Valuation τ sig (Elt F)) (r : Ref sig .tc) (h : r ∉ ops_part5_W) :
    after ops_part5 W (Proc.devRef .tc r) = W (Proc.devRef .tc r) :=
  after_of_writes_sub ops_part5 W ops_part5_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 4 of the output: the gathered joints times the gate `sigmoid (mlp avg + mlp max)`, from what the window before left. -/
theorem part5_main_v284 : after ops_part5 W (Proc.devRef .tc main_v284) = mulf (W (Proc.devRef .tc main_v232)) (gateBB4 (gateOf (addf (W (Proc.devRef .tc main_v250)) (b2B (W (Proc.devRef .tc main_v251)))) (mlp (w1s4 (W (Proc.devRef .tc main_arg1))) (b1s4 (W (Proc.devRef .tc main_arg2))) (w2s4 (W (Proc.devRef .tc main_arg3))) (b2s4 (W (Proc.devRef .tc main_arg4))) (W (Proc.devRef .tc main_v236))))) := by
  simp only [ops_part5]
  after_results_simp
  all_goals rfl

set_option maxRecDepth 8192 in
set_option maxHeartbeats 2000000 in
/-- The gathered joints of part 5. -/
theorem part5_main_v289 : after ops_part5 W (Proc.devRef .tc main_v289) = gath5 (W (Proc.devRef .tc main_arg0)) (idxColM5 (W (Proc.devRef .tc main_c_10)) (W (Proc.devRef .tc main_c_9))) := by
  simp only [ops_part5]
  after_results_simp
  all_goals rfl

set_option maxRecDepth 8192 in
set_option maxHeartbeats 2000000 in
/-- The maximum over time and joints, part 5. -/
theorem part5_main_v293 : after ops_part5 W (Proc.devRef .tc main_v293) = max5 (gath5 (W (Proc.devRef .tc main_arg0)) (idxColM5 (W (Proc.devRef .tc main_c_10)) (W (Proc.devRef .tc main_c_9)))) := by
  simp only [ops_part5]
  after_results_simp
  all_goals rfl

set_option maxRecDepth 8192 in
set_option maxHeartbeats 2000000 in
/-- The hidden layer on the mean path, part 5. -/
theorem part5_main_v303 : after ops_part5 W (Proc.devRef .tc main_v303) = relu (hid (w1s5 (W (Proc.devRef .tc main_arg1))) (b1s5 (W (Proc.devRef .tc main_arg2))) (avg5 (gath5 (W (Proc.devRef .tc main_arg0)) (idxColM5 (W (Proc.devRef .tc main_c_10)) (W (Proc.devRef .tc main_c_9)))))) := by
  simp only [ops_part5]
  after_results_simp
  all_goals rfl

set_option maxRecDepth 8192 in
set_option maxHeartbeats 2000000 in
/-- `W2[5]` as a [256, 16] matrix. -/
theorem part5_main_v305 : after ops_part5 W (Proc.devRef .tc main_v305) = shapeCast S256x16 (w2s5 (W (Proc.devRef .tc main_arg3))) shapeCasts_S1x256x16_S256x16 := by
  simp only [ops_part5]
  after_results_simp
  all_goals rfl

end

end Cert.ReferenceIdeal.RefRun

end
-- ==== Proof.RefRun.Ops6.lean ====
/- Window 6 of the reference's @main (statements 361 … 420 of 652), as the list of its 62 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 6, in order. -/
abbrev ops_part6 : List (HloOp τ sig (Elt F)) :=
  [ unary main_v305 main_v306 ((transpose S16x256 [1, 0] · transposes_S256x16_S16x256_1_0) : (⟨S256x16, .f32⟩ : BufTy).Contents (Elt F) → (⟨S16x256, .f32⟩ : BufTy).Contents (Elt F)),
    binary main_v303 main_v306 main_v307 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v308 ((extractStridedSlice S1x256 ![5, 0] · slices_S10x256_S1x256_5_0) : (⟨S10x256, .f32⟩ : BufTy).Contents (Elt F) → (⟨S1x256, .f32⟩ : BufTy).Contents (Elt F)),
    reshape main_v308 main_v309 rfl shapeCasts_S1x256_S256,
    unary main_v309 main_v310 (broadcastInDim S1x256 ![1] bcast_S256_S1x256_1 : (⟨S256, .f32⟩ : BufTy).Contents (Elt F) → (⟨S1x256, .f32⟩ : BufTy).Contents (Elt F)),
    unary main_v310 main_v311 (broadcastInDim S64x256 ![0, 1] bcast_S1x256_S64x256_0_1 : (⟨S1x256, .f32⟩ : BufTy).Contents (Elt F) → (⟨S64x256, .f32⟩ : BufTy).Contents (Elt F)),
    binary main_v307 main_v311 main_v312 (addf : (⟨S64x256, .f32⟩ : BufTy).Contents (Elt F) → (⟨S64x256, .f32⟩ : BufTy).Contents (Elt F) → (⟨S64x256, .f32⟩ : BufTy).Contents (Elt F)),
    unary main_arg1 main_v313 ((extractStridedSlice S1x16x256 ![5, 0, 0] · slices_S10x16x256_S1x16x256_5_0_0) : (⟨S10x16x256, .f32⟩ : BufTy).Contents (Elt F) → (⟨S1x16x256, .f32⟩ : BufTy).Contents (Elt F)),
    reshape main_v313 main_v314 rfl shapeCasts_S1x16x256_S16x256,
    unary main_v314 main_v315 ((transpose S256x16 [1, 0] · transposes_S16x256_S256x16_1_0) : (⟨S16x256, .f32⟩ : BufTy).Contents (Elt F) → (⟨S256x16, .f32⟩ : BufTy).Contents (Elt F)),
    binary main_v293 main_v315 main_v316 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v317 ((extractStridedSlice S1x16 ![5, 0] · slices_S10x16_S1x16_5_0) : (⟨S10x16, .f32⟩ : BufTy).Contents (Elt F) → (⟨S1x16, .f32⟩ : BufTy).Contents (Elt F)),
    reshape main_v317 main_v318 rfl shapeCasts_S1x16_S16,
    unary main_v318 main_v319 (broadcastInDim S1x16 ![1] bcast_S16_S1x16_1 : (⟨S16, .f32⟩ : BufTy).Contents (Elt F) → (⟨S1x16, .f32⟩ : BufTy).Contents (Elt F)),
    unary main_v319 main_v320 (broadcastInDim S64x16 ![0, 1] bcast_S1x16_S64x16_0_1 : (⟨S1x16, .f32⟩ : BufTy).Contents (Elt F) → (⟨S64x16, .f32⟩ : BufTy).Contents (Elt F)),
    binary main_v316 main_v320 main_v321 (addf : (⟨S64x16, .f32⟩ : BufTy).Contents (Elt F) → (⟨S64x16, .f32⟩ : BufTy).Contents (Elt F) → (⟨S64x16, .f32⟩ : BufTy).Contents (Elt F)),
    TRef.nullary main_call11.cst (constant S_ .f32 0x00000000#32),
    TRef.unary main_call11.cst main_call11.v0 (broadcastInDim S64x16 ![] bcast_S_S64x16),
    TRef.binary (.of main_v321) main_call11.v0 main_call11.v1 maximumf,
    unary main_arg3 main_v323 ((extractStridedSlice S1x256x16 ![5, 0, 0] · slices_S10x256x16_S1x256x16_5_0_0) : (⟨S10x256x16, .f32⟩ : BufTy).Contents (Elt F) → (⟨S1x256x16, .f32⟩ : BufTy).Contents (Elt F)),
    reshape main_v323 main_v324 rfl shapeCasts_S1x256x16_S256x16,
    unary main_v324 main_v325 ((transpose S16x256 [1, 0] · transposes_S256x16_S16x256_1_0) : (⟨S256x16, .f32⟩ : BufTy).Contents (Elt F) → (⟨S16x256, .f32⟩ : BufTy).Contents (Elt F)),
    binary main_v322 main_v325 main_v326 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v327 ((extractStridedSlice S1x256 ![5, 0] · slices_S10x256_S1x256_5_0) : (⟨S10x256, .f32⟩ : BufTy).Contents (Elt F) → (⟨S1x256, .f32⟩ : BufTy).Contents (Elt F)),
    reshape main_v327 main_v328 rfl shapeCasts_S1x256_S256,
    unary main_v328 main_v329 (broadcastInDim S1x256 ![1] bcast_S256_S1x256_1 : (⟨S256, .f32⟩ : BufTy).Contents (Elt F) → (⟨S1x256, .f32⟩ : BufTy).Contents (Elt F)),
    unary main_v329 main_v330 (broadcastInDim S64x256 ![0, 1] bcast_S1x256_S64x256_0_1 : (⟨S1x256, .f32⟩ : BufTy).Contents (Elt F) → (⟨S64x256, .f32⟩ : BufTy).Contents (Elt F)),
    binary main_v326 main_v330 main_v331 (addf : (⟨S64x256, .f32⟩ : BufTy).Contents (Elt F) → (⟨S64x256, .f32⟩ : BufTy).Contents (Elt F) → (⟨S64x256, .f32⟩ : BufTy).Contents (Elt F)),
    binary main_v312 main_v331 main_v332 (addf : (⟨S64x256, .f32⟩ : BufTy).Contents (Elt F) → (⟨S64x256, .f32⟩ : BufTy).Contents (Elt F) → (⟨S64x256, .f32⟩ : BufTy).Contents (Elt F)),
    unary main_v332 main_v333 (Host.negf : (⟨S64x256, .f32⟩ : BufTy).Contents (Elt F) → (⟨S64x256, .f32⟩ : BufTy).Contents (Elt F)),
    unary main_v333 main_v334 (Host.exp : (⟨S64x256, .f32⟩ : BufTy).Contents (Elt F) → (⟨S64x256, .f32⟩ : BufTy).Contents (Elt F)),
    nullary main_cst_52 (constant S_ .f32 0x3F800000#32),
    unary main_cst_52 main_v335 (broadcastInDim S64x256 ![] bcast_S_S64x256 : (⟨S_, .f32⟩ : BufTy).Contents (Elt F) → (⟨S64x256, .f32⟩ : BufTy).Contents (Elt F)),
    binary main_v335 main_v334 main_v336 (addf : (⟨S64x256, .f32⟩ : BufTy).Contents (Elt F) → (⟨S64x256, .f32⟩ : BufTy).Contents (Elt F) → (⟨S64x256, .f32⟩ : BufTy).Contents (Elt F)),
    nullary main_cst_53 (constant S_ .f32 0x3F800000#32),
    unary main_cst_53 main_v337 (broadcastInDim S64x256 ![] bcast_S_S64x256 : (⟨S_, .f32⟩ : BufTy).Contents (Elt F) → (⟨S64x256, .f32⟩ : BufTy).Contents (Elt F)),
    binary main_v337 main_v336 main_v338 (Host.divf : (⟨S64x256, .f32⟩ : BufTy).Contents (Elt F) → (⟨S64x256, .f32⟩ : BufTy).Contents (Elt F) → (⟨S64x256, .f32⟩ : BufTy).Contents (Elt F)),
    unary main_v338 main_v339 (broadcastInDim S64x256x1x1 ![0, 1] bcast_S64x256_S64x256x1x1_0_1 : (⟨S64x256, .f32⟩ : BufTy).Contents (Elt F) → (⟨S64x256x1x1, .f32⟩ : BufTy).Contents (Elt F)),
    unary main_v339 main_v340 (broadcastInDim S64x256x64x5 ![0, 1, 2, 3] bcast_S64x256x1x1_S64x256x64x5_0_1_2_3 : (⟨S64x256x1x1, .f32⟩ : BufTy).Contents (Elt F) → (⟨S64x256x64x5, .f32⟩ : BufTy).Contents (Elt F)),
    binary main_v289 main_v340 main_v341 (mulf : (⟨S64x256x64x5, .f32⟩ : BufTy).Contents (Elt F) → (⟨S64x256x64x5, .f32⟩ : BufTy).Contents (Elt F) → (⟨S64x256x64x5, .f32⟩ : BufTy).Contents (Elt F)),
    nullary main_c_54 (constantI S_ 32 50#32),
    unary main_c_54 main_v342 (broadcastInDim S6 ![] bcast_S_S6 : (⟨S_, .i32⟩ : BufTy).Contents (Elt F) → (⟨S6, .i32⟩ : BufTy).Contents (Elt F)),
    binary main_c_11 main_v342 main_v343 (addi : (⟨S6, .i32⟩ : BufTy).Contents (Elt F) → (⟨S6, .i32⟩ : BufTy).Contents (Elt F) → (⟨S6, .i32⟩ : BufTy).Contents (Elt F)),
    ternary main_c_12 main_v343 main_c_11 main_v344 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v344 main_v345 (broadcastInDim S6x1 ![0] bcast_S6_S6x1_0 : (⟨S6, .i32⟩ : BufTy).Contents (Elt F) → (⟨S6x1, .i32⟩ : BufTy).Contents (Elt F)),
    binary main_arg0 main_v345 main_v346 ((fun x i => Host.gather gather_S64x256x64x50_S6x1_S64x256x64x6_012_3_n_n_3_1_64256641 x i) : (⟨S64x256x64x50, .f32⟩ : BufTy).Contents (Elt F) → (⟨S6x1, .i32⟩ : BufTy).Contents (Elt F) → (⟨S64x256x64x6, .f32⟩ : BufTy).Contents (Elt F)),
    nullary main_cst_55 (constant S_ .f32 0x00000000#32),
    binary main_v346 main_cst_55 main_v347 ((fun x v => Host.reduceAdd x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    nullary main_cst_56 (constant S_ .f32 0x43C00000#32),
    unary main_cst_56 main_v348 (broadcastInDim S64x256 ![] bcast_S_S64x256 : (⟨S_, .f32⟩ : BufTy).Contents (Elt F) → (⟨S64x256, .f32⟩ : BufTy).Contents (Elt F)),
    binary main_v347 main_v348 main_v349 (Host.divf : (⟨S64x256, .f32⟩ : BufTy).Contents (Elt F) → (⟨S64x256, .f32⟩ : BufTy).Contents (Elt F) → (⟨S64x256, .f32⟩ : BufTy).Contents (Elt F)),
    nullary main_cst_57 (constant S_ .f32 0xFF800000#32),
    binary main_v346 main_cst_57 main_v350 ((fun x v => Host.reduce FloatOps.maximumf x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    unary main_arg1 main_v351 ((extractStridedSlice S1x16x256 ![6, 0, 0] · slices_S10x16x256_S1x16x256_6_0_0) : (⟨S10x16x256, .f32⟩ : BufTy).Contents (Elt F) → (⟨S1x16x256, .f32⟩ : BufTy).Contents (Elt F)),
    reshape main_v351 main_v352 rfl shapeCasts_S1x16x256_S16x256,
    unary main_v352 main_v353 ((transpose S256x16 [1, 0] · transposes_S16x256_S256x16_1_0) : (⟨S16x256, .f32⟩ : BufTy).Contents (Elt F) → (⟨S256x16, .f32⟩ : BufTy).Contents (Elt F)),
    binary main_v349 main_v353 main_v354 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v355 ((extractStridedSlice S1x16 ![6, 0] · slices_S10x16_S1x16_6_0) : (⟨S10x16, .f32⟩ : BufTy).Contents (Elt F) → (⟨S1x16, .f32⟩ : BufTy).Contents (Elt F)),
    reshape main_v355 main_v356 rfl shapeCasts_S1x16_S16,
    unary main_v356 main_v357 (broadcastInDim S1x16 ![1] bcast_S16_S1x16_1 : (⟨S16, .f32⟩ : BufTy).Contents (Elt F) → (⟨S1x16, .f32⟩ : BufTy).Contents (Elt F)),
    unary main_v357 main_v358 (broadcastInDim S64x16 ![0, 1] bcast_S1x16_S64x16_0_1 : (⟨S1x16, .f32⟩ : BufTy).Contents (Elt F) → (⟨S64x16, .f32⟩ : BufTy).Contents (Elt F)),
    binary main_v354 main_v358 main_v359 (addf : (⟨S64x16, .f32⟩ : BufTy).Contents (Elt F) → (⟨S64x16, .f32⟩ : BufTy).Contents (Elt F) → (⟨S64x16, .f32⟩ : BufTy).Contents (Elt F)) ]

/-- The buffers window 6 writes, in order. -/
abbrev ops_part6_W : List (Ref sig .tc) :=
  [main_v306, main_v307, main_v308, main_v309, main_v310, main_v311, main_v312, main_v313, main_v314, main_v315, main_v316, main_v317, main_v318, main_v319, main_v320, main_v321, main_call11_cst, main_call11_v0, main_v322, main_v323, main_v324, main_v325, main_v326, main_v327, main_v328, main_v329, main_v330, main_v331, main_v332, main_v333, main_v334, main_cst_52, main_v335, main_v336, main_cst_53, main_v337, main_v338, main_v339, main_v340, main_v341, main_c_54, main_v342, main_v343, main_v344, main_v345, main_v346, main_cst_55, main_v347, main_cst_56, main_v348, main_v349, main_cst_57, main_v350, main_v351, main_v352, main_v353, main_v354, main_v355, main_v356, main_v357, main_v358, main_v359]

end Cert.ReferenceIdeal.RefRun

end
-- ==== Proof.RefRun.W6.lean ====
/- Window 6 of the reference's run (statements 361 … 420): the end of part 5 (torso of person 2, 5 joints) — its
   gate and the re-weighted joints — and the beginning of part 6 (left hand of person 2, 6 joints). -/
import proofs.«140205_j1228360647386_2_alg».proof.Proof.RefRun.Ops6
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part6_eq (c : Dev nD) : main_part6 (F := F) c = seq ops_part6 := by
  simp only [main_part6, fn_relu.body, seq, bind_assoc, pure_bind]
  rfl

/-- Every operation of the window touches TensorCore buffers only. -/
theorem ops_part6_sub : (ops_part6 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part6_fresh : ∀ op ∈ (ops_part6 : List (HloOp τ sig (Elt F))), op.fresh = ∅ := by
  intro _ h
  repeat (cases h with | head => rfl | tail _ h => ?_)
  exact nomatch h

set_option maxRecDepth 8192 in
/-- Every operation of the window writes a buffer of the window's list. -/
theorem ops_part6_writes : (ops_part6 : List (HloOp τ sig (Elt F))).Forall fun op =>
    op.writes ⊆ (ops_part6_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part6_keep (W : Valuation τ sig (Elt F)) (r : Ref sig .tc) (h : r ∉ ops_part6_W) :
    after ops_part6 W (Proc.devRef .tc r) = W (Proc.devRef .tc r) :=
  after_of_writes_sub ops_part6 W ops_part6_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 5 of the output: the gathered joints times the gate `sigmoid (mlp avg + mlp max)`, from what the window before left. -/
theorem part6_main_v341 : after ops_part6 W (Proc.devRef .tc main_v341) = mulf (W (Proc.devRef .tc main_v289)) (gateBB5 (gateOf (addf (lin2 (transpose S16x256 [1, 0] (W (Proc.devRef .tc main_v305)) transposes_S256x16_S16x256_1_0) (W (Proc.devRef .tc main_v303))) (b2B (b2s5 (W (Proc.devRef .tc main_arg4))))) (mlp (w1s5 (W (Proc.devRef .tc main_arg1))) (b1s5 (W (Proc.devRef .tc main_arg2))) (w2s5 (W (Proc.devRef .tc main_arg3))) (b2s5 (W (Proc.devRef .tc main_arg4))) (W (Proc.devRef .tc main_v293))))) := by
  simp only [ops_part6]
  after_results_simp
  all_goals rfl

set_option maxRecDepth 8192 in
set_option maxHeartbeats 2000000 in
/-- The gathered joints of part 6. -/
theorem part6_main_v346 : after ops_part6 W (Proc.devRef .tc main_v346) = gath6 (W (Proc.devRef .tc main_arg0)) (idxColM6 (W (Proc.devRef .tc main_c_12)) (W (Proc.devRef .tc main_c_11))) := by
  simp only [ops_part6]
  after_results_simp
  all_goals rfl

set_option maxRecDepth 8192 in
set_option maxHeartbeats 2000000 in
/-- The maximum over time and joints, part 6. -/
theorem part6_main_v350 : after ops_part6 W (Proc.devRef .tc main_v350) = max6 (gath6 (W (Proc.devRef .tc main_arg0)) (idxColM6 (W (Proc.devRef .tc main_c_12)) (W (Proc.devRef .tc main_c_11)))) := by
  simp only [ops_part6]
  after_results_simp
  all_goals rfl

set_option maxRecDepth 8192 in
set_option maxHeartbeats 2000000 in
/-- The hidden layer before the relu on the mean path, part 6. -/
theorem part6_main_v359 : after ops_part6 W (Proc.devRef .tc main_v359) = hid (w1s6 (W (Proc.devRef .tc main_arg1))) (b1s6 (W (Proc.devRef .tc main_arg2))) (avg6 (gath6 (W (Proc.devRef .tc main_arg0)) (idxColM6 (W (Proc.devRef .tc main_c_12)) (W (Proc.devRef .tc main_c_11))))) := by
  simp only [ops_part6]
  after_results_simp
  all_goals rfl

end

end Cert.ReferenceIdeal.RefRun

end
-- ==== Proof.RefRun.Ops7.lean ====
/- Window 7 of the reference's @main (statements 421 … 480 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 7, in order. -/
abbrev ops_part7 : List (HloOp τ sig (Elt F)) :=
  [ TRef.nullary main_call12.cst (constant S_ .f32 0x00000000#32),
    TRef.unary main_call12.cst main_call12.v0 (broadcastInDim S64x16 ![] bcast_S_S64x16),
    TRef.binary (.of main_v359) main_call12.v0 main_call12.v1 maximumf,
    unary main_arg3 main_v361 ((extractStridedSlice S1x256x16 ![6, 0, 0] · slices_S10x256x16_S1x256x16_6_0_0) : (⟨S10x256x16, .f32⟩ : BufTy).Contents (Elt F) → (⟨S1x256x16, .f32⟩ : BufTy).Contents (Elt F)),
    reshape main_v361 main_v362 rfl shapeCasts_S1x256x16_S256x16,
    unary main_v362 main_v363 ((transpose S16x256 [1, 0] · transposes_S256x16_S16x256_1_0) : (⟨S256x16, .f32⟩ : BufTy).Contents (Elt F) → (⟨S16x256, .f32⟩ : BufTy).Contents (Elt F)),
    binary main_v360 main_v363 main_v364 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v365 ((extractStridedSlice S1x256 ![6, 0] · slices_S10x256_S1x256_6_0) : (⟨S10x256, .f32⟩ : BufTy).Contents (Elt F) → (⟨S1x256, .f32⟩ : BufTy).Contents (Elt F)),
    reshape main_v365 main_v366 rfl shapeCasts_S1x256_S256,
    unary main_v366 main_v367 (broadcastInDim S1x256 ![1] bcast_S256_S1x256_1 : (⟨S256, .f32⟩ : BufTy).Contents (Elt F) → (⟨S1x256, .f32⟩ : BufTy).Contents (Elt F)),
    unary main_v367 main_v368 (broadcastInDim S64x256 ![0, 1] bcast_S1x256_S64x256_0_1 : (⟨S1x256, .f32⟩ : BufTy).Contents (Elt F) → (⟨S64x256, .f32⟩ : BufTy).Contents (Elt F)),
    binary main_v364 main_v368 main_v369 (addf : (⟨S64x256, .f32⟩ : BufTy).Contents (Elt F) → (⟨S64x256, .f32⟩ : BufTy).Contents (Elt F) → (⟨S64x256, .f32⟩ : BufTy).Contents (Elt F)),
    unary main_arg1 main_v370 ((extractStridedSlice S1x16x256 ![6, 0, 0] · slices_S10x16x256_S1x16x256_6_0_0) : (⟨S10x16x256, .f32⟩ : BufTy).Contents (Elt F) → (⟨S1x16x256, .f32⟩ : BufTy).Contents (Elt F)),
    reshape main_v370 main_v371 rfl shapeCasts_S1x16x256_S16x256,
    unary main_v371 main_v372 ((transpose S256x16 [1, 0] · transposes_S16x256_S256x16_1_0) : (⟨S16x256, .f32⟩ : BufTy).Contents (Elt F) → (⟨S256x16, .f32⟩ : BufTy).Contents (Elt F)),
    binary main_v350 main_v372 main_v373 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v374 ((extractStridedSlice S1x16 ![6, 0] · slices_S10x16_S1x16_6_0) : (⟨S10x16, .f32⟩ : BufTy).Contents (Elt F) → (⟨S1x16, .f32⟩ : BufTy).Contents (Elt F)),
    reshape main_v374 main_v375 rfl shapeCasts_S1x16_S16,
    unary main_v375 main_v376 (broadcastInDim S1x16 ![1] bcast_S16_S1x16_1 : (⟨S16, .f32⟩ : BufTy).Contents (Elt F) → (⟨S1x16, .f32⟩ : BufTy).Contents (Elt F)),
    unary main_v376 main_v377 (broadcastInDim S64x16 ![0, 1] bcast_S1x16_S64x16_0_1 : (⟨S1x16, .f32⟩ : BufTy).Contents (Elt F) → (⟨S64x16, .f32⟩ : BufTy).Contents (Elt F)),
    binary main_v373 main_v377 main_v378 (addf : (⟨S64x16, .f32⟩ : BufTy).Contents (Elt F) → (⟨S64x16, .f32⟩ : BufTy).Contents (Elt F) → (⟨S64x16, .f32⟩ : BufTy).Contents (Elt F)),
    TRef.nullary main_call13.cst (constant S_ .f32 0x00000000#32),
    TRef.unary main_call13.cst main_call13.v0 (broadcastInDim S64x16 ![] bcast_S_S64x16),
    TRef.binary (.of main_v378) main_call13.v0 main_call13.v1 maximumf,
    unary main_arg3 main_v380 ((extractStridedSlice S1x256x16 ![6, 0, 0] · slices_S10x256x16_S1x256x16_6_0_0) : (⟨S10x256x16, .f32⟩ : BufTy).Contents (Elt F) → (⟨S1x256x16, .f32⟩ : BufTy).Contents (Elt F)),
    reshape main_v380 main_v381 rfl shapeCasts_S1x256x16_S256x16,
    unary main_v381 main_v382 ((transpose S16x256 [1, 0] · transposes_S256x16_S16x256_1_0) : (⟨S256x16, .f32⟩ : BufTy).Contents (Elt F) → (⟨S16x256, .f32⟩ : BufTy).Contents (Elt F)),
    binary main_v379 main_v382 main_v383 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v384 ((extractStridedSlice S1x256 ![6, 0] · slices_S10x256_S1x256_6_0) : (⟨S10x256, .f32⟩ : BufTy).Contents (Elt F) → (⟨S1x256, .f32⟩ : BufTy).Contents (Elt F)),
    reshape main_v384 main_v385 rfl shapeCasts_S1x256_S256,
    unary main_v385 main_v386 (broadcastInDim S1x256 ![1] bcast_S256_S1x256_1 : (⟨S256, .f32⟩ : BufTy).Contents (Elt F) → (⟨S1x256, .f32⟩ : BufTy).Contents (Elt F)),
    unary main_v386 main_v387 (broadcastInDim S64x256 ![0, 1] bcast_S1x256_S64x256_0_1 : (⟨S1x256, .f32⟩ : BufTy).Contents (Elt F) → (⟨S64x256, .f32⟩ : BufTy).Contents (Elt F)),
    binary main_v383 main_v387 main_v388 (addf : (⟨S64x256, .f32⟩ : BufTy).Contents (Elt F) → (⟨S64x256, .f32⟩ : BufTy).Contents (Elt F) → (⟨S64x256, .f32⟩ : BufTy).Contents (Elt F)),
    binary main_v369 main_v388 main_v389 (addf : (⟨S64x256, .f32⟩ : BufTy).Contents (Elt F) → (⟨S64x256, .f32⟩ : BufTy).Contents (Elt F) → (⟨S64x256, .f32⟩ : BufTy).Contents (Elt F)),
    unary main_v389 main_v390 (Host.negf : (⟨S64x256, .f32⟩ : BufTy).Contents (Elt F) → (⟨S64x256, .f32⟩ : BufTy).Contents (Elt F)),
    unary main_v390 main_v391 (Host.exp : (⟨S64x256, .f32⟩ : BufTy).Contents (Elt F) → (⟨S64x256, .f32⟩ : BufTy).Contents (Elt F)),
    nullary main_cst_58 (constant S_ .f32 0x3F800000#32),
    unary main_cst_58 main_v392 (broadcastInDim S64x256 ![] bcast_S_S64x256 : (⟨S_, .f32⟩ : BufTy).Contents (Elt F) → (⟨S64x256, .f32⟩ : BufTy).Contents (Elt F)),
    binary main_v392 main_v391 main_v393 (addf : (⟨S64x256, .f32⟩ : BufTy).Contents (Elt F) → (⟨S64x256, .f32⟩ : BufTy).Contents (Elt F) → (⟨S64x256, .f32⟩ : BufTy).Contents (Elt F)),
    nullary main_cst_59 (constant S_ .f32 0x3F800000#32),
    unary main_cst_59 main_v394 (broadcastInDim S64x256 ![] bcast_S_S64x256 : (⟨S_, .f32⟩ : BufTy).Contents (Elt F) → (⟨S64x256, .f32⟩ : BufTy).Contents (Elt F)),
    binary main_v394 main_v393 main_v395 (Host.divf : (⟨S64x256, .f32⟩ : BufTy).Contents (Elt F) → (⟨S64x256, .f32⟩ : BufTy).Contents (Elt F) → (⟨S64x256, .f32⟩ : BufTy).Contents (Elt F)),
    unary main_v395 main_v396 (broadcastInDim S64x256x1x1 ![0, 1] bcast_S64x256_S64x256x1x1_0_1 : (⟨S64x256, .f32⟩ : BufTy).Contents (Elt F) → (⟨S64x256x1x1, .f32⟩ : BufTy).Contents (Elt F)),
    unary main_v396 main_v397 (broadcastInDim S64x256x64x6 ![0, 1, 2, 3] bcast_S64x256x1x1_S64x256x64x6_0_1_2_3 : (⟨S64x256x1x1, .f32⟩ : BufTy).Contents (Elt F) → (⟨S64x256x64x6, .f32⟩ : BufTy).Contents (Elt F)),
    binary main_v346 main_v397 main_v398 (mulf : (⟨S64x256x64x6, .f32⟩ : BufTy).Contents (Elt F) → (⟨S64x256x64x6, .f32⟩ : BufTy).Contents (Elt F) → (⟨S64x256x64x6, .f32⟩ : BufTy).Contents (Elt F)),
    nullary main_c_60 (constantI S_ 32 50#32),
    unary main_c_60 main_v399 (broadcastInDim S4 ![] bcast_S_S4 : (⟨S_, .i32⟩ : BufTy).Contents (Elt F) → (⟨S4, .i32⟩ : BufTy).Contents (Elt F)),
    binary main_c_13 main_v399 main_v400 (addi : (⟨S4, .i32⟩ : BufTy).Contents (Elt F) → (⟨S4, .i32⟩ : BufTy).Contents (Elt F) → (⟨S4, .i32⟩ : BufTy).Contents (Elt F)),
    ternary main_c_14 main_v400 main_c_13 main_v401 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v401 main_v402 (broadcastInDim S4x1 ![0] bcast_S4_S4x1_0 : (⟨S4, .i32⟩ : BufTy).Contents (Elt F) → (⟨S4x1, .i32⟩ : BufTy).Contents (Elt F)),
    binary main_arg0 main_v402 main_v403 ((fun x i => Host.gather gather_S64x256x64x50_S4x1_S64x256x64x4_012_3_n_n_3_1_64256641 x i) : (⟨S64x256x64x50, .f32⟩ : BufTy).Contents (Elt F) → (⟨S4x1, .i32⟩ : BufTy).Contents (Elt F) → (⟨S64x256x64x4, .f32⟩ : BufTy).Contents (Elt F)),
    nullary main_cst_61 (constant S_ .f32 0x00000000#32),
    binary main_v403 main_cst_61 main_v404 ((fun x v => Host.reduceAdd x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)),
    nullary main_cst_62 (constant S_ .f32 0x43800000#32),
    unary main_cst_62 main_v405 (broadcastInDim S64x256 ![] bcast_S_S64x256 : (⟨S_, .f32⟩ : BufTy).Contents (Elt F) → (⟨S64x256, .f32⟩ : BufTy).Contents (Elt F)),
    binary main_v404 main_v405 main_v406 (Host.divf : (⟨S64x256, .f32⟩ : BufTy).Contents (Elt F) → (⟨S64x256, .f32⟩ : BufTy).Contents (Elt F) → (⟨S64x256, .f32⟩ : BufTy).Contents (Elt F)),
    nullary main_cst_63 (constant S_ .f32 0xFF800000#32),
    binary main_v403 main_cst_63 main_v407 ((fun x v => Host.reduce FloatOps.maximumf x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)),
    unary main_arg1 main_v408 ((extractStridedSlice S1x16x256 ![7, 0, 0] · slices_S10x16x256_S1x16x256_7_0_0) : (⟨S10x16x256, .f32⟩ : BufTy).Contents (Elt F) → (⟨S1x16x256, .f32⟩ : BufTy).Contents (Elt F)),
    reshape main_v408 main_v409 rfl shapeCasts_S1x16x256_S16x256,
    unary main_v409 main_v410 ((transpose S256x16 [1, 0] · transposes_S16x256_S256x16_1_0) : (⟨S16x256, .f32⟩ : BufTy).Contents (Elt F) → (⟨S256x16, .f32⟩ : BufTy).Contents (Elt F)),
    binary main_v406 main_v410 main_v411 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v412 ((extractStridedSlice S1x16 ![7, 0] · slices_S10x16_S1x16_7_0) : (⟨S10x16, .f32⟩ : BufTy).Contents (Elt F) → (⟨S1x16, .f32⟩ : BufTy).Contents (Elt F)),
    reshape main_v412 main_v413 rfl shapeCasts_S1x16_S16 ]

/-- The buffers window 7 writes, in order. -/
abbrev ops_part7_W : List (Ref sig .tc) :=
  [main_call12_cst, main_call12_v0, main_v360, main_v361, main_v362, main_v363, main_v364, main_v365, main_v366, main_v367, main_v368, main_v369, main_v370, main_v371, main_v372, main_v373, main_v374, main_v375, main_v376, main_v377, main_v378, main_call13_cst, main_call13_v0, main_v379, main_v380, main_v381, main_v382, main_v383, main_v384, main_v385, main_v386, main_v387, main_v388, main_v389, main_v390, main_v391, main_cst_58, main_v392, main_v393, main_cst_59, main_v394, main_v395, main_v396, main_v397, main_v398, main_c_60, main_v399, main_v400, main_v401, main_v402, main_v403, main_cst_61, main_v404, main_cst_62, main_v405, main_v406, main_cst_63, main_v407, main_v408, main_v409, main_v410, main_v411, main_v412, main_v413]

end Cert.ReferenceIdeal.RefRun

end
-- ==== Proof.RefRun.W7.lean ====
/- Window 7 of the reference's run (statements 421 … 480): the end of part 6 (left hand of person 2, 6 joints) — its
   gate and the re-weighted joints — and the beginning of part 7 (left leg of person 2, 4 joints). -/
import proofs.«140205_j1228360647386_2_alg».proof.Proof.RefRun.Ops7
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part7_eq (c : Dev nD) : main_part7 (F := F) c = seq ops_part7 := by
  simp only [main_part7, fn_relu.body, seq, bind_assoc, pure_bind]
  rfl

/-- Every operation of the window touches TensorCore buffers only. -/
theorem ops_part7_sub : (ops_part7 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part7_fresh : ∀ op ∈ (ops_part7 : List (HloOp τ sig (Elt F))), op.fresh = ∅ := by
  intro _ h
  repeat (cases h with | head => rfl | tail _ h => ?_)
  exact nomatch h

set_option maxRecDepth 8192 in
/-- Every operation of the window writes a buffer of the window's list. -/
theorem ops_part7_writes : (ops_part7 : List (HloOp τ sig (Elt F))).Forall fun op =>
    op.writes ⊆ (ops_part7_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part7_keep (W : Valuation τ sig (Elt F)) (r : Ref sig .tc) (h : r ∉ ops_part7_W) :
    after ops_part7 W (Proc.devRef .tc r) = W (Proc.devRef .tc r) :=
  after_of_writes_sub ops_part7 W ops_part7_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 6 of the output: the gathered joints times the gate `sigmoid (mlp avg + mlp max)`, from what the window before left. -/
theorem part7_main_v398 : after ops_part7 W (Proc.devRef .tc main_v398) = mulf (W (Proc.devRef .tc main_v346)) (gateBB6 (gateOf (addf (lin2 (w2T (w2s6 (W (Proc.devRef .tc main_arg3)))) (relu (W (Proc.devRef .tc main_v359)))) (b2B (b2s6 (W (Proc.devRef .tc main_arg4))))) (mlp (w1s6 (W (Proc.devRef .tc main_arg1))) (b1s6 (W (Proc.devRef .tc main_arg2))) (w2s6 (W (Proc.devRef .tc main_arg3))) (b2s6 (W (Proc.devRef .tc main_arg4))) (W (Proc.devRef .tc main_v350))))) := by
  simp only [ops_part7]
  after_results_simp
  all_goals rfl

set_option maxRecDepth 8192 in
set_option maxHeartbeats 2000000 in
/-- The gathered joints of part 7. -/
theorem part7_main_v403 : after ops_part7 W (Proc.devRef .tc main_v403) = gath4 (W (Proc.devRef .tc main_arg0)) (idxColM4 (W (Proc.devRef .tc main_c_14)) (W (Proc.devRef .tc main_c_13))) := by
  simp only [ops_part7]
  after_results_simp
  all_goals rfl

set_option maxRecDepth 8192 in
set_option maxHeartbeats 2000000 in
/-- The maximum over time and joints, part 7. -/
theorem part7_main_v407 : after ops_part7 W (Proc.devRef .tc main_v407) = max4 (gath4 (W (Proc.devRef .tc main_arg0)) (idxColM4 (W (Proc.devRef .tc main_c_14)) (W (Proc.devRef .tc main_c_13)))) := by
  simp only [ops_part7]
  after_results_simp
  all_goals rfl

set_option maxRecDepth 8192 in
set_option maxHeartbeats 2000000 in
/-- The first product on the mean path, part 7: `avg @ W1[7].T`. -/
theorem part7_main_v411 : after ops_part7 W (Proc.devRef .tc main_v411) = lin1 (w1T (w1s7 (W (Proc.devRef .tc main_arg1)))) (avg4 (gath4 (W (Proc.devRef .tc main_arg0)) (idxColM4 (W (Proc.devRef .tc main_c_14)) (W (Proc.devRef .tc main_c_13))))) := by
  simp only [ops_part7]
  after_results_simp
  all_goals rfl

set_option maxRecDepth 8192 in
set_option maxHeartbeats 2000000 in
/-- `b1[7]` as a vector of 16. -/
theorem part7_main_v413 : after ops_part7 W (Proc.devRef .tc main_v413) = shapeCast S16 (b1s7 (W (Proc.devRef .tc main_arg2))) shapeCasts_S1x16_S16 := by
  simp only [ops_part7]
  after_results_simp
  all_goals rfl

end

end Cert.ReferenceIdeal.RefRun

end
-- ==== Proof.RefRun.Ops8.lean ====
/- Window 8 of the reference's @main (statements 481 … 540 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 8, in order. -/
abbrev ops_part8 : List (HloOp τ sig (Elt F)) :=
  [ unary main_v413 main_v414 (broadcastInDim S1x16 ![1] bcast_S16_S1x16_1 : (⟨S16, .f32⟩ : BufTy).Contents (Elt F) → (⟨S1x16, .f32⟩ : BufTy).Contents (Elt F)),
    unary main_v414 main_v415 (broadcastInDim S64x16 ![0, 1] bcast_S1x16_S64x16_0_1 : (⟨S1x16, .f32⟩ : BufTy).Contents (Elt F) → (⟨S64x16, .f32⟩ : BufTy).Contents (Elt F)),
    binary main_v411 main_v415 main_v416 (addf : (⟨S64x16, .f32⟩ : BufTy).Contents (Elt F) → (⟨S64x16, .f32⟩ : BufTy).Contents (Elt F) → (⟨S64x16, .f32⟩ : BufTy).Contents (Elt F)),
    TRef.nullary main_call14.cst (constant S_ .f32 0x00000000#32),
    TRef.unary main_call14.cst main_call14.v0 (broadcastInDim S64x16 ![] bcast_S_S64x16),
    TRef.binary (.of main_v416) main_call14.v0 main_call14.v1 maximumf,
    unary main_arg3 main_v418 ((extractStridedSlice S1x256x16 ![7, 0, 0] · slices_S10x256x16_S1x256x16_7_0_0) : (⟨S10x256x16, .f32⟩ : BufTy).Contents (Elt F) → (⟨S1x256x16, .f32⟩ : BufTy).Contents (Elt F)),
    reshape main_v418 main_v419 rfl shapeCasts_S1x256x16_S256x16,
    unary main_v419 main_v420 ((transpose S16x256 [1, 0] · transposes_S256x16_S16x256_1_0) : (⟨S256x16, .f32⟩ : BufTy).Contents (Elt F) → (⟨S16x256, .f32⟩ : BufTy).Contents (Elt F)),
    binary main_v417 main_v420 main_v421 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v422 ((extractStridedSlice S1x256 ![7, 0] · slices_S10x256_S1x256_7_0) : (⟨S10x256, .f32⟩ : BufTy).Contents (Elt F) → (⟨S1x256, .f32⟩ : BufTy).Contents (Elt F)),
    reshape main_v422 main_v423 rfl shapeCasts_S1x256_S256,
    unary main_v423 main_v424 (broadcastInDim S1x256 ![1] bcast_S256_S1x256_1 : (⟨S256, .f32⟩ : BufTy).Contents (Elt F) → (⟨S1x256, .f32⟩ : BufTy).Contents (Elt F)),
    unary main_v424 main_v425 (broadcastInDim S64x256 ![0, 1] bcast_S1x256_S64x256_0_1 : (⟨S1x256, .f32⟩ : BufTy).Contents (Elt F) → (⟨S64x256, .f32⟩ : BufTy).Contents (Elt F)),
    binary main_v421 main_v425 main_v426 (addf : (⟨S64x256, .f32⟩ : BufTy).Contents (Elt F) → (⟨S64x256, .f32⟩ : BufTy).Contents (Elt F) → (⟨S64x256, .f32⟩ : BufTy).Contents (Elt F)),
    unary main_arg1 main_v427 ((extractStridedSlice S1x16x256 ![7, 0, 0] · slices_S10x16x256_S1x16x256_7_0_0) : (⟨S10x16x256, .f32⟩ : BufTy).Contents (Elt F) → (⟨S1x16x256, .f32⟩ : BufTy).Contents (Elt F)),
    reshape main_v427 main_v428 rfl shapeCasts_S1x16x256_S16x256,
    unary main_v428 main_v429 ((transpose S256x16 [1, 0] · transposes_S16x256_S256x16_1_0) : (⟨S16x256, .f32⟩ : BufTy).Contents (Elt F) → (⟨S256x16, .f32⟩ : BufTy).Contents (Elt F)),
    binary main_v407 main_v429 main_v430 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v431 ((extractStridedSlice S1x16 ![7, 0] · slices_S10x16_S1x16_7_0) : (⟨S10x16, .f32⟩ : BufTy).Contents (Elt F) → (⟨S1x16, .f32⟩ : BufTy).Contents (Elt F)),
    reshape main_v431 main_v432 rfl shapeCasts_S1x16_S16,
    unary main_v432 main_v433 (broadcastInDim S1x16 ![1] bcast_S16_S1x16_1 : (⟨S16, .f32⟩ : BufTy).Contents (Elt F) → (⟨S1x16, .f32⟩ : BufTy).Contents (Elt F)),
    unary main_v433 main_v434 (broadcastInDim S64x16 ![0, 1] bcast_S1x16_S64x16_0_1 : (⟨S1x16, .f32⟩ : BufTy).Contents (Elt F) → (⟨S64x16, .f32⟩ : BufTy).Contents (Elt F)),
    binary main_v430 main_v434 main_v435 (addf : (⟨S64x16, .f32⟩ : BufTy).Contents (Elt F) → (⟨S64x16, .f32⟩ : BufTy).Contents (Elt F) → (⟨S64x16, .f32⟩ : BufTy).Contents (Elt F)),
    TRef.nullary main_call15.cst (constant S_ .f32 0x00000000#32),
    TRef.unary main_call15.cst main_call15.v0 (broadcastInDim S64x16 ![] bcast_S_S64x16),
    TRef.binary (.of main_v435) main_call15.v0 main_call15.v1 maximumf,
    unary main_arg3 main_v437 ((extractStridedSlice S1x256x16 ![7, 0, 0] · slices_S10x256x16_S1x256x16_7_0_0) : (⟨S10x256x16, .f32⟩ : BufTy).Contents (Elt F) → (⟨S1x256x16, .f32⟩ : BufTy).Contents (Elt F)),
    reshape main_v437 main_v438 rfl shapeCasts_S1x256x16_S256x16,
    unary main_v438 main_v439 ((transpose S16x256 [1, 0] · transposes_S256x16_S16x256_1_0) : (⟨S256x16, .f32⟩ : BufTy).Contents (Elt F) → (⟨S16x256, .f32⟩ : BufTy).Contents (Elt F)),
    binary main_v436 main_v439 main_v440 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v441 ((extractStridedSlice S1x256 ![7, 0] · slices_S10x256_S1x256_7_0) : (⟨S10x256, .f32⟩ : BufTy).Contents (Elt F) → (⟨S1x256, .f32⟩ : BufTy).Contents (Elt F)),
    reshape main_v441 main_v442 rfl shapeCasts_S1x256_S256,
    unary main_v442 main_v443 (broadcastInDim S1x256 ![1] bcast_S256_S1x256_1 : (⟨S256, .f32⟩ : BufTy).Contents (Elt F) → (⟨S1x256, .f32⟩ : BufTy).Contents (Elt F)),
    unary main_v443 main_v444 (broadcastInDim S64x256 ![0, 1] bcast_S1x256_S64x256_0_1 : (⟨S1x256, .f32⟩ : BufTy).Contents (Elt F) → (⟨S64x256, .f32⟩ : BufTy).Contents (Elt F)),
    binary main_v440 main_v444 main_v445 (addf : (⟨S64x256, .f32⟩ : BufTy).Contents (Elt F) → (⟨S64x256, .f32⟩ : BufTy).Contents (Elt F) → (⟨S64x256, .f32⟩ : BufTy).Contents (Elt F)),
    binary main_v426 main_v445 main_v446 (addf : (⟨S64x256, .f32⟩ : BufTy).Contents (Elt F) → (⟨S64x256, .f32⟩ : BufTy).Contents (Elt F) → (⟨S64x256, .f32⟩ : BufTy).Contents (Elt F)),
    unary main_v446 main_v447 (Host.negf : (⟨S64x256, .f32⟩ : BufTy).Contents (Elt F) → (⟨S64x256, .f32⟩ : BufTy).Contents (Elt F)),
    unary main_v447 main_v448 (Host.exp : (⟨S64x256, .f32⟩ : BufTy).Contents (Elt F) → (⟨S64x256, .f32⟩ : BufTy).Contents (Elt F)),
    nullary main_cst_64 (constant S_ .f32 0x3F800000#32),
    unary main_cst_64 main_v449 (broadcastInDim S64x256 ![] bcast_S_S64x256 : (⟨S_, .f32⟩ : BufTy).Contents (Elt F) → (⟨S64x256, .f32⟩ : BufTy).Contents (Elt F)),
    binary main_v449 main_v448 main_v450 (addf : (⟨S64x256, .f32⟩ : BufTy).Contents (Elt F) → (⟨S64x256, .f32⟩ : BufTy).Contents (Elt F) → (⟨S64x256, .f32⟩ : BufTy).Contents (Elt F)),
    nullary main_cst_65 (constant S_ .f32 0x3F800000#32),
    unary main_cst_65 main_v451 (broadcastInDim S64x256 ![] bcast_S_S64x256 : (⟨S_, .f32⟩ : BufTy).Contents (Elt F) → (⟨S64x256, .f32⟩ : BufTy).Contents (Elt F)),
    binary main_v451 main_v450 main_v452 (Host.divf : (⟨S64x256, .f32⟩ : BufTy).Contents (Elt F) → (⟨S64x256, .f32⟩ : BufTy).Contents (Elt F) → (⟨S64x256, .f32⟩ : BufTy).Contents (Elt F)),
    unary main_v452 main_v453 (broadcastInDim S64x256x1x1 ![0, 1] bcast_S64x256_S64x256x1x1_0_1 : (⟨S64x256, .f32⟩ : BufTy).Contents (Elt F) → (⟨S64x256x1x1, .f32⟩ : BufTy).Contents (Elt F)),
    unary main_v453 main_v454 (broadcastInDim S64x256x64x4 ![0, 1, 2, 3] bcast_S64x256x1x1_S64x256x64x4_0_1_2_3 : (⟨S64x256x1x1, .f32⟩ : BufTy).Contents (Elt F) → (⟨S64x256x64x4, .f32⟩ : BufTy).Contents (Elt F)),
    binary main_v403 main_v454 main_v455 (mulf : (⟨S64x256x64x4, .f32⟩ : BufTy).Contents (Elt F) → (⟨S64x256x64x4, .f32⟩ : BufTy).Contents (Elt F) → (⟨S64x256x64x4, .f32⟩ : BufTy).Contents (Elt F)),
    nullary main_c_66 (constantI S_ 32 50#32),
    unary main_c_66 main_v456 (broadcastInDim S6 ![] bcast_S_S6 : (⟨S_, .i32⟩ : BufTy).Contents (Elt F) → (⟨S6, .i32⟩ : BufTy).Contents (Elt F)),
    binary main_c_15 main_v456 main_v457 (addi : (⟨S6, .i32⟩ : BufTy).Contents (Elt F) → (⟨S6, .i32⟩ : BufTy).Contents (Elt F) → (⟨S6, .i32⟩ : BufTy).Contents (Elt F)),
    ternary main_c_16 main_v457 main_c_15 main_v458 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v458 main_v459 (broadcastInDim S6x1 ![0] bcast_S6_S6x1_0 : (⟨S6, .i32⟩ : BufTy).Contents (Elt F) → (⟨S6x1, .i32⟩ : BufTy).Contents (Elt F)),
    binary main_arg0 main_v459 main_v460 ((fun x i => Host.gather gather_S64x256x64x50_S6x1_S64x256x64x6_012_3_n_n_3_1_64256641 x i) : (⟨S64x256x64x50, .f32⟩ : BufTy).Contents (Elt F) → (⟨S6x1, .i32⟩ : BufTy).Contents (Elt F) → (⟨S64x256x64x6, .f32⟩ : BufTy).Contents (Elt F)),
    nullary main_cst_67 (constant S_ .f32 0x00000000#32),
    binary main_v460 main_cst_67 main_v461 ((fun x v => Host.reduceAdd x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    nullary main_cst_68 (constant S_ .f32 0x43C00000#32),
    unary main_cst_68 main_v462 (broadcastInDim S64x256 ![] bcast_S_S64x256 : (⟨S_, .f32⟩ : BufTy).Contents (Elt F) → (⟨S64x256, .f32⟩ : BufTy).Contents (Elt F)),
    binary main_v461 main_v462 main_v463 (Host.divf : (⟨S64x256, .f32⟩ : BufTy).Contents (Elt F) → (⟨S64x256, .f32⟩ : BufTy).Contents (Elt F) → (⟨S64x256, .f32⟩ : BufTy).Contents (Elt F)),
    nullary main_cst_69 (constant S_ .f32 0xFF800000#32),
    binary main_v460 main_cst_69 main_v464 ((fun x v => Host.reduce FloatOps.maximumf x v reducesTo_S64x256x64x6_S64x256_d2_3 h_S_) : (⟨S64x256x64x6, .f32⟩ : BufTy).Contents (Elt F) → (⟨S_, .f32⟩ : BufTy).Contents (Elt F) → (⟨S64x256, .f32⟩ : BufTy).Contents (Elt F)),
    unary main_arg1 main_v465 ((extractStridedSlice S1x16x256 ![8, 0, 0] · slices_S10x16x256_S1x16x256_8_0_0) : (⟨S10x16x256, .f32⟩ : BufTy).Contents (Elt F) → (⟨S1x16x256, .f32⟩ : BufTy).Contents (Elt F)),
    reshape main_v465 main_v466 rfl shapeCasts_S1x16x256_S16x256,
    unary main_v466 main_v467 ((transpose S256x16 [1, 0] · transposes_S16x256_S256x16_1_0) : (⟨S16x256, .f32⟩ : BufTy).Contents (Elt F) → (⟨S256x16, .f32⟩ : BufTy).Contents (Elt F)) ]

/-- The buffers window 8 writes, in order. -/
abbrev ops_part8_W : List (Ref sig .tc) :=
  [main_v414, main_v415, main_v416, main_call14_cst, main_call14_v0, main_v417, main_v418, main_v419, main_v420, main_v421, main_v422, main_v423, main_v424, main_v425, main_v426, main_v427, main_v428, main_v429, main_v430, main_v431, main_v432, main_v433, main_v434, main_v435, main_call15_cst, main_call15_v0, main_v436, main_v437, main_v438, main_v439, main_v440, main_v441, main_v442, main_v443, main_v444, main_v445, main_v446, main_v447, main_v448, main_cst_64, main_v449, main_v450, main_cst_65, main_v451, main_v452, main_v453, main_v454, main_v455, main_c_66, main_v456, main_v457, main_v458, main_v459, main_v460, main_cst_67, main_v461, main_cst_68, main_v462, main_v463, main_cst_69, main_v464, main_v465, main_v466, main_v467]

end Cert.ReferenceIdeal.RefRun

end
-- ==== Proof.RefRun.W8.lean ====
/- Window 8 of the reference's run (statements 481 … 540): the end of part 7 (left leg of person 2, 4 joints) — its
   gate and the re-weighted joints — and the beginning of part 8 (right hand of person 2, 6 joints). -/
import proofs.«140205_j1228360647386_2_alg».proof.Proof.RefRun.Ops8
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part8_eq (c : Dev nD) : main_part8 (F := F) c = seq ops_part8 := by
  simp only [main_part8, fn_relu.body, seq, bind_assoc, pure_bind]
  rfl

/-- Every operation of the window touches TensorCore buffers only. -/
theorem ops_part8_sub : (ops_part8 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part8_fresh : ∀ op ∈ (ops_part8 : List (HloOp τ sig (Elt F))), op.fresh = ∅ := by
  intro _ h
  repeat (cases h with | head => rfl | tail _ h => ?_)
  exact nomatch h

set_option maxRecDepth 8192 in
/-- Every operation of the window writes a buffer of the window's list. -/
theorem ops_part8_writes : (ops_part8 : List (HloOp τ sig (Elt F))).Forall fun op =>
    op.writes ⊆ (ops_part8_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part8_keep (W : Valuation τ sig (Elt F)) (r : Ref sig .tc) (h : r ∉ ops_part8_W) :
    after ops_part8 W (Proc.devRef .tc r) = W (Proc.devRef .tc r) :=
  after_of_writes_sub ops_part8 W ops_part8_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 7 of the output: the gathered joints times the gate `sigmoid (mlp avg + mlp max)`, from what the window before left. -/
theorem part8_main_v455 : after ops_part8 W (Proc.devRef .tc main_v455) = mulf (W (Proc.devRef .tc main_v403)) (gateBB4 (gateOf (addf (lin2 (w2T (w2s7 (W (Proc.devRef .tc main_arg3)))) (relu (addf (W (Proc.devRef .tc main_v411)) (broadcastInDim S64x16 ![0, 1] bcast_S1x16_S64x16_0_1 (broadcastInDim S1x16 ![1] bcast_S16_S1x16_1 (W (Proc.devRef .tc main_v413))))))) (b2B (b2s7 (W (Proc.devRef .tc main_arg4))))) (mlp (w1s7 (W (Proc.devRef .tc main_arg1))) (b1s7 (W (Proc.devRef .tc main_arg2))) (w2s7 (W (Proc.devRef .tc main_arg3))) (b2s7 (W (Proc.devRef .tc main_arg4))) (W (Proc.devRef .tc main_v407))))) := by
  simp only [ops_part8]
  after_results_simp
  all_goals rfl

set_option maxRecDepth 8192 in
set_option maxHeartbeats 2000000 in
/-- The gathered joints of part 8. -/
theorem part8_main_v460 : after ops_part8 W (Proc.devRef .tc main_v460) = gath6 (W (Proc.devRef .tc main_arg0)) (idxColM6 (W (Proc.devRef .tc main_c_16)) (W (Proc.devRef .tc main_c_15))) := by
  simp only [ops_part8]
  after_results_simp
  all_goals rfl

set_option maxRecDepth 8192 in
set_option maxHeartbeats 2000000 in
/-- The mean over time and joints, part 8. -/
theorem part8_main_v463 : after ops_part8 W (Proc.devRef .tc main_v463) = avg6 (gath6 (W (Proc.devRef .tc main_arg0)) (idxColM6 (W (Proc.devRef .tc main_c_16)) (W (Proc.devRef .tc main_c_15)))) := by
  simp only [ops_part8]
  after_results_simp
  all_goals rfl

set_option maxRecDepth 8192 in
set_option maxHeartbeats 2000000 in
/-- The maximum over time and joints, part 8. -/
theorem part8_main_v464 : after ops_part8 W (Proc.devRef .tc main_v464) = max6 (gath6 (W (Proc.devRef .tc main_arg0)) (idxColM6 (W (Proc.devRef .tc main_c_16)) (W (Proc.devRef .tc main_c_15)))) := by
  simp only [ops_part8]
  after_results_simp
  all_goals rfl

set_option maxRecDepth 8192 in
set_option maxHeartbeats 2000000 in
/-- `W1[8].T`. -/
theorem part8_main_v467 : after ops_part8 W (Proc.devRef .tc main_v467) = w1T (w1s8 (W (Proc.devRef .tc main_arg1))) := by
  simp only [ops_part8]
  after_results_simp
  all_goals rfl

end

end Cert.ReferenceIdeal.RefRun

end
-- ==== Proof.RefRun.Ops9.lean ====
/- Window 9 of the reference's @main (statements 541 … 600 of 652), as the list of its 64 operations in the printed order:
   each statement's operation as printed, a call of @relu as the three operations of its body over the
   call's record; and the buffers the window writes. -/
import proofs.«140205_j1228360647386_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 9, in order. -/
abbrev ops_part9 : List (HloOp τ sig (Elt F)) :=
  [ binary main_v463 main_v467 main_v468 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v469 ((extractStridedSlice S1x16 ![8, 0] · slices_S10x16_S1x16_8_0) : (⟨S10x16, .f32⟩ : BufTy).Contents (Elt F) → (⟨S1x16, .f32⟩ : BufTy).Contents (Elt F)),
    reshape main_v469 main_v470 rfl shapeCasts_S1x16_S16,
    unary main_v470 main_v471 (broadcastInDim S1x16 ![1] bcast_S16_S1x16_1 : (⟨S16, .f32⟩ : BufTy).Contents (Elt F) → (⟨S1x16, .f32⟩ : BufTy).Contents (Elt F)),
    unary main_v471 main_v472 (broadcastInDim S64x16 ![0, 1] bcast_S1x16_S64x16_0_1 : (⟨S1x16, .f32⟩ : BufTy).Contents (Elt F) → (⟨S64x16, .f32⟩ : BufTy).Contents (Elt F)),
    binary main_v468 main_v472 main_v473 (addf : (⟨S64x16, .f32⟩ : BufTy).Contents (Elt F) → (⟨S64x16, .f32⟩ : BufTy).Contents (Elt F) → (⟨S64x16, .f32⟩ : BufTy).Contents (Elt F)),
    TRef.nullary main_call16.cst (constant S_ .f32 0x00000000#32),
    TRef.unary main_call16.cst main_call16.v0 (broadcastInDim S64x16 ![] bcast_S_S64x16),
    TRef.binary (.of main_v473) main_call16.v0 main_call16.v1 maximumf,
    unary main_arg3 main_v475 ((extractStridedSlice S1x256x16 ![8, 0, 0] · slices_S10x256x16_S1x256x16_8_0_0) : (⟨S10x256x16, .f32⟩ : BufTy).Contents (Elt F) → (⟨S1x256x16, .f32⟩ : BufTy).Contents (Elt F)),
    reshape main_v475 main_v476 rfl shapeCasts_S1x256x16_S256x16,
    unary main_v476 main_v477 ((transpose S16x256 [1, 0] · transposes_S256x16_S16x256_1_0) : (⟨S256x16, .f32⟩ : BufTy).Contents (Elt F) → (⟨S16x256, .f32⟩ : BufTy).Contents (Elt F)),
    binary main_v474 main_v477 main_v478 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v479 ((extractStridedSlice S1x256 ![8, 0] · slices_S10x256_S1x256_8_0) : (⟨S10x256, .f32⟩ : BufTy).Contents (Elt F) → (⟨S1x256, .f32⟩ : BufTy).Contents (Elt F)),
    reshape main_v479 main_v480 rfl shapeCasts_S1x256_S256,
    unary main_v480 main_v481 (broadcastInDim S1x256 ![1] bcast_S256_S1x256_1 : (⟨S256, .f32⟩ : BufTy).Contents (Elt F) → (⟨S1x256, .f32⟩ : BufTy).Contents (Elt F)),
    unary main_v481 main_v482 (broadcastInDim S64x256 ![0, 1] bcast_S1x256_S64x256_0_1 : (⟨S1x256, .f32⟩ : BufTy).Contents (Elt F) → (⟨S64x256, .f32⟩ : BufTy).Contents (Elt F)),
    binary main_v478 main_v482 main_v483 (addf : (⟨S64x256, .f32⟩ : BufTy).Contents (Elt F) → (⟨S64x256, .f32⟩ : BufTy).Contents (Elt F) → (⟨S64x256, .f32⟩ : BufTy).Contents (Elt F)),
    unary main_arg1 main_v484 ((extractStridedSlice S1x16x256 ![8, 0, 0] · slices_S10x16x256_S1x16x256_8_0_0) : (⟨S10x16x256, .f32⟩ : BufTy).Contents (Elt F) → (⟨S1x16x256, .f32⟩ : BufTy).Contents (Elt F)),
    reshape main_v484 main_v485 rfl shapeCasts_S1x16x256_S16x256,
    unary main_v485 main_v486 ((transpose S256x16 [1, 0] · transposes_S16x256_S256x16_1_0) : (⟨S16x256, .f32⟩ : BufTy).Contents (Elt F) → (⟨S256x16, .f32⟩ : BufTy).Contents (Elt F)),
    binary main_v464 main_v486 main_v487 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v488 ((extractStridedSlice S1x16 ![8, 0] · slices_S10x16_S1x16_8_0) : (⟨S10x16, .f32⟩ : BufTy).Contents (Elt F) → (⟨S1x16, .f32⟩ : BufTy).Contents (Elt F)),
    reshape main_v488 main_v489 rfl shapeCasts_S1x16_S16,
    unary main_v489 main_v490 (broadcastInDim S1x16 ![1] bcast_S16_S1x16_1 : (⟨S16, .f32⟩ : BufTy).Contents (Elt F) → (⟨S1x16, .f32⟩ : BufTy).Contents (Elt F)),
    unary main_v490 main_v491 (broadcastInDim S64x16 ![0, 1] bcast_S1x16_S64x16_0_1 : (⟨S1x16, .f32⟩ : BufTy).Contents (Elt F) → (⟨S64x16, .f32⟩ : BufTy).Contents (Elt F)),
    binary main_v487 main_v491 main_v492 (addf : (⟨S64x16, .f32⟩ : BufTy).Contents (Elt F) → (⟨S64x16, .f32⟩ : BufTy).Contents (Elt F) → (⟨S64x16, .f32⟩ : BufTy).Contents (Elt F)),
    TRef.nullary main_call17.cst (constant S_ .f32 0x00000000#32),
    TRef.unary main_call17.cst main_call17.v0 (broadcastInDim S64x16 ![] bcast_S_S64x16),
    TRef.binary (.of main_v492) main_call17.v0 main_call17.v1 maximumf,
    unary main_arg3 main_v494 ((extractStridedSlice S1x256x16 ![8, 0, 0] · slices_S10x256x16_S1x256x16_8_0_0) : (⟨S10x256x16, .f32⟩ : BufTy).Contents (Elt F) → (⟨S1x256x16, .f32⟩ : BufTy).Contents (Elt F)),
    reshape main_v494 main_v495 rfl shapeCasts_S1x256x16_S256x16,
    unary main_v495 main_v496 ((transpose S16x256 [1, 0] · transposes_S256x16_S16x256_1_0) : (⟨S256x16, .f32⟩ : BufTy).Contents (Elt F) → (⟨S16x256, .f32⟩ : BufTy).Contents (Elt F)),
    binary main_v493 main_v496 main_v497 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v498 ((extractStridedSlice S1x256 ![8, 0] · slices_S10x256_S1x256_8_0) : (⟨S10x256, .f32⟩ : BufTy).Contents (Elt F) → (⟨S1x256, .f32⟩ : BufTy).Contents (Elt F)),
    reshape main_v498 main_v499 rfl shapeCasts_S1x256_S256,
    unary main_v499 main_v500 (broadcastInDim S1x256 ![1] bcast_S256_S1x256_1 : (⟨S256, .f32⟩ : BufTy).Contents (Elt F) → (⟨S1x256, .f32⟩ : BufTy).Contents (Elt F)),
    unary main_v500 main_v501 (broadcastInDim S64x256 ![0, 1] bcast_S1x256_S64x256_0_1 : (⟨S1x256, .f32⟩ : BufTy).Contents (Elt F) → (⟨S64x256, .f32⟩ : BufTy).Contents (Elt F)),
    binary main_v497 main_v501 main_v502 (addf : (⟨S64x256, .f32⟩ : BufTy).Contents (Elt F) → (⟨S64x256, .f32⟩ : BufTy).Contents (Elt F) → (⟨S64x256, .f32⟩ : BufTy).Contents (Elt F)),
    binary main_v483 main_v502 main_v503 (addf : (⟨S64x256, .f32⟩ : BufTy).Contents (Elt F) → (⟨S64x256, .f32⟩ : BufTy).Contents (Elt F) → (⟨S64x256, .f32⟩ : BufTy).Contents (Elt F)),
    unary main_v503 main_v504 (Host.negf : (⟨S64x256, .f32⟩ : BufTy).Contents (Elt F) → (⟨S64x256, .f32⟩ : BufTy).Contents (Elt F)),
    unary main_v504 main_v505 (Host.exp : (⟨S64x256, .f32⟩ : BufTy).Contents (Elt F) → (⟨S64x256, .f32⟩ : BufTy).Contents (Elt F)),
    nullary main_cst_70 (constant S_ .f32 0x3F800000#32),
    unary main_cst_70 main_v506 (broadcastInDim S64x256 ![] bcast_S_S64x256 : (⟨S_, .f32⟩ : BufTy).Contents (Elt F) → (⟨S64x256, .f32⟩ : BufTy).Contents (Elt F)),
    binary main_v506 main_v505 main_v507 (addf : (⟨S64x256, .f32⟩ : BufTy).Contents (Elt F) → (⟨S64x256, .f32⟩ : BufTy).Contents (Elt F) → (⟨S64x256, .f32⟩ : BufTy).Contents (Elt F)),
    nullary main_cst_71 (constant S_ .f32 0x3F800000#32),
    unary main_cst_71 main_v508 (broadcastInDim S64x256 ![] bcast_S_S64x256 : (⟨S_, .f32⟩ : BufTy).Contents (Elt F) → (⟨S64x256, .f32⟩ : BufTy).Contents (Elt F)),
    binary main_v508 main_v507 main_v509 (Host.divf : (⟨S64x256, .f32⟩ : BufTy).Contents (Elt F) → (⟨S64x256, .f32⟩ : BufTy).Contents (Elt F) → (⟨S64x256, .f32⟩ : BufTy).Contents (Elt F)),
    unary main_v509 main_v510 (broadcastInDim S64x256x1x1 ![0, 1] bcast_S64x256_S64x256x1x1_0_1 : (⟨S64x256, .f32⟩ : BufTy).Contents (Elt F) → (⟨S64x256x1x1, .f32⟩ : BufTy).Contents (Elt F)),
    unary main_v510 main_v511 (broadcastInDim S64x256x64x6 ![0, 1, 2, 3] bcast_S64x256x1x1_S64x256x64x6_0_1_2_3 : (⟨S64x256x1x1, .f32⟩ : BufTy).Contents (Elt F) → (⟨S64x256x64x6, .f32⟩ : BufTy).Contents (Elt F)),
    binary main_v460 main_v511 main_v512 (mulf : (⟨S64x256x64x6, .f32⟩ : BufTy).Contents (Elt F) → (⟨S64x256x64x6, .f32⟩ : BufTy).Contents (Elt F) → (⟨S64x256x64x6, .f32⟩ : BufTy).Contents (Elt F)),
    nullary main_c_72 (constantI S_ 32 50#32),
    unary main_c_72 main_v513 (broadcastInDim S4 ![] bcast_S_S4 : (⟨S_, .i32⟩ : BufTy).Contents (Elt F) → (⟨S4, .i32⟩ : BufTy).Contents (Elt F)),
    binary main_c_17 main_v513 main_v514 (addi : (⟨S4, .i32⟩ : BufTy).Contents (Elt F) → (⟨S4, .i32⟩ : BufTy).Contents (Elt F) → (⟨S4, .i32⟩ : BufTy).Contents (Elt F)),
    ternary main_c_18 main_v514 main_c_17 main_v515 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v515 main_v516 (broadcastInDim S4x1 ![0] bcast_S4_S4x1_0 : (⟨S4, .i32⟩ : BufTy).Contents (Elt F) → (⟨S4x1, .i32⟩ : BufTy).Contents (Elt F)),
    binary main_arg0 main_v516 main_v517 ((fun x i => Host.gather gather_S64x256x64x50_S4x1_S64x256x64x4_012_3_n_n_3_1_64256641 x i) : (⟨S64x256x64x50, .f32⟩ : BufTy).Contents (Elt F) → (⟨S4x1, .i32⟩ : BufTy).Contents (Elt F) → (⟨S64x256x64x4, .f32⟩ : BufTy).Contents (Elt F)),
    nullary main_cst_73 (constant S_ .f32 0x00000000#32),
    binary main_v517 main_cst_73 main_v518 ((fun x v => Host.reduceAdd x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)),
    nullary main_cst_74 (constant S_ .f32 0x43800000#32),
    unary main_cst_74 main_v519 (broadcastInDim S64x256 ![] bcast_S_S64x256 : (⟨S_, .f32⟩ : BufTy).Contents (Elt F) → (⟨S64x256, .f32⟩ : BufTy).Contents (Elt F)),
    binary main_v518 main_v519 main_v520 (Host.divf : (⟨S64x256, .f32⟩ : BufTy).Contents (Elt F) → (⟨S64x256, .f32⟩ : BufTy).Contents (Elt F) → (⟨S64x256, .f32⟩ : BufTy).Contents (Elt F)),
    nullary main_cst_75 (constant S_ .f32 0xFF800000#32),
    binary main_v517 main_cst_75 main_v521 ((fun x v => Host.reduce FloatOps.maximumf x v reducesTo_S64x256x64x4_S64x256_d2_3 h_S_) : (⟨S64x256x64x4, .f32⟩ : BufTy).Contents (Elt F) → (⟨S_, .f32⟩ : BufTy).Contents (Elt F) → (⟨S64x256, .f32⟩ : BufTy).Contents (Elt F)) ]

/-- The buffers window 9 writes, in order. -/
abbrev ops_part9_W : List (Ref sig .tc) :=
  [main_v468, main_v469, main_v470, main_v471, main_v472, main_v473, main_call16_cst, main_call16_v0, main_v474, main_v475, main_v476, main_v477, main_v478, main_v479, main_v480, main_v481, main_v482, main_v483, main_v484, main_v485, main_v486, main_v487, main_v488, main_v489, main_v490, main_v491, main_v492, main_call17_cst, main_call17_v0, main_v493, main_v494, main_v495, main_v496, main_v497, main_v498, main_v499, main_v500, main_v501, main_v502, main_v503, main_v504, main_v505, main_cst_70, main_v506, main_v507, main_cst_71, main_v508, main_v509, main_v510, main_v511, main_v512, main_c_72, main_v513, main_v514, main_v515, main_v516, main_v517, main_cst_73, main_v518, main_cst_74, main_v519, main_v520, main_cst_75, main_v521]

end Cert.ReferenceIdeal.RefRun

end
-- ==== Proof.RefRun.W9.lean ====
/- Window 9 of the reference's run (statements 541 … 600): the end of part 8 (right hand of person 2, 6 joints) — its
   gate and the re-weighted joints — and the beginning of part 9 (right leg of person 2, 4 joints). -/
import proofs.«140205_j1228360647386_2_alg».proof.Proof.RefRun.Ops9
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part9_eq (c : Dev nD) : main_part9 (F := F) c = seq ops_part9 := by
  simp only [main_part9, fn_relu.body, seq, bind_assoc, pure_bind]
  rfl

/-- Every operation of the window touches TensorCore buffers only. -/
theorem ops_part9_sub : (ops_part9 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part9_fresh : ∀ op ∈ (ops_part9 : List (HloOp τ sig (Elt F))), op.fresh = ∅ := by
  intro _ h
  repeat (cases h with | head => rfl | tail _ h => ?_)
  exact nomatch h

set_option maxRecDepth 8192 in
/-- Every operation of the window writes a buffer of the window's list. -/
theorem ops_part9_writes : (ops_part9 : List (HloOp τ sig (Elt F))).Forall fun op =>
    op.writes ⊆ (ops_part9_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part9_keep (W : Valuation τ sig (Elt F)) (r : Ref sig .tc) (h : r ∉ ops_part9_W) :
    after ops_part9 W (Proc.devRef .tc r) = W (Proc.devRef .tc r) :=
  after_of_writes_sub ops_part9 W ops_part9_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- Part 8 of the output: the gathered joints times the gate `sigmoid (mlp avg + mlp max)`, from what the window before left. -/
theorem part9_main_v512 : after ops_part9 W (Proc.devRef .tc main_v512) = mulf (W (Proc.devRef .tc main_v460)) (gateBB6 (gateOf (addf (lin2 (w2T (w2s8 (W (Proc.devRef .tc main_arg3)))) (relu (addf (lin1 (W (Proc.devRef .tc main_v467)) (W (Proc.devRef .tc main_v463))) (b1B (b1s8 (W (Proc.devRef .tc main_arg2))))))) (b2B (b2s8 (W (Proc.devRef .tc main_arg4))))) (mlp (w1s8 (W (Proc.devRef .tc main_arg1))) (b1s8 (W (Proc.devRef .tc main_arg2))) (w2s8 (W (Proc.devRef .tc main_arg3))) (b2s8 (W (Proc.devRef .tc main_arg4))) (W (Proc.devRef .tc main_v464))))) := by
  simp only [ops_part9]
  after_results_simp
  all_goals rfl

set_option maxRecDepth 8192 in
set_option maxHeartbeats 2000000 in
/-- The gathered joints of part 9. -/
theorem part9_main_v517 : after ops_part9 W (Proc.devRef .tc main_v517) = gath4 (W (Proc.devRef .tc main_arg0)) (idxColM4 (W (Proc.devRef .tc main_c_18)) (W (Proc.devRef .tc main_c_17))) := by
  simp only [ops_part9]
  after_results_simp
  all_goals rfl

set_option maxRecDepth 8192 in
set_option maxHeartbeats 2000000 in
/-- The mean over time and joints, part 9. -/
theorem part9_main_v520 : after ops_part9 W (Proc.devRef .tc main_v520) = avg4 (gath4 (W (Proc.devRef .tc main_arg0)) (idxColM4 (W (Proc.devRef .tc main_c_18)) (W (Proc.devRef .tc main_c_17)))) := by
  simp only [ops_part9]
  after_results_simp
  all_goals rfl

set_option maxRecDepth 8192 in
set_option maxHeartbeats 2000000 in
/-- The maximum over time and joints, part 9. -/
theorem part9_main_v521 : after ops_part9 W (Proc.devRef .tc main_v521) = max4 (gath4 (W (Proc.devRef .tc main_arg0)) (idxColM4 (W (Proc.devRef .tc main_c_18)) (W (Proc.devRef .tc main_c_17)))) := by
  simp only [ops_part9]
  after_results_simp
  all_goals rfl

end

end Cert.ReferenceIdeal.RefRun

end
-- ==== Proof.RefRun.Ops10.lean ====
/- Window 10 of the reference's @main (statements 601 … 652 of 652), as the list of its 55 operations in the printed order:
   each statement's operation as printed, a call of @relu as the three operations of its body over the
   call's record; and the buffers the window writes. -/
import proofs.«140205_j1228360647386_2_alg».proof.Proof.Gen.ReferenceIdeal
import Idealize.ShloMosaic.Lib.StableHlo.Run
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 10, in order. -/
abbrev ops_part10 : List (HloOp τ sig (Elt F)) :=
  [ unary main_arg1 main_v522 ((extractStridedSlice S1x16x256 ![9, 0, 0] · slices_S10x16x256_S1x16x256_9_0_0) : (⟨S10x16x256, .f32⟩ : BufTy).Contents (Elt F) → (⟨S1x16x256, .f32⟩ : BufTy).Contents (Elt F)),
    reshape main_v522 main_v523 rfl shapeCasts_S1x16x256_S16x256,
    unary main_v523 main_v524 ((transpose S256x16 [1, 0] · transposes_S16x256_S256x16_1_0) : (⟨S16x256, .f32⟩ : BufTy).Contents (Elt F) → (⟨S256x16, .f32⟩ : BufTy).Contents (Elt F)),
    binary main_v520 main_v524 main_v525 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v526 ((extractStridedSlice S1x16 ![9, 0] · slices_S10x16_S1x16_9_0) : (⟨S10x16, .f32⟩ : BufTy).Contents (Elt F) → (⟨S1x16, .f32⟩ : BufTy).Contents (Elt F)),
    reshape main_v526 main_v527 rfl shapeCasts_S1x16_S16,
    unary main_v527 main_v528 (broadcastInDim S1x16 ![1] bcast_S16_S1x16_1 : (⟨S16, .f32⟩ : BufTy).Contents (Elt F) → (⟨S1x16, .f32⟩ : BufTy).Contents (Elt F)),
    unary main_v528 main_v529 (broadcastInDim S64x16 ![0, 1] bcast_S1x16_S64x16_0_1 : (⟨S1x16, .f32⟩ : BufTy).Contents (Elt F) → (⟨S64x16, .f32⟩ : BufTy).Contents (Elt F)),
    binary main_v525 main_v529 main_v530 (addf : (⟨S64x16, .f32⟩ : BufTy).Contents (Elt F) → (⟨S64x16, .f32⟩ : BufTy).Contents (Elt F) → (⟨S64x16, .f32⟩ : BufTy).Contents (Elt F)),
    TRef.nullary main_call18.cst (constant S_ .f32 0x00000000#32),
    TRef.unary main_call18.cst main_call18.v0 (broadcastInDim S64x16 ![] bcast_S_S64x16),
    TRef.binary (.of main_v530) main_call18.v0 main_call18.v1 maximumf,
    unary main_arg3 main_v532 ((extractStridedSlice S1x256x16 ![9, 0, 0] · slices_S10x256x16_S1x256x16_9_0_0) : (⟨S10x256x16, .f32⟩ : BufTy).Contents (Elt F) → (⟨S1x256x16, .f32⟩ : BufTy).Contents (Elt F)),
    reshape main_v532 main_v533 rfl shapeCasts_S1x256x16_S256x16,
    unary main_v533 main_v534 ((transpose S16x256 [1, 0] · transposes_S256x16_S16x256_1_0) : (⟨S256x16, .f32⟩ : BufTy).Contents (Elt F) → (⟨S16x256, .f32⟩ : BufTy).Contents (Elt F)),
    binary main_v531 main_v534 main_v535 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v536 ((extractStridedSlice S1x256 ![9, 0] · slices_S10x256_S1x256_9_0) : (⟨S10x256, .f32⟩ : BufTy).Contents (Elt F) → (⟨S1x256, .f32⟩ : BufTy).Contents (Elt F)),
    reshape main_v536 main_v537 rfl shapeCasts_S1x256_S256,
    unary main_v537 main_v538 (broadcastInDim S1x256 ![1] bcast_S256_S1x256_1 : (⟨S256, .f32⟩ : BufTy).Contents (Elt F) → (⟨S1x256, .f32⟩ : BufTy).Contents (Elt F)),
    unary main_v538 main_v539 (broadcastInDim S64x256 ![0, 1] bcast_S1x256_S64x256_0_1 : (⟨S1x256, .f32⟩ : BufTy).Contents (Elt F) → (⟨S64x256, .f32⟩ : BufTy).Contents (Elt F)),
    binary main_v535 main_v539 main_v540 (addf : (⟨S64x256, .f32⟩ : BufTy).Contents (Elt F) → (⟨S64x256, .f32⟩ : BufTy).Contents (Elt F) → (⟨S64x256, .f32⟩ : BufTy).Contents (Elt F)),
    unary main_arg1 main_v541 ((extractStridedSlice S1x16x256 ![9, 0, 0] · slices_S10x16x256_S1x16x256_9_0_0) : (⟨S10x16x256, .f32⟩ : BufTy).Contents (Elt F) → (⟨S1x16x256, .f32⟩ : BufTy).Contents (Elt F)),
    reshape main_v541 main_v542 rfl shapeCasts_S1x16x256_S16x256,
    unary main_v542 main_v543 ((transpose S256x16 [1, 0] · transposes_S16x256_S256x16_1_0) : (⟨S16x256, .f32⟩ : BufTy).Contents (Elt F) → (⟨S256x16, .f32⟩ : BufTy).Contents (Elt F)),
    binary main_v521 main_v543 main_v544 ((fun l r => Host.dotGeneral dot_S64x256_S256x16_S64x16_1_0_0_1_n_n none l r) : (⟨S64x256, .f32⟩ : BufTy).Contents (Elt F) → (⟨S256x16, .f32⟩ : BufTy).Contents (Elt F) → (⟨S64x16, .f32⟩ : BufTy).Contents (Elt F)),
    unary main_arg2 main_v545 ((extractStridedSlice S1x16 ![9, 0] · slices_S10x16_S1x16_9_0) : (⟨S10x16, .f32⟩ : BufTy).Contents (Elt F) → (⟨S1x16, .f32⟩ : BufTy).Contents (Elt F)),
    reshape main_v545 main_v546 rfl shapeCasts_S1x16_S16,
    unary main_v546 main_v547 (broadcastInDim S1x16 ![1] bcast_S16_S1x16_1 : (⟨S16, .f32⟩ : BufTy).Contents (Elt F) → (⟨S1x16, .f32⟩ : BufTy).Contents (Elt F)),
    unary main_v547 main_v548 (broadcastInDim S64x16 ![0, 1] bcast_S1x16_S64x16_0_1 : (⟨S1x16, .f32⟩ : BufTy).Contents (Elt F) → (⟨S64x16, .f32⟩ : BufTy).Contents (Elt F)),
    binary main_v544 main_v548 main_v549 (addf : (⟨S64x16, .f32⟩ : BufTy).Contents (Elt F) → (⟨S64x16, .f32⟩ : BufTy).Contents (Elt F) → (⟨S64x16, .f32⟩ : BufTy).Contents (Elt F)),
    TRef.nullary main_call19.cst (constant S_ .f32 0x00000000#32),
    TRef.unary main_call19.cst main_call19.v0 (broadcastInDim S64x16 ![] bcast_S_S64x16),
    TRef.binary (.of main_v549) main_call19.v0 main_call19.v1 maximumf,
    unary main_arg3 main_v551 ((extractStridedSlice S1x256x16 ![9, 0, 0] · slices_S10x256x16_S1x256x16_9_0_0) : (⟨S10x256x16, .f32⟩ : BufTy).Contents (Elt F) → (⟨S1x256x16, .f32⟩ : BufTy).Contents (Elt F)),
    reshape main_v551 main_v552 rfl shapeCasts_S1x256x16_S256x16,
    unary main_v552 main_v553 ((transpose S16x256 [1, 0] · transposes_S256x16_S16x256_1_0) : (⟨S256x16, .f32⟩ : BufTy).Contents (Elt F) → (⟨S16x256, .f32⟩ : BufTy).Contents (Elt F)),
    binary main_v550 main_v553 main_v554 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_arg4 main_v555 ((extractStridedSlice S1x256 ![9, 0] · slices_S10x256_S1x256_9_0) : (⟨S10x256, .f32⟩ : BufTy).Contents (Elt F) → (⟨S1x256, .f32⟩ : BufTy).Contents (Elt F)),
    reshape main_v555 main_v556 rfl shapeCasts_S1x256_S256,
    unary main_v556 main_v557 (broadcastInDim S1x256 ![1] bcast_S256_S1x256_1 : (⟨S256, .f32⟩ : BufTy).Contents (Elt F) → (⟨S1x256, .f32⟩ : BufTy).Contents (Elt F)),
    unary main_v557 main_v558 (broadcastInDim S64x256 ![0, 1] bcast_S1x256_S64x256_0_1 : (⟨S1x256, .f32⟩ : BufTy).Contents (Elt F) → (⟨S64x256, .f32⟩ : BufTy).Contents (Elt F)),
    binary main_v554 main_v558 main_v559 (addf : (⟨S64x256, .f32⟩ : BufTy).Contents (Elt F) → (⟨S64x256, .f32⟩ : BufTy).Contents (Elt F) → (⟨S64x256, .f32⟩ : BufTy).Contents (Elt F)),
    binary main_v540 main_v559 main_v560 (addf : (⟨S64x256, .f32⟩ : BufTy).Contents (Elt F) → (⟨S64x256, .f32⟩ : BufTy).Contents (Elt F) → (⟨S64x256, .f32⟩ : BufTy).Contents (Elt F)),
    unary main_v560 main_v561 (Host.negf : (⟨S64x256, .f32⟩ : BufTy).Contents (Elt F) → (⟨S64x256, .f32⟩ : BufTy).Contents (Elt F)),
    unary main_v561 main_v562 (Host.exp : (⟨S64x256, .f32⟩ : BufTy).Contents (Elt F) → (⟨S64x256, .f32⟩ : BufTy).Contents (Elt F)),
    nullary main_cst_76 (constant S_ .f32 0x3F800000#32),
    unary main_cst_76 main_v563 (broadcastInDim S64x256 ![] bcast_S_S64x256 : (⟨S_, .f32⟩ : BufTy).Contents (Elt F) → (⟨S64x256, .f32⟩ : BufTy).Contents (Elt F)),
    binary main_v563 main_v562 main_v564 (addf : (⟨S64x256, .f32⟩ : BufTy).Contents (Elt F) → (⟨S64x256, .f32⟩ : BufTy).Contents (Elt F) → (⟨S64x256, .f32⟩ : BufTy).Contents (Elt F)),
    nullary main_cst_77 (constant S_ .f32 0x3F800000#32),
    unary main_cst_77 main_v565 (broadcastInDim S64x256 ![] bcast_S_S64x256 : (⟨S_, .f32⟩ : BufTy).Contents (Elt F) → (⟨S64x256, .f32⟩ : BufTy).Contents (Elt F)),
    binary main_v565 main_v564 main_v566 (Host.divf : (⟨S64x256, .f32⟩ : BufTy).Contents (Elt F) → (⟨S64x256, .f32⟩ : BufTy).Contents (Elt F) → (⟨S64x256, .f32⟩ : BufTy).Contents (Elt F)),
    unary main_v566 main_v567 (broadcastInDim S64x256x1x1 ![0, 1] bcast_S64x256_S64x256x1x1_0_1 : (⟨S64x256, .f32⟩ : BufTy).Contents (Elt F) → (⟨S64x256x1x1, .f32⟩ : BufTy).Contents (Elt F)),
    unary main_v567 main_v568 (broadcastInDim S64x256x64x4 ![0, 1, 2, 3] bcast_S64x256x1x1_S64x256x64x4_0_1_2_3 : (⟨S64x256x1x1, .f32⟩ : BufTy).Contents (Elt F) → (⟨S64x256x64x4, .f32⟩ : BufTy).Contents (Elt F)),
    binary main_v517 main_v568 main_v569 (mulf : (⟨S64x256x64x4, .f32⟩ : BufTy).Contents (Elt F) → (⟨S64x256x64x4, .f32⟩ : BufTy).Contents (Elt F) → (⟨S64x256x64x4, .f32⟩ : BufTy).Contents (Elt F)),
    nary ![main_v56, main_v113, main_v170, main_v227, main_v284, main_v341, main_v398, main_v455, main_v512, main_v569] main_v570 (fun u => RefTerm.catFn (F := F) (u 0) (u 1) (u 2) (u 3) (u 4) (u 5) (u 6) (u 7) (u 8) (u 9)) ]

/-- The buffers window 10 writes, in order. -/
abbrev ops_part10_W : List (Ref sig .tc) :=
  [main_v522, main_v523, main_v524, main_v525, main_v526, main_v527, main_v528, main_v529, main_v530, main_call18_cst, main_call18_v0, main_v531, main_v532, main_v533, main_v534, main_v535, main_v536, main_v537, main_v538, main_v539, main_v540, main_v541, main_v542, main_v543, main_v544, main_v545, main_v546, main_v547, main_v548, main_v549, main_call19_cst, main_call19_v0, main_v550, main_v551, main_v552, main_v553, main_v554, main_v555, main_v556, main_v557, main_v558, main_v559, main_v560, main_v561, main_v562, main_cst_76, main_v563, main_v564, main_cst_77, main_v565, main_v566, main_v567, main_v568, main_v569, main_v570]

end Cert.ReferenceIdeal.RefRun

end
-- ==== Proof.RefRun.W10.lean ====
/- Window 10 of the reference's run (statements 601 … 652): the two MLPs and the gate of part 9 (right leg of person 2,
   4 joints), the re-weighted joints, and the concatenation of the ten parts along the joint axis. -/
import proofs.«140205_j1228360647386_2_alg».proof.Proof.RefRun.Ops10
import proofs.«140205_j1228360647386_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

set_option maxRecDepth 8192 in
/-- The window's program is the straight line of its operations: the call's body unfolded at the call and the
    sequencing reassociated, both sides are one chain of steps. -/
theorem main_part10_eq (c : Dev nD) : main_part10 (F := F) c = seq ops_part10 := by
  simp only [main_part10, fn_relu.body, seq, bind_assoc, pure_bind]
  rfl

/-- Every operation of the window touches TensorCore buffers only. -/
theorem ops_part10_sub : (ops_part10 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- Every operation of the window determines what it writes: none allocates. -/
theorem ops_part10_fresh : ∀ op ∈ (ops_part10 : List (HloOp τ sig (Elt F))), op.fresh = ∅ := by
  intro _ h
  repeat (cases h with | head => rfl | tail _ h => ?_)
  exact nomatch h

set_option maxRecDepth 8192 in
/-- Every operation of the window writes a buffer of the window's list. -/
theorem ops_part10_writes : (ops_part10 : List (HloOp τ sig (Elt F))).Forall fun op =>
    op.writes ⊆ (ops_part10_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops_part10_keep (W : Valuation τ sig (Elt F)) (r : Ref sig .tc) (h : r ∉ ops_part10_W) :
    after ops_part10 W (Proc.devRef .tc r) = W (Proc.devRef .tc r) :=
  after_of_writes_sub ops_part10 W ops_part10_writes h

/-! ## What the window leaves in the buffers read after it

From ANY contents `W` before the window: each buffer a later window reads, as a term of `W` at the buffers this
window reads before writing them. -/

section
variable (W : Valuation τ sig (Elt F))

set_option maxRecDepth 8192 in
set_option maxHeartbeats 2000000 in
/-- The result: the nine parts the windows before left and part 9, finished here, side by side. -/
theorem part10_main_v570 : after ops_part10 W (Proc.devRef .tc main_v570) = catFn (W (Proc.devRef .tc main_v56)) (W (Proc.devRef .tc main_v113)) (W (Proc.devRef .tc main_v170)) (W (Proc.devRef .tc main_v227)) (W (Proc.devRef .tc main_v284)) (W (Proc.devRef .tc main_v341)) (W (Proc.devRef .tc main_v398)) (W (Proc.devRef .tc main_v455)) (W (Proc.devRef .tc main_v512))
      (mulf (W (Proc.devRef .tc main_v517)) (gateBB4 (gateOf (mlp (w1s9 (W (Proc.devRef .tc main_arg1))) (b1s9 (W (Proc.devRef .tc main_arg2))) (w2s9 (W (Proc.devRef .tc main_arg3))) (b2s9 (W (Proc.devRef .tc main_arg4))) (W (Proc.devRef .tc main_v520))) (mlp (w1s9 (W (Proc.devRef .tc main_arg1))) (b1s9 (W (Proc.devRef .tc main_arg2))) (w2s9 (W (Proc.devRef .tc main_arg3))) (b2s9 (W (Proc.devRef .tc main_arg4))) (W (Proc.devRef .tc main_v521)))))) := by
  simp only [ops_part10]
  after_results_simp
  try dsimp only [Matrix.cons_val]
  try after_results_simp
  all_goals rfl

end

end Cert.ReferenceIdeal.RefRun

end
-- ==== Proof.RefRun.lean ====
/- The reference's run: every weakly fair execution of the reference terminates with the result buffer holding
   `RefTerm.refOut` of the five argument arrays and the arguments unchanged. The program is the concatenation of its
   eleven windows' operation lists; the contents after each window are those before it through the window's lemmas,
   and the chain from the launch contents ends, at the result buffer, in the ten parts concatenated. -/
import proofs.«140205_j1228360647386_2_alg».proof.Proof.RefRun.W0
import proofs.«140205_j1228360647386_2_alg».proof.Proof.RefRun.W1
import proofs.«140205_j1228360647386_2_alg».proof.Proof.RefRun.W2
import proofs.«140205_j1228360647386_2_alg».proof.Proof.RefRun.W3
import proofs.«140205_j1228360647386_2_alg».proof.Proof.RefRun.W4
import proofs.«140205_j1228360647386_2_alg».proof.Proof.RefRun.W5
import proofs.«140205_j1228360647386_2_alg».proof.Proof.RefRun.W6
import proofs.«140205_j1228360647386_2_alg».proof.Proof.RefRun.W7
import proofs.«140205_j1228360647386_2_alg».proof.Proof.RefRun.W8
import proofs.«140205_j1228360647386_2_alg».proof.Proof.RefRun.W9
import proofs.«140205_j1228360647386_2_alg».proof.Proof.RefRun.W10
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

/-- The reference's operations, in order: the eleven windows' lists one after the other. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10))))))))))

/-- The reference is the straight line of those operations: it runs its windows in order, and each is its list's. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: it is some window's. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h]

/-- No operation allocates: it is some window's. -/
theorem ops_fresh : ∀ op ∈ (ops : List (HloOp τ sig (Elt F))), op.fresh = ∅ := fun op h => by
  simp only [ops, List.mem_append] at h
  rcases h with h | h | h | h | h | h | h | h | h | h | h
  exacts [ops_part0_fresh op h, ops_part1_fresh op h, ops_part2_fresh op h, ops_part3_fresh op h, ops_part4_fresh op h, ops_part5_fresh op h, ops_part6_fresh op h, ops_part7_fresh op h, ops_part8_fresh op h, ops_part9_fresh op h, ops_part10_fresh op h]

/-! ## The contents after each window -/

/-- The buffers' contents after the first 1 window, from contents `V0`. -/
def val1 (V0 : Valuation τ sig (Elt F)) : Valuation τ sig (Elt F) := after ops_part0 (V0)
/-- The buffers' contents after the first 2 windows, from contents `V0`. -/
def val2 (V0 : Valuation τ sig (Elt F)) : Valuation τ sig (Elt F) := after ops_part1 (val1 V0)
/-- The buffers' contents after the first 3 windows, from contents `V0`. -/
def val3 (V0 : Valuation τ sig (Elt F)) : Valuation τ sig (Elt F) := after ops_part2 (val2 V0)
/-- The buffers' contents after the first 4 windows, from contents `V0`. -/
def val4 (V0 : Valuation τ sig (Elt F)) : Valuation τ sig (Elt F) := after ops_part3 (val3 V0)
/-- The buffers' contents after the first 5 windows, from contents `V0`. -/
def val5 (V0 : Valuation τ sig (Elt F)) : Valuation τ sig (Elt F) := after ops_part4 (val4 V0)
/-- The buffers' contents after the first 6 windows, from contents `V0`. -/
def val6 (V0 : Valuation τ sig (Elt F)) : Valuation τ sig (Elt F) := after ops_part5 (val5 V0)
/-- The buffers' contents after the first 7 windows, from contents `V0`. -/
def val7 (V0 : Valuation τ sig (Elt F)) : Valuation τ sig (Elt F) := after ops_part6 (val6 V0)
/-- The buffers' contents after the first 8 windows, from contents `V0`. -/
def val8 (V0 : Valuation τ sig (Elt F)) : Valuation τ sig (Elt F) := after ops_part7 (val7 V0)
/-- The buffers' contents after the first 9 windows, from contents `V0`. -/
def val9 (V0 : Valuation τ sig (Elt F)) : Valuation τ sig (Elt F) := after ops_part8 (val8 V0)
/-- The buffers' contents after the first 10 windows, from contents `V0`. -/
def val10 (V0 : Valuation τ sig (Elt F)) : Valuation τ sig (Elt F) := after ops_part9 (val9 V0)
/-- The buffers' contents after the first 11 windows, from contents `V0`. -/
def val11 (V0 : Valuation τ sig (Elt F)) : Valuation τ sig (Elt F) := after ops_part10 (val10 V0)

theorem after_ops (V0 : Valuation τ sig (Elt F)) : after ops V0 = val11 V0 := by
  simp only [ops, after_append]
  rfl

section
variable (V0 : Valuation τ sig (Elt F))

/-! ### The arguments: no window writes them -/
theorem val1_main_arg0 : val1 V0 (no_index (Proc.devRef .tc main_arg0)) = V0 (Proc.devRef .tc main_arg0) :=
  ops_part0_keep V0 main_arg0 (by decide)
theorem val1_main_arg1 : val1 V0 (no_index (Proc.devRef .tc main_arg1)) = V0 (Proc.devRef .tc main_arg1) :=
  ops_part0_keep V0 main_arg1 (by decide)
theorem val1_main_arg2 : val1 V0 (no_index (Proc.devRef .tc main_arg2)) = V0 (Proc.devRef .tc main_arg2) :=
  ops_part0_keep V0 main_arg2 (by decide)
theorem val1_main_arg3 : val1 V0 (no_index (Proc.devRef .tc main_arg3)) = V0 (Proc.devRef .tc main_arg3) :=
  ops_part0_keep V0 main_arg3 (by decide)
theorem val1_main_arg4 : val1 V0 (no_index (Proc.devRef .tc main_arg4)) = V0 (Proc.devRef .tc main_arg4) :=
  ops_part0_keep V0 main_arg4 (by decide)
theorem val2_main_arg0 : val2 V0 (no_index (Proc.devRef .tc main_arg0)) = V0 (Proc.devRef .tc main_arg0) :=
  (ops_part1_keep (val1 V0) main_arg0 (by decide)).trans (val1_main_arg0 V0)
theorem val2_main_arg1 : val2 V0 (no_index (Proc.devRef .tc main_arg1)) = V0 (Proc.devRef .tc main_arg1) :=
  (ops_part1_keep (val1 V0) main_arg1 (by decide)).trans (val1_main_arg1 V0)
theorem val2_main_arg2 : val2 V0 (no_index (Proc.devRef .tc main_arg2)) = V0 (Proc.devRef .tc main_arg2) :=
  (ops_part1_keep (val1 V0) main_arg2 (by decide)).trans (val1_main_arg2 V0)
theorem val2_main_arg3 : val2 V0 (no_index (Proc.devRef .tc main_arg3)) = V0 (Proc.devRef .tc main_arg3) :=
  (ops_part1_keep (val1 V0) main_arg3 (by decide)).trans (val1_main_arg3 V0)
theorem val2_main_arg4 : val2 V0 (no_index (Proc.devRef .tc main_arg4)) = V0 (Proc.devRef .tc main_arg4) :=
  (ops_part1_keep (val1 V0) main_arg4 (by decide)).trans (val1_main_arg4 V0)
theorem val3_main_arg0 : val3 V0 (no_index (Proc.devRef .tc main_arg0)) = V0 (Proc.devRef .tc main_arg0) :=
  (ops_part2_keep (val2 V0) main_arg0 (by decide)).trans (val2_main_arg0 V0)
theorem val3_main_arg1 : val3 V0 (no_index (Proc.devRef .tc main_arg1)) = V0 (Proc.devRef .tc main_arg1) :=
  (ops_part2_keep (val2 V0) main_arg1 (by decide)).trans (val2_main_arg1 V0)
theorem val3_main_arg2 : val3 V0 (no_index (Proc.devRef .tc main_arg2)) = V0 (Proc.devRef .tc main_arg2) :=
  (ops_part2_keep (val2 V0) main_arg2 (by decide)).trans (val2_main_arg2 V0)
theorem val3_main_arg3 : val3 V0 (no_index (Proc.devRef .tc main_arg3)) = V0 (Proc.devRef .tc main_arg3) :=
  (ops_part2_keep (val2 V0) main_arg3 (by decide)).trans (val2_main_arg3 V0)
theorem val3_main_arg4 : val3 V0 (no_index (Proc.devRef .tc main_arg4)) = V0 (Proc.devRef .tc main_arg4) :=
  (ops_part2_keep (val2 V0) main_arg4 (by decide)).trans (val2_main_arg4 V0)
theorem val4_main_arg0 : val4 V0 (no_index (Proc.devRef .tc main_arg0)) = V0 (Proc.devRef .tc main_arg0) :=
  (ops_part3_keep (val3 V0) main_arg0 (by decide)).trans (val3_main_arg0 V0)
theorem val4_main_arg1 : val4 V0 (no_index (Proc.devRef .tc main_arg1)) = V0 (Proc.devRef .tc main_arg1) :=
  (ops_part3_keep (val3 V0) main_arg1 (by decide)).trans (val3_main_arg1 V0)
theorem val4_main_arg2 : val4 V0 (no_index (Proc.devRef .tc main_arg2)) = V0 (Proc.devRef .tc main_arg2) :=
  (ops_part3_keep (val3 V0) main_arg2 (by decide)).trans (val3_main_arg2 V0)
theorem val4_main_arg3 : val4 V0 (no_index (Proc.devRef .tc main_arg3)) = V0 (Proc.devRef .tc main_arg3) :=
  (ops_part3_keep (val3 V0) main_arg3 (by decide)).trans (val3_main_arg3 V0)
theorem val4_main_arg4 : val4 V0 (no_index (Proc.devRef .tc main_arg4)) = V0 (Proc.devRef .tc main_arg4) :=
  (ops_part3_keep (val3 V0) main_arg4 (by decide)).trans (val3_main_arg4 V0)
theorem val5_main_arg0 : val5 V0 (no_index (Proc.devRef .tc main_arg0)) = V0 (Proc.devRef .tc main_arg0) :=
  (ops_part4_keep (val4 V0) main_arg0 (by decide)).trans (val4_main_arg0 V0)
theorem val5_main_arg1 : val5 V0 (no_index (Proc.devRef .tc main_arg1)) = V0 (Proc.devRef .tc main_arg1) :=
  (ops_part4_keep (val4 V0) main_arg1 (by decide)).trans (val4_main_arg1 V0)
theorem val5_main_arg2 : val5 V0 (no_index (Proc.devRef .tc main_arg2)) = V0 (Proc.devRef .tc main_arg2) :=
  (ops_part4_keep (val4 V0) main_arg2 (by decide)).trans (val4_main_arg2 V0)
theorem val5_main_arg3 : val5 V0 (no_index (Proc.devRef .tc main_arg3)) = V0 (Proc.devRef .tc main_arg3) :=
  (ops_part4_keep (val4 V0) main_arg3 (by decide)).trans (val4_main_arg3 V0)
theorem val5_main_arg4 : val5 V0 (no_index (Proc.devRef .tc main_arg4)) = V0 (Proc.devRef .tc main_arg4) :=
  (ops_part4_keep (val4 V0) main_arg4 (by decide)).trans (val4_main_arg4 V0)
theorem val6_main_arg0 : val6 V0 (no_index (Proc.devRef .tc main_arg0)) = V0 (Proc.devRef .tc main_arg0) :=
  (ops_part5_keep (val5 V0) main_arg0 (by decide)).trans (val5_main_arg0 V0)
theorem val6_main_arg1 : val6 V0 (no_index (Proc.devRef .tc main_arg1)) = V0 (Proc.devRef .tc main_arg1) :=
  (ops_part5_keep (val5 V0) main_arg1 (by decide)).trans (val5_main_arg1 V0)
theorem val6_main_arg2 : val6 V0 (no_index (Proc.devRef .tc main_arg2)) = V0 (Proc.devRef .tc main_arg2) :=
  (ops_part5_keep (val5 V0) main_arg2 (by decide)).trans (val5_main_arg2 V0)
theorem val6_main_arg3 : val6 V0 (no_index (Proc.devRef .tc main_arg3)) = V0 (Proc.devRef .tc main_arg3) :=
  (ops_part5_keep (val5 V0) main_arg3 (by decide)).trans (val5_main_arg3 V0)
theorem val6_main_arg4 : val6 V0 (no_index (Proc.devRef .tc main_arg4)) = V0 (Proc.devRef .tc main_arg4) :=
  (ops_part5_keep (val5 V0) main_arg4 (by decide)).trans (val5_main_arg4 V0)
theorem val7_main_arg0 : val7 V0 (no_index (Proc.devRef .tc main_arg0)) = V0 (Proc.devRef .tc main_arg0) :=
  (ops_part6_keep (val6 V0) main_arg0 (by decide)).trans (val6_main_arg0 V0)
theorem val7_main_arg1 : val7 V0 (no_index (Proc.devRef .tc main_arg1)) = V0 (Proc.devRef .tc main_arg1) :=
  (ops_part6_keep (val6 V0) main_arg1 (by decide)).trans (val6_main_arg1 V0)
theorem val7_main_arg2 : val7 V0 (no_index (Proc.devRef .tc main_arg2)) = V0 (Proc.devRef .tc main_arg2) :=
  (ops_part6_keep (val6 V0) main_arg2 (by decide)).trans (val6_main_arg2 V0)
theorem val7_main_arg3 : val7 V0 (no_index (Proc.devRef .tc main_arg3)) = V0 (Proc.devRef .tc main_arg3) :=
  (ops_part6_keep (val6 V0) main_arg3 (by decide)).trans (val6_main_arg3 V0)
theorem val7_main_arg4 : val7 V0 (no_index (Proc.devRef .tc main_arg4)) = V0 (Proc.devRef .tc main_arg4) :=
  (ops_part6_keep (val6 V0) main_arg4 (by decide)).trans (val6_main_arg4 V0)
theorem val8_main_arg0 : val8 V0 (no_index (Proc.devRef .tc main_arg0)) = V0 (Proc.devRef .tc main_arg0) :=
  (ops_part7_keep (val7 V0) main_arg0 (by decide)).trans (val7_main_arg0 V0)
theorem val8_main_arg1 : val8 V0 (no_index (Proc.devRef .tc main_arg1)) = V0 (Proc.devRef .tc main_arg1) :=
  (ops_part7_keep (val7 V0) main_arg1 (by decide)).trans (val7_main_arg1 V0)
theorem val8_main_arg2 : val8 V0 (no_index (Proc.devRef .tc main_arg2)) = V0 (Proc.devRef .tc main_arg2) :=
  (ops_part7_keep (val7 V0) main_arg2 (by decide)).trans (val7_main_arg2 V0)
theorem val8_main_arg3 : val8 V0 (no_index (Proc.devRef .tc main_arg3)) = V0 (Proc.devRef .tc main_arg3) :=
  (ops_part7_keep (val7 V0) main_arg3 (by decide)).trans (val7_main_arg3 V0)
theorem val8_main_arg4 : val8 V0 (no_index (Proc.devRef .tc main_arg4)) = V0 (Proc.devRef .tc main_arg4) :=
  (ops_part7_keep (val7 V0) main_arg4 (by decide)).trans (val7_main_arg4 V0)
theorem val9_main_arg0 : val9 V0 (no_index (Proc.devRef .tc main_arg0)) = V0 (Proc.devRef .tc main_arg0) :=
  (ops_part8_keep (val8 V0) main_arg0 (by decide)).trans (val8_main_arg0 V0)
theorem val9_main_arg1 : val9 V0 (no_index (Proc.devRef .tc main_arg1)) = V0 (Proc.devRef .tc main_arg1) :=
  (ops_part8_keep (val8 V0) main_arg1 (by decide)).trans (val8_main_arg1 V0)
theorem val9_main_arg2 : val9 V0 (no_index (Proc.devRef .tc main_arg2)) = V0 (Proc.devRef .tc main_arg2) :=
  (ops_part8_keep (val8 V0) main_arg2 (by decide)).trans (val8_main_arg2 V0)
theorem val9_main_arg3 : val9 V0 (no_index (Proc.devRef .tc main_arg3)) = V0 (Proc.devRef .tc main_arg3) :=
  (ops_part8_keep (val8 V0) main_arg3 (by decide)).trans (val8_main_arg3 V0)
theorem val9_main_arg4 : val9 V0 (no_index (Proc.devRef .tc main_arg4)) = V0 (Proc.devRef .tc main_arg4) :=
  (ops_part8_keep (val8 V0) main_arg4 (by decide)).trans (val8_main_arg4 V0)
theorem val10_main_arg0 : val10 V0 (no_index (Proc.devRef .tc main_arg0)) = V0 (Proc.devRef .tc main_arg0) :=
  (ops_part9_keep (val9 V0) main_arg0 (by decide)).trans (val9_main_arg0 V0)
theorem val10_main_arg1 : val10 V0 (no_index (Proc.devRef .tc main_arg1)) = V0 (Proc.devRef .tc main_arg1) :=
  (ops_part9_keep (val9 V0) main_arg1 (by decide)).trans (val9_main_arg1 V0)
theorem val10_main_arg2 : val10 V0 (no_index (Proc.devRef .tc main_arg2)) = V0 (Proc.devRef .tc main_arg2) :=
  (ops_part9_keep (val9 V0) main_arg2 (by decide)).trans (val9_main_arg2 V0)
theorem val10_main_arg3 : val10 V0 (no_index (Proc.devRef .tc main_arg3)) = V0 (Proc.devRef .tc main_arg3) :=
  (ops_part9_keep (val9 V0) main_arg3 (by decide)).trans (val9_main_arg3 V0)
theorem val10_main_arg4 : val10 V0 (no_index (Proc.devRef .tc main_arg4)) = V0 (Proc.devRef .tc main_arg4) :=
  (ops_part9_keep (val9 V0) main_arg4 (by decide)).trans (val9_main_arg4 V0)
theorem val11_main_arg0 : val11 V0 (no_index (Proc.devRef .tc main_arg0)) = V0 (Proc.devRef .tc main_arg0) :=
  (ops_part10_keep (val10 V0) main_arg0 (by decide)).trans (val10_main_arg0 V0)
theorem val11_main_arg1 : val11 V0 (no_index (Proc.devRef .tc main_arg1)) = V0 (Proc.devRef .tc main_arg1) :=
  (ops_part10_keep (val10 V0) main_arg1 (by decide)).trans (val10_main_arg1 V0)
theorem val11_main_arg2 : val11 V0 (no_index (Proc.devRef .tc main_arg2)) = V0 (Proc.devRef .tc main_arg2) :=
  (ops_part10_keep (val10 V0) main_arg2 (by decide)).trans (val10_main_arg2 V0)
theorem val11_main_arg3 : val11 V0 (no_index (Proc.devRef .tc main_arg3)) = V0 (Proc.devRef .tc main_arg3) :=
  (ops_part10_keep (val10 V0) main_arg3 (by decide)).trans (val10_main_arg3 V0)
theorem val11_main_arg4 : val11 V0 (no_index (Proc.devRef .tc main_arg4)) = V0 (Proc.devRef .tc main_arg4) :=
  (ops_part10_keep (val10 V0) main_arg4 (by decide)).trans (val10_main_arg4 V0)

/-! ### The joint tables and masks: written by window 0, kept until the part that reads them -/
theorem val1_main_c_1 : val1 V0 (no_index (Proc.devRef .tc main_c_1)) = tab1 :=
  part0_main_c_1 V0
theorem val1_main_c_2 : val1 V0 (no_index (Proc.devRef .tc main_c_2)) = constantI S6 1 0#1 :=
  part0_main_c_2 V0
theorem val1_main_c_3 : val1 V0 (no_index (Proc.devRef .tc main_c_3)) = tab2 :=
  part0_main_c_3 V0
theorem val2_main_c_3 : val2 V0 (no_index (Proc.devRef .tc main_c_3)) = tab2 :=
  (ops_part1_keep (val1 V0) main_c_3 (by decide)).trans (val1_main_c_3 V0)
theorem val1_main_c_4 : val1 V0 (no_index (Proc.devRef .tc main_c_4)) = constantI S4 1 0#1 :=
  part0_main_c_4 V0
theorem val2_main_c_4 : val2 V0 (no_index (Proc.devRef .tc main_c_4)) = constantI S4 1 0#1 :=
  (ops_part1_keep (val1 V0) main_c_4 (by decide)).trans (val1_main_c_4 V0)
theorem val1_main_c_5 : val1 V0 (no_index (Proc.devRef .tc main_c_5)) = tab3 :=
  part0_main_c_5 V0
theorem val2_main_c_5 : val2 V0 (no_index (Proc.devRef .tc main_c_5)) = tab3 :=
  (ops_part1_keep (val1 V0) main_c_5 (by decide)).trans (val1_main_c_5 V0)
theorem val3_main_c_5 : val3 V0 (no_index (Proc.devRef .tc main_c_5)) = tab3 :=
  (ops_part2_keep (val2 V0) main_c_5 (by decide)).trans (val2_main_c_5 V0)
theorem val1_main_c_6 : val1 V0 (no_index (Proc.devRef .tc main_c_6)) = constantI S6 1 0#1 :=
  part0_main_c_6 V0
theorem val2_main_c_6 : val2 V0 (no_index (Proc.devRef .tc main_c_6)) = constantI S6 1 0#1 :=
  (ops_part1_keep (val1 V0) main_c_6 (by decide)).trans (val1_main_c_6 V0)
theorem val3_main_c_6 : val3 V0 (no_index (Proc.devRef .tc main_c_6)) = constantI S6 1 0#1 :=
  (ops_part2_keep (val2 V0) main_c_6 (by decide)).trans (val2_main_c_6 V0)
theorem val1_main_c_7 : val1 V0 (no_index (Proc.devRef .tc main_c_7)) = tab4 :=
  part0_main_c_7 V0
theorem val2_main_c_7 : val2 V0 (no_index (Proc.devRef .tc main_c_7)) = tab4 :=
  (ops_part1_keep (val1 V0) main_c_7 (by decide)).trans (val1_main_c_7 V0)
theorem val3_main_c_7 : val3 V0 (no_index (Proc.devRef .tc main_c_7)) = tab4 :=
  (ops_part2_keep (val2 V0) main_c_7 (by decide)).trans (val2_main_c_7 V0)
theorem val4_main_c_7 : val4 V0 (no_index (Proc.devRef .tc main_c_7)) = tab4 :=
  (ops_part3_keep (val3 V0) main_c_7 (by decide)).trans (val3_main_c_7 V0)
theorem val1_main_c_8 : val1 V0 (no_index (Proc.devRef .tc main_c_8)) = constantI S4 1 0#1 :=
  part0_main_c_8 V0
theorem val2_main_c_8 : val2 V0 (no_index (Proc.devRef .tc main_c_8)) = constantI S4 1 0#1 :=
  (ops_part1_keep (val1 V0) main_c_8 (by decide)).trans (val1_main_c_8 V0)
theorem val3_main_c_8 : val3 V0 (no_index (Proc.devRef .tc main_c_8)) = constantI S4 1 0#1 :=
  (ops_part2_keep (val2 V0) main_c_8 (by decide)).trans (val2_main_c_8 V0)
theorem val4_main_c_8 : val4 V0 (no_index (Proc.devRef .tc main_c_8)) = constantI S4 1 0#1 :=
  (ops_part3_keep (val3 V0) main_c_8 (by decide)).trans (val3_main_c_8 V0)
theorem val1_main_c_9 : val1 V0 (no_index (Proc.devRef .tc main_c_9)) = tab5 :=
  part0_main_c_9 V0
theorem val2_main_c_9 : val2 V0 (no_index (Proc.devRef .tc main_c_9)) = tab5 :=
  (ops_part1_keep (val1 V0) main_c_9 (by decide)).trans (val1_main_c_9 V0)
theorem val3_main_c_9 : val3 V0 (no_index (Proc.devRef .tc main_c_9)) = tab5 :=
  (ops_part2_keep (val2 V0) main_c_9 (by decide)).trans (val2_main_c_9 V0)
theorem val4_main_c_9 : val4 V0 (no_index (Proc.devRef .tc main_c_9)) = tab5 :=
  (ops_part3_keep (val3 V0) main_c_9 (by decide)).trans (val3_main_c_9 V0)
theorem val5_main_c_9 : val5 V0 (no_index (Proc.devRef .tc main_c_9)) = tab5 :=
  (ops_part4_keep (val4 V0) main_c_9 (by decide)).trans (val4_main_c_9 V0)
theorem val1_main_c_10 : val1 V0 (no_index (Proc.devRef .tc main_c_10)) = constantI S5 1 0#1 :=
  part0_main_c_10 V0
theorem val2_main_c_10 : val2 V0 (no_index (Proc.devRef .tc main_c_10)) = constantI S5 1 0#1 :=
  (ops_part1_keep (val1 V0) main_c_10 (by decide)).trans (val1_main_c_10 V0)
theorem val3_main_c_10 : val3 V0 (no_index (Proc.devRef .tc main_c_10)) = constantI S5 1 0#1 :=
  (ops_part2_keep (val2 V0) main_c_10 (by decide)).trans (val2_main_c_10 V0)
theorem val4_main_c_10 : val4 V0 (no_index (Proc.devRef .tc main_c_10)) = constantI S5 1 0#1 :=
  (ops_part3_keep (val3 V0) main_c_10 (by decide)).trans (val3_main_c_10 V0)
theorem val5_main_c_10 : val5 V0 (no_index (Proc.devRef .tc main_c_10)) = constantI S5 1 0#1 :=
  (ops_part4_keep (val4 V0) main_c_10 (by decide)).trans (val4_main_c_10 V0)
theorem val1_main_c_11 : val1 V0 (no_index (Proc.devRef .tc main_c_11)) = tab6 :=
  part0_main_c_11 V0
theorem val2_main_c_11 : val2 V0 (no_index (Proc.devRef .tc main_c_11)) = tab6 :=
  (ops_part1_keep (val1 V0) main_c_11 (by decide)).trans (val1_main_c_11 V0)
theorem val3_main_c_11 : val3 V0 (no_index (Proc.devRef .tc main_c_11)) = tab6 :=
  (ops_part2_keep (val2 V0) main_c_11 (by decide)).trans (val2_main_c_11 V0)
theorem val4_main_c_11 : val4 V0 (no_index (Proc.devRef .tc main_c_11)) = tab6 :=
  (ops_part3_keep (val3 V0) main_c_11 (by decide)).trans (val3_main_c_11 V0)
theorem val5_main_c_11 : val5 V0 (no_index (Proc.devRef .tc main_c_11)) = tab6 :=
  (ops_part4_keep (val4 V0) main_c_11 (by decide)).trans (val4_main_c_11 V0)
theorem val6_main_c_11 : val6 V0 (no_index (Proc.devRef .tc main_c_11)) = tab6 :=
  (ops_part5_keep (val5 V0) main_c_11 (by decide)).trans (val5_main_c_11 V0)
theorem val1_main_c_12 : val1 V0 (no_index (Proc.devRef .tc main_c_12)) = constantI S6 1 0#1 :=
  part0_main_c_12 V0
theorem val2_main_c_12 : val2 V0 (no_index (Proc.devRef .tc main_c_12)) = constantI S6 1 0#1 :=
  (ops_part1_keep (val1 V0) main_c_12 (by decide)).trans (val1_main_c_12 V0)
theorem val3_main_c_12 : val3 V0 (no_index (Proc.devRef .tc main_c_12)) = constantI S6 1 0#1 :=
  (ops_part2_keep (val2 V0) main_c_12 (by decide)).trans (val2_main_c_12 V0)
theorem val4_main_c_12 : val4 V0 (no_index (Proc.devRef .tc main_c_12)) = constantI S6 1 0#1 :=
  (ops_part3_keep (val3 V0) main_c_12 (by decide)).trans (val3_main_c_12 V0)
theorem val5_main_c_12 : val5 V0 (no_index (Proc.devRef .tc main_c_12)) = constantI S6 1 0#1 :=
  (ops_part4_keep (val4 V0) main_c_12 (by decide)).trans (val4_main_c_12 V0)
theorem val6_main_c_12 : val6 V0 (no_index (Proc.devRef .tc main_c_12)) = constantI S6 1 0#1 :=
  (ops_part5_keep (val5 V0) main_c_12 (by decide)).trans (val5_main_c_12 V0)
theorem val1_main_c_13 : val1 V0 (no_index (Proc.devRef .tc main_c_13)) = tab7 :=
  part0_main_c_13 V0
theorem val2_main_c_13 : val2 V0 (no_index (Proc.devRef .tc main_c_13)) = tab7 :=
  (ops_part1_keep (val1 V0) main_c_13 (by decide)).trans (val1_main_c_13 V0)
theorem val3_main_c_13 : val3 V0 (no_index (Proc.devRef .tc main_c_13)) = tab7 :=
  (ops_part2_keep (val2 V0) main_c_13 (by decide)).trans (val2_main_c_13 V0)
theorem val4_main_c_13 : val4 V0 (no_index (Proc.devRef .tc main_c_13)) = tab7 :=
  (ops_part3_keep (val3 V0) main_c_13 (by decide)).trans (val3_main_c_13 V0)
theorem val5_main_c_13 : val5 V0 (no_index (Proc.devRef .tc main_c_13)) = tab7 :=
  (ops_part4_keep (val4 V0) main_c_13 (by decide)).trans (val4_main_c_13 V0)
theorem val6_main_c_13 : val6 V0 (no_index (Proc.devRef .tc main_c_13)) = tab7 :=
  (ops_part5_keep (val5 V0) main_c_13 (by decide)).trans (val5_main_c_13 V0)
theorem val7_main_c_13 : val7 V0 (no_index (Proc.devRef .tc main_c_13)) = tab7 :=
  (ops_part6_keep (val6 V0) main_c_13 (by decide)).trans (val6_main_c_13 V0)
theorem val1_main_c_14 : val1 V0 (no_index (Proc.devRef .tc main_c_14)) = constantI S4 1 0#1 :=
  part0_main_c_14 V0
theorem val2_main_c_14 : val2 V0 (no_index (Proc.devRef .tc main_c_14)) = constantI S4 1 0#1 :=
  (ops_part1_keep (val1 V0) main_c_14 (by decide)).trans (val1_main_c_14 V0)
theorem val3_main_c_14 : val3 V0 (no_index (Proc.devRef .tc main_c_14)) = constantI S4 1 0#1 :=
  (ops_part2_keep (val2 V0) main_c_14 (by decide)).trans (val2_main_c_14 V0)
theorem val4_main_c_14 : val4 V0 (no_index (Proc.devRef .tc main_c_14)) = constantI S4 1 0#1 :=
  (ops_part3_keep (val3 V0) main_c_14 (by decide)).trans (val3_main_c_14 V0)
theorem val5_main_c_14 : val5 V0 (no_index (Proc.devRef .tc main_c_14)) = constantI S4 1 0#1 :=
  (ops_part4_keep (val4 V0) main_c_14 (by decide)).trans (val4_main_c_14 V0)
theorem val6_main_c_14 : val6 V0 (no_index (Proc.devRef .tc main_c_14)) = constantI S4 1 0#1 :=
  (ops_part5_keep (val5 V0) main_c_14 (by decide)).trans (val5_main_c_14 V0)
theorem val7_main_c_14 : val7 V0 (no_index (Proc.devRef .tc main_c_14)) = constantI S4 1 0#1 :=
  (ops_part6_keep (val6 V0) main_c_14 (by decide)).trans (val6_main_c_14 V0)
theorem val1_main_c_15 : val1 V0 (no_index (Proc.devRef .tc main_c_15)) = tab8 :=
  part0_main_c_15 V0
theorem val2_main_c_15 : val2 V0 (no_index (Proc.devRef .tc main_c_15)) = tab8 :=
  (ops_part1_keep (val1 V0) main_c_15 (by decide)).trans (val1_main_c_15 V0)
theorem val3_main_c_15 : val3 V0 (no_index (Proc.devRef .tc main_c_15)) = tab8 :=
  (ops_part2_keep (val2 V0) main_c_15 (by decide)).trans (val2_main_c_15 V0)
theorem val4_main_c_15 : val4 V0 (no_index (Proc.devRef .tc main_c_15)) = tab8 :=
  (ops_part3_keep (val3 V0) main_c_15 (by decide)).trans (val3_main_c_15 V0)
theorem val5_main_c_15 : val5 V0 (no_index (Proc.devRef .tc main_c_15)) = tab8 :=
  (ops_part4_keep (val4 V0) main_c_15 (by decide)).trans (val4_main_c_15 V0)
theorem val6_main_c_15 : val6 V0 (no_index (Proc.devRef .tc main_c_15)) = tab8 :=
  (ops_part5_keep (val5 V0) main_c_15 (by decide)).trans (val5_main_c_15 V0)
theorem val7_main_c_15 : val7 V0 (no_index (Proc.devRef .tc main_c_15)) = tab8 :=
  (ops_part6_keep (val6 V0) main_c_15 (by decide)).trans (val6_main_c_15 V0)
theorem val8_main_c_15 : val8 V0 (no_index (Proc.devRef .tc main_c_15)) = tab8 :=
  (ops_part7_keep (val7 V0) main_c_15 (by decide)).trans (val7_main_c_15 V0)
theorem val1_main_c_16 : val1 V0 (no_index (Proc.devRef .tc main_c_16)) = constantI S6 1 0#1 :=
  part0_main_c_16 V0
theorem val2_main_c_16 : val2 V0 (no_index (Proc.devRef .tc main_c_16)) = constantI S6 1 0#1 :=
  (ops_part1_keep (val1 V0) main_c_16 (by decide)).trans (val1_main_c_16 V0)
theorem val3_main_c_16 : val3 V0 (no_index (Proc.devRef .tc main_c_16)) = constantI S6 1 0#1 :=
  (ops_part2_keep (val2 V0) main_c_16 (by decide)).trans (val2_main_c_16 V0)
theorem val4_main_c_16 : val4 V0 (no_index (Proc.devRef .tc main_c_16)) = constantI S6 1 0#1 :=
  (ops_part3_keep (val3 V0) main_c_16 (by decide)).trans (val3_main_c_16 V0)
theorem val5_main_c_16 : val5 V0 (no_index (Proc.devRef .tc main_c_16)) = constantI S6 1 0#1 :=
  (ops_part4_keep (val4 V0) main_c_16 (by decide)).trans (val4_main_c_16 V0)
theorem val6_main_c_16 : val6 V0 (no_index (Proc.devRef .tc main_c_16)) = constantI S6 1 0#1 :=
  (ops_part5_keep (val5 V0) main_c_16 (by decide)).trans (val5_main_c_16 V0)
theorem val7_main_c_16 : val7 V0 (no_index (Proc.devRef .tc main_c_16)) = constantI S6 1 0#1 :=
  (ops_part6_keep (val6 V0) main_c_16 (by decide)).trans (val6_main_c_16 V0)
theorem val8_main_c_16 : val8 V0 (no_index (Proc.devRef .tc main_c_16)) = constantI S6 1 0#1 :=
  (ops_part7_keep (val7 V0) main_c_16 (by decide)).trans (val7_main_c_16 V0)
theorem val1_main_c_17 : val1 V0 (no_index (Proc.devRef .tc main_c_17)) = tab9 :=
  part0_main_c_17 V0
theorem val2_main_c_17 : val2 V0 (no_index (Proc.devRef .tc main_c_17)) = tab9 :=
  (ops_part1_keep (val1 V0) main_c_17 (by decide)).trans (val1_main_c_17 V0)
theorem val3_main_c_17 : val3 V0 (no_index (Proc.devRef .tc main_c_17)) = tab9 :=
  (ops_part2_keep (val2 V0) main_c_17 (by decide)).trans (val2_main_c_17 V0)
theorem val4_main_c_17 : val4 V0 (no_index (Proc.devRef .tc main_c_17)) = tab9 :=
  (ops_part3_keep (val3 V0) main_c_17 (by decide)).trans (val3_main_c_17 V0)
theorem val5_main_c_17 : val5 V0 (no_index (Proc.devRef .tc main_c_17)) = tab9 :=
  (ops_part4_keep (val4 V0) main_c_17 (by decide)).trans (val4_main_c_17 V0)
theorem val6_main_c_17 : val6 V0 (no_index (Proc.devRef .tc main_c_17)) = tab9 :=
  (ops_part5_keep (val5 V0) main_c_17 (by decide)).trans (val5_main_c_17 V0)
theorem val7_main_c_17 : val7 V0 (no_index (Proc.devRef .tc main_c_17)) = tab9 :=
  (ops_part6_keep (val6 V0) main_c_17 (by decide)).trans (val6_main_c_17 V0)
theorem val8_main_c_17 : val8 V0 (no_index (Proc.devRef .tc main_c_17)) = tab9 :=
  (ops_part7_keep (val7 V0) main_c_17 (by decide)).trans (val7_main_c_17 V0)
theorem val9_main_c_17 : val9 V0 (no_index (Proc.devRef .tc main_c_17)) = tab9 :=
  (ops_part8_keep (val8 V0) main_c_17 (by decide)).trans (val8_main_c_17 V0)
theorem val1_main_c_18 : val1 V0 (no_index (Proc.devRef .tc main_c_18)) = constantI S4 1 0#1 :=
  part0_main_c_18 V0
theorem val2_main_c_18 : val2 V0 (no_index (Proc.devRef .tc main_c_18)) = constantI S4 1 0#1 :=
  (ops_part1_keep (val1 V0) main_c_18 (by decide)).trans (val1_main_c_18 V0)
theorem val3_main_c_18 : val3 V0 (no_index (Proc.devRef .tc main_c_18)) = constantI S4 1 0#1 :=
  (ops_part2_keep (val2 V0) main_c_18 (by decide)).trans (val2_main_c_18 V0)
theorem val4_main_c_18 : val4 V0 (no_index (Proc.devRef .tc main_c_18)) = constantI S4 1 0#1 :=
  (ops_part3_keep (val3 V0) main_c_18 (by decide)).trans (val3_main_c_18 V0)
theorem val5_main_c_18 : val5 V0 (no_index (Proc.devRef .tc main_c_18)) = constantI S4 1 0#1 :=
  (ops_part4_keep (val4 V0) main_c_18 (by decide)).trans (val4_main_c_18 V0)
theorem val6_main_c_18 : val6 V0 (no_index (Proc.devRef .tc main_c_18)) = constantI S4 1 0#1 :=
  (ops_part5_keep (val5 V0) main_c_18 (by decide)).trans (val5_main_c_18 V0)
theorem val7_main_c_18 : val7 V0 (no_index (Proc.devRef .tc main_c_18)) = constantI S4 1 0#1 :=
  (ops_part6_keep (val6 V0) main_c_18 (by decide)).trans (val6_main_c_18 V0)
theorem val8_main_c_18 : val8 V0 (no_index (Proc.devRef .tc main_c_18)) = constantI S4 1 0#1 :=
  (ops_part7_keep (val7 V0) main_c_18 (by decide)).trans (val7_main_c_18 V0)
theorem val9_main_c_18 : val9 V0 (no_index (Proc.devRef .tc main_c_18)) = constantI S4 1 0#1 :=
  (ops_part8_keep (val8 V0) main_c_18 (by decide)).trans (val8_main_c_18 V0)

/-! ### Part by part: what each window leaves, as terms of the arguments -/
theorem val1_main_v4 : val1 V0 (no_index (Proc.devRef .tc main_v4)) = gath5 (V0 (Proc.devRef .tc main_arg0)) (idxCol5 tab0) :=
  part0_main_v4 V0
theorem val1_main_v27 : val1 V0 (no_index (Proc.devRef .tc main_v27)) = mlp (w1s0 (V0 (Proc.devRef .tc main_arg1))) (b1s0 (V0 (Proc.devRef .tc main_arg2))) (w2s0 (V0 (Proc.devRef .tc main_arg3))) (b2s0 (V0 (Proc.devRef .tc main_arg4))) (avg5 (gath5 (V0 (Proc.devRef .tc main_arg0)) (idxCol5 tab0))) :=
  part0_main_v27 V0
theorem val1_main_v31 : val1 V0 (no_index (Proc.devRef .tc main_v31)) = lin1 (w1T (w1s0 (V0 (Proc.devRef .tc main_arg1)))) (max5 (gath5 (V0 (Proc.devRef .tc main_arg0)) (idxCol5 tab0))) :=
  part0_main_v31 V0
theorem val1_main_v35 : val1 V0 (no_index (Proc.devRef .tc main_v35)) = b1B (b1s0 (V0 (Proc.devRef .tc main_arg2))) :=
  part0_main_v35 V0

/-- Part 0 of the output. -/
theorem val2_main_v56 : val2 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (part1_main_v56 (val1 V0)).trans (by
    simp only [val1_main_v4, val1_main_v27, val1_main_v31, val1_main_v35, val1_main_arg0, val1_main_arg1, val1_main_arg2, val1_main_arg3, val1_main_arg4] <;> rfl)
theorem val2_main_v61 : val2 V0 (no_index (Proc.devRef .tc main_v61)) = gath6 (V0 (Proc.devRef .tc main_arg0)) (idxCol6 tab1) :=
  (part1_main_v61 (val1 V0)).trans (by
    simp only [val1_main_c_1, val1_main_c_2, val1_main_arg0, val1_main_arg1, val1_main_arg2, val1_main_arg3, val1_main_arg4] <;> rfl)
theorem val2_main_v84 : val2 V0 (no_index (Proc.devRef .tc main_v84)) = mlp (w1s1 (V0 (Proc.devRef .tc main_arg1))) (b1s1 (V0 (Proc.devRef .tc main_arg2))) (w2s1 (V0 (Proc.devRef .tc main_arg3))) (b2s1 (V0 (Proc.devRef .tc main_arg4))) (avg6 (gath6 (V0 (Proc.devRef .tc main_arg0)) (idxCol6 tab1))) :=
  (part1_main_v84 (val1 V0)).trans (by
    simp only [val1_main_c_1, val1_main_c_2, val1_main_arg0, val1_main_arg1, val1_main_arg2, val1_main_arg3, val1_main_arg4] <;> rfl)
theorem val2_main_v88 : val2 V0 (no_index (Proc.devRef .tc main_v88)) = lin1 (w1T (w1s1 (V0 (Proc.devRef .tc main_arg1)))) (max6 (gath6 (V0 (Proc.devRef .tc main_arg0)) (idxCol6 tab1))) :=
  (part1_main_v88 (val1 V0)).trans (by
    simp only [val1_main_c_1, val1_main_c_2, val1_main_arg0, val1_main_arg1, val1_main_arg2, val1_main_arg3, val1_main_arg4] <;> rfl)
theorem val2_main_v89 : val2 V0 (no_index (Proc.devRef .tc main_v89)) = b1s1 (V0 (Proc.devRef .tc main_arg2)) :=
  (part1_main_v89 (val1 V0)).trans (by
    simp only [val1_main_c_1, val1_main_c_2, val1_main_arg0, val1_main_arg1, val1_main_arg2, val1_main_arg3, val1_main_arg4] <;> rfl)

/-- Part 1 of the output. -/
theorem val3_main_v113 : val3 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (part2_main_v113 (val2 V0)).trans (by
    simp only [val2_main_v61, val2_main_v84, val2_main_v88, val2_main_v89, val2_main_arg0, val2_main_arg1, val2_main_arg2, val2_main_arg3, val2_main_arg4] <;> rfl)
theorem val3_main_v118 : val3 V0 (no_index (Proc.devRef .tc main_v118)) = gath4 (V0 (Proc.devRef .tc main_arg0)) (idxCol4 tab2) :=
  (part2_main_v118 (val2 V0)).trans (by
    simp only [val2_main_c_3, val2_main_c_4, val2_main_arg0, val2_main_arg1, val2_main_arg2, val2_main_arg3, val2_main_arg4] <;> rfl)
theorem val3_main_v122 : val3 V0 (no_index (Proc.devRef .tc main_v122)) = max4 (gath4 (V0 (Proc.devRef .tc main_arg0)) (idxCol4 tab2)) :=
  (part2_main_v122 (val2 V0)).trans (by
    simp only [val2_main_c_3, val2_main_c_4, val2_main_arg0, val2_main_arg1, val2_main_arg2, val2_main_arg3, val2_main_arg4] <;> rfl)
theorem val3_main_v141 : val3 V0 (no_index (Proc.devRef .tc main_v141)) = mlp (w1s2 (V0 (Proc.devRef .tc main_arg1))) (b1s2 (V0 (Proc.devRef .tc main_arg2))) (w2s2 (V0 (Proc.devRef .tc main_arg3))) (b2s2 (V0 (Proc.devRef .tc main_arg4))) (avg4 (gath4 (V0 (Proc.devRef .tc main_arg0)) (idxCol4 tab2))) :=
  (part2_main_v141 (val2 V0)).trans (by
    simp only [val2_main_c_3, val2_main_c_4, val2_main_arg0, val2_main_arg1, val2_main_arg2, val2_main_arg3, val2_main_arg4] <;> rfl)
theorem val3_main_v143 : val3 V0 (no_index (Proc.devRef .tc main_v143)) = shapeCast S16x256 (w1s2 (V0 (Proc.devRef .tc main_arg1))) shapeCasts_S1x16x256_S16x256 :=
  (part2_main_v143 (val2 V0)).trans (by
    simp only [val2_main_c_3, val2_main_c_4, val2_main_arg0, val2_main_arg1, val2_main_arg2, val2_main_arg3, val2_main_arg4] <;> rfl)

/-- Part 2 of the output. -/
theorem val4_main_v170 : val4 V0 (no_index (Proc.devRef .tc main_v170)) = part4 (V0 (Proc.devRef .tc main_arg0)) tab2 (w1s2 (V0 (Proc.devRef .tc main_arg1))) (b1s2 (V0 (Proc.devRef .tc main_arg2))) (w2s2 (V0 (Proc.devRef .tc main_arg3))) (b2s2 (V0 (Proc.devRef .tc main_arg4))) :=
  (part3_main_v170 (val3 V0)).trans (by
    simp only [val3_main_v118, val3_main_v122, val3_main_v141, val3_main_v143, val3_main_arg0, val3_main_arg1, val3_main_arg2, val3_main_arg3, val3_main_arg4] <;> rfl)
theorem val4_main_v175 : val4 V0 (no_index (Proc.devRef .tc main_v175)) = gath6 (V0 (Proc.devRef .tc main_arg0)) (idxCol6 tab3) :=
  (part3_main_v175 (val3 V0)).trans (by
    simp only [val3_main_c_5, val3_main_c_6, val3_main_arg0, val3_main_arg1, val3_main_arg2, val3_main_arg3, val3_main_arg4] <;> rfl)
theorem val4_main_v179 : val4 V0 (no_index (Proc.devRef .tc main_v179)) = max6 (gath6 (V0 (Proc.devRef .tc main_arg0)) (idxCol6 tab3)) :=
  (part3_main_v179 (val3 V0)).trans (by
    simp only [val3_main_c_5, val3_main_c_6, val3_main_arg0, val3_main_arg1, val3_main_arg2, val3_main_arg3, val3_main_arg4] <;> rfl)
theorem val4_main_v193 : val4 V0 (no_index (Proc.devRef .tc main_v193)) = lin2 (w2T (w2s3 (V0 (Proc.devRef .tc main_arg3)))) (relu (hid (w1s3 (V0 (Proc.devRef .tc main_arg1))) (b1s3 (V0 (Proc.devRef .tc main_arg2))) (avg6 (gath6 (V0 (Proc.devRef .tc main_arg0)) (idxCol6 tab3))))) :=
  (part3_main_v193 (val3 V0)).trans (by
    simp only [val3_main_c_5, val3_main_c_6, val3_main_arg0, val3_main_arg1, val3_main_arg2, val3_main_arg3, val3_main_arg4] <;> rfl)
theorem val4_main_v197 : val4 V0 (no_index (Proc.devRef .tc main_v197)) = b2B (b2s3 (V0 (Proc.devRef .tc main_arg4))) :=
  (part3_main_v197 (val3 V0)).trans (by
    simp only [val3_main_c_5, val3_main_c_6, val3_main_arg0, val3_main_arg1, val3_main_arg2, val3_main_arg3, val3_main_arg4] <;> rfl)

/-- Part 3 of the output. -/
theorem val5_main_v227 : val5 V0 (no_index (Proc.devRef .tc main_v227)) = part6 (V0 (Proc.devRef .tc main_arg0)) tab3 (w1s3 (V0 (Proc.devRef .tc main_arg1))) (b1s3 (V0 (Proc.devRef .tc main_arg2))) (w2s3 (V0 (Proc.devRef .tc main_arg3))) (b2s3 (V0 (Proc.devRef .tc main_arg4))) :=
  (part4_main_v227 (val4 V0)).trans (by
    simp only [val4_main_v175, val4_main_v179, val4_main_v193, val4_main_v197, val4_main_arg0, val4_main_arg1, val4_main_arg2, val4_main_arg3, val4_main_arg4] <;> rfl)
theorem val5_main_v232 : val5 V0 (no_index (Proc.devRef .tc main_v232)) = gath4 (V0 (Proc.devRef .tc main_arg0)) (idxCol4 tab4) :=
  (part4_main_v232 (val4 V0)).trans (by
    simp only [val4_main_c_7, val4_main_c_8, val4_main_arg0, val4_main_arg1, val4_main_arg2, val4_main_arg3, val4_main_arg4] <;> rfl)
theorem val5_main_v236 : val5 V0 (no_index (Proc.devRef .tc main_v236)) = max4 (gath4 (V0 (Proc.devRef .tc main_arg0)) (idxCol4 tab4)) :=
  (part4_main_v236 (val4 V0)).trans (by
    simp only [val4_main_c_7, val4_main_c_8, val4_main_arg0, val4_main_arg1, val4_main_arg2, val4_main_arg3, val4_main_arg4] <;> rfl)
theorem val5_main_v250 : val5 V0 (no_index (Proc.devRef .tc main_v250)) = lin2 (w2T (w2s4 (V0 (Proc.devRef .tc main_arg3)))) (relu (hid (w1s4 (V0 (Proc.devRef .tc main_arg1))) (b1s4 (V0 (Proc.devRef .tc main_arg2))) (avg4 (gath4 (V0 (Proc.devRef .tc main_arg0)) (idxCol4 tab4))))) :=
  (part4_main_v250 (val4 V0)).trans (by
    simp only [val4_main_c_7, val4_main_c_8, val4_main_arg0, val4_main_arg1, val4_main_arg2, val4_main_arg3, val4_main_arg4] <;> rfl)
theorem val5_main_v251 : val5 V0 (no_index (Proc.devRef .tc main_v251)) = b2s4 (V0 (Proc.devRef .tc main_arg4)) :=
  (part4_main_v251 (val4 V0)).trans (by
    simp only [val4_main_c_7, val4_main_c_8, val4_main_arg0, val4_main_arg1, val4_main_arg2, val4_main_arg3, val4_main_arg4] <;> rfl)

/-- Part 4 of the output. -/
theorem val6_main_v284 : val6 V0 (no_index (Proc.devRef .tc main_v284)) = part4 (V0 (Proc.devRef .tc main_arg0)) tab4 (w1s4 (V0 (Proc.devRef .tc main_arg1))) (b1s4 (V0 (Proc.devRef .tc main_arg2))) (w2s4 (V0 (Proc.devRef .tc main_arg3))) (b2s4 (V0 (Proc.devRef .tc main_arg4))) :=
  (part5_main_v284 (val5 V0)).trans (by
    simp only [val5_main_v232, val5_main_v236, val5_main_v250, val5_main_v251, val5_main_arg0, val5_main_arg1, val5_main_arg2, val5_main_arg3, val5_main_arg4] <;> rfl)
theorem val6_main_v289 : val6 V0 (no_index (Proc.devRef .tc main_v289)) = gath5 (V0 (Proc.devRef .tc main_arg0)) (idxCol5 tab5) :=
  (part5_main_v289 (val5 V0)).trans (by
    simp only [val5_main_c_9, val5_main_c_10, val5_main_arg0, val5_main_arg1, val5_main_arg2, val5_main_arg3, val5_main_arg4] <;> rfl)
theorem val6_main_v293 : val6 V0 (no_index (Proc.devRef .tc main_v293)) = max5 (gath5 (V0 (Proc.devRef .tc main_arg0)) (idxCol5 tab5)) :=
  (part5_main_v293 (val5 V0)).trans (by
    simp only [val5_main_c_9, val5_main_c_10, val5_main_arg0, val5_main_arg1, val5_main_arg2, val5_main_arg3, val5_main_arg4] <;> rfl)
theorem val6_main_v303 : val6 V0 (no_index (Proc.devRef .tc main_v303)) = relu (hid (w1s5 (V0 (Proc.devRef .tc main_arg1))) (b1s5 (V0 (Proc.devRef .tc main_arg2))) (avg5 (gath5 (V0 (Proc.devRef .tc main_arg0)) (idxCol5 tab5)))) :=
  (part5_main_v303 (val5 V0)).trans (by
    simp only [val5_main_c_9, val5_main_c_10, val5_main_arg0, val5_main_arg1, val5_main_arg2, val5_main_arg3, val5_main_arg4] <;> rfl)
theorem val6_main_v305 : val6 V0 (no_index (Proc.devRef .tc main_v305)) = shapeCast S256x16 (w2s5 (V0 (Proc.devRef .tc main_arg3))) shapeCasts_S1x256x16_S256x16 :=
  (part5_main_v305 (val5 V0)).trans (by
    simp only [val5_main_c_9, val5_main_c_10, val5_main_arg0, val5_main_arg1, val5_main_arg2, val5_main_arg3, val5_main_arg4] <;> rfl)

/-- Part 5 of the output. -/
theorem val7_main_v341 : val7 V0 (no_index (Proc.devRef .tc main_v341)) = part5 (V0 (Proc.devRef .tc main_arg0)) tab5 (w1s5 (V0 (Proc.devRef .tc main_arg1))) (b1s5 (V0 (Proc.devRef .tc main_arg2))) (w2s5 (V0 (Proc.devRef .tc main_arg3))) (b2s5 (V0 (Proc.devRef .tc main_arg4))) :=
  (part6_main_v341 (val6 V0)).trans (by
    simp only [val6_main_v289, val6_main_v293, val6_main_v303, val6_main_v305, val6_main_arg0, val6_main_arg1, val6_main_arg2, val6_main_arg3, val6_main_arg4] <;> rfl)
theorem val7_main_v346 : val7 V0 (no_index (Proc.devRef .tc main_v346)) = gath6 (V0 (Proc.devRef .tc main_arg0)) (idxCol6 tab6) :=
  (part6_main_v346 (val6 V0)).trans (by
    simp only [val6_main_c_11, val6_main_c_12, val6_main_arg0, val6_main_arg1, val6_main_arg2, val6_main_arg3, val6_main_arg4] <;> rfl)
theorem val7_main_v350 : val7 V0 (no_index (Proc.devRef .tc main_v350)) = max6 (gath6 (V0 (Proc.devRef .tc main_arg0)) (idxCol6 tab6)) :=
  (part6_main_v350 (val6 V0)).trans (by
    simp only [val6_main_c_11, val6_main_c_12, val6_main_arg0, val6_main_arg1, val6_main_arg2, val6_main_arg3, val6_main_arg4] <;> rfl)
theorem val7_main_v359 : val7 V0 (no_index (Proc.devRef .tc main_v359)) = hid (w1s6 (V0 (Proc.devRef .tc main_arg1))) (b1s6 (V0 (Proc.devRef .tc main_arg2))) (avg6 (gath6 (V0 (Proc.devRef .tc main_arg0)) (idxCol6 tab6))) :=
  (part6_main_v359 (val6 V0)).trans (by
    simp only [val6_main_c_11, val6_main_c_12, val6_main_arg0, val6_main_arg1, val6_main_arg2, val6_main_arg3, val6_main_arg4] <;> rfl)

/-- Part 6 of the output. -/
theorem val8_main_v398 : val8 V0 (no_index (Proc.devRef .tc main_v398)) = part6 (V0 (Proc.devRef .tc main_arg0)) tab6 (w1s6 (V0 (Proc.devRef .tc main_arg1))) (b1s6 (V0 (Proc.devRef .tc main_arg2))) (w2s6 (V0 (Proc.devRef .tc main_arg3))) (b2s6 (V0 (Proc.devRef .tc main_arg4))) :=
  (part7_main_v398 (val7 V0)).trans (by
    simp only [val7_main_v346, val7_main_v350, val7_main_v359, val7_main_arg0, val7_main_arg1, val7_main_arg2, val7_main_arg3, val7_main_arg4] <;> rfl)
theorem val8_main_v403 : val8 V0 (no_index (Proc.devRef .tc main_v403)) = gath4 (V0 (Proc.devRef .tc main_arg0)) (idxCol4 tab7) :=
  (part7_main_v403 (val7 V0)).trans (by
    simp only [val7_main_c_13, val7_main_c_14, val7_main_arg0, val7_main_arg1, val7_main_arg2, val7_main_arg3, val7_main_arg4] <;> rfl)
theorem val8_main_v407 : val8 V0 (no_index (Proc.devRef .tc main_v407)) = max4 (gath4 (V0 (Proc.devRef .tc main_arg0)) (idxCol4 tab7)) :=
  (part7_main_v407 (val7 V0)).trans (by
    simp only [val7_main_c_13, val7_main_c_14, val7_main_arg0, val7_main_arg1, val7_main_arg2, val7_main_arg3, val7_main_arg4] <;> rfl)
theorem val8_main_v411 : val8 V0 (no_index (Proc.devRef .tc main_v411)) = lin1 (w1T (w1s7 (V0 (Proc.devRef .tc main_arg1)))) (avg4 (gath4 (V0 (Proc.devRef .tc main_arg0)) (idxCol4 tab7))) :=
  (part7_main_v411 (val7 V0)).trans (by
    simp only [val7_main_c_13, val7_main_c_14, val7_main_arg0, val7_main_arg1, val7_main_arg2, val7_main_arg3, val7_main_arg4] <;> rfl)
theorem val8_main_v413 : val8 V0 (no_index (Proc.devRef .tc main_v413)) = shapeCast S16 (b1s7 (V0 (Proc.devRef .tc main_arg2))) shapeCasts_S1x16_S16 :=
  (part7_main_v413 (val7 V0)).trans (by
    simp only [val7_main_c_13, val7_main_c_14, val7_main_arg0, val7_main_arg1, val7_main_arg2, val7_main_arg3, val7_main_arg4] <;> rfl)

/-- Part 7 of the output. -/
theorem val9_main_v455 : val9 V0 (no_index (Proc.devRef .tc main_v455)) = part4 (V0 (Proc.devRef .tc main_arg0)) tab7 (w1s7 (V0 (Proc.devRef .tc main_arg1))) (b1s7 (V0 (Proc.devRef .tc main_arg2))) (w2s7 (V0 (Proc.devRef .tc main_arg3))) (b2s7 (V0 (Proc.devRef .tc main_arg4))) :=
  (part8_main_v455 (val8 V0)).trans (by
    simp only [val8_main_v403, val8_main_v407, val8_main_v411, val8_main_v413, val8_main_arg0, val8_main_arg1, val8_main_arg2, val8_main_arg3, val8_main_arg4] <;> rfl)
theorem val9_main_v460 : val9 V0 (no_index (Proc.devRef .tc main_v460)) = gath6 (V0 (Proc.devRef .tc main_arg0)) (idxCol6 tab8) :=
  (part8_main_v460 (val8 V0)).trans (by
    simp only [val8_main_c_15, val8_main_c_16, val8_main_arg0, val8_main_arg1, val8_main_arg2, val8_main_arg3, val8_main_arg4] <;> rfl)
theorem val9_main_v463 : val9 V0 (no_index (Proc.devRef .tc main_v463)) = avg6 (gath6 (V0 (Proc.devRef .tc main_arg0)) (idxCol6 tab8)) :=
  (part8_main_v463 (val8 V0)).trans (by
    simp only [val8_main_c_15, val8_main_c_16, val8_main_arg0, val8_main_arg1, val8_main_arg2, val8_main_arg3, val8_main_arg4] <;> rfl)
theorem val9_main_v464 : val9 V0 (no_index (Proc.devRef .tc main_v464)) = max6 (gath6 (V0 (Proc.devRef .tc main_arg0)) (idxCol6 tab8)) :=
  (part8_main_v464 (val8 V0)).trans (by
    simp only [val8_main_c_15, val8_main_c_16, val8_main_arg0, val8_main_arg1, val8_main_arg2, val8_main_arg3, val8_main_arg4] <;> rfl)
theorem val9_main_v467 : val9 V0 (no_index (Proc.devRef .tc main_v467)) = w1T (w1s8 (V0 (Proc.devRef .tc main_arg1))) :=
  (part8_main_v467 (val8 V0)).trans (by
    simp only [val8_main_c_15, val8_main_c_16, val8_main_arg0, val8_main_arg1, val8_main_arg2, val8_main_arg3, val8_main_arg4] <;> rfl)

/-- Part 8 of the output. -/
theorem val10_main_v512 : val10 V0 (no_index (Proc.devRef .tc main_v512)) = part6 (V0 (Proc.devRef .tc main_arg0)) tab8 (w1s8 (V0 (Proc.devRef .tc main_arg1))) (b1s8 (V0 (Proc.devRef .tc main_arg2))) (w2s8 (V0 (Proc.devRef .tc main_arg3))) (b2s8 (V0 (Proc.devRef .tc main_arg4))) :=
  (part9_main_v512 (val9 V0)).trans (by
    simp only [val9_main_v460, val9_main_v463, val9_main_v464, val9_main_v467, val9_main_arg0, val9_main_arg1, val9_main_arg2, val9_main_arg3, val9_main_arg4] <;> rfl)
theorem val10_main_v517 : val10 V0 (no_index (Proc.devRef .tc main_v517)) = gath4 (V0 (Proc.devRef .tc main_arg0)) (idxCol4 tab9) :=
  (part9_main_v517 (val9 V0)).trans (by
    simp only [val9_main_c_17, val9_main_c_18, val9_main_arg0, val9_main_arg1, val9_main_arg2, val9_main_arg3, val9_main_arg4] <;> rfl)
theorem val10_main_v520 : val10 V0 (no_index (Proc.devRef .tc main_v520)) = avg4 (gath4 (V0 (Proc.devRef .tc main_arg0)) (idxCol4 tab9)) :=
  (part9_main_v520 (val9 V0)).trans (by
    simp only [val9_main_c_17, val9_main_c_18, val9_main_arg0, val9_main_arg1, val9_main_arg2, val9_main_arg3, val9_main_arg4] <;> rfl)
theorem val10_main_v521 : val10 V0 (no_index (Proc.devRef .tc main_v521)) = max4 (gath4 (V0 (Proc.devRef .tc main_arg0)) (idxCol4 tab9)) :=
  (part9_main_v521 (val9 V0)).trans (by
    simp only [val9_main_c_17, val9_main_c_18, val9_main_arg0, val9_main_arg1, val9_main_arg2, val9_main_arg3, val9_main_arg4] <;> rfl)

/-! ### The finished parts, kept until the concatenation -/
theorem val3_main_v56 : val3 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part2_keep (val2 V0) main_v56 (by decide)).trans (val2_main_v56 V0)
theorem val4_main_v56 : val4 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part3_keep (val3 V0) main_v56 (by decide)).trans (val3_main_v56 V0)
theorem val5_main_v56 : val5 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part4_keep (val4 V0) main_v56 (by decide)).trans (val4_main_v56 V0)
theorem val6_main_v56 : val6 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part5_keep (val5 V0) main_v56 (by decide)).trans (val5_main_v56 V0)
theorem val7_main_v56 : val7 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part6_keep (val6 V0) main_v56 (by decide)).trans (val6_main_v56 V0)
theorem val8_main_v56 : val8 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part7_keep (val7 V0) main_v56 (by decide)).trans (val7_main_v56 V0)
theorem val9_main_v56 : val9 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part8_keep (val8 V0) main_v56 (by decide)).trans (val8_main_v56 V0)
theorem val10_main_v56 : val10 V0 (no_index (Proc.devRef .tc main_v56)) = part5 (V0 (Proc.devRef .tc main_arg0)) tab0 (w1s0 (V0 (Proc.devRef .tc main_arg1))) (b1s0 (V0 (Proc.devRef .tc main_arg2))) (w2s0 (V0 (Proc.devRef .tc main_arg3))) (b2s0 (V0 (Proc.devRef .tc main_arg4))) :=
  (ops_part9_keep (val9 V0) main_v56 (by decide)).trans (val9_main_v56 V0)
theorem val4_main_v113 : val4 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (ops_part3_keep (val3 V0) main_v113 (by decide)).trans (val3_main_v113 V0)
theorem val5_main_v113 : val5 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (ops_part4_keep (val4 V0) main_v113 (by decide)).trans (val4_main_v113 V0)
theorem val6_main_v113 : val6 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (ops_part5_keep (val5 V0) main_v113 (by decide)).trans (val5_main_v113 V0)
theorem val7_main_v113 : val7 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (ops_part6_keep (val6 V0) main_v113 (by decide)).trans (val6_main_v113 V0)
theorem val8_main_v113 : val8 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (ops_part7_keep (val7 V0) main_v113 (by decide)).trans (val7_main_v113 V0)
theorem val9_main_v113 : val9 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (ops_part8_keep (val8 V0) main_v113 (by decide)).trans (val8_main_v113 V0)
theorem val10_main_v113 : val10 V0 (no_index (Proc.devRef .tc main_v113)) = part6 (V0 (Proc.devRef .tc main_arg0)) tab1 (w1s1 (V0 (Proc.devRef .tc main_arg1))) (b1s1 (V0 (Proc.devRef .tc main_arg2))) (w2s1 (V0 (Proc.devRef .tc main_arg3))) (b2s1 (V0 (Proc.devRef .tc main_arg4))) :=
  (ops_part9_keep (val9 V0) main_v113 (by decide)).trans (val9_main_v113 V0)
theorem val5_main_v170 : val5 V0 (no_index (Proc.devRef .tc main_v170)) = part4 (V0 (Proc.devRef .tc main_arg0)) tab2 (w1s2 (V0 (Proc.devRef .tc main_arg1))) (b1s2 (V0 (Proc.devRef .tc main_arg2))) (w2s2 (V0 (Proc.devRef .tc main_arg3))) (b2s2 (V0 (Proc.devRef .tc main_arg4))) :=
  (ops_part4_keep (val4 V0) main_v170 (by decide)).trans (val4_main_v170 V0)
theorem val6_main_v170 : val6 V0 (no_index (Proc.devRef .tc main_v170)) = part4 (V0 (Proc.devRef .tc main_arg0)) tab2 (w1s2 (V0 (Proc.devRef .tc main_arg1))) (b1s2 (V0 (Proc.devRef .tc main_arg2))) (w2s2 (V0 (Proc.devRef .tc main_arg3))) (b2s2 (V0 (Proc.devRef .tc main_arg4))) :=
  (ops_part5_keep (val5 V0) main_v170 (by decide)).trans (val5_main_v170 V0)
theorem val7_main_v170 : val7 V0 (no_index (Proc.devRef .tc main_v170)) = part4 (V0 (Proc.devRef .tc main_arg0)) tab2 (w1s2 (V0 (Proc.devRef .tc main_arg1))) (b1s2 (V0 (Proc.devRef .tc main_arg2))) (w2s2 (V0 (Proc.devRef .tc main_arg3))) (b2s2 (V0 (Proc.devRef .tc main_arg4))) :=
  (ops_part6_keep (val6 V0) main_v170 (by decide)).trans (val6_main_v170 V0)
theorem val8_main_v170 : val8 V0 (no_index (Proc.devRef .tc main_v170)) = part4 (V0 (Proc.devRef .tc main_arg0)) tab2 (w1s2 (V0 (Proc.devRef .tc main_arg1))) (b1s2 (V0 (Proc.devRef .tc main_arg2))) (w2s2 (V0 (Proc.devRef .tc main_arg3))) (b2s2 (V0 (Proc.devRef .tc main_arg4))) :=
  (ops_part7_keep (val7 V0) main_v170 (by decide)).trans (val7_main_v170 V0)
theorem val9_main_v170 : val9 V0 (no_index (Proc.devRef .tc main_v170)) = part4 (V0 (Proc.devRef .tc main_arg0)) tab2 (w1s2 (V0 (Proc.devRef .tc main_arg1))) (b1s2 (V0 (Proc.devRef .tc main_arg2))) (w2s2 (V0 (Proc.devRef .tc main_arg3))) (b2s2 (V0 (Proc.devRef .tc main_arg4))) :=
  (ops_part8_keep (val8 V0) main_v170 (by decide)).trans (val8_main_v170 V0)
theorem val10_main_v170 : val10 V0 (no_index (Proc.devRef .tc main_v170)) = part4 (V0 (Proc.devRef .tc main_arg0)) tab2 (w1s2 (V0 (Proc.devRef .tc main_arg1))) (b1s2 (V0 (Proc.devRef .tc main_arg2))) (w2s2 (V0 (Proc.devRef .tc main_arg3))) (b2s2 (V0 (Proc.devRef .tc main_arg4))) :=
  (ops_part9_keep (val9 V0) main_v170 (by decide)).trans (val9_main_v170 V0)
theorem val6_main_v227 : val6 V0 (no_index (Proc.devRef .tc main_v227)) = part6 (V0 (Proc.devRef .tc main_arg0)) tab3 (w1s3 (V0 (Proc.devRef .tc main_arg1))) (b1s3 (V0 (Proc.devRef .tc main_arg2))) (w2s3 (V0 (Proc.devRef .tc main_arg3))) (b2s3 (V0 (Proc.devRef .tc main_arg4))) :=
  (ops_part5_keep (val5 V0) main_v227 (by decide)).trans (val5_main_v227 V0)
theorem val7_main_v227 : val7 V0 (no_index (Proc.devRef .tc main_v227)) = part6 (V0 (Proc.devRef .tc main_arg0)) tab3 (w1s3 (V0 (Proc.devRef .tc main_arg1))) (b1s3 (V0 (Proc.devRef .tc main_arg2))) (w2s3 (V0 (Proc.devRef .tc main_arg3))) (b2s3 (V0 (Proc.devRef .tc main_arg4))) :=
  (ops_part6_keep (val6 V0) main_v227 (by decide)).trans (val6_main_v227 V0)
theorem val8_main_v227 : val8 V0 (no_index (Proc.devRef .tc main_v227)) = part6 (V0 (Proc.devRef .tc main_arg0)) tab3 (w1s3 (V0 (Proc.devRef .tc main_arg1))) (b1s3 (V0 (Proc.devRef .tc main_arg2))) (w2s3 (V0 (Proc.devRef .tc main_arg3))) (b2s3 (V0 (Proc.devRef .tc main_arg4))) :=
  (ops_part7_keep (val7 V0) main_v227 (by decide)).trans (val7_main_v227 V0)
theorem val9_main_v227 : val9 V0 (no_index (Proc.devRef .tc main_v227)) = part6 (V0 (Proc.devRef .tc main_arg0)) tab3 (w1s3 (V0 (Proc.devRef .tc main_arg1))) (b1s3 (V0 (Proc.devRef .tc main_arg2))) (w2s3 (V0 (Proc.devRef .tc main_arg3))) (b2s3 (V0 (Proc.devRef .tc main_arg4))) :=
  (ops_part8_keep (val8 V0) main_v227 (by decide)).trans (val8_main_v227 V0)
theorem val10_main_v227 : val10 V0 (no_index (Proc.devRef .tc main_v227)) = part6 (V0 (Proc.devRef .tc main_arg0)) tab3 (w1s3 (V0 (Proc.devRef .tc main_arg1))) (b1s3 (V0 (Proc.devRef .tc main_arg2))) (w2s3 (V0 (Proc.devRef .tc main_arg3))) (b2s3 (V0 (Proc.devRef .tc main_arg4))) :=
  (ops_part9_keep (val9 V0) main_v227 (by decide)).trans (val9_main_v227 V0)
theorem val7_main_v284 : val7 V0 (no_index (Proc.devRef .tc main_v284)) = part4 (V0 (Proc.devRef .tc main_arg0)) tab4 (w1s4 (V0 (Proc.devRef .tc main_arg1))) (b1s4 (V0 (Proc.devRef .tc main_arg2))) (w2s4 (V0 (Proc.devRef .tc main_arg3))) (b2s4 (V0 (Proc.devRef .tc main_arg4))) :=
  (ops_part6_keep (val6 V0) main_v284 (by decide)).trans (val6_main_v284 V0)
theorem val8_main_v284 : val8 V0 (no_index (Proc.devRef .tc main_v284)) = part4 (V0 (Proc.devRef .tc main_arg0)) tab4 (w1s4 (V0 (Proc.devRef .tc main_arg1))) (b1s4 (V0 (Proc.devRef .tc main_arg2))) (w2s4 (V0 (Proc.devRef .tc main_arg3))) (b2s4 (V0 (Proc.devRef .tc main_arg4))) :=
  (ops_part7_keep (val7 V0) main_v284 (by decide)).trans (val7_main_v284 V0)
theorem val9_main_v284 : val9 V0 (no_index (Proc.devRef .tc main_v284)) = part4 (V0 (Proc.devRef .tc main_arg0)) tab4 (w1s4 (V0 (Proc.devRef .tc main_arg1))) (b1s4 (V0 (Proc.devRef .tc main_arg2))) (w2s4 (V0 (Proc.devRef .tc main_arg3))) (b2s4 (V0 (Proc.devRef .tc main_arg4))) :=
  (ops_part8_keep (val8 V0) main_v284 (by decide)).trans (val8_main_v284 V0)
theorem val10_main_v284 : val10 V0 (no_index (Proc.devRef .tc main_v284)) = part4 (V0 (Proc.devRef .tc main_arg0)) tab4 (w1s4 (V0 (Proc.devRef .tc main_arg1))) (b1s4 (V0 (Proc.devRef .tc main_arg2))) (w2s4 (V0 (Proc.devRef .tc main_arg3))) (b2s4 (V0 (Proc.devRef .tc main_arg4))) :=
  (ops_part9_keep (val9 V0) main_v284 (by decide)).trans (val9_main_v284 V0)
theorem val8_main_v341 : val8 V0 (no_index (Proc.devRef .tc main_v341)) = part5 (V0 (Proc.devRef .tc main_arg0)) tab5 (w1s5 (V0 (Proc.devRef .tc main_arg1))) (b1s5 (V0 (Proc.devRef .tc main_arg2))) (w2s5 (V0 (Proc.devRef .tc main_arg3))) (b2s5 (V0 (Proc.devRef .tc main_arg4))) :=
  (ops_part7_keep (val7 V0) main_v341 (by decide)).trans (val7_main_v341 V0)
theorem val9_main_v341 : val9 V0 (no_index (Proc.devRef .tc main_v341)) = part5 (V0 (Proc.devRef .tc main_arg0)) tab5 (w1s5 (V0 (Proc.devRef .tc main_arg1))) (b1s5 (V0 (Proc.devRef .tc main_arg2))) (w2s5 (V0 (Proc.devRef .tc main_arg3))) (b2s5 (V0 (Proc.devRef .tc main_arg4))) :=
  (ops_part8_keep (val8 V0) main_v341 (by decide)).trans (val8_main_v341 V0)
theorem val10_main_v341 : val10 V0 (no_index (Proc.devRef .tc main_v341)) = part5 (V0 (Proc.devRef .tc main_arg0)) tab5 (w1s5 (V0 (Proc.devRef .tc main_arg1))) (b1s5 (V0 (Proc.devRef .tc main_arg2))) (w2s5 (V0 (Proc.devRef .tc main_arg3))) (b2s5 (V0 (Proc.devRef .tc main_arg4))) :=
  (ops_part9_keep (val9 V0) main_v341 (by decide)).trans (val9_main_v341 V0)
theorem val9_main_v398 : val9 V0 (no_index (Proc.devRef .tc main_v398)) = part6 (V0 (Proc.devRef .tc main_arg0)) tab6 (w1s6 (V0 (Proc.devRef .tc main_arg1))) (b1s6 (V0 (Proc.devRef .tc main_arg2))) (w2s6 (V0 (Proc.devRef .tc main_arg3))) (b2s6 (V0 (Proc.devRef .tc main_arg4))) :=
  (ops_part8_keep (val8 V0) main_v398 (by decide)).trans (val8_main_v398 V0)
theorem val10_main_v398 : val10 V0 (no_index (Proc.devRef .tc main_v398)) = part6 (V0 (Proc.devRef .tc main_arg0)) tab6 (w1s6 (V0 (Proc.devRef .tc main_arg1))) (b1s6 (V0 (Proc.devRef .tc main_arg2))) (w2s6 (V0 (Proc.devRef .tc main_arg3))) (b2s6 (V0 (Proc.devRef .tc main_arg4))) :=
  (ops_part9_keep (val9 V0) main_v398 (by decide)).trans (val9_main_v398 V0)
theorem val10_main_v455 : val10 V0 (no_index (Proc.devRef .tc main_v455)) = part4 (V0 (Proc.devRef .tc main_arg0)) tab7 (w1s7 (V0 (Proc.devRef .tc main_arg1))) (b1s7 (V0 (Proc.devRef .tc main_arg2))) (w2s7 (V0 (Proc.devRef .tc main_arg3))) (b2s7 (V0 (Proc.devRef .tc main_arg4))) :=
  (ops_part9_keep (val9 V0) main_v455 (by decide)).trans (val9_main_v455 V0)

/-- The result buffer after the last window: the ten parts concatenated. -/
theorem val11_main_v570 : val11 V0 (no_index (Proc.devRef .tc main_v570)) = refOut (V0 (Proc.devRef .tc main_arg0)) (V0 (Proc.devRef .tc main_arg1)) (V0 (Proc.devRef .tc main_arg2)) (V0 (Proc.devRef .tc main_arg3)) (V0 (Proc.devRef .tc main_arg4)) :=
  (part10_main_v570 (val10 V0)).trans (by
    simp only [val10_main_v56, val10_main_v113, val10_main_v170, val10_main_v227, val10_main_v284, val10_main_v341, val10_main_v398, val10_main_v455, val10_main_v512, val10_main_v517, val10_main_v520, val10_main_v521, val10_main_arg0, val10_main_arg1, val10_main_arg2, val10_main_arg3, val10_main_arg4] <;> rfl)

end

/-- On every device, for any float values, from any memory with zero counters: every weakly fair execution of the
    reference terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v570)
          = RefTerm.refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v570).trans (by simp only [after_ops]; exact val11_main_v570 (launchContents m c)),
      (h c main_arg0).trans (by simp only [after_ops]; exact val11_main_arg0 (launchContents m c)),
      (h c main_arg1).trans (by simp only [after_ops]; exact val11_main_arg1 (launchContents m c)),
      (h c main_arg2).trans (by simp only [after_ops]; exact val11_main_arg2 (launchContents m c)),
      (h c main_arg3).trans (by simp only [after_ops]; exact val11_main_arg3 (launchContents m c)),
      (h c main_arg4).trans (by simp only [after_ops]; exact val11_main_arg4 (launchContents m c))⟩)
    (run_seq scopedRefs_eq scopedSems_eq defs main (fun _ => ops) main_eq (fun _ => ops_sub) m ρ (fun _ => ops_fresh))

end Cert.ReferenceIdeal.RefRun

end
-- ==== Proof.RefValue.Concat.lean ====
/-
  The reference's last step: ten arrays of 5, 6, 4, 6, 4, 5, 6, 4, 6, 4 joints laid side by side along the joint
  axis into one of 50. Column `pre + q` of the result, `pre` the number of columns before piece `k` and `q` a
  column of that piece, is piece `k` at column `q`; the other three coordinates pass through.
-/
import proofs.«140205_j1228360647386_2_alg».proof.ReferenceIdeal
import Idealize.ShloMosaic.Lib.IdealHost
import Idealize.ShloMosaic.Lib.ValueLayout
import Idealize.ShloMosaic.Lib.Pipeline.Value

open Idealize.ShloMosaic Idealize.ShloMosaic.ValueIdx
open scoped BigOperators

namespace Cert.ReferenceIdeal.RefValue

open Cert.ReferenceIdeal

section
variable (u0 : FVec Ideal S64x256x64x5 .f32) (u1 : FVec Ideal S64x256x64x6 .f32) (u2 : FVec Ideal S64x256x64x4 .f32) (u3 : FVec Ideal S64x256x64x6 .f32) (u4 : FVec Ideal S64x256x64x4 .f32) (u5 : FVec Ideal S64x256x64x5 .f32) (u6 : FVec Ideal S64x256x64x6 .f32) (u7 : FVec Ideal S64x256x64x4 .f32) (u8 : FVec Ideal S64x256x64x6 .f32) (u9 : FVec Ideal S64x256x64x4 .f32)
  (hcat : Shape.Concatenates (([⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] :
      List ((s : Shape) × (s.Idx → Ideal .f32))).map (·.1)) S64x256x64x50 3)

/-- Piece 0 (5 columns, after 0): column `0 + q` of the whole is its column `q`. -/
theorem concat_piece0 (n : Fin 64) (c : Fin 256) (t : Fin 64) (q : Fin 5) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨0 + q.val, by have := q.isLt; omega⟩ : Fin 50))
      = u0 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 0 (by show 0 < 10; decide) S64x256x64x5 u0 rfl rfl 0 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 1 (6 columns, after 5): column `5 + q` of the whole is its column `q`. -/
theorem concat_piece1 (n : Fin 64) (c : Fin 256) (t : Fin 64) (q : Fin 6) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨5 + q.val, by have := q.isLt; omega⟩ : Fin 50))
      = u1 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 1 (by show 1 < 10; decide) S64x256x64x6 u1 rfl rfl 5 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 2 (4 columns, after 11): column `11 + q` of the whole is its column `q`. -/
theorem concat_piece2 (n : Fin 64) (c : Fin 256) (t : Fin 64) (q : Fin 4) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨11 + q.val, by have := q.isLt; omega⟩ : Fin 50))
      = u2 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 2 (by show 2 < 10; decide) S64x256x64x4 u2 rfl rfl 11 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 3 (6 columns, after 15): column `15 + q` of the whole is its column `q`. -/
theorem concat_piece3 (n : Fin 64) (c : Fin 256) (t : Fin 64) (q : Fin 6) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨15 + q.val, by have := q.isLt; omega⟩ : Fin 50))
      = u3 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 3 (by show 3 < 10; decide) S64x256x64x6 u3 rfl rfl 15 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 4 (4 columns, after 21): column `21 + q` of the whole is its column `q`. -/
theorem concat_piece4 (n : Fin 64) (c : Fin 256) (t : Fin 64) (q : Fin 4) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨21 + q.val, by have := q.isLt; omega⟩ : Fin 50))
      = u4 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 4 (by show 4 < 10; decide) S64x256x64x4 u4 rfl rfl 21 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 5 (5 columns, after 25): column `25 + q` of the whole is its column `q`. -/
theorem concat_piece5 (n : Fin 64) (c : Fin 256) (t : Fin 64) (q : Fin 5) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨25 + q.val, by have := q.isLt; omega⟩ : Fin 50))
      = u5 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 5 (by show 5 < 10; decide) S64x256x64x5 u5 rfl rfl 25 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 6 (6 columns, after 30): column `30 + q` of the whole is its column `q`. -/
theorem concat_piece6 (n : Fin 64) (c : Fin 256) (t : Fin 64) (q : Fin 6) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨30 + q.val, by have := q.isLt; omega⟩ : Fin 50))
      = u6 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 6 (by show 6 < 10; decide) S64x256x64x6 u6 rfl rfl 30 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 7 (4 columns, after 36): column `36 + q` of the whole is its column `q`. -/
theorem concat_piece7 (n : Fin 64) (c : Fin 256) (t : Fin 64) (q : Fin 4) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨36 + q.val, by have := q.isLt; omega⟩ : Fin 50))
      = u7 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 7 (by show 7 < 10; decide) S64x256x64x4 u7 rfl rfl 36 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 8 (6 columns, after 40): column `40 + q` of the whole is its column `q`. -/
theorem concat_piece8 (n : Fin 64) (c : Fin 256) (t : Fin 64) (q : Fin 6) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨40 + q.val, by have := q.isLt; omega⟩ : Fin 50))
      = u8 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 8 (by show 8 < 10; decide) S64x256x64x6 u8 rfl rfl 40 rfl
    (ix4 n c t q) (fun b hb => ?_) ?_
  · match b with
    | ⟨0, _⟩ => rfl
    | ⟨1, _⟩ => rfl
    | ⟨2, _⟩ => rfl
    | ⟨3, _⟩ => exact absurd rfl hb
  · rfl

/-- Piece 9 (4 columns, after 46): column `46 + q` of the whole is its column `q`. -/
theorem concat_piece9 (n : Fin 64) (c : Fin 256) (t : Fin 64) (q : Fin 4) :
    concatenate S64x256x64x50 3 [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat
        (ix4 n c t (⟨46 + q.val, by have := q.isLt; omega⟩ : Fin 50))
      = u9 (ix4 n c t q) := by
  refine concatenate_apply_piece (t := S64x256x64x50) (3 : Fin 4) [⟨S64x256x64x5, u0⟩, ⟨S64x256x64x6, u1⟩, ⟨S64x256x64x4, u2⟩, ⟨S64x256x64x6, u3⟩, ⟨S64x256x64x4, u4⟩, ⟨S64x256x64x5, u5⟩, ⟨S64x256x64x6, u6⟩, ⟨S64x256x64x4, u7⟩, ⟨S64x256x64x6, u8⟩, ⟨S64x256x64x4, u9⟩] hcat _ 9 (by show 9 < 10; decide) S64x256x64x4 u9 rfl rfl 46 rfl
    (ix4 n c t q) (fun b hb => ?_) ?_
  · match b with
    | ⟨0, _⟩ => rfl
    | ⟨1, _⟩ => rfl
    | ⟨2, _⟩ => rfl
    | ⟨3, _⟩ => exact absurd rfl hb
  · rfl

end

end Cert.ReferenceIdeal.RefValue
-- ==== Proof.RefValue.Tables.lean ====
/-
  The reference's ten joint tables against the specification's: the q-th word of part p's table, read as a signed
  integer and clamped into 0 … 49, is the joint `Jp q`. Every word is a joint number below 50, so the clamp
  changes none of them; that is checked entry by entry.
-/
import proofs.«140205_j1228360647386_2_alg».proof.ReferenceIdeal
import Idealize.ShloMosaic.Lib.IdealHost
import Idealize.ShloMosaic.Lib.ValueLayout
import Idealize.ShloMosaic.Lib.Pipeline.Value
import proofs.«140205_j1228360647386_2_alg».proof.Proof.RefTerm
import proofs.«140205_j1228360647386_2_alg».proof.Proof.SpecAlg

open Idealize.ShloMosaic Idealize.ShloMosaic.ValueIdx
open scoped BigOperators

namespace Cert.ReferenceIdeal.RefValue

open Cert.ReferenceIdeal

/-- The row-major position of a rank-1 index is its coordinate. -/
theorem rowMajor_ix1 {k : ℕ} (q : Fin k) : ((⟨1, ![k]⟩ : Shape).rowMajor (ix1 q)).val = q.val := by
  rw [Shape.rowMajor_val_one]
  rfl

/-- Part 0's table: its q-th word, clamped, is `J0 q`. -/
theorem tab0_J (q : Fin 5) : min (RefTerm.tab0 (ix1 q)).toInt.toNat 49 = (Cert.Spec.J0 q).val := by
  have hq : S5.rowMajor (ix1 q) = q := Fin.ext (rowMajor_ix1 q)
  unfold RefTerm.tab0
  rw [hq]
  fin_cases q <;> rfl

/-- Part 1's table: its q-th word, clamped, is `J1 q`. -/
theorem tab1_J (q : Fin 6) : min (RefTerm.tab1 (ix1 q)).toInt.toNat 49 = (Cert.Spec.J1 q).val := by
  have hq : S6.rowMajor (ix1 q) = q := Fin.ext (rowMajor_ix1 q)
  unfold RefTerm.tab1
  rw [hq]
  fin_cases q <;> rfl

/-- Part 2's table: its q-th word, clamped, is `J2 q`. -/
theorem tab2_J (q : Fin 4) : min (RefTerm.tab2 (ix1 q)).toInt.toNat 49 = (Cert.Spec.J2 q).val := by
  have hq : S4.rowMajor (ix1 q) = q := Fin.ext (rowMajor_ix1 q)
  unfold RefTerm.tab2
  rw [hq]
  fin_cases q <;> rfl

/-- Part 3's table: its q-th word, clamped, is `J3 q`. -/
theorem tab3_J (q : Fin 6) : min (RefTerm.tab3 (ix1 q)).toInt.toNat 49 = (Cert.Spec.J3 q).val := by
  have hq : S6.rowMajor (ix1 q) = q := Fin.ext (rowMajor_ix1 q)
  unfold RefTerm.tab3
  rw [hq]
  fin_cases q <;> rfl

/-- Part 4's table: its q-th word, clamped, is `J4 q`. -/
theorem tab4_J (q : Fin 4) : min (RefTerm.tab4 (ix1 q)).toInt.toNat 49 = (Cert.Spec.J4 q).val := by
  have hq : S4.rowMajor (ix1 q) = q := Fin.ext (rowMajor_ix1 q)
  unfold RefTerm.tab4
  rw [hq]
  fin_cases q <;> rfl

/-- Part 5's table: its q-th word, clamped, is `J5 q`. -/
theorem tab5_J (q : Fin 5) : min (RefTerm.tab5 (ix1 q)).toInt.toNat 49 = (Cert.Spec.J5 q).val := by
  have hq : S5.rowMajor (ix1 q) = q := Fin.ext (rowMajor_ix1 q)
  unfold RefTerm.tab5
  rw [hq]
  fin_cases q <;> rfl

/-- Part 6's table: its q-th word, clamped, is `J6 q`. -/
theorem tab6_J (q : Fin 6) : min (RefTerm.tab6 (ix1 q)).toInt.toNat 49 = (Cert.Spec.J6 q).val := by
  have hq : S6.rowMajor (ix1 q) = q := Fin.ext (rowMajor_ix1 q)
  unfold RefTerm.tab6
  rw [hq]
  fin_cases q <;> rfl

/-- Part 7's table: its q-th word, clamped, is `J7 q`. -/
theorem tab7_J (q : Fin 4) : min (RefTerm.tab7 (ix1 q)).toInt.toNat 49 = (Cert.Spec.J7 q).val := by
  have hq : S4.rowMajor (ix1 q) = q := Fin.ext (rowMajor_ix1 q)
  unfold RefTerm.tab7
  rw [hq]
  fin_cases q <;> rfl

/-- Part 8's table: its q-th word, clamped, is `J8 q`. -/
theorem tab8_J (q : Fin 6) : min (RefTerm.tab8 (ix1 q)).toInt.toNat 49 = (Cert.Spec.J8 q).val := by
  have hq : S6.rowMajor (ix1 q) = q := Fin.ext (rowMajor_ix1 q)
  unfold RefTerm.tab8
  rw [hq]
  fin_cases q <;> rfl

/-- Part 9's table: its q-th word, clamped, is `J9 q`. -/
theorem tab9_J (q : Fin 4) : min (RefTerm.tab9 (ix1 q)).toInt.toNat 49 = (Cert.Spec.J9 q).val := by
  have hq : S4.rowMajor (ix1 q) = q := Fin.ext (rowMajor_ix1 q)
  unfold RefTerm.tab9
  rw [hq]
  fin_cases q <;> rfl

end Cert.ReferenceIdeal.RefValue
-- ==== Proof.RefValue.Consts.lean ====
/-
  The float words the reference spells, as the extended reals they denote: the three pooling counts 320, 384 and
  256 (64 frames times 5, 6 and 4 joints), and minus infinity, from which the pooled maximum starts.
-/
import Idealize.ShloMosaic.PureOps.Ideal

noncomputable section

namespace Cert.ReferenceIdeal.RefValue

open Idealize.ShloMosaic

/-- The word of `320.0` denotes the real 320. -/
theorem ofBits_320 : Ideal.ofBits .f32 0x43A00000#32 = ((320 : ℝ) : EReal) := by
  simp [Ideal.ofBits, Ideal.ieee, -EReal.coe_mul]; norm_num

/-- The word of `384.0` denotes the real 384. -/
theorem ofBits_384 : Ideal.ofBits .f32 0x43C00000#32 = ((384 : ℝ) : EReal) := by
  simp [Ideal.ofBits, Ideal.ieee, -EReal.coe_mul]; norm_num

/-- The word of `256.0` denotes the real 256. -/
theorem ofBits_256 : Ideal.ofBits .f32 0x43800000#32 = ((256 : ℝ) : EReal) := by
  simp [Ideal.ofBits, Ideal.ieee, -EReal.coe_mul]; norm_num

/-- The word `0xFF800000` denotes minus infinity, the least extended real. -/
theorem ofBits_neg_inf : Ideal.ofBits .f32 0xFF800000#32 = (⊥ : EReal) := by
  simp [Ideal.ofBits, Ideal.ieee]

end Cert.ReferenceIdeal.RefValue

end
-- ==== Proof.RefValue.Gate.lean ====
/-
  The reference's gate and pooled mean, read at an index over the extended reals.

  The gate is 1 / (1 + exp (−z)) spelled with broadcast ones: the logistic function of z, at every extended real.
  It is then broadcast from (sample, channel) over frames and a part's joints. The pooled mean is the pooled sum
  divided by a broadcast count r that is not zero: the sum times 1 / r.
-/
import proofs.«140205_j1228360647386_2_alg».proof.ReferenceIdeal
import Idealize.ShloMosaic.Lib.IdealHost
import Idealize.ShloMosaic.Lib.ValueLayout
import Idealize.ShloMosaic.Lib.Pipeline.Value

open Idealize.ShloMosaic Idealize.ShloMosaic.ValueIdx
open scoped BigOperators

namespace Cert.ReferenceIdeal.RefValue

open Cert.ReferenceIdeal

/-- The gate: one over one plus the exponential of the negated argument is the logistic function of the argument. -/
theorem logistic_apply (z : FVec Ideal S64x256 .f32) (h1 : S_.BroadcastsInDim S64x256 (![] : Fin 0 → Fin S64x256.rank))
    (i : S64x256.Idx) :
    Host.divf (F := Ideal) (broadcastInDim S64x256 ![] h1 (constant (F := Ideal) S_ .f32 0x3F800000#32))
        (addf (broadcastInDim S64x256 ![] h1 (constant (F := Ideal) S_ .f32 0x3F800000#32))
          (Host.exp (F := Ideal) (Host.negf (F := Ideal) z))) i
      = Ideal.logistic (z i) := by
  rw [hostDivf_apply, addf_apply, broadcastInDim_scalar_apply, constant_apply, Ideal.ofBits_one_f32]
  rfl

/-- The gate broadcast from (sample, channel) to (sample, channel, frame, joint), whatever the number `k` of joints. -/
theorem gate_bcast_apply (k : ℕ) (g : FVec Ideal S64x256 .f32)
    (h1 : S64x256.BroadcastsInDim S64x256x1x1 (![0, 1] : Fin 2 → Fin S64x256x1x1.rank))
    (h2 : S64x256x1x1.BroadcastsInDim (⟨4, ![64, 256, 64, k]⟩ : Shape) (![0, 1, 2, 3] : Fin 4 → Fin 4))
    (n : Fin 64) (c : Fin 256) (t : Fin 64) (q : Fin k) :
    broadcastInDim (⟨4, ![64, 256, 64, k]⟩ : Shape) ![0, 1, 2, 3] h2 (broadcastInDim S64x256x1x1 ![0, 1] h1 g) (ix4 n c t q)
      = g (ix2 n c) := by
  rw [broadcastInDim_apply (![0, 1, 2, 3] : Fin 4 → Fin 4) h2 _ (ix4 n c t q) (ix4 n c (0 : Fin 1) (0 : Fin 1))
      (fun a => match a with | ⟨0, _⟩ => rfl | ⟨1, _⟩ => rfl | ⟨2, _⟩ => rfl | ⟨3, _⟩ => rfl),
    broadcastInDim_apply (![0, 1] : Fin 2 → Fin S64x256x1x1.rank) h1 _ (ix4 n c (0 : Fin 1) (0 : Fin 1)) (ix2 n c)
      (fun a => match a with | ⟨0, _⟩ => rfl | ⟨1, _⟩ => rfl)]

/-- The pooled mean: a quotient by a broadcast word that denotes a real `r ≠ 0` is the product with `1 / r`. -/
theorem mean_apply (s : FVec Ideal S64x256 .f32) (w : BitVec 32) (r : ℝ) (hr : r ≠ 0)
    (hw : Ideal.ofBits .f32 w = ((r : ℝ) : EReal)) (h1 : S_.BroadcastsInDim S64x256 (![] : Fin 0 → Fin S64x256.rank))
    (i : S64x256.Idx) :
    Host.divf (F := Ideal) s (broadcastInDim S64x256 ![] h1 (constant (F := Ideal) S_ .f32 w)) i
      = s i * (((1 / r : ℝ)) : EReal) := by
  rw [hostDivf_apply, broadcastInDim_scalar_apply, constant_apply, hw, Ideal.div_coe hr]

end Cert.ReferenceIdeal.RefValue
-- ==== Proof.RefValue.Gather.lean ====
/-
  The reference's choice of a part's joints, read at an index.

  The start indices are a literal table of joint numbers under a select whose mask is false everywhere, so the
  select is the table; broadcast to a column, entry (q, 0) is the table's q-th word. The gather along the joint
  axis then reads, at (n, c, t, q), the input at (n, c, t, j) where j is that word read as a signed integer and
  clamped into 0 … 49 — the clamp is part of the operation's meaning and is stated, whatever the word.
-/
import proofs.«140205_j1228360647386_2_alg».proof.ReferenceIdeal
import Idealize.ShloMosaic.Lib.IdealHost
import Idealize.ShloMosaic.Lib.ValueLayout
import Idealize.ShloMosaic.Lib.Pipeline.Value

open Idealize.ShloMosaic Idealize.ShloMosaic.ValueIdx
open scoped BigOperators

namespace Cert.ReferenceIdeal.RefValue

open Cert.ReferenceIdeal

/-- A select under the all-false mask is its second operand. -/
theorem select_false {s : Shape} {α : Type} (a b : s.Idx → α) : select (constantI s 1 0#1) a b = b := by
  funext i
  rw [select_apply]
  exact select_zero _ _

/-- A vector of `k` words broadcast to a `k × 1` column: entry (q, 0) is word q. -/
theorem column_apply {k w : ℕ} (v : IVec (⟨1, ![k]⟩ : Shape) w)
    (hb : (⟨1, ![k]⟩ : Shape).BroadcastsInDim (⟨2, ![k, 1]⟩ : Shape) (![0] : Fin 1 → Fin 2)) (q : Fin k) (z : Fin 1) :
    broadcastInDim (⟨2, ![k, 1]⟩ : Shape) ![0] hb v (ix2 q z) = v (ix1 q) := by
  unfold broadcastInDim
  refine congrArg v (funext fun a => Fin.ext ?_)
  match a with
  | ⟨0, _⟩ =>
    show (if h1 : k = 1 then (⟨0, _⟩ : Fin k) else ⟨q.val, _⟩).val = q.val
    split
    · next h1 => have := q.isLt; show 0 = q.val; omega
    · rfl

/-- The dimension numbers of a gather along the last axis of a [64, 256, 64, 50] array at a `k × 1` column of starts. -/
abbrev jointDims (k : ℕ)
    (wf : GatherDims.WF S64x256x64x50 (⟨2, ![k, 1]⟩ : Shape) (⟨4, ![64, 256, 64, k]⟩ : Shape) [0, 1, 2] [3] [] [3] [] 1
      ![64, 256, 64, 1]) :
    GatherDims S64x256x64x50 (⟨2, ![k, 1]⟩ : Shape) (⟨4, ![64, 256, 64, k]⟩ : Shape) where
  offsetDims := [0, 1, 2]
  collapsedSliceDims := [3]
  operandBatchingDims := []
  startIndicesBatchingDims := []
  startIndexMap := [3]
  indexVectorDim := 1
  sliceSizes := ![64, 256, 64, 1]
  wf := wf

/-- The gather read at (n, c, t, q): the operand at (n, c, t, j), `j` the start word (q, 0) read signed and clamped
    into 0 … 49. -/
theorem gather_joint_apply {α : Type} {k w : ℕ}
    (wf : GatherDims.WF S64x256x64x50 (⟨2, ![k, 1]⟩ : Shape) (⟨4, ![64, 256, 64, k]⟩ : Shape) [0, 1, 2] [3] [] [3] [] 1
      ![64, 256, 64, 1])
    (x : S64x256x64x50.Idx → α) (idx : IVec (⟨2, ![k, 1]⟩ : Shape) w) (n : Fin 64) (c : Fin 256) (t : Fin 64) (q : Fin k) :
    Host.gather (jointDims k wf) x idx (ix4 n c t q)
      = x (ix4 n c t (⟨min (idx (ix2 q (0 : Fin 1))).toInt.toNat 49, by omega⟩ : Fin 50)) := by
  unfold Host.gather
  congr 1
  funext a
  refine Fin.ext ?_
  show (jointDims k wf).start (ix4 n c t q) idx a + (jointDims k wf).batchCoord (ix4 n c t q) a
    + (jointDims k wf).offCoord (ix4 n c t q) a = _
  rw [GatherDims.batchCoord_eq_zero _ _ _ List.not_mem_nil, Nat.add_zero]
  match a with
  | ⟨0, _⟩ =>
    have hs : (jointDims k wf).start (ix4 n c t q) idx ⟨0, by decide⟩ = 0 := by
      unfold GatherDims.start; exact dif_neg (fun h => absurd (List.mem_singleton.mp h) (by decide))
    rw [hs, Nat.zero_add]; rfl
  | ⟨1, _⟩ =>
    have hs : (jointDims k wf).start (ix4 n c t q) idx ⟨1, by decide⟩ = 0 := by
      unfold GatherDims.start; exact dif_neg (fun h => absurd (List.mem_singleton.mp h) (by decide))
    rw [hs, Nat.zero_add]; rfl
  | ⟨2, _⟩ =>
    have hs : (jointDims k wf).start (ix4 n c t q) idx ⟨2, by decide⟩ = 0 := by
      unfold GatherDims.start; exact dif_neg (fun h => absurd (List.mem_singleton.mp h) (by decide))
    rw [hs, Nat.zero_add]; rfl
  | ⟨3, _⟩ =>
    rw [GatherDims.offCoord_eq_zero _ _ _ (fun h => ((GatherDims.mem_sKept _ _).mp h).1 (List.mem_singleton.mpr rfl)),
      Nat.add_zero]
    unfold GatherDims.start
    rw [dif_pos (show (⟨3, by decide⟩ : Fin 4) ∈ (jointDims k wf).startIndexMap from List.mem_singleton.mpr rfl)]
    have hsi : (jointDims k wf).siIdx (ix4 n c t q)
        ⟨List.idxOf (⟨3, by decide⟩ : Fin 4) (jointDims k wf).startIndexMap,
          List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

end Cert.ReferenceIdeal.RefValue
-- ==== Proof.RefValue.ERealFacts.lean ====
/-
  Finite sums and maxima of extended reals, regrouped.

  A fold of `max` from the least element over a finite set is the set's supremum. A supremum or a sum over
  `Fin 4`, `Fin 5`, `Fin 6` is the right-nested `max` (ending in the least element) or sum (ending in zero) of
  the entries in order: the forms a list's fold and a list's sum take. None of this needs a finite value:
  addition and `max` on the extended reals are commutative and associative everywhere.
-/
import Mathlib.Data.EReal.Basic
import Mathlib.Algebra.BigOperators.Fin
import Mathlib.Order.CompleteLattice.Finset
import Mathlib.Tactic.FinCases

open scoped BigOperators

namespace Cert.ReferenceIdeal.RefValue

/-- The fold of `max` from the least element is the supremum. -/
theorem fold_max_bot_eq_sup {ι : Type} (op : EReal → EReal → EReal) [Std.Commutative op] [Std.Associative op]
    (hop : ∀ a b, op a b = max a b) (S : Finset ι) (y : ι → EReal) : S.fold op ⊥ y = S.sup y := by
  induction S using Finset.cons_induction with
  | empty => rw [Finset.fold_empty, Finset.sup_empty]
  | cons a S ha ih => rw [Finset.fold_cons, Finset.sup_cons, ih, hop]

/-- A supremum over four entries, right-nested. -/
theorem sup_fin4 (f : Fin 4 → EReal) : Finset.univ.sup f = max (f 0) (max (f 1) (max (f 2) (max (f 3) ⊥))) := by
  apply le_antisymm
  · refine Finset.sup_le fun i _ => ?_
    fin_cases i
    · exact le_max_left _ _
    · exact le_max_of_le_right (le_max_left _ _)
    · exact le_max_of_le_right (le_max_of_le_right (le_max_left _ _))
    · exact le_max_of_le_right (le_max_of_le_right (le_max_of_le_right (le_max_left _ _)))
  · refine max_le (Finset.le_sup (Finset.mem_univ _)) (max_le (Finset.le_sup (Finset.mem_univ _))
      (max_le (Finset.le_sup (Finset.mem_univ _)) (max_le (Finset.le_sup (Finset.mem_univ _)) bot_le)))

/-- A supremum over five entries, right-nested. -/
theorem sup_fin5 (f : Fin 5 → EReal) :
    Finset.univ.sup f = max (f 0) (max (f 1) (max (f 2) (max (f 3) (max (f 4) ⊥)))) := by
  apply le_antisymm
  · refine Finset.sup_le fun i _ => ?_
    fin_cases i
    · exact le_max_left _ _
    · exact le_max_of_le_right (le_max_left _ _)
    · exact le_max_of_le_right (le_max_of_le_right (le_max_left _ _))
    · exact le_max_of_le_right (le_max_of_le_right (le_max_of_le_right (le_max_left _ _)))
    · exact le_max_of_le_right (le_max_of_le_right (le_max_of_le_right (le_max_of_le_right (le_max_left _ _))))
  · refine max_le (Finset.le_sup (Finset.mem_univ _)) (max_le (Finset.le_sup (Finset.mem_univ _))
      (max_le (Finset.le_sup (Finset.mem_univ _)) (max_le (Finset.le_sup (Finset.mem_univ _))
        (max_le (Finset.le_sup (Finset.mem_univ _)) bot_le))))

/-- A supremum over six entries, right-nested. -/
theorem sup_fin6 (f : Fin 6 → EReal) :
    Finset.univ.sup f = max (f 0) (max (f 1) (max (f 2) (max (f 3) (max (f 4) (max (f 5) ⊥))))) := by
  apply le_antisymm
  · refine Finset.sup_le fun i _ => ?_
    fin_cases i
    · exact le_max_left _ _
    · exact le_max_of_le_right (le_max_left _ _)
    · exact le_max_of_le_right (le_max_of_le_right (le_max_left _ _))
    · exact le_max_of_le_right (le_max_of_le_right (le_max_of_le_right (le_max_left _ _)))
    · exact le_max_of_le_right (le_max_of_le_right (le_max_of_le_right (le_max_of_le_right (le_max_left _ _))))
    · exact le_max_of_le_right (le_max_of_le_right (le_max_of_le_right (le_max_of_le_right
        (le_max_of_le_right (le_max_left _ _)))))
  · refine max_le (Finset.le_sup (Finset.mem_univ _)) (max_le (Finset.le_sup (Finset.mem_univ _))
      (max_le (Finset.le_sup (Finset.mem_univ _)) (max_le (Finset.le_sup (Finset.mem_univ _))
        (max_le (Finset.le_sup (Finset.mem_univ _)) (max_le (Finset.le_sup (Finset.mem_univ _)) bot_le)))))

/-- A sum over four entries, right-nested and ending in zero. -/
theorem sum_fin4 (f : Fin 4 → EReal) : ∑ i, f i = f 0 + (f 1 + (f 2 + (f 3 + 0))) := by
  rw [Fin.sum_univ_four, add_zero, add_assoc, add_assoc]

/-- A sum over five entries, right-nested and ending in zero. -/
theorem sum_fin5 (f : Fin 5 → EReal) : ∑ i, f i = f 0 + (f 1 + (f 2 + (f 3 + (f 4 + 0)))) := by
  rw [Fin.sum_univ_five, add_zero, add_assoc, add_assoc, add_assoc]

/-- A sum over six entries, right-nested and ending in zero. -/
theorem sum_fin6 (f : Fin 6 → EReal) : ∑ i, f i = f 0 + (f 1 + (f 2 + (f 3 + (f 4 + (f 5 + 0))))) := by
  rw [Fin.sum_univ_six, add_zero, add_assoc, add_assoc, add_assoc, add_assoc]

end Cert.ReferenceIdeal.RefValue
-- ==== Proof.RefValue.Reduce.lean ====
/-
  The reference's two pooling reductions over (frame, joint), read at (sample, channel) over the extended reals.

  Reducing axes 2 and 3 of a [64, 256, 64, k] array sends index (n, c, t, q) to (n, c). So the float sum at
  (n, c) is the initial value plus the double sum over frames t and joints q of the entry at (n, c, t, q), and the
  maximum from minus infinity is the supremum over t of the supremum over q of the same entries.
-/
import proofs.«140205_j1228360647386_2_alg».proof.ReferenceIdeal
import Idealize.ShloMosaic.Lib.IdealHost
import Idealize.ShloMosaic.Lib.ValueLayout
import Idealize.ShloMosaic.Lib.Pipeline.Value
import proofs.«140205_j1228360647386_2_alg».proof.Proof.RefValue.ERealFacts

open Idealize.ShloMosaic Idealize.ShloMosaic.ValueIdx
open scoped BigOperators

namespace Cert.ReferenceIdeal.RefValue

open Cert.ReferenceIdeal

section
variable {k : ℕ} (hred : (⟨4, ![64, 256, 64, k]⟩ : Shape).ReducesTo [2, 3] S64x256)

/-- Dropping axes 2 and 3 keeps the sample and the channel. -/
theorem drop23 (i : (⟨4, ![64, 256, 64, k]⟩ : Shape).Idx) : hred.drop i = ix2 (i 0 : Fin 64) (i 1 : Fin 256) := by
  funext b; refine Fin.ext ?_
  match b with
  | ⟨0, _⟩ => rfl
  | ⟨1, _⟩ => rfl

/-- The indices that drop to (n, c) are exactly the (n, c, t, q). -/
theorem mem_drop23 (n : Fin 64) (c : Fin 256) (i : (⟨4, ![64, 256, 64, k]⟩ : Shape).Idx) :
    hred.drop i = ix2 n c ↔ i = ix4 n c (i 2 : Fin 64) (i 3 : Fin k) := by
  rw [drop23]
  constructor
  · intro e
    have e0 : (i 0 : Fin 64) = n := congrFun e (0 : Fin 2)
    have e1 : (i 1 : Fin 256) = c := congrFun e (1 : Fin 2)
    rw [← e0, ← e1]; exact eq_ix4 i
  · intro e
    rw [e]
    rfl

/-- The sum over the indices that drop to (n, c) is the double sum over frames and joints. -/
theorem sum_filter_drop23 (y : (⟨4, ![64, 256, 64, k]⟩ : Shape).Idx → EReal) (n : Fin 64) (c : Fin 256) :
    ∑ i ∈ Finset.univ.filter (fun i => hred.drop i = ix2 n c), y i = ∑ t : Fin 64, ∑ q : Fin k, y (ix4 n c t q) := by
  rw [← Fintype.sum_prod_type' (fun (t : Fin 64) (q : Fin k) => y (ix4 n c t q))]
  refine Finset.sum_bij' (fun i _ => ((i 2 : Fin 64), (i 3 : Fin k))) (fun p _ => ix4 n c p.1 p.2) ?_ ?_ ?_ ?_ ?_
  · intro i _; exact Finset.mem_univ _
  · intro p _; exact Finset.mem_filter.mpr ⟨Finset.mem_univ _, (mem_drop23 hred n c _).mpr rfl⟩
  · intro i hi; exact ((mem_drop23 hred n c i).mp (Finset.mem_filter.mp hi).2).symm
  · intro p _; rfl
  · intro i hi
    exact congrArg y ((mem_drop23 hred n c i).mp (Finset.mem_filter.mp hi).2)

/-- The supremum over the indices that drop to (n, c) is the supremum over frames of the supremum over joints. -/
theorem sup_filter_drop23 (y : (⟨4, ![64, 256, 64, k]⟩ : Shape).Idx → EReal) (n : Fin 64) (c : Fin 256) :
    (Finset.univ.filter (fun i => hred.drop i = ix2 n c)).sup y
      = Finset.univ.sup fun t : Fin 64 => Finset.univ.sup fun q : Fin k => y (ix4 n c t q) := by
  apply le_antisymm
  · refine Finset.sup_le fun i hi => ?_
    rw [(mem_drop23 hred n c i).mp (Finset.mem_filter.mp hi).2]
    exact le_trans (Finset.le_sup (f := fun q : Fin k => y (ix4 n c (i 2 : Fin 64) q)) (Finset.mem_univ (i 3 : Fin k)))
      (Finset.le_sup (f := fun t : Fin 64 => Finset.univ.sup fun q : Fin k => y (ix4 n c t q)) (Finset.mem_univ (i 2 : Fin 64)))
  · refine Finset.sup_le fun t _ => Finset.sup_le fun q _ => ?_
    exact Finset.le_sup (f := y) (Finset.mem_filter.mpr ⟨Finset.mem_univ _, (mem_drop23 hred n c _).mpr rfl⟩)

/-- The float sum over frames and joints, from the zero word: the double sum. -/
theorem reduceAdd_apply (y : FVec Ideal (⟨4, ![64, 256, 64, k]⟩ : Shape) .f32) (hu : 0 < S_.numel)
    (n : Fin 64) (c : Fin 256) :
    Host.reduceAdd (F := Ideal) y (constant (F := Ideal) S_ .f32 0x00000000#32) hred hu (ix2 n c)
      = ∑ t : Fin 64, ∑ q : Fin k, y (ix4 n c t q) := by
  rw [hostReduceAdd_apply, constant_apply, Ideal.ofBits_zero_f32]
  unfold Ideal.hostReduceAdd
  rw [zero_add]
  exact sum_filter_drop23 hred y n c

/-- The maximum over frames and joints, from a word that denotes minus infinity: the supremum of suprema. -/
theorem reduceMax_apply (y : FVec Ideal (⟨4, ![64, 256, 64, k]⟩ : Shape) .f32) (w : BitVec 32)
    (hw : Ideal.ofBits .f32 w = (⊥ : EReal)) (hu : 0 < S_.numel) (n : Fin 64) (c : Fin 256) :
    Host.reduce (FloatOps.maximumf (F := Ideal) (φ := .f32)) y (constant (F := Ideal) S_ .f32 w) hred hu (ix2 n c)
      = Finset.univ.sup fun t : Fin 64 => Finset.univ.sup fun q : Fin k => y (ix4 n c t q) := by
  rw [Host.reduce_eq_fold, constant_apply, hw,
    fold_max_bot_eq_sup (FloatOps.maximumf (F := Ideal) (φ := .f32)) (fun _ _ => rfl)]
  exact sup_filter_drop23 hred y n c

end

end Cert.ReferenceIdeal.RefValue
-- ==== Proof.RefValue.Dense.lean ====
/-
  The reference's dense layer, operation by operation, read at an index over the extended reals.

  A part's first-layer weights reach the product as slice → reshape → transpose: at (c, h) that is W1 (p, h, c).
  The second layer's likewise: at (h, c) it is W2 (p, c, h). A bias row reaches the sum as slice → reshape → two
  broadcasts: at (n, h) it is b (p, h). The product of a [64, K] array with a [K, M] array at (n, m) is the sum
  over k of the entries' products. The rectifier is the maximum with zero.
-/
import proofs.«140205_j1228360647386_2_alg».proof.ReferenceIdeal
import Idealize.ShloMosaic.Lib.IdealHost
import Idealize.ShloMosaic.Lib.ValueLayout
import Idealize.ShloMosaic.Lib.Pipeline.Value

open Idealize.ShloMosaic Idealize.ShloMosaic.ValueIdx
open scoped BigOperators

namespace Cert.ReferenceIdeal.RefValue

open Cert.ReferenceIdeal

/-- Part `p`'s first-layer weights, sliced, reshaped and transposed: at (c, h) the entry W1 (p, h, c). -/
theorem w1_chain_apply (p : ℕ) (hp : p < 10) (W1 : FVec Ideal S10x16x256 .f32)
    (hs : S10x16x256.Slices ![p, 0, 0] S1x16x256) (hc : S1x16x256.ShapeCasts S16x256)
    (ht : S16x256.Transposes [1, 0] S256x16) (c : Fin 256) (h : Fin 16) :
    transpose S256x16 [1, 0] (shapeCast S16x256 (extractStridedSlice S1x16x256 ![p, 0, 0] W1 hs) hc) ht (ix2 c h)
      = W1 (ix3 (⟨p, hp⟩ : Fin 10) h c) := by
  rw [transpose_ix2_apply, shapeCast_1ab_ab_apply]
  refine extractStridedSlice_apply _ W1 hs _ _ fun a => ?_
  match a with
  | ⟨0, _⟩ => rfl
  | ⟨1, _⟩ => exact (Nat.zero_add _).symm
  | ⟨2, _⟩ => exact (Nat.zero_add _).symm

/-- Part `p`'s second-layer weights, sliced, reshaped and transposed: at (h, c) the entry W2 (p, c, h). -/
theorem w2_chain_apply (p : ℕ) (hp : p < 10) (W2 : FVec Ideal S10x256x16 .f32)
    (hs : S10x256x16.Slices ![p, 0, 0] S1x256x16) (hc : S1x256x16.ShapeCasts S256x16)
    (ht : S256x16.Transposes [1, 0] S16x256) (h : Fin 16) (c : Fin 256) :
    transpose S16x256 [1, 0] (shapeCast S256x16 (extractStridedSlice S1x256x16 ![p, 0, 0] W2 hs) hc) ht (ix2 h c)
      = W2 (ix3 (⟨p, hp⟩ : Fin 10) c h) := by
  rw [transpose_ix2_apply, shapeCast_1ab_ab_apply]
  refine extractStridedSlice_apply _ W2 hs _ _ fun a => ?_
  match a with
  | ⟨0, _⟩ => rfl
  | ⟨1, _⟩ => exact (Nat.zero_add _).symm
  | ⟨2, _⟩ => exact (Nat.zero_add _).symm

section Dots
variable [Facts₀]

/-- The first layer's product: a [64, 256] array times a [256, 16] array at (n, h) is the sum over the 256 channels. -/
theorem dot1_apply (v : FVec Ideal S64x256 .f32) (w : FVec Ideal S256x16 .f32) (n : Fin 64) (h : Fin 16) :
    Host.dotGeneral (F := Ideal) dot_S64x256_S256x16_S64x16_1_0_0_1_n_n none v w (ix2 n h)
      = ∑ c : Fin 256, v (ix2 n c) * w (ix2 c h) := by
  simp only [Host.dotGeneral]
  rw [Ideal.dotGeneral_apply,
    ← Equiv.sum_comp (contrEquiv1 dot_S64x256_S256x16_S64x16_1_0_0_1_n_n 256 rfl rfl)
      (fun c : Fin 256 => v (ix2 n c) * w (ix2 c h))]
  refine Finset.sum_congr rfl fun k _ => ?_
  have hl : dot_S64x256_S256x16_S64x16_1_0_0_1_n_n.lhsIdx (ix2 n h) k
      = ix2 n (contrEquiv1 dot_S64x256_S256x16_S64x16_1_0_0_1_n_n 256 rfl rfl k) := by
    funext a; refine Fin.ext ?_
    match a with
    | ⟨0, _⟩ => rfl
    | ⟨1, _⟩ => exact dot_S64x256_S256x16_S64x16_1_0_0_1_n_n.lhsIdx_val_of_single (cl := 1) rfl (ix2 n h) k
  have hr : dot_S64x256_S256x16_S64x16_1_0_0_1_n_n.rhsIdx (ix2 n h) k
      = ix2 (contrEquiv1 dot_S64x256_S256x16_S64x16_1_0_0_1_n_n 256 rfl rfl k) h := by
    funext a; refine Fin.ext ?_
    match a with
    | ⟨0, _⟩ => exact dot_S64x256_S256x16_S64x16_1_0_0_1_n_n.rhsIdx_val_of_single (cr := 0) rfl (ix2 n h) k
    | ⟨1, _⟩ => rfl
  rw [hl, hr]

/-- The second layer's product: a [64, 16] array times a [16, 256] array at (n, c) is the sum over the 16 hidden units. -/
theorem dot2_apply (v : FVec Ideal S64x16 .f32) (w : FVec Ideal S16x256 .f32) (n : Fin 64) (c : Fin 256) :
    Host.dotGeneral (F := Ideal) dot_S64x16_S16x256_S64x256_1_0_0_1_n_n none v w (ix2 n c)
      = ∑ h : Fin 16, v (ix2 n h) * w (ix2 h c) := by
  simp only [Host.dotGeneral]
  rw [Ideal.dotGeneral_apply,
    ← Equiv.sum_comp (contrEquiv1 dot_S64x16_S16x256_S64x256_1_0_0_1_n_n 16 rfl rfl)
      (fun h : Fin 16 => v (ix2 n h) * w (ix2 h c))]
  refine Finset.sum_congr rfl fun k _ => ?_
  have hl : dot_S64x16_S16x256_S64x256_1_0_0_1_n_n.lhsIdx (ix2 n c) k
      = ix2 n (contrEquiv1 dot_S64x16_S16x256_S64x256_1_0_0_1_n_n 16 rfl rfl k) := by
    funext a; refine Fin.ext ?_
    match a with
    | ⟨0, _⟩ => rfl
    | ⟨1, _⟩ => exact dot_S64x16_S16x256_S64x256_1_0_0_1_n_n.lhsIdx_val_of_single (cl := 1) rfl (ix2 n c) k
  have hr : dot_S64x16_S16x256_S64x256_1_0_0_1_n_n.rhsIdx (ix2 n c) k
      = ix2 (contrEquiv1 dot_S64x16_S16x256_S64x256_1_0_0_1_n_n 16 rfl rfl k) c := by
    funext a; refine Fin.ext ?_
    match a with
    | ⟨0, _⟩ => exact dot_S64x16_S16x256_S64x256_1_0_0_1_n_n.rhsIdx_val_of_single (cr := 0) rfl (ix2 n c) k
    | ⟨1, _⟩ => rfl
  rw [hl, hr]

end Dots

/-- Part `p`'s first-layer bias row, sliced, reshaped and broadcast over the 64 samples: at (n, h) the entry b1 (p, h). -/
theorem b1_chain_apply (p : ℕ) (hp : p < 10) (b1 : FVec Ideal S10x16 .f32)
    (hs : S10x16.Slices ![p, 0] S1x16) (hc : S1x16.ShapeCasts S16)
    (hb : S16.BroadcastsInDim S1x16 (![1] : Fin 1 → Fin S1x16.rank))
    (hB : S1x16.BroadcastsInDim S64x16 (![0, 1] : Fin 2 → Fin S64x16.rank)) (n : Fin 64) (h : Fin 16) :
    broadcastInDim S64x16 ![0, 1] hB (broadcastInDim S1x16 ![1] hb
        (shapeCast S16 (extractStridedSlice S1x16 ![p, 0] b1 hs) hc)) (ix2 n h)
      = b1 (ix2 (⟨p, hp⟩ : Fin 10) h) := by
  rw [broadcastInDim_apply (![0, 1] : Fin 2 → Fin S64x16.rank) hB _ (ix2 n h) (ix2 (0 : Fin 1) h)
      (fun a => match a with | ⟨0, _⟩ => rfl | ⟨1, _⟩ => rfl),
    broadcastInDim_apply (![1] : Fin 1 → Fin S1x16.rank) hb _ (ix2 (0 : Fin 1) h) (ix1 h)
      (fun a => match a with | ⟨0, _⟩ => rfl),
    shapeCast_1a_a_apply]
  refine extractStridedSlice_apply _ b1 hs _ _ fun a => ?_
  match a with
  | ⟨0, _⟩ => rfl
  | ⟨1, _⟩ => exact (Nat.zero_add _).symm

/-- Part `p`'s second-layer bias row likewise: at (n, c) the entry b2 (p, c). -/
theorem b2_chain_apply (p : ℕ) (hp : p < 10) (b2 : FVec Ideal S10x256 .f32)
    (hs : S10x256.Slices ![p, 0] S1x256) (hc : S1x256.ShapeCasts S256)
    (hb : S256.BroadcastsInDim S1x256 (![1] : Fin 1 → Fin S1x256.rank))
    (hB : S1x256.BroadcastsInDim S64x256 (![0, 1] : Fin 2 → Fin S64x256.rank)) (n : Fin 64) (c : Fin 256) :
    broadcastInDim S64x256 ![0, 1] hB (broadcastInDim S1x256 ![1] hb
        (shapeCast S256 (extractStridedSlice S1x256 ![p, 0] b2 hs) hc)) (ix2 n c)
      = b2 (ix2 (⟨p, hp⟩ : Fin 10) c) := by
  rw [broadcastInDim_apply (![0, 1] : Fin 2 → Fin S64x256.rank) hB _ (ix2 n c) (ix2 (0 : Fin 1) c)
      (fun a => match a with | ⟨0, _⟩ => rfl | ⟨1, _⟩ => rfl),
    broadcastInDim_apply (![1] : Fin 1 → Fin S1x256.rank) hb _ (ix2 (0 : Fin 1) c) (ix1 c)
      (fun a => match a with | ⟨0, _⟩ => rfl),
    shapeCast_1a_a_apply]
  refine extractStridedSlice_apply _ b2 hs _ _ fun a => ?_
  match a with
  | ⟨0, _⟩ => rfl
  | ⟨1, _⟩ => exact (Nat.zero_add _).symm

/-- The rectifier: the maximum with the broadcast zero word is the maximum with zero. -/
theorem relu_apply (v : FVec Ideal S64x16 .f32) (hz : S_.BroadcastsInDim S64x16 (![] : Fin 0 → Fin S64x16.rank))
    (i : S64x16.Idx) :
    maximumf v (broadcastInDim S64x16 ![] hz (constant (F := Ideal) S_ .f32 0x00000000#32)) i = max (v i) 0 := by
  rw [maximumf_apply, broadcastInDim_scalar_apply, constant_apply, Ideal.ofBits_zero_f32]

end Cert.ReferenceIdeal.RefValue
-- ==== Proof.RefValue.Mlp.lean ====
/-
  A part's two-layer map and the gate, read at an index.

  The reference's map on a [64, 256] array of pooled vectors — slice the part's weights, product, bias, rectifier,
  product, bias — is, at (sample n, channel c), the specification's two-layer map of part p applied to row n of the
  array. The gate of two such arrays is the logistic function of their sum, entry by entry.
-/
import proofs.«140205_j1228360647386_2_alg».proof.ReferenceIdeal
import Idealize.ShloMosaic.Lib.IdealHost
import Idealize.ShloMosaic.Lib.ValueLayout
import Idealize.ShloMosaic.Lib.Pipeline.Value
import proofs.«140205_j1228360647386_2_alg».proof.Proof.RefTerm
import proofs.«140205_j1228360647386_2_alg».proof.Proof.Spec
import proofs.«140205_j1228360647386_2_alg».proof.Proof.RefValue.Dense
import proofs.«140205_j1228360647386_2_alg».proof.Proof.RefValue.Gate

open Idealize.ShloMosaic Idealize.ShloMosaic.ValueIdx
open scoped BigOperators

namespace Cert.ReferenceIdeal.RefValue

open Cert.ReferenceIdeal Cert.ReferenceIdeal.Facts₀ Cert.ReferenceIdeal.Facts

variable [Cert.ReferenceIdeal.Facts]

/-- The reference's two-layer map on part `p`'s slices, at (n, c): the specification's map of part `p` on row `n`. -/
theorem mlp_apply (p : ℕ) (hp : p < 10) (W1 : FVec Ideal S10x16x256 .f32) (b1 : FVec Ideal S10x16 .f32)
    (W2 : FVec Ideal S10x256x16 .f32) (b2 : FVec Ideal S10x256 .f32)
    (hs1 : S10x16x256.Slices ![p, 0, 0] S1x16x256) (hs2 : S10x16.Slices ![p, 0] S1x16)
    (hs3 : S10x256x16.Slices ![p, 0, 0] S1x256x16) (hs4 : S10x256.Slices ![p, 0] S1x256)
    (v : FVec Ideal S64x256 .f32) (n : Fin 64) (c : Fin 256) :
    RefTerm.mlp (F := Ideal) (extractStridedSlice S1x16x256 ![p, 0, 0] W1 hs1) (extractStridedSlice S1x16 ![p, 0] b1 hs2)
        (extractStridedSlice S1x256x16 ![p, 0, 0] W2 hs3) (extractStridedSlice S1x256 ![p, 0] b2 hs4) v (ix2 n c)
      = Cert.Spec.mlp W1 b1 W2 b2 (⟨p, hp⟩ : Fin 10) (fun c' => v (ix2 n c')) c := by
  unfold RefTerm.mlp RefTerm.lin2 RefTerm.w2T RefTerm.b2B RefTerm.relu RefTerm.hid RefTerm.lin1 RefTerm.w1T RefTerm.b1B
    Cert.Spec.mlp Cert.Spec.hidden
  rw [addf_apply, dot2_apply, b2_chain_apply p hp]
  refine congrArg (· + b2 (ix2 (⟨p, hp⟩ : Fin 10) c)) (Finset.sum_congr rfl fun h _ => ?_)
  rw [relu_apply, addf_apply, dot1_apply, b1_chain_apply p hp, w2_chain_apply p hp]
  refine congrArg (fun s => max (s + b1 (ix2 (⟨p, hp⟩ : Fin 10) h)) 0 * W2 (ix3 (⟨p, hp⟩ : Fin 10) c h))
    (Finset.sum_congr rfl fun c' _ => ?_)
  rw [w1_chain_apply p hp]

/-- The gate of two arrays: the logistic function of their sum at each entry. -/
theorem gateOf_apply (a b : FVec Ideal S64x256 .f32) (i : S64x256.Idx) :
    RefTerm.gateOf (F := Ideal) a b i = Ideal.logistic (a i + b i) := by
  unfold RefTerm.gateOf
  rw [logistic_apply, addf_apply]

end Cert.ReferenceIdeal.RefValue
-- ==== Proof.RefValue.Part5.lean ====
/-
  A part of 5 joints, read at an index.

  The gathered array at (n, c, t, q) is the input at (n, c, t, j), `j` the table's q-th word read signed and
  clamped into 0 … 49. Its mean over frames and joints is the double sum times 1 / 320, its maximum the supremum
  of suprema. The part is the gathered array times the gate of (n, c): the logistic function of the two pooled
  vectors' images under the part's two-layer map. Given that the table's clamped words are the joints `J q` and that
  the specification's pooled mean and maximum of part `p` are the sums and suprema over those joints, the part at
  (n, c, t, q) is the input at joint `J q` times the specification's gate of part `p`.
-/
import proofs.«140205_j1228360647386_2_alg».proof.ReferenceIdeal
import Idealize.ShloMosaic.Lib.IdealHost
import Idealize.ShloMosaic.Lib.ValueLayout
import Idealize.ShloMosaic.Lib.Pipeline.Value
import proofs.«140205_j1228360647386_2_alg».proof.Proof.RefTerm
import proofs.«140205_j1228360647386_2_alg».proof.Proof.Spec
import proofs.«140205_j1228360647386_2_alg».proof.Proof.RefValue.Consts
import proofs.«140205_j1228360647386_2_alg».proof.Proof.RefValue.Gate
import proofs.«140205_j1228360647386_2_alg».proof.Proof.RefValue.Gather
import proofs.«140205_j1228360647386_2_alg».proof.Proof.RefValue.Reduce
import proofs.«140205_j1228360647386_2_alg».proof.Proof.RefValue.Mlp

open Idealize.ShloMosaic Idealize.ShloMosaic.ValueIdx
open scoped BigOperators

namespace Cert.ReferenceIdeal.RefValue

open Cert.ReferenceIdeal Cert.ReferenceIdeal.Facts₀ Cert.ReferenceIdeal.Facts

variable [Cert.ReferenceIdeal.Facts]

/-- The gathered array: the input at the table's word, read signed and clamped. -/
theorem gath5_apply (x : FVec Ideal S64x256x64x50 .f32) (lit : IVec S5 32) (n : Fin 64) (c : Fin 256) (t : Fin 64)
    (q : Fin 5) :
    RefTerm.gath5 (F := Ideal) x (RefTerm.idxCol5 lit) (ix4 n c t q)
      = x (ix4 n c t (⟨min (lit (ix1 q)).toInt.toNat 49, by omega⟩ : Fin 50)) := by
  unfold RefTerm.gath5 RefTerm.idxCol5 RefTerm.idxColM5
  rw [select_false]
  have h := gather_joint_apply (k := 5) gather_S64x256x64x50_S5x1_S64x256x64x5_012_3_n_n_3_1_64256641_wf x
    (broadcastInDim S5x1 ![0] bcast_S5_S5x1_0 lit) n c t q
  refine h.trans (congrArg (fun j => x (ix4 n c t j)) (Fin.ext ?_))
  show min (broadcastInDim S5x1 ![0] bcast_S5_S5x1_0 lit (ix2 q (0 : Fin 1))).toInt.toNat 49
    = min (lit (ix1 q)).toInt.toNat 49
  rw [column_apply]

/-- The pooled mean: the double sum over frames and joints times 1 / 320. -/
theorem avg5_apply (g : FVec Ideal S64x256x64x5 .f32) (n : Fin 64) (c : Fin 256) :
    RefTerm.avg5 (F := Ideal) g (ix2 n c)
      = (∑ t : Fin 64, ∑ q : Fin 5, g (ix4 n c t q)) * (((1 / 320 : ℝ)) : EReal) := by
  unfold RefTerm.avg5
  rw [mean_apply _ _ 320 (by norm_num) ofBits_320, reduceAdd_apply]

/-- The pooled maximum: the supremum over frames of the supremum over joints. -/
theorem max5_apply (g : FVec Ideal S64x256x64x5 .f32) (n : Fin 64) (c : Fin 256) :
    RefTerm.max5 (F := Ideal) g (ix2 n c)
      = Finset.univ.sup fun t : Fin 64 => Finset.univ.sup fun q : Fin 5 => g (ix4 n c t q) := by
  unfold RefTerm.max5
  exact reduceMax_apply _ g _ ofBits_neg_inf _ n c

/-- A part of 5 joints at (n, c, t, q): the input at joint `J q` times the specification's gate of part `p`. -/
theorem part5_apply (x : FVec Ideal S64x256x64x50 .f32) (lit : IVec S5 32) (J : Fin 5 → Fin 50)
    (hJ : ∀ q : Fin 5, min (lit (ix1 q)).toInt.toNat 49 = (J q).val)
    (p : ℕ) (hp : p < 10) (W1 : FVec Ideal S10x16x256 .f32) (b1 : FVec Ideal S10x16 .f32)
    (W2 : FVec Ideal S10x256x16 .f32) (b2 : FVec Ideal S10x256 .f32)
    (hs1 : S10x16x256.Slices ![p, 0, 0] S1x16x256) (hs2 : S10x16.Slices ![p, 0] S1x16)
    (hs3 : S10x256x16.Slices ![p, 0, 0] S1x256x16) (hs4 : S10x256.Slices ![p, 0] S1x256)
    (havg : ∀ (n : Fin 64) (c : Fin 256), Cert.Spec.poolAvg x (⟨p, hp⟩ : Fin 10) n c
      = (∑ q : Fin 5, ∑ t : Fin 64, x (ix4 n c t (J q))) * (((1 / 320 : ℝ)) : EReal))
    (hmax : ∀ (n : Fin 64) (c : Fin 256), Cert.Spec.poolMax x (⟨p, hp⟩ : Fin 10) n c
      = Finset.univ.sup fun q : Fin 5 => Finset.univ.sup fun t : Fin 64 => x (ix4 n c t (J q)))
    (n : Fin 64) (c : Fin 256) (t : Fin 64) (q : Fin 5) :
    RefTerm.part5 (F := Ideal) x lit (extractStridedSlice S1x16x256 ![p, 0, 0] W1 hs1)
        (extractStridedSlice S1x16 ![p, 0] b1 hs2) (extractStridedSlice S1x256x16 ![p, 0, 0] W2 hs3)
        (extractStridedSlice S1x256 ![p, 0] b2 hs4) (ix4 n c t q)
      = x (ix4 n c t (J q)) * Cert.Spec.gate x W1 b1 W2 b2 (⟨p, hp⟩ : Fin 10) n c := by
  have hg : ∀ (n : Fin 64) (c : Fin 256) (t : Fin 64) (q : Fin 5),
      RefTerm.gath5 (F := Ideal) x (RefTerm.idxCol5 lit) (ix4 n c t q) = x (ix4 n c t (J q)) := by
    intro n c t q
    rw [gath5_apply]
    exact congrArg (fun j => x (ix4 n c t j)) (Fin.ext (hJ q))
  have hA : (fun c' : Fin 256 => RefTerm.avg5 (F := Ideal) (RefTerm.gath5 (F := Ideal) x (RefTerm.idxCol5 lit)) (ix2 n c'))
      = Cert.Spec.poolAvg x (⟨p, hp⟩ : Fin 10) n := by
    funext c'
    rw [avg5_apply, havg, Finset.sum_comm]
    refine congrArg (· * (((1 / 320 : ℝ)) : EReal)) ?_
    exact Finset.sum_congr rfl fun q _ => Finset.sum_congr rfl fun t _ => hg n c' t q
  have hM : (fun c' : Fin 256 => RefTerm.max5 (F := Ideal) (RefTerm.gath5 (F := Ideal) x (RefTerm.idxCol5 lit)) (ix2 n c'))
      = Cert.Spec.poolMax x (⟨p, hp⟩ : Fin 10) n := by
    funext c'
    rw [max5_apply, hmax, Finset.sup_comm]
    refine congrArg (Finset.univ.sup) (funext fun q => congrArg (Finset.univ.sup) (funext fun t => hg n c' t q))
  unfold RefTerm.part5 RefTerm.partOf5 RefTerm.gateBB5 Cert.Spec.gate
  rw [mulf_apply, gate_bcast_apply 5, gateOf_apply, hg, mlp_apply p hp, mlp_apply p hp, hA, hM]

end Cert.ReferenceIdeal.RefValue
-- ==== Proof.RefValue.Part6.lean ====
/-
  A part of 6 joints, read at an index.

  The gathered array at (n, c, t, q) is the input at (n, c, t, j), `j` the table's q-th word read signed and
  clamped into 0 … 49. Its mean over frames and joints is the double sum times 1 / 384, its maximum the supremum
  of suprema. The part is the gathered array times the gate of (n, c): the logistic function of the two pooled
  vectors' images under the part's two-layer map. Given that the table's clamped words are the joints `J q` and that
  the specification's pooled mean and maximum of part `p` are the sums and suprema over those joints, the part at
  (n, c, t, q) is the input at joint `J q` times the specification's gate of part `p`.
-/
import proofs.«140205_j1228360647386_2_alg».proof.ReferenceIdeal
import Idealize.ShloMosaic.Lib.IdealHost
import Idealize.ShloMosaic.Lib.ValueLayout
import Idealize.ShloMosaic.Lib.Pipeline.Value
import proofs.«140205_j1228360647386_2_alg».proof.Proof.RefTerm
import proofs.«140205_j1228360647386_2_alg».proof.Proof.Spec
import proofs.«140205_j1228360647386_2_alg».proof.Proof.RefValue.Consts
import proofs.«140205_j1228360647386_2_alg».proof.Proof.RefValue.Gate
import proofs.«140205_j1228360647386_2_alg».proof.Proof.RefValue.Gather
import proofs.«140205_j1228360647386_2_alg».proof.Proof.RefValue.Reduce
import proofs.«140205_j1228360647386_2_alg».proof.Proof.RefValue.Mlp

open Idealize.ShloMosaic Idealize.ShloMosaic.ValueIdx
open scoped BigOperators

namespace Cert.ReferenceIdeal.RefValue

open Cert.ReferenceIdeal Cert.ReferenceIdeal.Facts₀ Cert.ReferenceIdeal.Facts

variable [Cert.ReferenceIdeal.Facts]

/-- The gathered array: the input at the table's word, read signed and clamped. -/
theorem gath6_apply (x : FVec Ideal S64x256x64x50 .f32) (lit : IVec S6 32) (n : Fin 64) (c : Fin 256) (t : Fin 64)
    (q : Fin 6) :
    RefTerm.gath6 (F := Ideal) x (RefTerm.idxCol6 lit) (ix4 n c t q)
      = x (ix4 n c t (⟨min (lit (ix1 q)).toInt.toNat 49, by omega⟩ : Fin 50)) := by
  unfold RefTerm.gath6 RefTerm.idxCol6 RefTerm.idxColM6
  rw [select_false]
  have h := gather_joint_apply (k := 6) gather_S64x256x64x50_S6x1_S64x256x64x6_012_3_n_n_3_1_64256641_wf x
    (broadcastInDim S6x1 ![0] bcast_S6_S6x1_0 lit) n c t q
  refine h.trans (congrArg (fun j => x (ix4 n c t j)) (Fin.ext ?_))
  show min (broadcastInDim S6x1 ![0] bcast_S6_S6x1_0 lit (ix2 q (0 : Fin 1))).toInt.toNat 49
    = min (lit (ix1 q)).toInt.toNat 49
  rw [column_apply]

/-- The pooled mean: the double sum over frames and joints times 1 / 384. -/
theorem avg6_apply (g : FVec Ideal S64x256x64x6 .f32) (n : Fin 64) (c : Fin 256) :
    RefTerm.avg6 (F := Ideal) g (ix2 n c)
      = (∑ t : Fin 64, ∑ q : Fin 6, g (ix4 n c t q)) * (((1 / 384 : ℝ)) : EReal) := by
  unfold RefTerm.avg6
  rw [mean_apply _ _ 384 (by norm_num) ofBits_384, reduceAdd_apply]

/-- The pooled maximum: the supremum over frames of the supremum over joints. -/
theorem max6_apply (g : FVec Ideal S64x256x64x6 .f32) (n : Fin 64) (c : Fin 256) :
    RefTerm.max6 (F := Ideal) g (ix2 n c)
      = Finset.univ.sup fun t : Fin 64 => Finset.univ.sup fun q : Fin 6 => g (ix4 n c t q) := by
  unfold RefTerm.max6
  exact reduceMax_apply _ g _ ofBits_neg_inf _ n c

/-- A part of 6 joints at (n, c, t, q): the input at joint `J q` times the specification's gate of part `p`. -/
theorem part6_apply (x : FVec Ideal S64x256x64x50 .f32) (lit : IVec S6 32) (J : Fin 6 → Fin 50)
    (hJ : ∀ q : Fin 6, min (lit (ix1 q)).toInt.toNat 49 = (J q).val)
    (p : ℕ) (hp : p < 10) (W1 : FVec Ideal S10x16x256 .f32) (b1 : FVec Ideal S10x16 .f32)
    (W2 : FVec Ideal S10x256x16 .f32) (b2 : FVec Ideal S10x256 .f32)
    (hs1 : S10x16x256.Slices ![p, 0, 0] S1x16x256) (hs2 : S10x16.Slices ![p, 0] S1x16)
    (hs3 : S10x256x16.Slices ![p, 0, 0] S1x256x16) (hs4 : S10x256.Slices ![p, 0] S1x256)
    (havg : ∀ (n : Fin 64) (c : Fin 256), Cert.Spec.poolAvg x (⟨p, hp⟩ : Fin 10) n c
      = (∑ q : Fin 6, ∑ t : Fin 64, x (ix4 n c t (J q))) * (((1 / 384 : ℝ)) : EReal))
    (hmax : ∀ (n : Fin 64) (c : Fin 256), Cert.Spec.poolMax x (⟨p, hp⟩ : Fin 10) n c
      = Finset.univ.sup fun q : Fin 6 => Finset.univ.sup fun t : Fin 64 => x (ix4 n c t (J q)))
    (n : Fin 64) (c : Fin 256) (t : Fin 64) (q : Fin 6) :
    RefTerm.part6 (F := Ideal) x lit (extractStridedSlice S1x16x256 ![p, 0, 0] W1 hs1)
        (extractStridedSlice S1x16 ![p, 0] b1 hs2) (extractStridedSlice S1x256x16 ![p, 0, 0] W2 hs3)
        (extractStridedSlice S1x256 ![p, 0] b2 hs4) (ix4 n c t q)
      = x (ix4 n c t (J q)) * Cert.Spec.gate x W1 b1 W2 b2 (⟨p, hp⟩ : Fin 10) n c := by
  have hg : ∀ (n : Fin 64) (c : Fin 256) (t : Fin 64) (q : Fin 6),
      RefTerm.gath6 (F := Ideal) x (RefTerm.idxCol6 lit) (ix4 n c t q) = x (ix4 n c t (J q)) := by
    intro n c t q
    rw [gath6_apply]
    exact congrArg (fun j => x (ix4 n c t j)) (Fin.ext (hJ q))
  have hA : (fun c' : Fin 256 => RefTerm.avg6 (F := Ideal) (RefTerm.gath6 (F := Ideal) x (RefTerm.idxCol6 lit)) (ix2 n c'))
      = Cert.Spec.poolAvg x (⟨p, hp⟩ : Fin 10) n := by
    funext c'
    rw [avg6_apply, havg, Finset.sum_comm]
    refine congrArg (· * (((1 / 384 : ℝ)) : EReal)) ?_
    exact Finset.sum_congr rfl fun q _ => Finset.sum_congr rfl fun t _ => hg n c' t q
  have hM : (fun c' : Fin 256 => RefTerm.max6 (F := Ideal) (RefTerm.gath6 (F := Ideal) x (RefTerm.idxCol6 lit)) (ix2 n c'))
      = Cert.Spec.poolMax x (⟨p, hp⟩ : Fin 10) n := by
    funext c'
    rw [max6_apply, hmax, Finset.sup_comm]
    refine congrArg (Finset.univ.sup) (funext fun q => congrArg (Finset.univ.sup) (funext fun t => hg n c' t q))
  unfold RefTerm.part6 RefTerm.partOf6 RefTerm.gateBB6 Cert.Spec.gate
  rw [mulf_apply, gate_bcast_apply 6, gateOf_apply, hg, mlp_apply p hp, mlp_apply p hp, hA, hM]

end Cert.ReferenceIdeal.RefValue
-- ==== Proof.RefValue.Part4.lean ====
/-
  A part of 4 joints, read at an index.

  The gathered array at (n, c, t, q) is the input at (n, c, t, j), `j` the table's q-th word read signed and
  clamped into 0 … 49. Its mean over frames and joints is the double sum times 1 / 256, its maximum the supremum
  of suprema. The part is the gathered array times the gate of (n, c): the logistic function of the two pooled
  vectors' images under the part's two-layer map. Given that the table's clamped words are the joints `J q` and that
  the specification's pooled mean and maximum of part `p` are the sums and suprema over those joints, the part at
  (n, c, t, q) is the input at joint `J q` times the specification's gate of part `p`.
-/
import proofs.«140205_j1228360647386_2_alg».proof.ReferenceIdeal
import Idealize.ShloMosaic.Lib.IdealHost
import Idealize.ShloMosaic.Lib.ValueLayout
import Idealize.ShloMosaic.Lib.Pipeline.Value
import proofs.«140205_j1228360647386_2_alg».proof.Proof.RefTerm
import proofs.«140205_j1228360647386_2_alg».proof.Proof.Spec
import proofs.«140205_j1228360647386_2_alg».proof.Proof.RefValue.Consts
import proofs.«140205_j1228360647386_2_alg».proof.Proof.RefValue.Gate
import proofs.«140205_j1228360647386_2_alg».proof.Proof.RefValue.Gather
import proofs.«140205_j1228360647386_2_alg».proof.Proof.RefValue.Reduce
import proofs.«140205_j1228360647386_2_alg».proof.Proof.RefValue.Mlp

open Idealize.ShloMosaic Idealize.ShloMosaic.ValueIdx
open scoped BigOperators

namespace Cert.ReferenceIdeal.RefValue

open Cert.ReferenceIdeal Cert.ReferenceIdeal.Facts₀ Cert.ReferenceIdeal.Facts

variable [Cert.ReferenceIdeal.Facts]

/-- The gathered array: the input at the table's word, read signed and clamped. -/
theorem gath4_apply (x : FVec Ideal S64x256x64x50 .f32) (lit : IVec S4 32) (n : Fin 64) (c : Fin 256) (t : Fin 64)
    (q : Fin 4) :
    RefTerm.gath4 (F := Ideal) x (RefTerm.idxCol4 lit) (ix4 n c t q)
      = x (ix4 n c t (⟨min (lit (ix1 q)).toInt.toNat 49, by omega⟩ : Fin 50)) := by
  unfold RefTerm.gath4 RefTerm.idxCol4 RefTerm.idxColM4
  rw [select_false]
  have h := gather_joint_apply (k := 4) gather_S64x256x64x50_S4x1_S64x256x64x4_012_3_n_n_3_1_64256641_wf x
    (broadcastInDim S4x1 ![0] bcast_S4_S4x1_0 lit) n c t q
  refine h.trans (congrArg (fun j => x (ix4 n c t j)) (Fin.ext ?_))
  show min (broadcastInDim S4x1 ![0] bcast_S4_S4x1_0 lit (ix2 q (0 : Fin 1))).toInt.toNat 49
    = min (lit (ix1 q)).toInt.toNat 49
  rw [column_apply]

/-- The pooled mean: the double sum over frames and joints times 1 / 256. -/
theorem avg4_apply (g : FVec Ideal S64x256x64x4 .f32) (n : Fin 64) (c : Fin 256) :
    RefTerm.avg4 (F := Ideal) g (ix2 n c)
      = (∑ t : Fin 64, ∑ q : Fin 4, g (ix4 n c t q)) * (((1 / 256 : ℝ)) : EReal) := by
  unfold RefTerm.avg4
  rw [mean_apply _ _ 256 (by norm_num) ofBits_256, reduceAdd_apply]

/-- The pooled maximum: the supremum over frames of the supremum over joints. -/
theorem max4_apply (g : FVec Ideal S64x256x64x4 .f32) (n : Fin 64) (c : Fin 256) :
    RefTerm.max4 (F := Ideal) g (ix2 n c)
      = Finset.univ.sup fun t : Fin 64 => Finset.univ.sup fun q : Fin 4 => g (ix4 n c t q) := by
  unfold RefTerm.max4
  exact reduceMax_apply _ g _ ofBits_neg_inf _ n c

/-- A part of 4 joints at (n, c, t, q): the input at joint `J q` times the specification's gate of part `p`. -/
theorem part4_apply (x : FVec Ideal S64x256x64x50 .f32) (lit : IVec S4 32) (J : Fin 4 → Fin 50)
    (hJ : ∀ q : Fin 4, min (lit (ix1 q)).toInt.toNat 49 = (J q).val)
    (p : ℕ) (hp : p < 10) (W1 : FVec Ideal S10x16x256 .f32) (b1 : FVec Ideal S10x16 .f32)
    (W2 : FVec Ideal S10x256x16 .f32) (b2 : FVec Ideal S10x256 .f32)
    (hs1 : S10x16x256.Slices ![p, 0, 0] S1x16x256) (hs2 : S10x16.Slices ![p, 0] S1x16)
    (hs3 : S10x256x16.Slices ![p, 0, 0] S1x256x16) (hs4 : S10x256.Slices ![p, 0] S1x256)
    (havg : ∀ (n : Fin 64) (c : Fin 256), Cert.Spec.poolAvg x (⟨p, hp⟩ : Fin 10) n c
      = (∑ q : Fin 4, ∑ t : Fin 64, x (ix4 n c t (J q))) * (((1 / 256 : ℝ)) : EReal))
    (hmax : ∀ (n : Fin 64) (c : Fin 256), Cert.Spec.poolMax x (⟨p, hp⟩ : Fin 10) n c
      = Finset.univ.sup fun q : Fin 4 => Finset.univ.sup fun t : Fin 64 => x (ix4 n c t (J q)))
    (n : Fin 64) (c : Fin 256) (t : Fin 64) (q : Fin 4) :
    RefTerm.part4 (F := Ideal) x lit (extractStridedSlice S1x16x256 ![p, 0, 0] W1 hs1)
        (extractStridedSlice S1x16 ![p, 0] b1 hs2) (extractStridedSlice S1x256x16 ![p, 0, 0] W2 hs3)
        (extractStridedSlice S1x256 ![p, 0] b2 hs4) (ix4 n c t q)
      = x (ix4 n c t (J q)) * Cert.Spec.gate x W1 b1 W2 b2 (⟨p, hp⟩ : Fin 10) n c := by
  have hg : ∀ (n : Fin 64) (c : Fin 256) (t : Fin 64) (q : Fin 4),
      RefTerm.gath4 (F := Ideal) x (RefTerm.idxCol4 lit) (ix4 n c t q) = x (ix4 n c t (J q)) := by
    intro n c t q
    rw [gath4_apply]
    exact congrArg (fun j => x (ix4 n c t j)) (Fin.ext (hJ q))
  have hA : (fun c' : Fin 256 => RefTerm.avg4 (F := Ideal) (RefTerm.gath4 (F := Ideal) x (RefTerm.idxCol4 lit)) (ix2 n c'))
      = Cert.Spec.poolAvg x (⟨p, hp⟩ : Fin 10) n := by
    funext c'
    rw [avg4_apply, havg, Finset.sum_comm]
    refine congrArg (· * (((1 / 256 : ℝ)) : EReal)) ?_
    exact Finset.sum_congr rfl fun q _ => Finset.sum_congr rfl fun t _ => hg n c' t q
  have hM : (fun c' : Fin 256 => RefTerm.max4 (F := Ideal) (RefTerm.gath4 (F := Ideal) x (RefTerm.idxCol4 lit)) (ix2 n c'))
      = Cert.Spec.poolMax x (⟨p, hp⟩ : Fin 10) n := by
    funext c'
    rw [max4_apply, hmax, Finset.sup_comm]
    refine congrArg (Finset.univ.sup) (funext fun q => congrArg (Finset.univ.sup) (funext fun t => hg n c' t q))
  unfold RefTerm.part4 RefTerm.partOf4 RefTerm.gateBB4 Cert.Spec.gate
  rw [mulf_apply, gate_bcast_apply 4, gateOf_apply, hg, mlp_apply p hp, mlp_apply p hp, hA, hM]

end Cert.ReferenceIdeal.RefValue
-- ==== Proof.RefValue.Columns.lean ====
/-
  The reference's result, one part's columns at a time.

  Column `off + q` of the concatenation is part p's array at column q; that is the input at joint `Jp q` times the
  specification's gate of part p; and the specification shows, in column `off + q`, joint `Jp q` of part p. The
  specification's pooled mean and maximum of part p are the sums and suprema over the table `Jp`, and its count is
  64 times the table's length.
-/
import proofs.«140205_j1228360647386_2_alg».proof.ReferenceIdeal
import Idealize.ShloMosaic.Lib.IdealHost
import Idealize.ShloMosaic.Lib.ValueLayout
import Idealize.ShloMosaic.Lib.Pipeline.Value
import proofs.«140205_j1228360647386_2_alg».proof.Proof.RefTerm
import proofs.«140205_j1228360647386_2_alg».proof.Proof.SpecAlg
import proofs.«140205_j1228360647386_2_alg».proof.Proof.RefValue.Concat
import proofs.«140205_j1228360647386_2_alg».proof.Proof.RefValue.Tables
import proofs.«140205_j1228360647386_2_alg».proof.Proof.RefValue.Part5
import proofs.«140205_j1228360647386_2_alg».proof.Proof.RefValue.Part6
import proofs.«140205_j1228360647386_2_alg».proof.Proof.RefValue.Part4

open Idealize.ShloMosaic Idealize.ShloMosaic.ValueIdx
open scoped BigOperators

namespace Cert.ReferenceIdeal.RefValue

open Cert.ReferenceIdeal Cert.ReferenceIdeal.Facts₀ Cert.ReferenceIdeal.Facts

variable [Cert.ReferenceIdeal.Facts] (x : FVec Ideal S64x256x64x50 .f32) (W1 : FVec Ideal S10x16x256 .f32)
  (b1 : FVec Ideal S10x16 .f32) (W2 : FVec Ideal S10x256x16 .f32) (b2 : FVec Ideal S10x256 .f32)

/-- Part 0: columns 0 … 4. -/
theorem col0 (n : Fin 64) (c : Fin 256) (t : Fin 64) (q : Fin 5) :
    RefTerm.refOut (F := Ideal) x W1 b1 W2 b2 (ix4 n c t (⟨0 + q.val, by have := q.isLt; omega⟩ : Fin 50))
      = Cert.Spec.G x W1 b1 W2 b2 (ix4 n c t (⟨0 + q.val, by have := q.isLt; omega⟩ : Fin 50)) := by
  have havg : ∀ (n : Fin 64) (c : Fin 256), Cert.Spec.poolAvg x (⟨0, by decide⟩ : Fin 10) n c
      = (∑ q : Fin 5, ∑ t : Fin 64, x (ix4 n c t (Cert.Spec.J0 q))) * (((1 / 320 : ℝ)) : EReal) := by
    intro n c
    show Cert.Spec.poolAvg x (0 : Fin 10) n c = _
    unfold Cert.Spec.poolAvg
    rw [Cert.Spec.poolSum_eq x _ Cert.Spec.J0 Cert.Spec.joints_0, Cert.Spec.cnt_0]
  have hmax : ∀ (n : Fin 64) (c : Fin 256), Cert.Spec.poolMax x (⟨0, by decide⟩ : Fin 10) n c
      = Finset.univ.sup fun q : Fin 5 => Finset.univ.sup fun t : Fin 64 => x (ix4 n c t (Cert.Spec.J0 q)) :=
    fun n c => Cert.Spec.poolMax_eq x (0 : Fin 10) Cert.Spec.J0 Cert.Spec.joints_0 n c
  unfold RefTerm.refOut RefTerm.catFn
  rw [concat_piece0]
  unfold RefTerm.w1s0 RefTerm.b1s0 RefTerm.w2s0 RefTerm.b2s0
  rw [part5_apply x RefTerm.tab0 Cert.Spec.J0 tab0_J 0 (by decide) W1 b1 W2 b2 _ _ _ _ havg hmax]
  show _ = x (ix4 n c t (Cert.Spec.joint (⟨0 + q.val, by have := q.isLt; omega⟩ : Fin 50)))
    * Cert.Spec.gate x W1 b1 W2 b2 (Cert.Spec.part (⟨0 + q.val, by have := q.isLt; omega⟩ : Fin 50)) n c
  rw [Cert.Spec.joint_0, Cert.Spec.part_0]
  rfl

/-- Part 1: columns 5 … 10. -/
theorem col1 (n : Fin 64) (c : Fin 256) (t : Fin 64) (q : Fin 6) :
    RefTerm.refOut (F := Ideal) x W1 b1 W2 b2 (ix4 n c t (⟨5 + q.val, by have := q.isLt; omega⟩ : Fin 50))
      = Cert.Spec.G x W1 b1 W2 b2 (ix4 n c t (⟨5 + q.val, by have := q.isLt; omega⟩ : Fin 50)) := by
  have havg : ∀ (n : Fin 64) (c : Fin 256), Cert.Spec.poolAvg x (⟨1, by decide⟩ : Fin 10) n c
      = (∑ q : Fin 6, ∑ t : Fin 64, x (ix4 n c t (Cert.Spec.J1 q))) * (((1 / 384 : ℝ)) : EReal) := by
    intro n c
    show Cert.Spec.poolAvg x (1 : Fin 10) n c = _
    unfold Cert.Spec.poolAvg
    rw [Cert.Spec.poolSum_eq x _ Cert.Spec.J1 Cert.Spec.joints_1, Cert.Spec.cnt_1]
  have hmax : ∀ (n : Fin 64) (c : Fin 256), Cert.Spec.poolMax x (⟨1, by decide⟩ : Fin 10) n c
      = Finset.univ.sup fun q : Fin 6 => Finset.univ.sup fun t : Fin 64 => x (ix4 n c t (Cert.Spec.J1 q)) :=
    fun n c => Cert.Spec.poolMax_eq x (1 : Fin 10) Cert.Spec.J1 Cert.Spec.joints_1 n c
  unfold RefTerm.refOut RefTerm.catFn
  rw [concat_piece1]
  unfold RefTerm.w1s1 RefTerm.b1s1 RefTerm.w2s1 RefTerm.b2s1
  rw [part6_apply x RefTerm.tab1 Cert.Spec.J1 tab1_J 1 (by decide) W1 b1 W2 b2 _ _ _ _ havg hmax]
  show _ = x (ix4 n c t (Cert.Spec.joint (⟨5 + q.val, by have := q.isLt; omega⟩ : Fin 50)))
    * Cert.Spec.gate x W1 b1 W2 b2 (Cert.Spec.part (⟨5 + q.val, by have := q.isLt; omega⟩ : Fin 50)) n c
  rw [Cert.Spec.joint_1, Cert.Spec.part_1]
  rfl

/-- Part 2: columns 11 … 14. -/
theorem col2 (n : Fin 64) (c : Fin 256) (t : Fin 64) (q : Fin 4) :
    RefTerm.refOut (F := Ideal) x W1 b1 W2 b2 (ix4 n c t (⟨11 + q.val, by have := q.isLt; omega⟩ : Fin 50))
      = Cert.Spec.G x W1 b1 W2 b2 (ix4 n c t (⟨11 + q.val, by have := q.isLt; omega⟩ : Fin 50)) := by
  have havg : ∀ (n : Fin 64) (c : Fin 256), Cert.Spec.poolAvg x (⟨2, by decide⟩ : Fin 10) n c
      = (∑ q : Fin 4, ∑ t : Fin 64, x (ix4 n c t (Cert.Spec.J2 q))) * (((1 / 256 : ℝ)) : EReal) := by
    intro n c
    show Cert.Spec.poolAvg x (2 : Fin 10) n c = _
    unfold Cert.Spec.poolAvg
    rw [Cert.Spec.poolSum_eq x _ Cert.Spec.J2 Cert.Spec.joints_2, Cert.Spec.cnt_2]
  have hmax : ∀ (n : Fin 64) (c : Fin 256), Cert.Spec.poolMax x (⟨2, by decide⟩ : Fin 10) n c
      = Finset.univ.sup fun q : Fin 4 => Finset.univ.sup fun t : Fin 64 => x (ix4 n c t (Cert.Spec.J2 q)) :=
    fun n c => Cert.Spec.poolMax_eq x (2 : Fin 10) Cert.Spec.J2 Cert.Spec.joints_2 n c
  unfold RefTerm.refOut RefTerm.catFn
  rw [concat_piece2]
  unfold RefTerm.w1s2 RefTerm.b1s2 RefTerm.w2s2 RefTerm.b2s2
  rw [part4_apply x RefTerm.tab2 Cert.Spec.J2 tab2_J 2 (by decide) W1 b1 W2 b2 _ _ _ _ havg hmax]
  show _ = x (ix4 n c t (Cert.Spec.joint (⟨11 + q.val, by have := q.isLt; omega⟩ : Fin 50)))
    * Cert.Spec.gate x W1 b1 W2 b2 (Cert.Spec.part (⟨11 + q.val, by have := q.isLt; omega⟩ : Fin 50)) n c
  rw [Cert.Spec.joint_2, Cert.Spec.part_2]
  rfl

/-- Part 3: columns 15 … 20. -/
theorem col3 (n : Fin 64) (c : Fin 256) (t : Fin 64) (q : Fin 6) :
    RefTerm.refOut (F := Ideal) x W1 b1 W2 b2 (ix4 n c t (⟨15 + q.val, by have := q.isLt; omega⟩ : Fin 50))
      = Cert.Spec.G x W1 b1 W2 b2 (ix4 n c t (⟨15 + q.val, by have := q.isLt; omega⟩ : Fin 50)) := by
  have havg : ∀ (n : Fin 64) (c : Fin 256), Cert.Spec.poolAvg x (⟨3, by decide⟩ : Fin 10) n c
      = (∑ q : Fin 6, ∑ t : Fin 64, x (ix4 n c t (Cert.Spec.J3 q))) * (((1 / 384 : ℝ)) : EReal) := by
    intro n c
    show Cert.Spec.poolAvg x (3 : Fin 10) n c = _
    unfold Cert.Spec.poolAvg
    rw [Cert.Spec.poolSum_eq x _ Cert.Spec.J3 Cert.Spec.joints_3, Cert.Spec.cnt_3]
  have hmax : ∀ (n : Fin 64) (c : Fin 256), Cert.Spec.poolMax x (⟨3, by decide⟩ : Fin 10) n c
      = Finset.univ.sup fun q : Fin 6 => Finset.univ.sup fun t : Fin 64 => x (ix4 n c t (Cert.Spec.J3 q)) :=
    fun n c => Cert.Spec.poolMax_eq x (3 : Fin 10) Cert.Spec.J3 Cert.Spec.joints_3 n c
  unfold RefTerm.refOut RefTerm.catFn
  rw [concat_piece3]
  unfold RefTerm.w1s3 RefTerm.b1s3 RefTerm.w2s3 RefTerm.b2s3
  rw [part6_apply x RefTerm.tab3 Cert.Spec.J3 tab3_J 3 (by decide) W1 b1 W2 b2 _ _ _ _ havg hmax]
  show _ = x (ix4 n c t (Cert.Spec.joint (⟨15 + q.val, by have := q.isLt; omega⟩ : Fin 50)))
    * Cert.Spec.gate x W1 b1 W2 b2 (Cert.Spec.part (⟨15 + q.val, by have := q.isLt; omega⟩ : Fin 50)) n c
  rw [Cert.Spec.joint_3, Cert.Spec.part_3]
  rfl

/-- Part 4: columns 21 … 24. -/
theorem col4 (n : Fin 64) (c : Fin 256) (t : Fin 64) (q : Fin 4) :
    RefTerm.refOut (F := Ideal) x W1 b1 W2 b2 (ix4 n c t (⟨21 + q.val, by have := q.isLt; omega⟩ : Fin 50))
      = Cert.Spec.G x W1 b1 W2 b2 (ix4 n c t (⟨21 + q.val, by have := q.isLt; omega⟩ : Fin 50)) := by
  have havg : ∀ (n : Fin 64) (c : Fin 256), Cert.Spec.poolAvg x (⟨4, by decide⟩ : Fin 10) n c
      = (∑ q : Fin 4, ∑ t : Fin 64, x (ix4 n c t (Cert.Spec.J4 q))) * (((1 / 256 : ℝ)) : EReal) := by
    intro n c
    show Cert.Spec.poolAvg x (4 : Fin 10) n c = _
    unfold Cert.Spec.poolAvg
    rw [Cert.Spec.poolSum_eq x _ Cert.Spec.J4 Cert.Spec.joints_4, Cert.Spec.cnt_4]
  have hmax : ∀ (n : Fin 64) (c : Fin 256), Cert.Spec.poolMax x (⟨4, by decide⟩ : Fin 10) n c
      = Finset.univ.sup fun q : Fin 4 => Finset.univ.sup fun t : Fin 64 => x (ix4 n c t (Cert.Spec.J4 q)) :=
    fun n c => Cert.Spec.poolMax_eq x (4 : Fin 10) Cert.Spec.J4 Cert.Spec.joints_4 n c
  unfold RefTerm.refOut RefTerm.catFn
  rw [concat_piece4]
  unfold RefTerm.w1s4 RefTerm.b1s4 RefTerm.w2s4 RefTerm.b2s4
  rw [part4_apply x RefTerm.tab4 Cert.Spec.J4 tab4_J 4 (by decide) W1 b1 W2 b2 _ _ _ _ havg hmax]
  show _ = x (ix4 n c t (Cert.Spec.joint (⟨21 + q.val, by have := q.isLt; omega⟩ : Fin 50)))
    * Cert.Spec.gate x W1 b1 W2 b2 (Cert.Spec.part (⟨21 + q.val, by have := q.isLt; omega⟩ : Fin 50)) n c
  rw [Cert.Spec.joint_4, Cert.Spec.part_4]
  rfl

/-- Part 5: columns 25 … 29. -/
theorem col5 (n : Fin 64) (c : Fin 256) (t : Fin 64) (q : Fin 5) :
    RefTerm.refOut (F := Ideal) x W1 b1 W2 b2 (ix4 n c t (⟨25 + q.val, by have := q.isLt; omega⟩ : Fin 50))
      = Cert.Spec.G x W1 b1 W2 b2 (ix4 n c t (⟨25 + q.val, by have := q.isLt; omega⟩ : Fin 50)) := by
  have havg : ∀ (n : Fin 64) (c : Fin 256), Cert.Spec.poolAvg x (⟨5, by decide⟩ : Fin 10) n c
      = (∑ q : Fin 5, ∑ t : Fin 64, x (ix4 n c t (Cert.Spec.J5 q))) * (((1 / 320 : ℝ)) : EReal) := by
    intro n c
    show Cert.Spec.poolAvg x (5 : Fin 10) n c = _
    unfold Cert.Spec.poolAvg
    rw [Cert.Spec.poolSum_eq x _ Cert.Spec.J5 Cert.Spec.joints_5, Cert.Spec.cnt_5]
  have hmax : ∀ (n : Fin 64) (c : Fin 256), Cert.Spec.poolMax x (⟨5, by decide⟩ : Fin 10) n c
      = Finset.univ.sup fun q : Fin 5 => Finset.univ.sup fun t : Fin 64 => x (ix4 n c t (Cert.Spec.J5 q)) :=
    fun n c => Cert.Spec.poolMax_eq x (5 : Fin 10) Cert.Spec.J5 Cert.Spec.joints_5 n c
  unfold RefTerm.refOut RefTerm.catFn
  rw [concat_piece5]
  unfold RefTerm.w1s5 RefTerm.b1s5 RefTerm.w2s5 RefTerm.b2s5
  rw [part5_apply x RefTerm.tab5 Cert.Spec.J5 tab5_J 5 (by decide) W1 b1 W2 b2 _ _ _ _ havg hmax]
  show _ = x (ix4 n c t (Cert.Spec.joint (⟨25 + q.val, by have := q.isLt; omega⟩ : Fin 50)))
    * Cert.Spec.gate x W1 b1 W2 b2 (Cert.Spec.part (⟨25 + q.val, by have := q.isLt; omega⟩ : Fin 50)) n c
  rw [Cert.Spec.joint_5, Cert.Spec.part_5]
  rfl

/-- Part 6: columns 30 … 35. -/
theorem col6 (n : Fin 64) (c : Fin 256) (t : Fin 64) (q : Fin 6) :
    RefTerm.refOut (F := Ideal) x W1 b1 W2 b2 (ix4 n c t (⟨30 + q.val, by have := q.isLt; omega⟩ : Fin 50))
      = Cert.Spec.G x W1 b1 W2 b2 (ix4 n c t (⟨30 + q.val, by have := q.isLt; omega⟩ : Fin 50)) := by
  have havg : ∀ (n : Fin 64) (c : Fin 256), Cert.Spec.poolAvg x (⟨6, by decide⟩ : Fin 10) n c
      = (∑ q : Fin 6, ∑ t : Fin 64, x (ix4 n c t (Cert.Spec.J6 q))) * (((1 / 384 : ℝ)) : EReal) := by
    intro n c
    show Cert.Spec.poolAvg x (6 : Fin 10) n c = _
    unfold Cert.Spec.poolAvg
    rw [Cert.Spec.poolSum_eq x _ Cert.Spec.J6 Cert.Spec.joints_6, Cert.Spec.cnt_6]
  have hmax : ∀ (n : Fin 64) (c : Fin 256), Cert.Spec.poolMax x (⟨6, by decide⟩ : Fin 10) n c
      = Finset.univ.sup fun q : Fin 6 => Finset.univ.sup fun t : Fin 64 => x (ix4 n c t (Cert.Spec.J6 q)) :=
    fun n c => Cert.Spec.poolMax_eq x (6 : Fin 10) Cert.Spec.J6 Cert.Spec.joints_6 n c
  unfold RefTerm.refOut RefTerm.catFn
  rw [concat_piece6]
  unfold RefTerm.w1s6 RefTerm.b1s6 RefTerm.w2s6 RefTerm.b2s6
  rw [part6_apply x RefTerm.tab6 Cert.Spec.J6 tab6_J 6 (by decide) W1 b1 W2 b2 _ _ _ _ havg hmax]
  show _ = x (ix4 n c t (Cert.Spec.joint (⟨30 + q.val, by have := q.isLt; omega⟩ : Fin 50)))
    * Cert.Spec.gate x W1 b1 W2 b2 (Cert.Spec.part (⟨30 + q.val, by have := q.isLt; omega⟩ : Fin 50)) n c
  rw [Cert.Spec.joint_6, Cert.Spec.part_6]
  rfl

/-- Part 7: columns 36 … 39. -/
theorem col7 (n : Fin 64) (c : Fin 256) (t : Fin 64) (q : Fin 4) :
    RefTerm.refOut (F := Ideal) x W1 b1 W2 b2 (ix4 n c t (⟨36 + q.val, by have := q.isLt; omega⟩ : Fin 50))
      = Cert.Spec.G x W1 b1 W2 b2 (ix4 n c t (⟨36 + q.val, by have := q.isLt; omega⟩ : Fin 50)) := by
  have havg : ∀ (n : Fin 64) (c : Fin 256), Cert.Spec.poolAvg x (⟨7, by decide⟩ : Fin 10) n c
      = (∑ q : Fin 4, ∑ t : Fin 64, x (ix4 n c t (Cert.Spec.J7 q))) * (((1 / 256 : ℝ)) : EReal) := by
    intro n c
    show Cert.Spec.poolAvg x (7 : Fin 10) n c = _
    unfold Cert.Spec.poolAvg
    rw [Cert.Spec.poolSum_eq x _ Cert.Spec.J7 Cert.Spec.joints_7, Cert.Spec.cnt_7]
  have hmax : ∀ (n : Fin 64) (c : Fin 256), Cert.Spec.poolMax x (⟨7, by decide⟩ : Fin 10) n c
      = Finset.univ.sup fun q : Fin 4 => Finset.univ.sup fun t : Fin 64 => x (ix4 n c t (Cert.Spec.J7 q)) :=
    fun n c => Cert.Spec.poolMax_eq x (7 : Fin 10) Cert.Spec.J7 Cert.Spec.joints_7 n c
  unfold RefTerm.refOut RefTerm.catFn
  rw [concat_piece7]
  unfold RefTerm.w1s7 RefTerm.b1s7 RefTerm.w2s7 RefTerm.b2s7
  rw [part4_apply x RefTerm.tab7 Cert.Spec.J7 tab7_J 7 (by decide) W1 b1 W2 b2 _ _ _ _ havg hmax]
  show _ = x (ix4 n c t (Cert.Spec.joint (⟨36 + q.val, by have := q.isLt; omega⟩ : Fin 50)))
    * Cert.Spec.gate x W1 b1 W2 b2 (Cert.Spec.part (⟨36 + q.val, by have := q.isLt; omega⟩ : Fin 50)) n c
  rw [Cert.Spec.joint_7, Cert.Spec.part_7]
  rfl

/-- Part 8: columns 40 … 45. -/
theorem col8 (n : Fin 64) (c : Fin 256) (t : Fin 64) (q : Fin 6) :
    RefTerm.refOut (F := Ideal) x W1 b1 W2 b2 (ix4 n c t (⟨40 + q.val, by have := q.isLt; omega⟩ : Fin 50))
      = Cert.Spec.G x W1 b1 W2 b2 (ix4 n c t (⟨40 + q.val, by have := q.isLt; omega⟩ : Fin 50)) := by
  have havg : ∀ (n : Fin 64) (c : Fin 256), Cert.Spec.poolAvg x (⟨8, by decide⟩ : Fin 10) n c
      = (∑ q : Fin 6, ∑ t : Fin 64, x (ix4 n c t (Cert.Spec.J8 q))) * (((1 / 384 : ℝ)) : EReal) := by
    intro n c
    show Cert.Spec.poolAvg x (8 : Fin 10) n c = _
    unfold Cert.Spec.poolAvg
    rw [Cert.Spec.poolSum_eq x _ Cert.Spec.J8 Cert.Spec.joints_8, Cert.Spec.cnt_8]
  have hmax : ∀ (n : Fin 64) (c : Fin 256), Cert.Spec.poolMax x (⟨8, by decide⟩ : Fin 10) n c
      = Finset.univ.sup fun q : Fin 6 => Finset.univ.sup fun t : Fin 64 => x (ix4 n c t (Cert.Spec.J8 q)) :=
    fun n c => Cert.Spec.poolMax_eq x (8 : Fin 10) Cert.Spec.J8 Cert.Spec.joints_8 n c
  unfold RefTerm.refOut RefTerm.catFn
  rw [concat_piece8]
  unfold RefTerm.w1s8 RefTerm.b1s8 RefTerm.w2s8 RefTerm.b2s8
  rw [part6_apply x RefTerm.tab8 Cert.Spec.J8 tab8_J 8 (by decide) W1 b1 W2 b2 _ _ _ _ havg hmax]
  show _ = x (ix4 n c t (Cert.Spec.joint (⟨40 + q.val, by have := q.isLt; omega⟩ : Fin 50)))
    * Cert.Spec.gate x W1 b1 W2 b2 (Cert.Spec.part (⟨40 + q.val, by have := q.isLt; omega⟩ : Fin 50)) n c
  rw [Cert.Spec.joint_8, Cert.Spec.part_8]
  rfl

/-- Part 9: columns 46 … 49. -/
theorem col9 (n : Fin 64) (c : Fin 256) (t : Fin 64) (q : Fin 4) :
    RefTerm.refOut (F := Ideal) x W1 b1 W2 b2 (ix4 n c t (⟨46 + q.val, by have := q.isLt; omega⟩ : Fin 50))
      = Cert.Spec.G x W1 b1 W2 b2 (ix4 n c t (⟨46 + q.val, by have := q.isLt; omega⟩ : Fin 50)) := by
  have havg : ∀ (n : Fin 64) (c : Fin 256), Cert.Spec.poolAvg x (⟨9, by decide⟩ : Fin 10) n c
      = (∑ q : Fin 4, ∑ t : Fin 64, x (ix4 n c t (Cert.Spec.J9 q))) * (((1 / 256 : ℝ)) : EReal) := by
    intro n c
    show Cert.Spec.poolAvg x (9 : Fin 10) n c = _
    unfold Cert.Spec.poolAvg
    rw [Cert.Spec.poolSum_eq x _ Cert.Spec.J9 Cert.Spec.joints_9, Cert.Spec.cnt_9]
  have hmax : ∀ (n : Fin 64) (c : Fin 256), Cert.Spec.poolMax x (⟨9, by decide⟩ : Fin 10) n c
      = Finset.univ.sup fun q : Fin 4 => Finset.univ.sup fun t : Fin 64 => x (ix4 n c t (Cert.Spec.J9 q)) :=
    fun n c => Cert.Spec.poolMax_eq x (9 : Fin 10) Cert.Spec.J9 Cert.Spec.joints_9 n c
  unfold RefTerm.refOut RefTerm.catFn
  rw [concat_piece9]
  unfold RefTerm.w1s9 RefTerm.b1s9 RefTerm.w2s9 RefTerm.b2s9
  rw [part4_apply x RefTerm.tab9 Cert.Spec.J9 tab9_J 9 (by decide) W1 b1 W2 b2 _ _ _ _ havg hmax]
  show _ = x (ix4 n c t (Cert.Spec.joint (⟨46 + q.val, by have := q.isLt; omega⟩ : Fin 50)))
    * Cert.Spec.gate x W1 b1 W2 b2 (Cert.Spec.part (⟨46 + q.val, by have := q.isLt; omega⟩ : Fin 50)) n c
  rw [Cert.Spec.joint_9, Cert.Spec.part_9]
  rfl

end Cert.ReferenceIdeal.RefValue
-- ==== Proof.RefValue.lean ====
/-
  The reference's value: the term its run ends with is, over the extended reals and index by index, the
  specification function `Cert.Spec.G` of the five argument arrays.

  An output column lies in exactly one of the ten parts' ranges (5, 6, 4, 6, 4, 5, 6, 4, 6, 4 columns from 0, 5, 11,
  15, 21, 25, 30, 36, 40, 46); on each range the two arrays agree by that part's column lemma.
-/
import proofs.«140205_j1228360647386_2_alg».proof.Proof.RefTerm
import proofs.«140205_j1228360647386_2_alg».proof.Proof.Spec
import proofs.«140205_j1228360647386_2_alg».proof.Proof.RefValue.Columns

open Idealize.ShloMosaic Idealize.ShloMosaic.ValueIdx

namespace Cert.ReferenceIdeal.RefValue

open Cert.ReferenceIdeal

/-- A property of the 50 columns holds of all of them when it holds on each part's range. -/
theorem col_split (P : Fin 50 → Prop)
    (h0 : ∀ q : Fin 5, P (⟨0 + q.val, by have := q.isLt; omega⟩ : Fin 50))
    (h1 : ∀ q : Fin 6, P (⟨5 + q.val, by have := q.isLt; omega⟩ : Fin 50))
    (h2 : ∀ q : Fin 4, P (⟨11 + q.val, by have := q.isLt; omega⟩ : Fin 50))
    (h3 : ∀ q : Fin 6, P (⟨15 + q.val, by have := q.isLt; omega⟩ : Fin 50))
    (h4 : ∀ q : Fin 4, P (⟨21 + q.val, by have := q.isLt; omega⟩ : Fin 50))
    (h5 : ∀ q : Fin 5, P (⟨25 + q.val, by have := q.isLt; omega⟩ : Fin 50))
    (h6 : ∀ q : Fin 6, P (⟨30 + q.val, by have := q.isLt; omega⟩ : Fin 50))
    (h7 : ∀ q : Fin 4, P (⟨36 + q.val, by have := q.isLt; omega⟩ : Fin 50))
    (h8 : ∀ q : Fin 6, P (⟨40 + q.val, by have := q.isLt; omega⟩ : Fin 50))
    (h9 : ∀ q : Fin 4, P (⟨46 + q.val, by have := q.isLt; omega⟩ : Fin 50))
    (j : Fin 50) : P j := by
  have hj := j.isLt
  by_cases c0 : j.val < 5
  · have e : j = (⟨0 + (⟨j.val - 0, by omega⟩ : Fin 5).val, by show 0 + (j.val - 0) < 50; omega⟩ : Fin 50) :=
      Fin.ext (by show j.val = 0 + (j.val - 0); omega)
    rw [e]; exact h0 _
  by_cases c1 : j.val < 11
  · have e : j = (⟨5 + (⟨j.val - 5, by omega⟩ : Fin 6).val, by show 5 + (j.val - 5) < 50; omega⟩ : Fin 50) :=
      Fin.ext (by show j.val = 5 + (j.val - 5); omega)
    rw [e]; exact h1 _
  by_cases c2 : j.val < 15
  · have e : j = (⟨11 + (⟨j.val - 11, by omega⟩ : Fin 4).val, by show 11 + (j.val - 11) < 50; omega⟩ : Fin 50) :=
      Fin.ext (by show j.val = 11 + (j.val - 11); omega)
    rw [e]; exact h2 _
  by_cases c3 : j.val < 21
  · have e : j = (⟨15 + (⟨j.val - 15, by omega⟩ : Fin 6).val, by show 15 + (j.val - 15) < 50; omega⟩ : Fin 50) :=
      Fin.ext (by show j.val = 15 + (j.val - 15); omega)
    rw [e]; exact h3 _
  by_cases c4 : j.val < 25
  · have e : j = (⟨21 + (⟨j.val - 21, by omega⟩ : Fin 4).val, by show 21 + (j.val - 21) < 50; omega⟩ : Fin 50) :=
      Fin.ext (by show j.val = 21 + (j.val - 21); omega)
    rw [e]; exact h4 _
  by_cases c5 : j.val < 30
  · have e : j = (⟨25 + (⟨j.val - 25, by omega⟩ : Fin 5).val, by show 25 + (j.val - 25) < 50; omega⟩ : Fin 50) :=
      Fin.ext (by show j.val = 25 + (j.val - 25); omega)
    rw [e]; exact h5 _
  by_cases c6 : j.val < 36
  · have e : j = (⟨30 + (⟨j.val - 30, by omega⟩ : Fin 6).val, by show 30 + (j.val - 30) < 50; omega⟩ : Fin 50) :=
      Fin.ext (by show j.val = 30 + (j.val - 30); omega)
    rw [e]; exact h6 _
  by_cases c7 : j.val < 40
  · have e : j = (⟨36 + (⟨j.val - 36, by omega⟩ : Fin 4).val, by show 36 + (j.val - 36) < 50; omega⟩ : Fin 50) :=
      Fin.ext (by show j.val = 36 + (j.val - 36); omega)
    rw [e]; exact h7 _
  by_cases c8 : j.val < 46
  · have e : j = (⟨40 + (⟨j.val - 40, by omega⟩ : Fin 6).val, by show 40 + (j.val - 40) < 50; omega⟩ : Fin 50) :=
      Fin.ext (by show j.val = 40 + (j.val - 40); omega)
    rw [e]; exact h8 _
  have e : j = (⟨46 + (⟨j.val - 46, by omega⟩ : Fin 4).val, by show 46 + (j.val - 46) < 50; omega⟩ : Fin 50) :=
    Fin.ext (by show j.val = 46 + (j.val - 46); omega)
  rw [e]; exact h9 _

/-- The reference's result array is the specification's. -/
theorem refOut_eq [Cert.ReferenceIdeal.Facts] (x : FVec Ideal S64x256x64x50 .f32) (W1 : FVec Ideal S10x16x256 .f32)
    (b1 : FVec Ideal S10x16 .f32) (W2 : FVec Ideal S10x256x16 .f32) (b2 : FVec Ideal S10x256 .f32) :
    RefTerm.refOut (F := Ideal) x W1 b1 W2 b2 = Cert.Spec.G x W1 b1 W2 b2 := by
  funext i
  obtain ⟨n, c, t, j, rfl⟩ : ∃ (n : Fin 64) (c : Fin 256) (t : Fin 64) (j : Fin 50), i = ix4 n c t j :=
    ⟨i 0, i 1, i 2, i 3, eq_ix4 i⟩
  exact col_split
    (fun j => RefTerm.refOut (F := Ideal) x W1 b1 W2 b2 (ix4 n c t j) = Cert.Spec.G x W1 b1 W2 b2 (ix4 n c t j))
    (col0 x W1 b1 W2 b2 n c t)
    (col1 x W1 b1 W2 b2 n c t)
    (col2 x W1 b1 W2 b2 n c t)
    (col3 x W1 b1 W2 b2 n c t)
    (col4 x W1 b1 W2 b2 n c t)
    (col5 x W1 b1 W2 b2 n c t)
    (col6 x W1 b1 W2 b2 n c t)
    (col7 x W1 b1 W2 b2 n c t)
    (col8 x W1 b1 W2 b2 n c t)
    (col9 x W1 b1 W2 b2 n c t)
    j

end Cert.ReferenceIdeal.RefValue
-- ==== Proof.lean ====
/-
  The certificate's claim: the kernel and its idealization keep their frames, the idealization is the sanctioned
  one, and the idealized kernel and the idealized reference compute one function.

  Both programs take an array `x` of 64 samples × 256 channels × 64 frames × 50 joints and, for each of ten body
  parts, weights of a two-layer map. For every body part they pool `x` over all frames and the part's joints (mean
  and maximum), send both pooled vectors through the part's two-layer map, take the logistic function of the sum,
  and scale the part's joint columns by that gate; the parts' columns are laid side by side. `Cert.Spec.G` states
  this once. The kernel, one sample per grid point, sums and maximises over the frames first and then over the
  joints, multiplies by the reciprocal of the pooled count, and stores one joint column at a time; the reference
  gathers a part's joints, reduces over frames and joints together, divides by the count, spells the logistic
  function as 1 / (1 + exp (−z)), and concatenates. On extended reals these are the same: finite sums and maxima
  regroup freely, dividing by a nonzero real is multiplying by its reciprocal, and the logistic function is by
  definition that quotient. No step needs the inputs to be finite.
-/
import proofs.«140205_j1228360647386_2_alg».proof.Defs
import proofs.«140205_j1228360647386_2_alg».proof.Proof.Gen.Kernel
import proofs.«140205_j1228360647386_2_alg».proof.Proof.Gen.KernelIdeal
import proofs.«140205_j1228360647386_2_alg».proof.Proof.Gen.ReferenceIdeal
import proofs.«140205_j1228360647386_2_alg».proof.Proof.Gen.Pre_finite_inputs
import proofs.«140205_j1228360647386_2_alg».proof.Proof.Spec
import proofs.«140205_j1228360647386_2_alg».proof.Proof.KerClaims
import proofs.«140205_j1228360647386_2_alg».proof.Proof.KerArray
import proofs.«140205_j1228360647386_2_alg».proof.Proof.RefRun
import proofs.«140205_j1228360647386_2_alg».proof.Proof.RefValue
import Idealize.ShloMosaic.Adequacy
import Idealize.ShloMosaic.Init

noncomputable section

namespace Cert.Proof

open Idealize.ShloMosaic Idealize.SL.Sem

/-- The reference's frame: its run, with the statement about the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Run from memories that agree on the five arguments, the idealized kernel ends with its result array at the
    specification function of its arguments, the idealized reference with its result at its own term of its
    arguments; that term is the specification function, and the arguments agree. -/
theorem algebraic : Cert.algebraic_KernelIdeal_ReferenceIdeal := by
  intro m ρ m' ρ' _ hagree
  refine ⟨fun c => Cert.KernelIdeal.KerArray.result m c, Cert.KernelIdeal.KerArray.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    KerClaims.frame_k, KerClaims.frame_ki, frame_ri, KerClaims.preserves, algebraic⟩

end Cert.Proof

end
